-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32 : Shape := ⟨1, ![32]⟩
abbrev S32x30000 : Shape := ⟨2, ![32, 30000]⟩
abbrev S30000x200 : Shape := ⟨2, ![30000, 200]⟩
abbrev S474x200 : Shape := ⟨2, ![474, 200]⟩
abbrev S30000x50 : Shape := ⟨2, ![30000, 50]⟩
abbrev S200x250 : Shape := ⟨2, ![200, 250]⟩
abbrev S200 : Shape := ⟨1, ![200]⟩
abbrev S200x200 : Shape := ⟨2, ![200, 200]⟩
abbrev S200x50 : Shape := ⟨2, ![200, 50]⟩
abbrev S_ : Shape := ⟨0, ![]⟩

class Facts : Prop where
  bcast_S_S30000x200 : S_.BroadcastsInDim S30000x200 (![] : Fin 0 → Fin S30000x200.rank)
  reducesTo_S30000x200_S_d0_1 : S30000x200.ReducesTo [0, 1] S_
  h_S_ : 0 < S_.numel
  bcast_S_S474x200 : S_.BroadcastsInDim S474x200 (![] : Fin 0 → Fin S474x200.rank)
  reducesTo_S474x200_S_d0_1 : S474x200.ReducesTo [0, 1] S_
  bcast_S_S30000x50 : S_.BroadcastsInDim S30000x50 (![] : Fin 0 → Fin S30000x50.rank)
  reducesTo_S30000x50_S_d0_1 : S30000x50.ReducesTo [0, 1] S_
  bcast_S_S200x250 : S_.BroadcastsInDim S200x250 (![] : Fin 0 → Fin S200x250.rank)
  reducesTo_S200x250_S_d0_1 : S200x250.ReducesTo [0, 1] S_
  bcast_S_S200 : S_.BroadcastsInDim S200 (![] : Fin 0 → Fin S200.rank)
  reducesTo_S200_S_d0 : S200.ReducesTo [0] S_
  bcast_S_S200x200 : S_.BroadcastsInDim S200x200 (![] : Fin 0 → Fin S200x200.rank)
  reducesTo_S200x200_S_d0_1 : S200x200.ReducesTo [0, 1] S_
  bcast_S_S200x50 : S_.BroadcastsInDim S200x50 (![] : Fin 0 → Fin S200x50.rank)
  reducesTo_S200x50_S_d0_1 : S200x50.ReducesTo [0, 1] S_
  bcast_S_S32x30000 : S_.BroadcastsInDim S32x30000 (![] : Fin 0 → Fin S32x30000.rank)
  reducesTo_S32x30000_S_d0_1 : S32x30000.ReducesTo [0, 1] S_

variable [Facts]

def fn_part2 {F : FTy → Type} [FloatOps F] (main_arg10 : FVec F S200 .f32) (main_arg11 : FVec F S32x30000 .f32) (main_arg12 : FVec F S32x30000 .f32) (main_v33 : IVec S_ 1) : IVec S_ 1 :=
  let main_v34 : FVec F S200 .f32 := Host.absf main_arg10
  let main_cst_12 : FVec F S_ .f32 := constant S_ .f32 0x7F800000#32
  let main_v35 : FVec F S200 .f32 := broadcastInDim S200 ![] bcast_S_S200 main_cst_12
  let main_v36 : IVec S200 1 := cmpf .olt main_v34 main_v35
  let main_c_13 : IVec S_ 1 := constantI S_ 1 1#1
  let main_v37 : IVec S_ 1 := (fun x v => Host.reduce IntOp.andi x v reducesTo_S200_S_d0 h_S_) main_v36 main_c_13
  let main_v38 : IVec S_ 1 := andi main_v33 main_v37
  let main_v39 : FVec F S32x30000 .f32 := Host.absf main_arg11
  let main_cst_14 : FVec F S_ .f32 := constant S_ .f32 0x7F800000#32
  let main_v40 : FVec F S32x30000 .f32 := broadcastInDim S32x30000 ![] bcast_S_S32x30000 main_cst_14
  let main_v41 : IVec S32x30000 1 := cmpf .olt main_v39 main_v40
  let main_c_15 : IVec S_ 1 := constantI S_ 1 1#1
  let main_v42 : IVec S_ 1 := (fun x v => Host.reduce IntOp.andi x v reducesTo_S32x30000_S_d0_1 h_S_) main_v41 main_c_15
  let main_v43 : IVec S_ 1 := andi main_v38 main_v42
  let main_v44 : FVec F S32x30000 .f32 := Host.absf main_arg12
  let main_cst_16 : FVec F S_ .f32 := constant S_ .f32 0x7F800000#32
  let main_v45 : FVec F S32x30000 .f32 := broadcastInDim S32x30000 ![] bcast_S_S32x30000 main_cst_16
  let main_v46 : IVec S32x30000 1 := cmpf .olt main_v44 main_v45
  let main_c_17 : IVec S_ 1 := constantI S_ 1 1#1
  let main_v47 : IVec S_ 1 := (fun x v => Host.reduce IntOp.andi x v reducesTo_S32x30000_S_d0_1 h_S_) main_v46 main_c_17
  let main_v48 : IVec S_ 1 := andi main_v43 main_v47
  main_v48

def fn_part1 {F : FTy → Type} [FloatOps F] (main_arg7 : FVec F S200 .f32) (main_arg8 : FVec F S200x200 .f32) (main_arg9 : FVec F S200x50 .f32) (main_arg10 : FVec F S200 .f32) (main_arg11 : FVec F S32x30000 .f32) (main_arg12 : FVec F S32x30000 .f32) (main_v13 : IVec S_ 1) (main_v16 : IVec S200x250 1) : IVec S_ 1 :=
  let main_c_5 : IVec S_ 1 := constantI S_ 1 1#1
  let main_v17 : IVec S_ 1 := (fun x v => Host.reduce IntOp.andi x v reducesTo_S200x250_S_d0_1 h_S_) main_v16 main_c_5
  let main_v18 : IVec S_ 1 := andi main_v13 main_v17
  let main_v19 : FVec F S200 .f32 := Host.absf main_arg7
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S200x200 .f32 := Host.absf main_arg8
  let main_cst_8 : FVec F S_ .f32 := constant S_ .f32 0x7F800000#32
  let main_v25 : FVec F S200x200 .f32 := broadcastInDim S200x200 ![] bcast_S_S200x200 main_cst_8
  let main_v26 : IVec S200x200 1 := cmpf .olt main_v24 main_v25
  let main_c_9 : IVec S_ 1 := constantI S_ 1 1#1
  let main_v27 : IVec S_ 1 := (fun x v => Host.reduce IntOp.andi x v reducesTo_S200x200_S_d0_1 h_S_) main_v26 main_c_9
  let main_v28 : IVec S_ 1 := andi main_v23 main_v27
  let main_v29 : FVec F S200x50 .f32 := Host.absf main_arg9
  let main_cst_10 : FVec F S_ .f32 := constant S_ .f32 0x7F800000#32
  let main_v30 : FVec F S200x50 .f32 := broadcastInDim S200x50 ![] bcast_S_S200x50 main_cst_10
  let main_v31 : IVec S200x50 1 := cmpf .olt main_v29 main_v30
  let main_c_11 : IVec S_ 1 := constantI S_ 1 1#1
  let main_v32 : IVec S_ 1 := (fun x v => Host.reduce IntOp.andi x v reducesTo_S200x50_S_d0_1 h_S_) main_v31 main_c_11
  let main_v33 : IVec S_ 1 := andi main_v28 main_v32
  fn_part2 (F := F) main_arg10 main_arg11 main_arg12 main_v33

def fn {F : FTy → Type} [FloatOps F] (main_arg0 : IVec S32 32) (main_arg1 : IVec S32 32) (main_arg2 : IVec S32x30000 32) (main_arg3 : FVec F S30000x200 .f32) (main_arg4 : FVec F S474x200 .f32) (main_arg5 : FVec F S30000x50 .f32) (main_arg6 : FVec F S200x250 .f32) (main_arg7 : FVec F S200 .f32) (main_arg8 : FVec F S200x200 .f32) (main_arg9 : FVec F S200x50 .f32) (main_arg10 : FVec F S200 .f32) (main_arg11 : FVec F S32x30000 .f32) (main_arg12 : FVec F S32x30000 .f32) : IVec S_ 1 :=
  let main_v0 : FVec F S30000x200 .f32 := Host.absf main_arg3
  let main_cst : FVec F S_ .f32 := constant S_ .f32 0x7F800000#32
  let main_v1 : FVec F S30000x200 .f32 := broadcastInDim S30000x200 ![] bcast_S_S30000x200 main_cst
  let main_v2 : IVec S30000x200 1 := cmpf .olt main_v0 main_v1
  let main_c : IVec S_ 1 := constantI S_ 1 1#1
  let main_v3 : IVec S_ 1 := (fun x v => Host.reduce IntOp.andi x v reducesTo_S30000x200_S_d0_1 h_S_) main_v2 main_c
  let main_v4 : FVec F S474x200 .f32 := Host.absf main_arg4
  let main_cst_0 : FVec F S_ .f32 := constant S_ .f32 0x7F800000#32
  let main_v5 : FVec F S474x200 .f32 := broadcastInDim S474x200 ![] bcast_S_S474x200 main_cst_0
  let main_v6 : IVec S474x200 1 := cmpf .olt main_v4 main_v5
  let main_c_1 : IVec S_ 1 := constantI S_ 1 1#1
  let main_v7 : IVec S_ 1 := (fun x v => Host.reduce IntOp.andi x v reducesTo_S474x200_S_d0_1 h_S_) main_v6 main_c_1
  let main_v8 : IVec S_ 1 := andi main_v3 main_v7
  let main_v9 : FVec F S30000x50 .f32 := Host.absf main_arg5
  let main_cst_2 : FVec F S_ .f32 := constant S_ .f32 0x7F800000#32
  let main_v10 : FVec F S30000x50 .f32 := broadcastInDim S30000x50 ![] bcast_S_S30000x50 main_cst_2
  let main_v11 : IVec S30000x50 1 := cmpf .olt main_v9 main_v10
  let main_c_3 : IVec S_ 1 := constantI S_ 1 1#1
  let main_v12 : IVec S_ 1 := (fun x v => Host.reduce IntOp.andi x v reducesTo_S30000x50_S_d0_1 h_S_) main_v11 main_c_3
  let main_v13 : IVec S_ 1 := andi main_v8 main_v12
  let main_v14 : FVec F S200x250 .f32 := Host.absf main_arg6
  let main_cst_4 : FVec F S_ .f32 := constant S_ .f32 0x7F800000#32
  let main_v15 : FVec F S200x250 .f32 := broadcastInDim S200x250 ![] bcast_S_S200x250 main_cst_4
  let main_v16 : IVec S200x250 1 := cmpf .olt main_v14 main_v15
  fn_part1 (F := F) main_arg7 main_arg8 main_arg9 main_arg10 main_arg11 main_arg12 main_v13 main_v16
-- ==== Kernel.lean ====
abbrev S32 : Shape := ⟨1, ![32]⟩
abbrev S32x30000 : Shape := ⟨2, ![32, 30000]⟩
abbrev S30000x200 : Shape := ⟨2, ![30000, 200]⟩
abbrev S474x200 : Shape := ⟨2, ![474, 200]⟩
abbrev S30000x50 : Shape := ⟨2, ![30000, 50]⟩
abbrev S200x250 : Shape := ⟨2, ![200, 250]⟩
abbrev S200 : Shape := ⟨1, ![200]⟩
abbrev S200x200 : Shape := ⟨2, ![200, 200]⟩
abbrev S200x50 : Shape := ⟨2, ![200, 50]⟩
abbrev S_ : Shape := ⟨0, ![]⟩
abbrev S32x1 : Shape := ⟨2, ![32, 1]⟩
abbrev S32x200 : Shape := ⟨2, ![32, 200]⟩
abbrev S32x50 : Shape := ⟨2, ![32, 50]⟩
abbrev S32x250 : Shape := ⟨2, ![32, 250]⟩
abbrev S250x200 : Shape := ⟨2, ![250, 200]⟩
abbrev S1x200 : Shape := ⟨2, ![1, 200]⟩
abbrev S50x200 : Shape := ⟨2, ![50, 200]⟩
abbrev S30720x200 : Shape := ⟨2, ![30720, 200]⟩
abbrev S30720x50 : Shape := ⟨2, ![30720, 50]⟩
abbrev S32x30720 : Shape := ⟨2, ![32, 30720]⟩
abbrev S2x32x200 : Shape := ⟨3, ![2, 32, 200]⟩
abbrev S2x32x1 : Shape := ⟨3, ![2, 32, 1]⟩
abbrev S1024x200 : Shape := ⟨2, ![1024, 200]⟩
abbrev S1024x50 : Shape := ⟨2, ![1024, 50]⟩
abbrev S32x1024 : Shape := ⟨2, ![32, 1024]⟩
abbrev S1x32x200 : Shape := ⟨3, ![1, 32, 200]⟩
abbrev S1x32x1 : Shape := ⟨3, ![1, 32, 1]⟩
abbrev S200x1024 : Shape := ⟨2, ![200, 1024]⟩
abbrev S8x200 : Shape := ⟨2, ![8, 200]⟩
abbrev S8x200x1 : Shape := ⟨3, ![8, 200, 1]⟩
abbrev S1x200x1024 : Shape := ⟨3, ![1, 200, 1024]⟩
abbrev S8x200x1024 : Shape := ⟨3, ![8, 200, 1024]⟩
abbrev S8x1024 : Shape := ⟨2, ![8, 1024]⟩
abbrev S1x32 : Shape := ⟨2, ![1, 32]⟩
abbrev S32x32 : Shape := ⟨2, ![32, 32]⟩

abbrev nBuf : Space → Nat
  | .hbm => 169
  | .vmem => 28
  | .smem => 0
  | _ => 0

abbrev hbmTy0_0 (i : Nat) : BufTy := match i % 128 with
  | 0 => ⟨S32, .i32⟩
  | 1 => ⟨S32, .i32⟩
  | 2 => ⟨S32x30000, .i32⟩
  | 3 => ⟨S30000x200, .f32⟩
  | 4 => ⟨S474x200, .f32⟩
  | 5 => ⟨S30000x50, .f32⟩
  | 6 => ⟨S200x250, .f32⟩
  | 7 => ⟨S200, .f32⟩
  | 8 => ⟨S200x200, .f32⟩
  | 9 => ⟨S200x50, .f32⟩
  | 10 => ⟨S200, .f32⟩
  | 11 => ⟨S32x30000, .f32⟩
  | 12 => ⟨S32x30000, .f32⟩
  | 13 => ⟨S_, .i32⟩
  | 14 => ⟨S32, .i32⟩
  | 15 => ⟨S32, .i1⟩
  | 16 => ⟨S_, .i32⟩
  | 17 => ⟨S32, .i32⟩
  | 18 => ⟨S32, .i32⟩
  | 19 => ⟨S32, .i32⟩
  | 20 => ⟨S32x1, .i32⟩
  | 21 => ⟨S32x200, .f32⟩
  | 22 => ⟨S_, .i32⟩
  | 23 => ⟨S32, .i32⟩
  | 24 => ⟨S32, .i1⟩
  | 25 => ⟨S_, .i32⟩
  | 26 => ⟨S32, .i32⟩
  | 27 => ⟨S32, .i32⟩
  | 28 => ⟨S32, .i32⟩
  | 29 => ⟨S32x1, .i32⟩
  | 30 => ⟨S32x50, .f32⟩
  | 31 => ⟨S32x250, .f32⟩
  | 32 => ⟨S250x200, .f32⟩
  | 33 => ⟨S32x200, .f32⟩
  | 34 => ⟨S1x200, .f32⟩
  | 35 => ⟨S32x200, .f32⟩
  | 36 => ⟨S32x200, .f32⟩
  | 37 => ⟨S32x200, .f32⟩
  | 38 => ⟨S200x200, .f32⟩
  | 39 => ⟨S32x200, .f32⟩
  | 40 => ⟨S50x200, .f32⟩
  | 41 => ⟨S32x200, .f32⟩
  | 42 => ⟨S32x200, .f32⟩
  | 43 => ⟨S1x200, .f32⟩
  | 44 => ⟨S32x200, .f32⟩
  | 45 => ⟨S32x200, .f32⟩
  | 46 => ⟨S32x200, .f32⟩
  | 47 => ⟨S32x200, .f32⟩
  | 48 => ⟨S_, .f32⟩
  | 49 => ⟨S32x200, .f32⟩
  | 50 => ⟨S32x200, .f32⟩
  | 51 => ⟨S_, .f32⟩
  | 52 => ⟨S32x200, .f32⟩
  | 53 => ⟨S32x200, .f32⟩
  | 54 => ⟨S_, .f32⟩
  | 55 => ⟨S32x200, .f32⟩
  | 56 => ⟨S32x200, .f32⟩
  | 57 => ⟨S32x200, .f32⟩
  | 58 => ⟨S32x200, .f32⟩
  | 59 => ⟨S32x200, .f32⟩
  | 60 => ⟨S_, .i32⟩
  | 61 => ⟨S32, .i32⟩
  | 62 => ⟨S32, .i1⟩
  | 63 => ⟨S_, .i32⟩
  | 64 => ⟨S32, .i32⟩
  | 65 => ⟨S32, .i32⟩
  | 66 => ⟨S32, .i32⟩
  | 67 => ⟨S32x1, .i32⟩
  | 68 => ⟨S32x200, .f32⟩
  | 69 => ⟨S32x200, .f32⟩
  | 70 => ⟨S_, .i32⟩
  | 71 => ⟨S_, .f32⟩
  | 72 => ⟨S30720x200, .f32⟩
  | 73 => ⟨S_, .i32⟩
  | 74 => ⟨S_, .f32⟩
  | 75 => ⟨S30720x50, .f32⟩
  | 76 => ⟨S_, .i32⟩
  | 77 => ⟨S_, .i32⟩
  | 78 => ⟨S32x30720, .i32⟩
  | 79 => ⟨S_, .i32⟩
  | 80 => ⟨S_, .f32⟩
  | 81 => ⟨S32x30720, .f32⟩
  | 82 => ⟨S_, .i32⟩
  | 83 => ⟨S_, .f32⟩
  | 84 => ⟨S32x30720, .f32⟩
  | 85 => ⟨S200x200, .f32⟩
  | 86 => ⟨S200x200, .f32⟩
  | 87 => ⟨S200x50, .f32⟩
  | 88 => ⟨S50x200, .f32⟩
  | 89 => ⟨S200x200, .f32⟩
  | 90 => ⟨S50x200, .f32⟩
  | 91 => ⟨S32x30720, .f32⟩
  | 92 => ⟨S2x32x200, .f32⟩
  | 93 => ⟨S2x32x1, .f32⟩
  | 94 => ⟨S2x32x200, .f32⟩
  | 95 => ⟨S2x32x1, .f32⟩
  | 96 => ⟨S32x30000, .f32⟩
  | 97 => ⟨S1x32x200, .f32⟩
  | 98 => ⟨S32x200, .f32⟩
  | 99 => ⟨S1x32x200, .f32⟩
  | 100 => ⟨S32x200, .f32⟩
  | 101 => ⟨S32x200, .f32⟩
  | 102 => ⟨S1x32x1, .f32⟩
  | 103 => ⟨S32x1, .f32⟩
  | 104 => ⟨S1x32x1, .f32⟩
  | 105 => ⟨S32x1, .f32⟩
  | 106 => ⟨S32x1, .f32⟩
  | 107 => ⟨S1x32x200, .f32⟩
  | 108 => ⟨S32x200, .f32⟩
  | 109 => ⟨S1x32x200, .f32⟩
  | 110 => ⟨S32x200, .f32⟩
  | 111 => ⟨S32x200, .f32⟩
  | 112 => ⟨S1x32x1, .f32⟩
  | 113 => ⟨S32x1, .f32⟩
  | 114 => ⟨S1x32x1, .f32⟩
  | 115 => ⟨S32x1, .f32⟩
  | 116 => ⟨S32x1, .f32⟩
  | 117 => ⟨S32x200, .f32⟩
  | 118 => ⟨S32x200, .f32⟩
  | 119 => ⟨S_, .f32⟩
  | 120 => ⟨S32x200, .f32⟩
  | 121 => ⟨S32x200, .f32⟩
  | 122 => ⟨S_, .f32⟩
  | 123 => ⟨S32x200, .f32⟩
  | 124 => ⟨S32x200, .f32⟩
  | 125 => ⟨S32x200, .f32⟩
  | 126 => ⟨S32x200, .f32⟩
  | 127 => ⟨S32x200, .f32⟩
  | _ => ⟨S32, .i32⟩

abbrev hbmTy0_1 (i : Nat) : BufTy := match i % 128 with
  | 0 => ⟨S_, .f32⟩
  | 1 => ⟨S32x200, .f32⟩
  | 2 => ⟨S32x200, .f32⟩
  | 3 => ⟨S_, .f32⟩
  | 4 => ⟨S32x200, .f32⟩
  | 5 => ⟨S32x200, .f32⟩
  | 6 => ⟨S32x200, .f32⟩
  | 7 => ⟨S32x200, .f32⟩
  | 8 => ⟨S32x200, .f32⟩
  | 9 => ⟨S_, .f32⟩
  | 10 => ⟨S32, .f32⟩
  | 11 => ⟨S32x1, .f32⟩
  | 12 => ⟨S32x200, .f32⟩
  | 13 => ⟨S32x200, .f32⟩
  | 14 => ⟨S_, .f32⟩
  | 15 => ⟨S32, .f32⟩
  | 16 => ⟨S1x32, .f32⟩
  | 17 => ⟨S32x32, .f32⟩
  | 18 => ⟨S32x32, .f32⟩
  | 19 => ⟨S32x32, .f32⟩
  | 20 => ⟨S32x32, .f32⟩
  | 21 => ⟨S_, .f32⟩
  | 22 => ⟨S32x32, .f32⟩
  | 23 => ⟨S32x32, .f32⟩
  | 24 => ⟨S32x32, .f32⟩
  | 25 => ⟨S32x32, .f32⟩
  | 26 => ⟨S32x32, .i1⟩
  | 27 => ⟨S32x32, .f32⟩
  | 28 => ⟨S32x32, .f32⟩
  | 29 => ⟨S32x32, .f32⟩
  | 30 => ⟨S32x32, .f32⟩
  | 31 => ⟨S32x32, .f32⟩
  | 32 => ⟨S32x32, .f32⟩
  | 33 => ⟨S32x32, .f32⟩
  | 34 => ⟨S32x32, .f32⟩
  | 35 => ⟨S32x32, .f32⟩
  | 36 => ⟨S_, .f32⟩
  | 37 => ⟨S_, .f32⟩
  | 38 => ⟨S_, .f32⟩
  | 39 => ⟨S_, .f32⟩
  | 40 => ⟨S_, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | .local _ .vmem, ⟨0, _⟩ => ⟨S32x200, .f32⟩
  | .local _ .vmem, ⟨1, _⟩ => ⟨S32x200, .f32⟩
  | .local _ .vmem, ⟨2, _⟩ => ⟨S1024x200, .f32⟩
  | .local _ .vmem, ⟨3, _⟩ => ⟨S1024x200, .f32⟩
  | .local _ .vmem, ⟨4, _⟩ => ⟨S1024x50, .f32⟩
  | .local _ .vmem, ⟨5, _⟩ => ⟨S1024x50, .f32⟩
  | .local _ .vmem, ⟨6, _⟩ => ⟨S32x1024, .i32⟩
  | .local _ .vmem, ⟨7, _⟩ => ⟨S32x1024, .i32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S200x200, .f32⟩
  | .local _ .vmem, ⟨13, _⟩ => ⟨S50x200, .f32⟩
  | .local _ .vmem, ⟨14, _⟩ => ⟨S200, .f32⟩
  | .local _ .vmem, ⟨15, _⟩ => ⟨S200x200, .f32⟩
  | .local _ .vmem, ⟨16, _⟩ => ⟨S50x200, .f32⟩
  | .local _ .vmem, ⟨17, _⟩ => ⟨S200, .f32⟩
  | .local _ .vmem, ⟨18, _⟩ => ⟨S32x1024, .f32⟩
  | .local _ .vmem, ⟨19, _⟩ => ⟨S32x1024, .f32⟩
  | .local _ .vmem, ⟨20, _⟩ => ⟨S1x32x200, .f32⟩
  | .local _ .vmem, ⟨21, _⟩ => ⟨S1x32x200, .f32⟩
  | .local _ .vmem, ⟨22, _⟩ => ⟨S1x32x1, .f32⟩
  | .local _ .vmem, ⟨23, _⟩ => ⟨S1x32x1, .f32⟩
  | .local _ .vmem, ⟨24, _⟩ => ⟨S1x32x200, .f32⟩
  | .local _ .vmem, ⟨25, _⟩ => ⟨S1x32x200, .f32⟩
  | .local _ .vmem, ⟨26, _⟩ => ⟨S1x32x1, .f32⟩
  | .local _ .vmem, ⟨27, _⟩ => ⟨S1x32x1, .f32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_5 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_7 : Ref sig .tc := ⟨.hbm, 70, rfl⟩
abbrev main_call0_v0 : Ref sig .tc := ⟨.hbm, 71, rfl⟩
abbrev main_v48 : Ref sig .tc := ⟨.hbm, 72, rfl⟩
abbrev main_c_8 : Ref sig .tc := ⟨.hbm, 73, rfl⟩
abbrev main_call1_v0 : Ref sig .tc := ⟨.hbm, 74, rfl⟩
abbrev main_v49 : Ref sig .tc := ⟨.hbm, 75, rfl⟩
abbrev main_c_9 : Ref sig .tc := ⟨.hbm, 76, rfl⟩
abbrev main_call2_v0 : Ref sig .tc := ⟨.hbm, 77, rfl⟩
abbrev main_v50 : Ref sig .tc := ⟨.hbm, 78, rfl⟩
abbrev main_c_10 : Ref sig .tc := ⟨.hbm, 79, rfl⟩
abbrev main_call3_v0 : Ref sig .tc := ⟨.hbm, 80, rfl⟩
abbrev main_v51 : Ref sig .tc := ⟨.hbm, 81, rfl⟩
abbrev main_c_11 : Ref sig .tc := ⟨.hbm, 82, rfl⟩
abbrev main_call4_v0 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59_0 : Ref sig .tc := ⟨.hbm, 91, rfl⟩
abbrev main_v59_1 : Ref sig .tc := ⟨.hbm, 92, rfl⟩
abbrev main_v59_2 : Ref sig .tc := ⟨.hbm, 93, rfl⟩
abbrev main_v59_3 : Ref sig .tc := ⟨.hbm, 94, rfl⟩
abbrev main_v59_4 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_12 : Ref sig .tc := ⟨.hbm, 119, rfl⟩
abbrev main_v83 : Ref sig .tc := ⟨.hbm, 120, rfl⟩
abbrev main_v84 : Ref sig .tc := ⟨.hbm, 121, rfl⟩
abbrev main_cst_13 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_14 : Ref sig .tc := ⟨.hbm, 128, rfl⟩
abbrev main_v90 : Ref sig .tc := ⟨.hbm, 129, rfl⟩
abbrev main_v91 : Ref sig .tc := ⟨.hbm, 130, rfl⟩
abbrev main_cst_15 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_16 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_17 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_call5_v0 : Ref sig .tc := ⟨.hbm, 148, rfl⟩
abbrev main_call5_call0_cst : Ref sig .tc := ⟨.hbm, 149, rfl⟩
abbrev main_call5_call0_v0 : Ref sig .tc := ⟨.hbm, 150, rfl⟩
abbrev main_call5_call0_v1 : Ref sig .tc := ⟨.hbm, 151, rfl⟩
abbrev main_call5_call0_v2 : Ref sig .tc := ⟨.hbm, 152, rfl⟩
abbrev main_call5_call0_v3 : Ref sig .tc := ⟨.hbm, 153, rfl⟩
abbrev main_call5_call0_v4 : Ref sig .tc := ⟨.hbm, 154, rfl⟩
abbrev main_call5_call0_v5 : Ref sig .tc := ⟨.hbm, 155, rfl⟩
abbrev main_call5_call0_v6 : Ref sig .tc := ⟨.hbm, 156, rfl⟩
abbrev main_call5_call0_v7 : Ref sig .tc := ⟨.hbm, 157, rfl⟩
abbrev main_call5_call0_v8 : Ref sig .tc := ⟨.hbm, 158, rfl⟩
abbrev main_call5_call0_v9 : Ref sig .tc := ⟨.hbm, 159, rfl⟩
abbrev main_call5_call0_v10 : Ref sig .tc := ⟨.hbm, 160, rfl⟩
abbrev main_call5_call0_v11 : Ref sig .tc := ⟨.hbm, 161, rfl⟩
abbrev main_call5_v1 : Ref sig .tc := ⟨.hbm, 162, rfl⟩
abbrev main_v106 : Ref sig .tc := ⟨.hbm, 163, rfl⟩
abbrev main_cst_18 : Ref sig .tc := ⟨.hbm, 164, rfl⟩
abbrev main_v107 : Ref sig .tc := ⟨.hbm, 165, rfl⟩
abbrev main_cst_19 : Ref sig .tc := ⟨.hbm, 166, rfl⟩
abbrev main_v108 : Ref sig .tc := ⟨.hbm, 167, rfl⟩
abbrev main_v109 : Ref sig .tc := ⟨.hbm, 168, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![2, 15], ![false, false]⟩

@[reducible] def k0_t1_loop : Scf.Loop 32 :=
  let c0_i32_54 : BitVec 32 := 0#32
  let c4_i32 : BitVec 32 := 4#32
  let v89 : BitVec 32 := Scalar.addi c0_i32_54 c4_i32
  let c1_i32 : BitVec 32 := 1#32
  ⟨c0_i32_54, v89, c1_i32⟩
def k0_mult1 (k0_t1 : Fin k0_t1_loop.trips) : BitVec 32 :=
  let c0_i32_54 : BitVec 32 := 0#32
  let c1_i32 : BitVec 32 := 1#32
  let arg20 : BitVec 32 := Scf.iv c0_i32_54 c1_i32 k0_t1
  let c8_i32 : BitVec 32 := 8#32
  let v90 : BitVec 32 := Scalar.muli arg20 c8_i32
  v90
def k0_off1 (k0_t1 : Fin k0_t1_loop.trips) : Fin 2 → Nat :=
  let c0_i32_54 : BitVec 32 := 0#32
  let c1_i32 : BitVec 32 := 1#32
  let arg20 : BitVec 32 := Scf.iv c0_i32_54 c1_i32 k0_t1
  let c8_i32 : BitVec 32 := 8#32
  let v90 : BitVec 32 := Scalar.muli arg20 c8_i32
  let v91 : BitVec 32 := v90
  let v92 : Index := Scalar.indexCast v91
  let c0_56 : Index := 0#32
  ![v92.toNat, 0]
def k0_off2 (k0_t1 : Fin k0_t1_loop.trips) : Fin 2 → Nat :=
  let c0_i32_54 : BitVec 32 := 0#32
  let c1_i32 : BitVec 32 := 1#32
  let arg20 : BitVec 32 := Scf.iv c0_i32_54 c1_i32 k0_t1
  let c8_i32 : BitVec 32 := 8#32
  let v90 : BitVec 32 := Scalar.muli arg20 c8_i32
  let v91 : BitVec 32 := v90
  let v105 : Index := Scalar.indexCast v91
  let c0_59 : Index := 0#32
  ![v105.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.muli arg0 c15_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.muli arg0 c15_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.muli arg0 c15_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.muli arg0 c15_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.muli arg0 c15_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.muli arg0 c15_i32
  let v1 : BitVec 32 := Scalar.addi v0 arg1
  let c0_i32 : BitVec 32 := 0#32
  let c0_i32_0 : BitVec 32 := 0#32
  ![c0_i32.toNat, v1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x200 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S32x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x50 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S200x200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S50x200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S200 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S200x200 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S50x200 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S200 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x32x200 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x32x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x32x200 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x32x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

class Facts₀ : Prop where
  bcast_S_S32 : S_.BroadcastsInDim S32 (![] : Fin 0 → Fin S32.rank)
  bcast_S32_S32x1_0 : S32.BroadcastsInDim S32x1 (![0] : Fin 1 → Fin S32x1.rank)
  concatenates_S32x200_S32x50_S32x250_d1 : Shape.Concatenates [S32x200, S32x50] S32x250 1
  transposes_S200x250_S250x200_1_0 : S200x250.Transposes [1, 0] S250x200
  bcast_S200_S1x200_1 : S200.BroadcastsInDim S1x200 (![1] : Fin 1 → Fin S1x200.rank)
  bcast_S1x200_S32x200_0_1 : S1x200.BroadcastsInDim S32x200 (![0, 1] : Fin 2 → Fin S32x200.rank)
  transposes_S200x200_S200x200_1_0 : S200x200.Transposes [1, 0] S200x200
  transposes_S200x50_S50x200_1_0 : S200x50.Transposes [1, 0] S50x200
  bcast_S_S32x200 : S_.BroadcastsInDim S32x200 (![] : Fin 0 → Fin S32x200.rank)
  pads_S30000x200_S30720x200_07200_000 : S30000x200.Pads (![0, 0] : Fin 2 → Nat) ![720, 0] ![0, 0] S30720x200
  h_S_ : 0 < S_.numel
  pads_S30000x50_S30720x50_07200_000 : S30000x50.Pads (![0, 0] : Fin 2 → Nat) ![720, 0] ![0, 0] S30720x50
  pads_S32x30000_S32x30720_000_07200 : S32x30000.Pads (![0, 0] : Fin 2 → Nat) ![0, 720] ![0, 0] S32x30720
  slices_S200x250_S200x200_0_0 : S200x250.Slices ![0, 0] S200x200
  slices_S200x250_S200x50_0_200 : S200x250.Slices ![0, 200] S200x50
  inb_S1x32x200_S1x32x200_0_0_0 : ∀ a, (![0, 0, 0] : Fin 3 → Nat) a + S1x32x200.size a ≤ S1x32x200.size a
  h_S1x32x200 : 0 < S1x32x200.numel
  shapeCasts_S1x32x200_S32x200 : S1x32x200.ShapeCasts S32x200
  shapeCasts_S32x200_S1x32x200 : S32x200.ShapeCasts S1x32x200
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  shapeCasts_S32x1_S1x32x1 : S32x1.ShapeCasts S1x32x1
  inb_S1024x200_S1024x200_0_0 : ∀ a, (![0, 0] : Fin 2 → Nat) a + S1024x200.size a ≤ S1024x200.size a
  h_S1024x200 : 0 < S1024x200.numel
  shapeCasts_S1024x200_S1024x200 : S1024x200.ShapeCasts S1024x200
  inb_S1024x50_S1024x50_0_0 : ∀ a, (![0, 0] : Fin 2 → Nat) a + S1024x50.size a ≤ S1024x50.size a
  h_S1024x50 : 0 < S1024x50.numel
  shapeCasts_S1024x50_S1024x50 : S1024x50.ShapeCasts S1024x50
  bitsLt_bf16_f32 : FTy.bits .bf16 < FTy.bits .f32
  inb_S200x200_S200x200_0_0 : ∀ a, (![0, 0] : Fin 2 → Nat) a + S200x200.size a ≤ S200x200.size a
  h_S200x200 : 0 < S200x200.numel
  shapeCasts_S200x200_S200x200 : S200x200.ShapeCasts S200x200
  inb_S50x200_S50x200_0_0 : ∀ a, (![0, 0] : Fin 2 → Nat) a + S50x200.size a ≤ S50x200.size a
  h_S50x200 : 0 < S50x200.numel
  shapeCasts_S50x200_S50x200 : S50x200.ShapeCasts S50x200
  inb_S200_S200_0 : ∀ a, (![0] : Fin 1 → Nat) a + S200.size a ≤ S200.size a
  h_S200 : 0 < S200.numel
  shapeCasts_S200_S1x200 : S200.ShapeCasts S1x200
  broadcasts_S1x200_S1024x200 : S1x200.Broadcasts S1024x200
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  reduces_S32x1024_S32 : S32x1024.Reduces [1] S32
  shapeCasts_S32_S32x1 : S32.ShapeCasts S32x1
  transposes_S1024x200_p1_0_S200x1024 : S1024x200.Transposes [1, 0] S200x1024
  h_S8x200 : 0 < S8x200.numel
  shapeCasts_S8x200_S8x200 : S8x200.ShapeCasts S8x200
  shapeCasts_S8x200_S8x200x1 : S8x200.ShapeCasts S8x200x1
  shapeCasts_S200x1024_S1x200x1024 : S200x1024.ShapeCasts S1x200x1024
  broadcasts_S8x200x1_S8x200x1024 : S8x200x1.Broadcasts S8x200x1024
  broadcasts_S1x200x1024_S8x200x1024 : S1x200x1024.Broadcasts S8x200x1024
  reduces_S8x200x1024_S8x1024 : S8x200x1024.Reduces [1] S8x1024
  h_S8x1024 : 0 < S8x1024.numel
  slices_S32x30720_S32x30000_0_0 : S32x30720.Slices ![0, 0] S32x30000
  slices_S2x32x200_S1x32x200_0_0_0 : S2x32x200.Slices ![0, 0, 0] S1x32x200
  slices_S2x32x200_S1x32x200_1_0_0 : S2x32x200.Slices ![1, 0, 0] S1x32x200
  slices_S2x32x1_S1x32x1_0_0_0 : S2x32x1.Slices ![0, 0, 0] S1x32x1
  slices_S2x32x1_S1x32x1_1_0_0 : S2x32x1.Slices ![1, 0, 0] S1x32x1
  bcast_S32x1_S32x200_0_1 : S32x1.BroadcastsInDim S32x200 (![0, 1] : Fin 2 → Fin S32x200.rank)
  reducesTo_S32x200_S32_d1 : S32x200.ReducesTo [1] S32
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S32x1_S32x32_0_1 : S32x1.BroadcastsInDim S32x32 (![0, 1] : Fin 2 → Fin S32x32.rank)
  bcast_S_S32x32 : S_.BroadcastsInDim S32x32 (![] : Fin 0 → Fin S32x32.rank)
  reducesTo_S32x32_S_d0_1 : S32x32.ReducesTo [0, 1] S_
  gather_S30000x200_S32x1_S32x200_1_0_n_n_0_1_1200_wf : GatherDims.WF S30000x200 S32x1 S32x200 [1] [0] [] [0] [] 1 ![1, 200]
  gather_S30000x50_S32x1_S32x50_1_0_n_n_0_1_150_wf : GatherDims.WF S30000x50 S32x1 S32x50 [1] [0] [] [0] [] 1 ![1, 50]
  dot_S32x250_S250x200_S32x200_1_0_0_1_n_n_wf : DotDims.WF S32x250 S250x200 S32x200 [1] [0] [0] [1] [] []
  dot_S32x200_S200x200_S32x200_1_0_0_1_n_n_wf : DotDims.WF S32x200 S200x200 S32x200 [1] [0] [0] [1] [] []
  dot_S32x50_S50x200_S32x200_1_0_0_1_n_n_wf : DotDims.WF S32x50 S50x200 S32x200 [1] [0] [0] [1] [] []
  gather_S474x200_S32x1_S32x200_1_0_n_n_0_1_1200_wf : GatherDims.WF S474x200 S32x1 S32x200 [1] [0] [] [0] [] 1 ![1, 200]
  dot_S1024x200_S200x200_S1024x200_1_0_0_1_n_n_wf : DotDims.WF S1024x200 S200x200 S1024x200 [1] [0] [0] [1] [] []
  dot_S1024x50_S50x200_S1024x200_1_0_0_1_n_n_wf : DotDims.WF S1024x50 S50x200 S1024x200 [1] [0] [0] [1] [] []
  dot_S32x1024_S1024x200_S32x200_1_0_0_1_n_n_wf : DotDims.WF S32x1024 S1024x200 S32x200 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x200.size a ≤ S32x200.size a
  k0_off2_inb : ∀ k0_t1 : Fin k0_t1_loop.trips, ∀ a, (k0_off2 k0_t1) a + S8x1024.size a ≤ S32x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x200.size a ≤ S32x200.size a
  hwx0_0 : ∀ i : grid0.Coords, EltTy.bits .f32 = 32 ∨ (Rect.block (s := S32x200) S32x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x200.size a ≤ S32x200.size a
  hwx0_1 : ∀ i : grid0.Coords, EltTy.bits .f32 = 32 ∨ (Rect.block (s := S32x200) S32x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x200.size a ≤ S30720x200.size a
  hwx0_2 : ∀ i : grid0.Coords, EltTy.bits .f32 = 32 ∨ (Rect.block (s := S30720x200) S1024x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x50.size a ≤ S30720x50.size a
  hwx0_3 : ∀ i : grid0.Coords, EltTy.bits .f32 = 32 ∨ (Rect.block (s := S30720x50) S1024x50.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S32x30720.size a
  hwx0_4 : ∀ i : grid0.Coords, EltTy.bits .i32 = 32 ∨ (Rect.block (s := S32x30720) S32x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S32x30720.size a
  hwx0_5 : ∀ i : grid0.Coords, EltTy.bits .f32 = 32 ∨ (Rect.block (s := S32x30720) S32x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x1024.size a ≤ S32x30720.size a
  hwx0_6 : ∀ i : grid0.Coords, EltTy.bits .f32 = 32 ∨ (Rect.block (s := S32x30720) S32x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S200x200.size a ≤ S200x200.size a
  hwx0_7 : ∀ i : grid0.Coords, EltTy.bits .f32 = 32 ∨ (Rect.block (s := S200x200) S200x200.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S50x200.size a ≤ S50x200.size a
  hwx0_8 : ∀ i : grid0.Coords, EltTy.bits .f32 = 32 ∨ (Rect.block (s := S50x200) S50x200.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S200.size a ≤ S200.size a
  hwx0_9 : ∀ i : grid0.Coords, EltTy.bits .f32 = 32 ∨ (Rect.block (s := S200) S200.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S200x200.size a ≤ S200x200.size a
  hwx0_10 : ∀ i : grid0.Coords, EltTy.bits .f32 = 32 ∨ (Rect.block (s := S200x200) S200x200.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S50x200.size a ≤ S50x200.size a
  hwx0_11 : ∀ i : grid0.Coords, EltTy.bits .f32 = 32 ∨ (Rect.block (s := S50x200) S50x200.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S200.size a ≤ S200.size a
  hwx0_12 : ∀ i : grid0.Coords, EltTy.bits .f32 = 32 ∨ (Rect.block (s := S200) S200.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S32x1024.size a ≤ S32x30720.size a
  hwx0_13 : ∀ i : grid0.Coords, EltTy.bits .f32 = 32 ∨ (Rect.block (s := S32x30720) S32x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x32x200.size a ≤ S2x32x200.size a
  hwx0_14 : ∀ i : grid0.Coords, EltTy.bits .f32 = 32 ∨ (Rect.block (s := S2x32x200) S1x32x200.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x32x1.size a ≤ S2x32x1.size a
  hwx0_15 : ∀ i : grid0.Coords, EltTy.bits .f32 = 32 ∨ (Rect.block (s := S2x32x1) S1x32x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x32x200.size a ≤ S2x32x200.size a
  hwx0_16 : ∀ i : grid0.Coords, EltTy.bits .f32 = 32 ∨ (Rect.block (s := S2x32x200) S1x32x200.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x32x1.size a ≤ S2x32x1.size a
  hwx0_17 : ∀ i : grid0.Coords, EltTy.bits .f32 = 32 ∨ (Rect.block (s := S2x32x1) S1x32x1.size (cc0_transform_17 i) (hinb0_17 i)).WholeWords (EltTy.packing .f32)

variable [Facts₀]

def gather_S30000x200_S32x1_S32x200_1_0_n_n_0_1_1200 : GatherDims S30000x200 S32x1 S32x200 where
  offsetDims := [1]
  collapsedSliceDims := [0]
  operandBatchingDims := []
  startIndicesBatchingDims := []
  startIndexMap := [0]
  indexVectorDim := 1
  sliceSizes := ![1, 200]
  wf := gather_S30000x200_S32x1_S32x200_1_0_n_n_0_1_1200_wf
def gather_S30000x50_S32x1_S32x50_1_0_n_n_0_1_150 : GatherDims S30000x50 S32x1 S32x50 where
  offsetDims := [1]
  collapsedSliceDims := [0]
  operandBatchingDims := []
  startIndicesBatchingDims := []
  startIndexMap := [0]
  indexVectorDim := 1
  sliceSizes := ![1, 50]
  wf := gather_S30000x50_S32x1_S32x50_1_0_n_n_0_1_150_wf
def dot_S32x250_S250x200_S32x200_1_0_0_1_n_n : DotDims S32x250 S250x200 S32x200 where
  lhsContracting := [1]
  rhsContracting := [0]
  lhsNonContracting := [0]
  rhsNonContracting := [1]
  lhsBatch := []
  rhsBatch := []
  wf := dot_S32x250_S250x200_S32x200_1_0_0_1_n_n_wf
def dot_S32x200_S200x200_S32x200_1_0_0_1_n_n : DotDims S32x200 S200x200 S32x200 where
  lhsContracting := [1]
  rhsContracting := [0]
  lhsNonContracting := [0]
  rhsNonContracting := [1]
  lhsBatch := []
  rhsBatch := []
  wf := dot_S32x200_S200x200_S32x200_1_0_0_1_n_n_wf
def dot_S32x50_S50x200_S32x200_1_0_0_1_n_n : DotDims S32x50 S50x200 S32x200 where
  lhsContracting := [1]
  rhsContracting := [0]
  lhsNonContracting := [0]
  rhsNonContracting := [1]
  lhsBatch := []
  rhsBatch := []
  wf := dot_S32x50_S50x200_S32x200_1_0_0_1_n_n_wf
def gather_S474x200_S32x1_S32x200_1_0_n_n_0_1_1200 : GatherDims S474x200 S32x1 S32x200 where
  offsetDims := [1]
  collapsedSliceDims := [0]
  operandBatchingDims := []
  startIndicesBatchingDims := []
  startIndexMap := [0]
  indexVectorDim := 1
  sliceSizes := ![1, 200]
  wf := gather_S474x200_S32x1_S32x200_1_0_n_n_0_1_1200_wf
def dot_S1024x200_S200x200_S1024x200_1_0_0_1_n_n : DotDims S1024x200 S200x200 S1024x200 where
  lhsContracting := [1]
  rhsContracting := [0]
  lhsNonContracting := [0]
  rhsNonContracting := [1]
  lhsBatch := []
  rhsBatch := []
  wf := dot_S1024x200_S200x200_S1024x200_1_0_0_1_n_n_wf
def dot_S1024x50_S50x200_S1024x200_1_0_0_1_n_n : DotDims S1024x50 S50x200 S1024x200 where
  lhsContracting := [1]
  rhsContracting := [0]
  lhsNonContracting := [0]
  rhsNonContracting := [1]
  lhsBatch := []
  rhsBatch := []
  wf := dot_S1024x50_S50x200_S1024x200_1_0_0_1_n_n_wf
def dot_S32x1024_S1024x200_S32x200_1_0_0_1_n_n : DotDims S32x1024 S1024x200 S32x200 where
  lhsContracting := [1]
  rhsContracting := [0]
  lhsNonContracting := [0]
  rhsNonContracting := [1]
  lhsBatch := []
  rhsBatch := []
  wf := dot_S32x1024_S1024x200_S32x200_1_0_0_1_n_n_wf

abbrev win0_0 : Pipeline.Window sig grid0 :=
  Pipeline.Window.ofSpec (Memref.whole main_v47) S32x200.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v39) S32x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1024x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v49) S1024x50.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v50) S32x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v51) S32x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v52) S32x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v54) S200x200.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v56) S50x200.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S200.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v57) S200x200.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v58) S50x200.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S200.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v59_0) S32x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v59_1) S1x32x200.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v59_2) S1x32x1.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v59_3) S1x32x200.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v59_4) S1x32x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S32 : Shape := ⟨1, ![32]⟩
abbrev S32x30000 : Shape := ⟨2, ![32, 30000]⟩
abbrev S30000x200 : Shape := ⟨2, ![30000, 200]⟩
abbrev S474x200 : Shape := ⟨2, ![474, 200]⟩
abbrev S30000x50 : Shape := ⟨2, ![30000, 50]⟩
abbrev S200x250 : Shape := ⟨2, ![200, 250]⟩
abbrev S200 : Shape := ⟨1, ![200]⟩
abbrev S200x200 : Shape := ⟨2, ![200, 200]⟩
abbrev S200x50 : Shape := ⟨2, ![200, 50]⟩
abbrev S_ : Shape := ⟨0, ![]⟩
abbrev S32x1 : Shape := ⟨2, ![32, 1]⟩
abbrev S32x200 : Shape := ⟨2, ![32, 200]⟩
abbrev S32x50 : Shape := ⟨2, ![32, 50]⟩
abbrev S32x250 : Shape := ⟨2, ![32, 250]⟩
abbrev S250x200 : Shape := ⟨2, ![250, 200]⟩
abbrev S1x200 : Shape := ⟨2, ![1, 200]⟩
abbrev S50x200 : Shape := ⟨2, ![50, 200]⟩
abbrev S30000x250 : Shape := ⟨2, ![30000, 250]⟩
abbrev S1x32 : Shape := ⟨2, ![1, 32]⟩
abbrev S32x32 : Shape := ⟨2, ![32, 32]⟩
abbrev S32x1x200 : Shape := ⟨3, ![32, 1, 200]⟩
abbrev S1x30000x200 : Shape := ⟨3, ![1, 30000, 200]⟩
abbrev S32x30000x200 : Shape := ⟨3, ![32, 30000, 200]⟩

abbrev nBuf : Space → Nat
  | .hbm => 187
  | .vmem => 0
  | .smem => 0
  | _ => 0

abbrev hbmTy0_0 (i : Nat) : BufTy := match i % 128 with
  | 0 => ⟨S32, .i32⟩
  | 1 => ⟨S32, .i32⟩
  | 2 => ⟨S32x30000, .i32⟩
  | 3 => ⟨S30000x200, .f32⟩
  | 4 => ⟨S474x200, .f32⟩
  | 5 => ⟨S30000x50, .f32⟩
  | 6 => ⟨S200x250, .f32⟩
  | 7 => ⟨S200, .f32⟩
  | 8 => ⟨S200x200, .f32⟩
  | 9 => ⟨S200x50, .f32⟩
  | 10 => ⟨S200, .f32⟩
  | 11 => ⟨S32x30000, .f32⟩
  | 12 => ⟨S32x30000, .f32⟩
  | 13 => ⟨S32x30000, .f32⟩
  | 14 => ⟨S_, .i32⟩
  | 15 => ⟨S32, .i32⟩
  | 16 => ⟨S32, .i1⟩
  | 17 => ⟨S_, .i32⟩
  | 18 => ⟨S32, .i32⟩
  | 19 => ⟨S32, .i32⟩
  | 20 => ⟨S32, .i32⟩
  | 21 => ⟨S32x1, .i32⟩
  | 22 => ⟨S32x200, .f32⟩
  | 23 => ⟨S_, .i32⟩
  | 24 => ⟨S32, .i32⟩
  | 25 => ⟨S32, .i1⟩
  | 26 => ⟨S_, .i32⟩
  | 27 => ⟨S32, .i32⟩
  | 28 => ⟨S32, .i32⟩
  | 29 => ⟨S32, .i32⟩
  | 30 => ⟨S32x1, .i32⟩
  | 31 => ⟨S32x50, .f32⟩
  | 32 => ⟨S32x250, .f32⟩
  | 33 => ⟨S250x200, .f32⟩
  | 34 => ⟨S32x200, .f32⟩
  | 35 => ⟨S1x200, .f32⟩
  | 36 => ⟨S32x200, .f32⟩
  | 37 => ⟨S32x200, .f32⟩
  | 38 => ⟨S32x200, .f32⟩
  | 39 => ⟨S200x200, .f32⟩
  | 40 => ⟨S32x200, .f32⟩
  | 41 => ⟨S50x200, .f32⟩
  | 42 => ⟨S32x200, .f32⟩
  | 43 => ⟨S32x200, .f32⟩
  | 44 => ⟨S1x200, .f32⟩
  | 45 => ⟨S32x200, .f32⟩
  | 46 => ⟨S32x200, .f32⟩
  | 47 => ⟨S32x200, .f32⟩
  | 48 => ⟨S32x200, .f32⟩
  | 49 => ⟨S_, .f32⟩
  | 50 => ⟨S32x200, .f32⟩
  | 51 => ⟨S32x200, .f32⟩
  | 52 => ⟨S_, .f32⟩
  | 53 => ⟨S32x200, .f32⟩
  | 54 => ⟨S32x200, .f32⟩
  | 55 => ⟨S_, .f32⟩
  | 56 => ⟨S32x200, .f32⟩
  | 57 => ⟨S32x200, .f32⟩
  | 58 => ⟨S32x200, .f32⟩
  | 59 => ⟨S32x200, .f32⟩
  | 60 => ⟨S32x200, .f32⟩
  | 61 => ⟨S30000x250, .f32⟩
  | 62 => ⟨S250x200, .f32⟩
  | 63 => ⟨S30000x200, .f32⟩
  | 64 => ⟨S1x200, .f32⟩
  | 65 => ⟨S30000x200, .f32⟩
  | 66 => ⟨S30000x200, .f32⟩
  | 67 => ⟨S30000x200, .f32⟩
  | 68 => ⟨S200x200, .f32⟩
  | 69 => ⟨S30000x200, .f32⟩
  | 70 => ⟨S50x200, .f32⟩
  | 71 => ⟨S30000x200, .f32⟩
  | 72 => ⟨S30000x200, .f32⟩
  | 73 => ⟨S1x200, .f32⟩
  | 74 => ⟨S30000x200, .f32⟩
  | 75 => ⟨S30000x200, .f32⟩
  | 76 => ⟨S30000x200, .f32⟩
  | 77 => ⟨S30000x200, .f32⟩
  | 78 => ⟨S_, .f32⟩
  | 79 => ⟨S30000x200, .f32⟩
  | 80 => ⟨S30000x200, .f32⟩
  | 81 => ⟨S_, .f32⟩
  | 82 => ⟨S30000x200, .f32⟩
  | 83 => ⟨S30000x200, .f32⟩
  | 84 => ⟨S_, .f32⟩
  | 85 => ⟨S30000x200, .f32⟩
  | 86 => ⟨S30000x200, .f32⟩
  | 87 => ⟨S30000x200, .f32⟩
  | 88 => ⟨S30000x200, .f32⟩
  | 89 => ⟨S30000x200, .f32⟩
  | 90 => ⟨S_, .i32⟩
  | 91 => ⟨S32, .i32⟩
  | 92 => ⟨S32, .i1⟩
  | 93 => ⟨S_, .i32⟩
  | 94 => ⟨S32, .i32⟩
  | 95 => ⟨S32, .i32⟩
  | 96 => ⟨S32, .i32⟩
  | 97 => ⟨S32x1, .i32⟩
  | 98 => ⟨S32x200, .f32⟩
  | 99 => ⟨S32x30000, .f32⟩
  | 100 => ⟨S32x200, .f32⟩
  | 101 => ⟨S_, .f32⟩
  | 102 => ⟨S32, .f32⟩
  | 103 => ⟨S32x1, .f32⟩
  | 104 => ⟨S32x200, .f32⟩
  | 105 => ⟨S32x200, .f32⟩
  | 106 => ⟨S_, .f32⟩
  | 107 => ⟨S32x200, .f32⟩
  | 108 => ⟨S32x200, .f32⟩
  | 109 => ⟨S_, .f32⟩
  | 110 => ⟨S32x200, .f32⟩
  | 111 => ⟨S32x200, .f32⟩
  | 112 => ⟨S32x200, .f32⟩
  | 113 => ⟨S_, .f32⟩
  | 114 => ⟨S32x30000, .f32⟩
  | 115 => ⟨S32x30000, .f32⟩
  | 116 => ⟨S32x30000, .f32⟩
  | 117 => ⟨S_, .f32⟩
  | 118 => ⟨S32x30000, .f32⟩
  | 119 => ⟨S32x30000, .f32⟩
  | 120 => ⟨S32x200, .f32⟩
  | 121 => ⟨S_, .f32⟩
  | 122 => ⟨S32, .f32⟩
  | 123 => ⟨S32x1, .f32⟩
  | 124 => ⟨S32x200, .f32⟩
  | 125 => ⟨S32x200, .f32⟩
  | 126 => ⟨S_, .f32⟩
  | 127 => ⟨S32x200, .f32⟩
  | _ => ⟨S32, .i32⟩

abbrev hbmTy0_1 (i : Nat) : BufTy := match i % 128 with
  | 0 => ⟨S32x200, .f32⟩
  | 1 => ⟨S_, .f32⟩
  | 2 => ⟨S32x200, .f32⟩
  | 3 => ⟨S32x200, .f32⟩
  | 4 => ⟨S32x200, .f32⟩
  | 5 => ⟨S32x200, .f32⟩
  | 6 => ⟨S32x200, .f32⟩
  | 7 => ⟨S32x200, .f32⟩
  | 8 => ⟨S_, .f32⟩
  | 9 => ⟨S32, .f32⟩
  | 10 => ⟨S32x1, .f32⟩
  | 11 => ⟨S32x200, .f32⟩
  | 12 => ⟨S32x200, .f32⟩
  | 13 => ⟨S_, .f32⟩
  | 14 => ⟨S32, .f32⟩
  | 15 => ⟨S1x32, .f32⟩
  | 16 => ⟨S32x32, .f32⟩
  | 17 => ⟨S32x32, .f32⟩
  | 18 => ⟨S32x32, .f32⟩
  | 19 => ⟨S32x32, .f32⟩
  | 20 => ⟨S_, .f32⟩
  | 21 => ⟨S32x32, .f32⟩
  | 22 => ⟨S32x32, .f32⟩
  | 23 => ⟨S32x32, .f32⟩
  | 24 => ⟨S32x32, .f32⟩
  | 25 => ⟨S32x32, .i1⟩
  | 26 => ⟨S32x32, .f32⟩
  | 27 => ⟨S32x32, .f32⟩
  | 28 => ⟨S32x32, .f32⟩
  | 29 => ⟨S32x32, .f32⟩
  | 30 => ⟨S32x32, .f32⟩
  | 31 => ⟨S32x32, .f32⟩
  | 32 => ⟨S32x32, .f32⟩
  | 33 => ⟨S32x32, .f32⟩
  | 34 => ⟨S32x32, .f32⟩
  | 35 => ⟨S_, .f32⟩
  | 36 => ⟨S_, .f32⟩
  | 37 => ⟨S_, .f32⟩
  | 38 => ⟨S_, .f32⟩
  | 39 => ⟨S_, .f32⟩
  | 40 => ⟨S32x1x200, .f32⟩
  | 41 => ⟨S1x30000x200, .f32⟩
  | 42 => ⟨S32x30000x200, .f32⟩
  | 43 => ⟨S32x30000x200, .f32⟩
  | 44 => ⟨S32x30000x200, .f32⟩
  | 45 => ⟨S32x30000x200, .f32⟩
  | 46 => ⟨S_, .f32⟩
  | 47 => ⟨S32x30000, .f32⟩
  | 48 => ⟨S_, .f32⟩
  | 49 => ⟨S32x30000, .f32⟩
  | 50 => ⟨S32x30000, .f32⟩
  | 51 => ⟨S32x30000, .f32⟩
  | 52 => ⟨S32x30000, .f32⟩
  | 53 => ⟨S_, .f32⟩
  | 54 => ⟨S32x30000, .f32⟩
  | 55 => ⟨S32x30000, .f32⟩
  | 56 => ⟨S_, .f32⟩
  | 57 => ⟨S32x30000, .f32⟩
  | 58 => ⟨S32x30000, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_5 : Ref sig .tc := ⟨.hbm, 78, rfl⟩
abbrev main_v58 : Ref sig .tc := ⟨.hbm, 79, rfl⟩
abbrev main_v59 : Ref sig .tc := ⟨.hbm, 80, rfl⟩
abbrev main_cst_6 : Ref sig .tc := ⟨.hbm, 81, rfl⟩
abbrev main_v60 : Ref sig .tc := ⟨.hbm, 82, rfl⟩
abbrev main_v61 : Ref sig .tc := ⟨.hbm, 83, rfl⟩
abbrev main_cst_7 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_8 : Ref sig .tc := ⟨.hbm, 90, rfl⟩
abbrev main_v67 : Ref sig .tc := ⟨.hbm, 91, rfl⟩
abbrev main_v68 : Ref sig .tc := ⟨.hbm, 92, rfl⟩
abbrev main_c_9 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_10 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_11 : Ref sig .tc := ⟨.hbm, 106, rfl⟩
abbrev main_v80 : Ref sig .tc := ⟨.hbm, 107, rfl⟩
abbrev main_v81 : Ref sig .tc := ⟨.hbm, 108, rfl⟩
abbrev main_cst_12 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_13 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_14 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_15 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_16 : Ref sig .tc := ⟨.hbm, 126, rfl⟩
abbrev main_v95 : Ref sig .tc := ⟨.hbm, 127, rfl⟩
abbrev main_v96 : Ref sig .tc := ⟨.hbm, 128, rfl⟩
abbrev main_cst_17 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_18 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_19 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_call0_v0 : Ref sig .tc := ⟨.hbm, 147, rfl⟩
abbrev main_call0_call0_cst : Ref sig .tc := ⟨.hbm, 148, rfl⟩
abbrev main_call0_call0_v0 : Ref sig .tc := ⟨.hbm, 149, rfl⟩
abbrev main_call0_call0_v1 : Ref sig .tc := ⟨.hbm, 150, rfl⟩
abbrev main_call0_call0_v2 : Ref sig .tc := ⟨.hbm, 151, rfl⟩
abbrev main_call0_call0_v3 : Ref sig .tc := ⟨.hbm, 152, rfl⟩
abbrev main_call0_call0_v4 : Ref sig .tc := ⟨.hbm, 153, rfl⟩
abbrev main_call0_call0_v5 : Ref sig .tc := ⟨.hbm, 154, rfl⟩
abbrev main_call0_call0_v6 : Ref sig .tc := ⟨.hbm, 155, rfl⟩
abbrev main_call0_call0_v7 : Ref sig .tc := ⟨.hbm, 156, rfl⟩
abbrev main_call0_call0_v8 : Ref sig .tc := ⟨.hbm, 157, rfl⟩
abbrev main_call0_call0_v9 : Ref sig .tc := ⟨.hbm, 158, rfl⟩
abbrev main_call0_call0_v10 : Ref sig .tc := ⟨.hbm, 159, rfl⟩
abbrev main_call0_call0_v11 : Ref sig .tc := ⟨.hbm, 160, rfl⟩
abbrev main_call0_v1 : Ref sig .tc := ⟨.hbm, 161, rfl⟩
abbrev main_v112 : Ref sig .tc := ⟨.hbm, 162, rfl⟩
abbrev main_cst_20 : Ref sig .tc := ⟨.hbm, 163, rfl⟩
abbrev main_v113 : Ref sig .tc := ⟨.hbm, 164, rfl⟩
abbrev main_cst_21 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_22 : Ref sig .tc := ⟨.hbm, 174, rfl⟩
abbrev main_v122 : Ref sig .tc := ⟨.hbm, 175, rfl⟩
abbrev main_cst_23 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_24 : Ref sig .tc := ⟨.hbm, 181, rfl⟩
abbrev main_v127 : Ref sig .tc := ⟨.hbm, 182, rfl⟩
abbrev main_v128 : Ref sig .tc := ⟨.hbm, 183, rfl⟩
abbrev main_cst_25 : Ref sig .tc := ⟨.hbm, 184, rfl⟩
abbrev main_v129 : Ref sig .tc := ⟨.hbm, 185, rfl⟩
abbrev main_v130 : Ref sig .tc := ⟨.hbm, 186, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  concatenates_S32x200_S32x50_S32x250_d1 : Shape.Concatenates [S32x200, S32x50] S32x250 1
  transposes_S200x250_S250x200_1_0 : S200x250.Transposes [1, 0] S250x200
  bcast_S200_S1x200_1 : S200.BroadcastsInDim S1x200 (![1] : Fin 1 → Fin S1x200.rank)
  bcast_S1x200_S32x200_0_1 : S1x200.BroadcastsInDim S32x200 (![0, 1] : Fin 2 → Fin S32x200.rank)
  transposes_S200x200_S200x200_1_0 : S200x200.Transposes [1, 0] S200x200
  transposes_S200x50_S50x200_1_0 : S200x50.Transposes [1, 0] S50x200
  bcast_S_S32x200 : S_.BroadcastsInDim S32x200 (![] : Fin 0 → Fin S32x200.rank)
  concatenates_S30000x200_S30000x50_S30000x250_d1 : Shape.Concatenates [S30000x200, S30000x50] S30000x250 1
  bcast_S1x200_S30000x200_0_1 : S1x200.BroadcastsInDim S30000x200 (![0, 1] : Fin 2 → Fin S30000x200.rank)
  bcast_S_S30000x200 : S_.BroadcastsInDim S30000x200 (![] : Fin 0 → Fin S30000x200.rank)
  reducesTo_S32x30000_S32_d1 : S32x30000.ReducesTo [1] S32
  h_S_ : 0 < S_.numel
  bcast_S32x1_S32x200_0_1 : S32x1.BroadcastsInDim S32x200 (![0, 1] : Fin 2 → Fin S32x200.rank)
  bcast_S_S32x30000 : S_.BroadcastsInDim S32x30000 (![] : Fin 0 → Fin S32x30000.rank)
  reducesTo_S32x200_S32_d1 : S32x200.ReducesTo [1] S32
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S32x1_S32x32_0_1 : S32x1.BroadcastsInDim S32x32 (![0, 1] : Fin 2 → Fin S32x32.rank)
  bcast_S_S32x32 : S_.BroadcastsInDim S32x32 (![] : Fin 0 → Fin S32x32.rank)
  reducesTo_S32x32_S_d0_1 : S32x32.ReducesTo [0, 1] S_
  bcast_S32x200_S32x1x200_0_2 : S32x200.BroadcastsInDim S32x1x200 (![0, 2] : Fin 2 → Fin S32x1x200.rank)
  bcast_S30000x200_S1x30000x200_1_2 : S30000x200.BroadcastsInDim S1x30000x200 (![1, 2] : Fin 2 → Fin S1x30000x200.rank)
  bcast_S32x1x200_S32x30000x200_0_1_2 : S32x1x200.BroadcastsInDim S32x30000x200 (![0, 1, 2] : Fin 3 → Fin S32x30000x200.rank)
  bcast_S1x30000x200_S32x30000x200_0_1_2 : S1x30000x200.BroadcastsInDim S32x30000x200 (![0, 1, 2] : Fin 3 → Fin S32x30000x200.rank)
  reducesTo_S32x30000x200_S32x30000_d2 : S32x30000x200.ReducesTo [2] S32x30000
  gather_S30000x200_S32x1_S32x200_1_0_n_n_0_1_1200_wf : GatherDims.WF S30000x200 S32x1 S32x200 [1] [0] [] [0] [] 1 ![1, 200]
  gather_S30000x50_S32x1_S32x50_1_0_n_n_0_1_150_wf : GatherDims.WF S30000x50 S32x1 S32x50 [1] [0] [] [0] [] 1 ![1, 50]
  dot_S32x250_S250x200_S32x200_1_0_0_1_n_n_wf : DotDims.WF S32x250 S250x200 S32x200 [1] [0] [0] [1] [] []
  dot_S32x200_S200x200_S32x200_1_0_0_1_n_n_wf : DotDims.WF S32x200 S200x200 S32x200 [1] [0] [0] [1] [] []
  dot_S32x50_S50x200_S32x200_1_0_0_1_n_n_wf : DotDims.WF S32x50 S50x200 S32x200 [1] [0] [0] [1] [] []
  dot_S30000x250_S250x200_S30000x200_1_0_0_1_n_n_wf : DotDims.WF S30000x250 S250x200 S30000x200 [1] [0] [0] [1] [] []
  dot_S30000x200_S200x200_S30000x200_1_0_0_1_n_n_wf : DotDims.WF S30000x200 S200x200 S30000x200 [1] [0] [0] [1] [] []
  dot_S30000x50_S50x200_S30000x200_1_0_0_1_n_n_wf : DotDims.WF S30000x50 S50x200 S30000x200 [1] [0] [0] [1] [] []
  gather_S474x200_S32x1_S32x200_1_0_n_n_0_1_1200_wf : GatherDims.WF S474x200 S32x1 S32x200 [1] [0] [] [0] [] 1 ![1, 200]
  dot_S32x30000_S30000x200_S32x200_1_0_0_1_n_n_wf : DotDims.WF S32x30000 S30000x200 S32x200 [1] [0] [0] [1] [] []

variable [Facts₀]

def gather_S30000x200_S32x1_S32x200_1_0_n_n_0_1_1200 : GatherDims S30000x200 S32x1 S32x200 where
  offsetDims := [1]
  collapsedSliceDims := [0]
  operandBatchingDims := []
  startIndicesBatchingDims := []
  startIndexMap := [0]
  indexVectorDim := 1
  sliceSizes := ![1, 200]
  wf := gather_S30000x200_S32x1_S32x200_1_0_n_n_0_1_1200_wf
def gather_S30000x50_S32x1_S32x50_1_0_n_n_0_1_150 : GatherDims S30000x50 S32x1 S32x50 where
  offsetDims := [1]
  collapsedSliceDims := [0]
  operandBatchingDims := []
  startIndicesBatchingDims := []
  startIndexMap := [0]
  indexVectorDim := 1
  sliceSizes := ![1, 50]
  wf := gather_S30000x50_S32x1_S32x50_1_0_n_n_0_1_150_wf
def dot_S32x250_S250x200_S32x200_1_0_0_1_n_n : DotDims S32x250 S250x200 S32x200 where
  lhsContracting := [1]
  rhsContracting := [0]
  lhsNonContracting := [0]
  rhsNonContracting := [1]
  lhsBatch := []
  rhsBatch := []
  wf := dot_S32x250_S250x200_S32x200_1_0_0_1_n_n_wf
def dot_S32x200_S200x200_S32x200_1_0_0_1_n_n : DotDims S32x200 S200x200 S32x200 where
  lhsContracting := [1]
  rhsContracting := [0]
  lhsNonContracting := [0]
  rhsNonContracting := [1]
  lhsBatch := []
  rhsBatch := []
  wf := dot_S32x200_S200x200_S32x200_1_0_0_1_n_n_wf
def dot_S32x50_S50x200_S32x200_1_0_0_1_n_n : DotDims S32x50 S50x200 S32x200 where
  lhsContracting := [1]
  rhsContracting := [0]
  lhsNonContracting := [0]
  rhsNonContracting := [1]
  lhsBatch := []
  rhsBatch := []
  wf := dot_S32x50_S50x200_S32x200_1_0_0_1_n_n_wf
def dot_S30000x250_S250x200_S30000x200_1_0_0_1_n_n : DotDims S30000x250 S250x200 S30000x200 where
  lhsContracting := [1]
  rhsContracting := [0]
  lhsNonContracting := [0]
  rhsNonContracting := [1]
  lhsBatch := []
  rhsBatch := []
  wf := dot_S30000x250_S250x200_S30000x200_1_0_0_1_n_n_wf
def dot_S30000x200_S200x200_S30000x200_1_0_0_1_n_n : DotDims S30000x200 S200x200 S30000x200 where
  lhsContracting := [1]
  rhsContracting := [0]
  lhsNonContracting := [0]
  rhsNonContracting := [1]
  lhsBatch := []
  rhsBatch := []
  wf := dot_S30000x200_S200x200_S30000x200_1_0_0_1_n_n_wf
def dot_S30000x50_S50x200_S30000x200_1_0_0_1_n_n : DotDims S30000x50 S50x200 S30000x200 where
  lhsContracting := [1]
  rhsContracting := [0]
  lhsNonContracting := [0]
  rhsNonContracting := [1]
  lhsBatch := []
  rhsBatch := []
  wf := dot_S30000x50_S50x200_S30000x200_1_0_0_1_n_n_wf
def gather_S474x200_S32x1_S32x200_1_0_n_n_0_1_1200 : GatherDims S474x200 S32x1 S32x200 where
  offsetDims := [1]
  collapsedSliceDims := [0]
  operandBatchingDims := []
  startIndicesBatchingDims := []
  startIndexMap := [0]
  indexVectorDim := 1
  sliceSizes := ![1, 200]
  wf := gather_S474x200_S32x1_S32x200_1_0_n_n_0_1_1200_wf
def dot_S32x30000_S30000x200_S32x200_1_0_0_1_n_n : DotDims S32x30000 S30000x200 S32x200 where
  lhsContracting := [1]
  rhsContracting := [0]
  lhsNonContracting := [0]
  rhsNonContracting := [1]
  lhsBatch := []
  rhsBatch := []
  wf := dot_S32x30000_S30000x200_S32x200_1_0_0_1_n_n_wf

class Facts : Prop extends Facts₀ where

variable [Facts]
-- ==== Proof.LibTailOps.lean ====
import Idealize.ShloMosaic.Lib.Pipeline.FrameSuffix

/-!
# Straight lines of host operations that each write one buffer of their own

A stretch of host operations in which every operation allocates nothing and writes exactly one buffer, and that
buffer lies in a class `P` of references (for instance "declared at position eleven or later"), leaves every
reference outside `P` as it found it. The per-operation fact is stated so that it is closed by `rfl` and
`decide` on a literal operation, and a whole literal list by walking its cons cells once; what follows from it is
proved once, for any list and any length.
-/

namespace Cert.LibTailOps

open Idealize.ShloMosaic Idealize.ShloMosaic.StableHlo Idealize.ShloMosaic.TcCoe

variable {τ : Topo} {sig : RefSig} {Val : EltTy → Type}

/-- The operation allocates nothing and writes exactly one buffer, a TensorCore reference of class `P`. -/
def WritesOne (P : Ref sig .tc → Prop) (op : HloOp τ sig Val) : Prop :=
  op.fresh = ∅ ∧ ∃ y : Ref sig .tc, P y ∧ op.writes = {Proc.devRef .tc y}

/-- Such an operation writes no reference outside the class. -/
theorem WritesOne.not_mem {P : Ref sig .tc → Prop} {op : HloOp τ sig Val} (h : WritesOne P op)
    {r : Ref sig .tc} (hr : ¬ P r) : Proc.devRef (τ := τ) .tc r ∉ op.writes := by
  obtain ⟨-, y, hy, hw⟩ := h
  rw [hw, Finset.mem_singleton]
  intro e
  exact hr (Proc.devRef_injective _ e ▸ hy)

/-- A reference outside the class keeps its contents through a line of such operations. -/
theorem after_keeps {P : Ref sig .tc → Prop} (ops : List (HloOp τ sig Val)) (V : Valuation τ sig Val)
    (h : ops.Forall (WritesOne P)) {r : Ref sig .tc} (hr : ¬ P r) :
    after ops V (Proc.devRef .tc r) = V (Proc.devRef .tc r) :=
  after_of_forall_not_mem ops V fun op hop => ((List.forall_iff_forall_mem.mp h) op hop).not_mem hr

/-- Several lines, one after the other: every operation of every line has the property. -/
theorem forall_flatten {P : Ref sig .tc → Prop} :
    ∀ (opss : List (List (HloOp τ sig Val))), (opss.Forall fun ops => ops.Forall (WritesOne P)) →
      opss.flatten.Forall (WritesOne P) := by
  intro opss h
  rw [List.forall_iff_forall_mem] at h ⊢
  intro op hop
  obtain ⟨ops, hops, hop'⟩ := List.mem_flatten.mp hop
  exact (List.forall_iff_forall_mem.mp (h ops hops)) op hop'

/-- None of them allocates. -/
theorem fresh_of {P : Ref sig .tc → Prop} (opss : List (List (HloOp τ sig Val)))
    (h : opss.Forall fun ops => ops.Forall (WritesOne P)) :
    ∀ ops ∈ opss, ∀ op ∈ ops, op.fresh = ∅ := fun ops hops op hop =>
  ((List.forall_iff_forall_mem.mp ((List.forall_iff_forall_mem.mp h) ops hops)) op hop).1

/-- None of them writes a reference outside the class. -/
theorem keeps_of {P : Ref sig .tc → Prop} (opss : List (List (HloOp τ sig Val)))
    (h : opss.Forall fun ops => ops.Forall (WritesOne P)) {r : Ref sig .tc} (hr : ¬ P r) :
    ∀ ops ∈ opss, ∀ op ∈ ops, Proc.devRef (τ := τ) .tc r ∉ op.writes := fun ops hops op hop =>
  ((List.forall_iff_forall_mem.mp ((List.forall_iff_forall_mem.mp h) ops hops)) op hop).not_mem hr

/-- Walks a literal list of operations once, closing each operation's `WritesOne` by `rfl` (what it writes, what it
    allocates) and `decide` (the written reference's class). -/
macro "writes_one_each" : tactic =>
  `(tactic| repeat (first
      | exact ⟨rfl, _, by decide, rfl⟩
      | refine And.intro ⟨rfl, _, by decide, rfl⟩ ?_
      | exact True.intro))

end Cert.LibTailOps
-- ==== Proof.KB.Kit.lean ====
/-
  The kernel's program as printed around its one region: eleven stretches of host operations, the region, three
  stretches of host operations. This module fixes what the region finds (the launch memory after the earlier
  stretches), shows that the later stretches neither allocate nor write any array the region stages or any argument,
  reads every argument array back to its launch contents, and states, for an input window, that its current staging
  buffer holds the window's block at every grid point whether or not the block was fetched there.
-/
import proofs.«111044_j49203145342981_2_alg».proof.Proof.Gen.Kernel.Launch
import proofs.«111044_j49203145342981_2_alg».proof.Proof.Gen.Kernel.Skeleton
import proofs.«111044_j49203145342981_2_alg».proof.Proof.Gen.Kernel.Points
import proofs.«111044_j49203145342981_2_alg».proof.Proof.Gen.Kernel.Loops
import proofs.«111044_j49203145342981_2_alg».proof.Proof.LibTailOps
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen Cert.LibTailOps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Positions of the buffers -/

/-- A buffer declared after the thirteen arguments. -/
def AfterArgs (r : Ref sig .tc) : Prop := 12 < r.idx.val
instance : DecidablePred AfterArgs := fun r => Nat.decLt _ _

/-- A buffer declared after the region's five results, the last arrays the region stages. -/
def AfterRegion (r : Ref sig .tc) : Prop := 95 < r.idx.val
instance : DecidablePred AfterRegion := fun r => Nat.decLt _ _

/-- Every operation before the region allocates nothing and writes one buffer declared after the arguments. -/
theorem before_writes : ([hostOps0, hostOps0_1, hostOps0_2, hostOps0_3, hostOps0_4, hostOps0_5, hostOps0_6, hostOps0_7, hostOps0_8,
    hostOps0_9, hostOps0_10] : List (List (HloOp τ sig (Elt F)))).Forall fun ops => ops.Forall (WritesOne AfterArgs) := by
  refine ⟨?_, ?_, ?_, ?_, ?_, ?_, ?_, ?_, ?_, ?_, ?_⟩ <;> writes_one_each

/-- Every operation after the region allocates nothing and writes one buffer declared after the region's results. -/
theorem after_writes : ([hostOps1, hostOps1_1, hostOps1_2] : List (List (HloOp τ sig (Elt F)))).Forall
    fun ops => ops.Forall (WritesOne AfterRegion) := by
  refine ⟨?_, ?_, ?_⟩ <;> writes_one_each

/-! ## @main around the region -/

/-- Core `c`'s buffer contents when the region is entered: the launch memory after the eleven earlier stretches. -/
abbrev V0 (c : Dev nD) : Valuation τ sig (Elt F) :=
  StableHlo.after (List.flatten [hostOps0, hostOps0_1, hostOps0_2, hostOps0_3, hostOps0_4, hostOps0_5, hostOps0_6, hostOps0_7,
    hostOps0_8, hostOps0_9, hostOps0_10]) (fun b => m (c, b))
/-- The same read at a TensorCore reference. -/
abbrev V (c : Dev nD) (b : Ref sig .tc) : Buf (Elt F) ((c : Thread nD τ).loc b) := V0 m c (Proc.devRef .tc b)

/-- @main is the earlier stretches, the region, then the later stretches as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main
    [hostOps0, hostOps0_1, hostOps0_2, hostOps0_3, hostOps0_4, hostOps0_5, hostOps0_6, hostOps0_7, hostOps0_8, hostOps0_9, hostOps0_10]
    [hostOps1, hostOps1_1, hostOps1_2]
    ⟨hostOps0_sub, hostOps0_1_sub, hostOps0_2_sub, hostOps0_3_sub, hostOps0_4_sub, hostOps0_5_sub, hostOps0_6_sub, hostOps0_7_sub,
      hostOps0_8_sub, hostOps0_9_sub, hostOps0_10_sub⟩
    (List.forall_iff_forall_mem.mpr fun ops hops => List.forall_iff_forall_mem.mpr fun op hop =>
      fresh_of _ before_writes ops hops op hop)
    main_chain

/-- The later stretches touch only arrays of the region and buffers that bypass it. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ ([hostOps1, hostOps1_1, hostOps1_2] : List (List (HloOp τ sig (Elt F)))), ∀ op ∈ ops, op.fresh = ∅ :=
  fresh_of _ after_writes

/-- No array the region stages is declared after the region's results. -/
theorem arr_early : ∀ w : Fin 18, ¬ AfterRegion (Pipeline.arrRef spec0 w) := by decide

/-- And they write no array the region stages. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := fun ops hops op hop w =>
  keeps_of _ after_writes (arr_early w) ops hops op hop

/-! ## The arguments -/

/-- A buffer no earlier operation writes is, at the region's entry, as launched. -/
theorem V_early (c : Dev nD) (r : Ref sig .tc) (hr : ¬ AfterArgs r) : V m c r = m ((c : Thread nD τ).loc r) :=
  after_keeps _ _ (forall_flatten _ before_writes) hr

/-- A buffer that is no array of the region and that no operation at all writes ends as launched. -/
theorem W_early (dats : (p : Fin 1) → (c : Dev nD) → Dat τ (Elt F) Unit ℕ (UR sig nD τ) ℕ (cfgs p) c) (c : Dev nD)
    (r : Ref sig .tc) (hr : ¬ AfterArgs r) (hr' : ¬ AfterRegion r) (hne : ∀ w, Pipeline.arrRef spec0 w ≠ r) :
    Pipeline.afterTail₀ cfgs dats 0 (V0 m) [hostOps1, hostOps1_1, hostOps1_2] c r = m ((c : Thread nD τ).loc r) := by
  unfold Pipeline.afterTail₀
  rw [after_keeps _ _ (forall_flatten _ after_writes) hr', Pipeline.withArrays_of_ne _ c (V0 m c) _ r hne]
  exact V_early m c r hr

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, fetched there or not (when it is not
    fetched its index has not moved), for any proof data whose array is the region-entry one and whose body leaves the
    block in place. Stated once per input window: at a literal window the block's shape is a numeral. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's one condition -/

/-- The condition of the body's one conditional: the inner grid coordinate is zero. -/
abbrev cond0_0 (i : grid0.Coords) : Prop :=
  (Scalar.cmpi .ne (Scalar.extui (Scalar.cmpi .eq (BitVec.ofNat 32 (i 1).val) 0#32)) 0#32) = 1#1
/-- It holds at the first of each core's fifteen points. -/
theorem hcond0_0 : ∀ t : Fin cfg0.N, cond0_0 (grid0.coords t) ↔ t.val % 15 = 0 :=
  (by decide +kernel : ∀ t : Fin grid0.N, cond0_0 (grid0.coords t) ↔ t.val % 15 = 0)

/-! ## The staging memrefs the body is called with -/

abbrev VO0_13 : View sig .tc .vmem S32x1024 .f32 := (Memref.whole cc0_stg13_0 : Memref sig .tc .vmem S32x1024 .f32).view
abbrev VO0_14 : View sig .tc .vmem S1x32x200 .f32 := (Memref.whole cc0_stg14_0 : Memref sig .tc .vmem S1x32x200 .f32).view
abbrev VO0_15 : View sig .tc .vmem S1x32x1 .f32 := (Memref.whole cc0_stg15_0 : Memref sig .tc .vmem S1x32x1 .f32).view
abbrev VO0_16 : View sig .tc .vmem S1x32x200 .f32 := (Memref.whole cc0_stg16_0 : Memref sig .tc .vmem S1x32x200 .f32).view
abbrev VO0_17 : View sig .tc .vmem S1x32x1 .f32 := (Memref.whole cc0_stg17_0 : Memref sig .tc .vmem S1x32x1 .f32).view

end Cert.Kernel.Fr

end
-- ==== Proof.KB.RunA.lean ====
/-
  The kernel body at a grid point whose inner coordinate is zero (the first of a core's fifteen points): the four
  accumulators are reset to zero and then added to, the prediction tile is stored eight rows per loop trip. On whole
  staging buffers, the inputs' at their contents and the outputs' at anything, the body runs to its end, hands the inputs
  back as they were, and leaves in each output's buffer a list of stored pieces (last first) that the run itself finds.
-/
import proofs.«111044_j49203145342981_2_alg».proof.Proof.KB.Kit

set_option maxRecDepth 16384

noncomputable section

namespace Cert.Kernel.Fr

open Cert.Kernel Cert.Kernel.Gen Cert.LibTailOps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into each output's staging buffer in the reset case, with the run that finds them. -/
noncomputable def kernelRun0_A (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i)
    (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) :
    Σ' (L13 : List (View.Piece (Elt F) S32x1024 .f32)) (L14 : List (View.Piece (Elt F) S1x32x200 .f32)) (L15 : List (View.Piece (Elt F) S1x32x1 .f32)) (L16 : List (View.Piece (Elt F) S1x32x200 .f32)), { L17 : List (View.Piece (Elt F) S1x32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
            ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
                ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    iexists _; iexact H17

end Cert.Kernel.Fr

end
-- ==== Proof.KB.RunB.lean ====
/-
  The kernel body at a grid point whose inner coordinate is not zero: the four accumulators are read as the point
  before left them and added to, the prediction tile is stored eight rows per loop trip. On whole staging buffers, the
  inputs' at their contents, the accumulators' at their running contents and the prediction tile's at anything, the body
  runs to its end, hands the inputs back as they were, and leaves in each output's buffer the pieces the run finds.
-/
import proofs.«111044_j49203145342981_2_alg».proof.Proof.KB.RunA

set_option maxRecDepth 16384

noncomputable section

namespace Cert.Kernel.Fr

open Cert.Kernel Cert.Kernel.Gen Cert.LibTailOps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into each output's staging buffer in the accumulating case, with the run that finds them. -/
noncomputable def kernelRun0_B (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i)
    (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) :
    Σ' (L13 : List (View.Piece (Elt F) S32x1024 .f32)) (L14 : List (View.Piece (Elt F) S1x32x200 .f32)) (L15 : List (View.Piece (Elt F) S1x32x1 .f32)) (L16 : List (View.Piece (Elt F) S1x32x200 .f32)), { L17 : List (View.Piece (Elt F) S1x32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
            ∗ (∃ d, owns (c : Thread nD τ) arg15 fullShare d) ∗ owns (c : Thread nD τ) arg16 fullShare xo14 ∗ owns (c : Thread nD τ) arg17 fullShare xo15 ∗ owns (c : Thread nD τ) arg18 fullShare xo16 ∗ owns (c : Thread nD τ) arg19 fullShare xo17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
                ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%f16, %hf16, H16⟩, ⟨%f17, %hf17, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    obtain rfl := harg16.eq_unread hf14; obtain rfl := harg17.eq_unread hf15; obtain rfl := harg18.eq_unread hf16; obtain rfl := harg19.eq_unread hf17
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    iexists _; iexact H17

end Cert.Kernel.Fr

end
-- ==== Proof.KB.Frame.lean ====
/-
  The frame of the kernel's program as printed. Per case of the body's one conditional, the pieces the body stores into an
  output's staging buffer tile that buffer, so the buffer ends at the pieces read back. Point by point along the grid
  the five outputs' buffers hold: at the first of a core's fifteen points what the reset case leaves; at a later one
  what the accumulating case leaves over what the point before left in the four accumulators, which are not written
  back in between. With every input window's buffer at its block, this gives the body's obligation at every point, the
  run of the whole program around the region, and the frame: every argument array ends as launched.
-/
import proofs.«111044_j49203145342981_2_alg».proof.Proof.KB.RunB

set_option maxRecDepth 16384

noncomputable section

namespace Cert.Kernel.Fr

open Cert.Kernel Cert.Kernel.Gen Cert.LibTailOps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0_0 (t : Fin cfg0.N) : Memref sig .tc .vmem S32x200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x200 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x200 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x50 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x1024 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x200 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S50x200 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S200 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S200x200 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S50x200 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S200 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x32x200 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x32x1 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x32x200 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x32x1 .f32 := win0_17.stage (cfg0.slots t 17)
abbrev hs0_17 (t : Fin cfg0.N) : (ms0_17 t).IsWhole := hstage0_17 ((cfg0.slots t 17).cast nbuf0_17)

/-! ## What each case leaves in each output's buffer -/

theorem cover0_A_13 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (y : S32x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).1 S8x1024.size (by sl_kernel_rfl) y
theorem cover0_A_14 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (y : S1x32x200.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.1 S1x32x200.size (by sl_kernel_rfl) y
theorem cover0_A_15 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (y : S1x32x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.1 S1x32x1.size (by sl_kernel_rfl) y
theorem cover0_A_16 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (y : S1x32x200.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.1 S1x32x200.size (by sl_kernel_rfl) y
theorem cover0_A_17 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (y : S1x32x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.1 S1x32x1.size (by sl_kernel_rfl) y

theorem cover0_B_13 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) (y : S32x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).1 S8x1024.size (by sl_kernel_rfl) y
theorem cover0_B_14 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) (y : S1x32x200.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.1 S1x32x200.size (by sl_kernel_rfl) y
theorem cover0_B_15 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) (y : S1x32x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.1 S1x32x1.size (by sl_kernel_rfl) y
theorem cover0_B_16 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) (y : S1x32x200.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.2.1 S1x32x200.size (by sl_kernel_rfl) y
theorem cover0_B_17 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) (y : S1x32x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.2.2.1 S1x32x1.size (by sl_kernel_rfl) y

/-- The five outputs' buffers: the prediction tile and the four accumulators. -/
abbrev Outs (F : FTy → Type) [FloatOps F] : Type :=
  Vec F S32x1024 .f32 × Vec F S1x32x200 .f32 × Vec F S1x32x1 .f32 × Vec F S1x32x200 .f32 × Vec F S1x32x1 .f32

/-- What the reset case leaves in the five buffers: its pieces read back over junk. -/
def out0_A (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) : Outs F :=
  (VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).1),
   VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.1),
   VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.1),
   VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.1),
   VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.1))

/-- What the accumulating case leaves in the five buffers, over the accumulators' running contents. -/
def out0_B (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) : Outs F :=
  (VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).1),
   VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.1),
   VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.1),
   VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.2.1),
   VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.2.2.1))

/-- The reset case at point `t`: at the point's memrefs and input blocks. -/
def outA (c : Dev nD) (t : Fin cfg0.N) (h : t.val % 15 = 0) : Outs F :=
  out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The accumulating case at point `t`, over what the point before left. -/
def outB (c : Dev nD) (t : Fin cfg0.N) (h : ¬t.val % 15 = 0) (p : Outs F) : Outs F :=
  out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun hc => h ((hcond0_0 t).mp hc)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.2.1 p.2.2.1 p.2.2.2.1 p.2.2.2.2

/-! ## What the outputs hold after each point -/

/-- The accumulation along the grid. -/
def outsAt0 (c : Dev nD) : (n : ℕ) → n < cfg0.N → Outs F
  | 0, hn => outA m c ⟨0, hn⟩ (Nat.zero_mod _)
  | n + 1, hn =>
    if h0 : (n + 1) % 15 = 0 then outA m c ⟨n + 1, hn⟩ h0
    else outB m c ⟨n + 1, hn⟩ h0 (outsAt0 c n (Nat.lt_of_succ_lt hn))

theorem outsAt0_A (c : Dev nD) (t : Fin cfg0.N) (h0 : t.val % 15 = 0) : outsAt0 m c t.val t.isLt = outA m c t h0 := by
  obtain ⟨n, hn⟩ := t
  cases n with
  | zero => exact rfl
  | succ n => exact (dif_pos h0).trans rfl

theorem outsAt0_B (c : Dev nD) (t : Fin cfg0.N) (h0 : ¬t.val % 15 = 0) :
    outsAt0 m c t.val t.isLt = outB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body at point `t` each input's buffer at its block and the outputs'
    at the accumulation; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨17, _⟩ => (outsAt0 m c t.val t.isLt).2.2.2.2
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]
theorem after0_16 (c : Dev nD) (t : Fin cfg0.N) : (dats m 0 c).after 16 t = (outsAt0 m c t.val t.isLt).2.2.2.1 := by dsimp only [dats]
theorem after0_17 (c : Dev nD) (t : Fin cfg0.N) : (dats m 0 c).after 17 t = (outsAt0 m c t.val t.isLt).2.2.2.2 := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d

/-- At a point whose inner coordinate is not zero an accumulator's buffer holds what the body left at the point before:
    the point is not the first, and the buffer was not written back in between. -/
theorem before0_14_B (c : Dev nD) (t : Fin cfg0.N) (h0 : ¬t.val % 15 = 0) (d) :
    (dats m 0 c).before 14 t d = (outsAt0 m c (t.val - 1) (Nat.lt_of_le_of_lt (Nat.sub_le _ _) t.isLt)).2.1 := by
  have hN : t.val < 30 := lt_of_lt_of_eq t.isLt (show cfg0.N = 30 from N_0)
  rw [Dat.before_out_kept _ 14 rfl t (by omega) (Bool.eq_false_iff.mpr fun h => by have := (flush0_14 _).mp h; dsimp only at this; omega)
    (fun _ => rfl) (fun _ _ => rfl)]
  dsimp only [dats]
theorem before0_15_B (c : Dev nD) (t : Fin cfg0.N) (h0 : ¬t.val % 15 = 0) (d) :
    (dats m 0 c).before 15 t d = (outsAt0 m c (t.val - 1) (Nat.lt_of_le_of_lt (Nat.sub_le _ _) t.isLt)).2.2.1 := by
  have hN : t.val < 30 := lt_of_lt_of_eq t.isLt (show cfg0.N = 30 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_16_B (c : Dev nD) (t : Fin cfg0.N) (h0 : ¬t.val % 15 = 0) (d) :
    (dats m 0 c).before 16 t d = (outsAt0 m c (t.val - 1) (Nat.lt_of_le_of_lt (Nat.sub_le _ _) t.isLt)).2.2.2.1 := by
  have hN : t.val < 30 := lt_of_lt_of_eq t.isLt (show cfg0.N = 30 from N_0)
  rw [Dat.before_out_kept _ 16 rfl t (by omega) (Bool.eq_false_iff.mpr fun h => by have := (flush0_16 _).mp h; dsimp only at this; omega)
    (fun _ => rfl) (fun _ _ => rfl)]
  dsimp only [dats]
theorem before0_17_B (c : Dev nD) (t : Fin cfg0.N) (h0 : ¬t.val % 15 = 0) (d) :
    (dats m 0 c).before 17 t d = (outsAt0 m c (t.val - 1) (Nat.lt_of_le_of_lt (Nat.sub_le _ _) t.isLt)).2.2.2.2 := by
  have hN : t.val < 30 := lt_of_lt_of_eq t.isLt (show cfg0.N = 30 from N_0)
  rw [Dat.before_out_kept _ 17 rfl t (by omega) (Bool.eq_false_iff.mpr fun h => by have := (flush0_17 _).mp h; dsimp only at this; omega)
    (fun _ => rfl) (fun _ _ => rfl)]
  dsimp only [dats]

/-! ## The body's obligation at a point -/

/-- What the body is called with at point `t`: the invariant, nothing owed, every window's current buffer at what it
    holds before the body. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- And what it returns: every window's buffer at what the proof data says the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 4000000 in
/-- The body at any point: the inputs' buffers hold their blocks; the point's inner coordinate says which case it is
    in; in the accumulating case the accumulators' buffers hold what the point before left; so that case's run
    applies, and each output's buffer ends at its pieces read back because they cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10,
    before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12,
    after0_13, after0_14, after0_15, after0_16, after0_17]
  have hN : t.val < 30 := lt_of_lt_of_eq t.isLt (show cfg0.N = 30 from N_0)
  by_cases h0 : t.val % 15 = 0
  · rw [outsAt0_A m c t h0]
    unfold outA out0_A
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    iintro ⟨H0, H1, H2, H3, H4, H5, H6, H7, H8, H9, H10, H11, H12, ⟨%e13, H13⟩, ⟨%e14, H14⟩, ⟨%e15, H15⟩, ⟨%e16, H16⟩, ⟨%e17, H17⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _)
  · rw [outsAt0_B m c t h0]
    simp only [before0_14_B m c t h0, before0_15_B m c t h0, before0_16_B m c t h0, before0_17_B m c t h0]
    unfold outB out0_B
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    isplitl [H15]; · iexact H15
    isplitl [H16]; · iexact H16
    isplitl [H17]; · iexact H17
    iintro ⟨H0, H1, H2, H3, H4, H5, H6, H7, H8, H9, H10, H11, H12, ⟨%e13, H13⟩, ⟨%e14, H14⟩, ⟨%e15, H15⟩, ⟨%e16, H16⟩, ⟨%e17, H17⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H17
    ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, nothing faulting; every array of the region ends at what the
    proof data computes, and every other unscoped buffer at what the later stretches make of the region's exit. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- An argument no window stages ends as launched. -/
theorem arg_bypass (r : Ref sig .tc) (hs : r.isScoped = false) (ha : ∀ w, (spec0 w).arr.view.ref ≠ r) (hne : ∀ w, Pipeline.arrRef spec0 w ≠ r)
    (hr : ¬ AfterArgs r) (hr' : ¬ AfterRegion r) (res : PUnit × MemSt nD τ sig (Elt F))
    (h : Pipeline.FramePost cfgs (dats m) 0 (Pipeline.afterTail₀ cfgs (dats m) 0 (V0 m) [hostOps1, hostOps1_1, hostOps1_2]) res) (c : Dev nD) :
    res.2.mem ((c.tc : Thread nD τ).loc r) = m ((c.tc : Thread nD τ).loc r) :=
  ((h c).2 r (Pipeline.mem_restRefs_of r hs ha)).trans (W_early m (dats m) c r hr hr' hne)

/-- The frame at any float instance: every argument array ends as launched. The two biases are staged by windows 9 and
    12 and read back through their arrays; the other eleven arguments bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun res h c =>
    ⟨arg_bypass m main_arg0 (by decide) (by decide) (by decide) (by decide) (by decide) res h c,
     arg_bypass m main_arg1 (by decide) (by decide) (by decide) (by decide) (by decide) res h c,
     arg_bypass m main_arg2 (by decide) (by decide) (by decide) (by decide) (by decide) res h c,
     arg_bypass m main_arg3 (by decide) (by decide) (by decide) (by decide) (by decide) res h c,
     arg_bypass m main_arg4 (by decide) (by decide) (by decide) (by decide) (by decide) res h c,
     arg_bypass m main_arg5 (by decide) (by decide) (by decide) (by decide) (by decide) res h c,
     arg_bypass m main_arg6 (by decide) (by decide) (by decide) (by decide) (by decide) res h c,
     ((h c).1 9).trans (((dats m 0 c).arrAt_in 9 rfl _).trans ((A_eq m c 9).trans (V_early m c main_arg7 (by decide)))),
     arg_bypass m main_arg8 (by decide) (by decide) (by decide) (by decide) (by decide) res h c,
     arg_bypass m main_arg9 (by decide) (by decide) (by decide) (by decide) (by decide) res h c,
     ((h c).1 12).trans (((dats m 0 c).arrAt_in 12 rfl _).trans ((A_eq m c 12).trans (V_early m c main_arg10 (by decide)))),
     arg_bypass m main_arg11 (by decide) (by decide) (by decide) (by decide) (by decide) res h c,
     arg_bypass m main_arg12 (by decide) (by decide) (by decide) (by decide) (by decide) res h c⟩) (run_main m ρ)

end Cert.Kernel.Fr

end
-- ==== Proof.KI.Kit.lean ====
/-
  The idealized kernel's program around its one region: eleven stretches of host operations, the region, three
  stretches of host operations. This module fixes what the region finds (the launch memory after the earlier
  stretches), shows that the later stretches neither allocate nor write any array the region stages or any argument,
  reads every argument array back to its launch contents, and states, for an input window, that its current staging
  buffer holds the window's block at every grid point whether or not the block was fetched there.
-/
import proofs.«111044_j49203145342981_2_alg».proof.Proof.Gen.KernelIdeal.Launch
import proofs.«111044_j49203145342981_2_alg».proof.Proof.Gen.KernelIdeal.Skeleton
import proofs.«111044_j49203145342981_2_alg».proof.Proof.Gen.KernelIdeal.Points
import proofs.«111044_j49203145342981_2_alg».proof.Proof.Gen.KernelIdeal.Loops
import proofs.«111044_j49203145342981_2_alg».proof.Proof.LibTailOps
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.LibTailOps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Positions of the buffers -/

/-- A buffer declared after the thirteen arguments. -/
def AfterArgs (r : Ref sig .tc) : Prop := 12 < r.idx.val
instance : DecidablePred AfterArgs := fun r => Nat.decLt _ _

/-- A buffer declared after the region's five results, the last arrays the region stages. -/
def AfterRegion (r : Ref sig .tc) : Prop := 95 < r.idx.val
instance : DecidablePred AfterRegion := fun r => Nat.decLt _ _

/-- Every operation before the region allocates nothing and writes one buffer declared after the arguments. -/
theorem before_writes : ([hostOps0, hostOps0_1, hostOps0_2, hostOps0_3, hostOps0_4, hostOps0_5, hostOps0_6, hostOps0_7, hostOps0_8,
    hostOps0_9, hostOps0_10] : List (List (HloOp τ sig (Elt F)))).Forall fun ops => ops.Forall (WritesOne AfterArgs) := by
  refine ⟨?_, ?_, ?_, ?_, ?_, ?_, ?_, ?_, ?_, ?_, ?_⟩ <;> writes_one_each

/-- Every operation after the region allocates nothing and writes one buffer declared after the region's results. -/
theorem after_writes : ([hostOps1, hostOps1_1, hostOps1_2] : List (List (HloOp τ sig (Elt F)))).Forall
    fun ops => ops.Forall (WritesOne AfterRegion) := by
  refine ⟨?_, ?_, ?_⟩ <;> writes_one_each

/-! ## @main around the region -/

/-- Core `c`'s buffer contents when the region is entered: the launch memory after the eleven earlier stretches. -/
abbrev V0 (c : Dev nD) : Valuation τ sig (Elt F) :=
  StableHlo.after (List.flatten [hostOps0, hostOps0_1, hostOps0_2, hostOps0_3, hostOps0_4, hostOps0_5, hostOps0_6, hostOps0_7,
    hostOps0_8, hostOps0_9, hostOps0_10]) (fun b => m (c, b))
/-- The same read at a TensorCore reference. -/
abbrev V (c : Dev nD) (b : Ref sig .tc) : Buf (Elt F) ((c : Thread nD τ).loc b) := V0 m c (Proc.devRef .tc b)

/-- @main is the earlier stretches, the region, then the later stretches as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main
    [hostOps0, hostOps0_1, hostOps0_2, hostOps0_3, hostOps0_4, hostOps0_5, hostOps0_6, hostOps0_7, hostOps0_8, hostOps0_9, hostOps0_10]
    [hostOps1, hostOps1_1, hostOps1_2]
    ⟨hostOps0_sub, hostOps0_1_sub, hostOps0_2_sub, hostOps0_3_sub, hostOps0_4_sub, hostOps0_5_sub, hostOps0_6_sub, hostOps0_7_sub,
      hostOps0_8_sub, hostOps0_9_sub, hostOps0_10_sub⟩
    (List.forall_iff_forall_mem.mpr fun ops hops => List.forall_iff_forall_mem.mpr fun op hop =>
      fresh_of _ before_writes ops hops op hop)
    main_chain

/-- The later stretches touch only arrays of the region and buffers that bypass it. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ ([hostOps1, hostOps1_1, hostOps1_2] : List (List (HloOp τ sig (Elt F)))), ∀ op ∈ ops, op.fresh = ∅ :=
  fresh_of _ after_writes

/-- No array the region stages is declared after the region's results. -/
theorem arr_early : ∀ w : Fin 18, ¬ AfterRegion (Pipeline.arrRef spec0 w) := by decide

/-- And they write no array the region stages. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := fun ops hops op hop w =>
  keeps_of _ after_writes (arr_early w) ops hops op hop

/-! ## The arguments -/

/-- A buffer no earlier operation writes is, at the region's entry, as launched. -/
theorem V_early (c : Dev nD) (r : Ref sig .tc) (hr : ¬ AfterArgs r) : V m c r = m ((c : Thread nD τ).loc r) :=
  after_keeps _ _ (forall_flatten _ before_writes) hr

/-- A buffer that is no array of the region and that no operation at all writes ends as launched. -/
theorem W_early (dats : (p : Fin 1) → (c : Dev nD) → Dat τ (Elt F) Unit ℕ (UR sig nD τ) ℕ (cfgs p) c) (c : Dev nD)
    (r : Ref sig .tc) (hr : ¬ AfterArgs r) (hr' : ¬ AfterRegion r) (hne : ∀ w, Pipeline.arrRef spec0 w ≠ r) :
    Pipeline.afterTail₀ cfgs dats 0 (V0 m) [hostOps1, hostOps1_1, hostOps1_2] c r = m ((c : Thread nD τ).loc r) := by
  unfold Pipeline.afterTail₀
  rw [after_keeps _ _ (forall_flatten _ after_writes) hr', Pipeline.withArrays_of_ne _ c (V0 m c) _ r hne]
  exact V_early m c r hr

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, fetched there or not (when it is not
    fetched its index has not moved), for any proof data whose array is the region-entry one and whose body leaves the
    block in place. Stated once per input window: at a literal window the block's shape is a numeral. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's one condition -/

/-- The condition of the body's one conditional: the inner grid coordinate is zero. -/
abbrev cond0_0 (i : grid0.Coords) : Prop :=
  (Scalar.cmpi .ne (Scalar.extui (Scalar.cmpi .eq (BitVec.ofNat 32 (i 1).val) 0#32)) 0#32) = 1#1
/-- It holds at the first of each core's fifteen points. -/
theorem hcond0_0 : ∀ t : Fin cfg0.N, cond0_0 (grid0.coords t) ↔ t.val % 15 = 0 :=
  (by decide +kernel : ∀ t : Fin grid0.N, cond0_0 (grid0.coords t) ↔ t.val % 15 = 0)

/-! ## The staging memrefs the body is called with -/

abbrev VO0_13 : View sig .tc .vmem S32x1024 .f32 := (Memref.whole cc0_stg13_0 : Memref sig .tc .vmem S32x1024 .f32).view
abbrev VO0_14 : View sig .tc .vmem S1x32x200 .f32 := (Memref.whole cc0_stg14_0 : Memref sig .tc .vmem S1x32x200 .f32).view
abbrev VO0_15 : View sig .tc .vmem S1x32x1 .f32 := (Memref.whole cc0_stg15_0 : Memref sig .tc .vmem S1x32x1 .f32).view
abbrev VO0_16 : View sig .tc .vmem S1x32x200 .f32 := (Memref.whole cc0_stg16_0 : Memref sig .tc .vmem S1x32x200 .f32).view
abbrev VO0_17 : View sig .tc .vmem S1x32x1 .f32 := (Memref.whole cc0_stg17_0 : Memref sig .tc .vmem S1x32x1 .f32).view

end Cert.KernelIdeal.Fr

end
-- ==== Proof.KI.RunA.lean ====
/-
  The kernel body at a grid point whose inner coordinate is zero (the first of a core's fifteen points): the four
  accumulators are reset to zero and then added to, the prediction tile is stored eight rows per loop trip. On whole
  staging buffers, the inputs' at their contents and the outputs' at anything, the body runs to its end, hands the inputs
  back as they were, and leaves in each output's buffer a list of stored pieces (last first) that the run itself finds.
-/
import proofs.«111044_j49203145342981_2_alg».proof.Proof.KI.Kit

set_option maxRecDepth 16384

noncomputable section

namespace Cert.KernelIdeal.Fr

open Cert.KernelIdeal Cert.KernelIdeal.Gen Cert.LibTailOps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into each output's staging buffer in the reset case, with the run that finds them. -/
noncomputable def kernelRun0_A (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i)
    (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) :
    Σ' (L13 : List (View.Piece (Elt F) S32x1024 .f32)) (L14 : List (View.Piece (Elt F) S1x32x200 .f32)) (L15 : List (View.Piece (Elt F) S1x32x1 .f32)) (L16 : List (View.Piece (Elt F) S1x32x200 .f32)), { L17 : List (View.Piece (Elt F) S1x32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
            ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
                ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    iexists _; iexact H17

end Cert.KernelIdeal.Fr

end
-- ==== Proof.KI.RunB.lean ====
/-
  The kernel body at a grid point whose inner coordinate is not zero: the four accumulators are read as the point
  before left them and added to, the prediction tile is stored eight rows per loop trip. On whole staging buffers, the
  inputs' at their contents, the accumulators' at their running contents and the prediction tile's at anything, the body
  runs to its end, hands the inputs back as they were, and leaves in each output's buffer the pieces the run finds.
-/
import proofs.«111044_j49203145342981_2_alg».proof.Proof.KI.RunA

set_option maxRecDepth 16384

noncomputable section

namespace Cert.KernelIdeal.Fr

open Cert.KernelIdeal Cert.KernelIdeal.Gen Cert.LibTailOps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into each output's staging buffer in the accumulating case, with the run that finds them. -/
noncomputable def kernelRun0_B (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i)
    (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) :
    Σ' (L13 : List (View.Piece (Elt F) S32x1024 .f32)) (L14 : List (View.Piece (Elt F) S1x32x200 .f32)) (L15 : List (View.Piece (Elt F) S1x32x1 .f32)) (L16 : List (View.Piece (Elt F) S1x32x200 .f32)), { L17 : List (View.Piece (Elt F) S1x32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
            ∗ (∃ d, owns (c : Thread nD τ) arg15 fullShare d) ∗ owns (c : Thread nD τ) arg16 fullShare xo14 ∗ owns (c : Thread nD τ) arg17 fullShare xo15 ∗ owns (c : Thread nD τ) arg18 fullShare xo16 ∗ owns (c : Thread nD τ) arg19 fullShare xo17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
                ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%f16, %hf16, H16⟩, ⟨%f17, %hf17, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    obtain rfl := harg16.eq_unread hf14; obtain rfl := harg17.eq_unread hf15; obtain rfl := harg18.eq_unread hf16; obtain rfl := harg19.eq_unread hf17
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    iexists _; iexact H17

end Cert.KernelIdeal.Fr

end
-- ==== Proof.KI.Frame.lean ====
/-
  The frame of the idealized kernel's program. Per case of the body's one conditional, the pieces the body stores into an
  output's staging buffer tile that buffer, so the buffer ends at the pieces read back. Point by point along the grid
  the five outputs' buffers hold: at the first of a core's fifteen points what the reset case leaves; at a later one
  what the accumulating case leaves over what the point before left in the four accumulators, which are not written
  back in between. With every input window's buffer at its block, this gives the body's obligation at every point, the
  run of the whole program around the region, and the frame: every argument array ends as launched.
-/
import proofs.«111044_j49203145342981_2_alg».proof.Proof.KI.RunB

set_option maxRecDepth 16384

noncomputable section

namespace Cert.KernelIdeal.Fr

open Cert.KernelIdeal Cert.KernelIdeal.Gen Cert.LibTailOps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0_0 (t : Fin cfg0.N) : Memref sig .tc .vmem S32x200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x200 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x200 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x50 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x1024 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x200 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S50x200 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S200 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S200x200 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S50x200 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S200 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x32x200 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x32x1 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x32x200 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x32x1 .f32 := win0_17.stage (cfg0.slots t 17)
abbrev hs0_17 (t : Fin cfg0.N) : (ms0_17 t).IsWhole := hstage0_17 ((cfg0.slots t 17).cast nbuf0_17)

/-! ## What each case leaves in each output's buffer -/

theorem cover0_A_13 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (y : S32x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).1 S8x1024.size (by sl_kernel_rfl) y
theorem cover0_A_14 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (y : S1x32x200.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.1 S1x32x200.size (by sl_kernel_rfl) y
theorem cover0_A_15 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (y : S1x32x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.1 S1x32x1.size (by sl_kernel_rfl) y
theorem cover0_A_16 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (y : S1x32x200.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.1 S1x32x200.size (by sl_kernel_rfl) y
theorem cover0_A_17 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (y : S1x32x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.1 S1x32x1.size (by sl_kernel_rfl) y

theorem cover0_B_13 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) (y : S32x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).1 S8x1024.size (by sl_kernel_rfl) y
theorem cover0_B_14 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) (y : S1x32x200.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.1 S1x32x200.size (by sl_kernel_rfl) y
theorem cover0_B_15 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) (y : S1x32x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.1 S1x32x1.size (by sl_kernel_rfl) y
theorem cover0_B_16 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) (y : S1x32x200.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.2.1 S1x32x200.size (by sl_kernel_rfl) y
theorem cover0_B_17 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) (y : S1x32x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.2.2.1 S1x32x1.size (by sl_kernel_rfl) y

/-- The five outputs' buffers: the prediction tile and the four accumulators. -/
abbrev Outs (F : FTy → Type) [FloatOps F] : Type :=
  Vec F S32x1024 .f32 × Vec F S1x32x200 .f32 × Vec F S1x32x1 .f32 × Vec F S1x32x200 .f32 × Vec F S1x32x1 .f32

/-- What the reset case leaves in the five buffers: its pieces read back over junk. -/
def out0_A (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) : Outs F :=
  (VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).1),
   VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.1),
   VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.1),
   VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.1),
   VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.1))

/-- What the accumulating case leaves in the five buffers, over the accumulators' running contents. -/
def out0_B (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) : Outs F :=
  (VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).1),
   VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.1),
   VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.1),
   VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.2.1),
   VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.2.2.1))

/-- The reset case at point `t`: at the point's memrefs and input blocks. -/
def outA (c : Dev nD) (t : Fin cfg0.N) (h : t.val % 15 = 0) : Outs F :=
  out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The accumulating case at point `t`, over what the point before left. -/
def outB (c : Dev nD) (t : Fin cfg0.N) (h : ¬t.val % 15 = 0) (p : Outs F) : Outs F :=
  out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun hc => h ((hcond0_0 t).mp hc)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.2.1 p.2.2.1 p.2.2.2.1 p.2.2.2.2

/-! ## What the outputs hold after each point -/

/-- The accumulation along the grid. -/
def outsAt0 (c : Dev nD) : (n : ℕ) → n < cfg0.N → Outs F
  | 0, hn => outA m c ⟨0, hn⟩ (Nat.zero_mod _)
  | n + 1, hn =>
    if h0 : (n + 1) % 15 = 0 then outA m c ⟨n + 1, hn⟩ h0
    else outB m c ⟨n + 1, hn⟩ h0 (outsAt0 c n (Nat.lt_of_succ_lt hn))

theorem outsAt0_A (c : Dev nD) (t : Fin cfg0.N) (h0 : t.val % 15 = 0) : outsAt0 m c t.val t.isLt = outA m c t h0 := by
  obtain ⟨n, hn⟩ := t
  cases n with
  | zero => exact rfl
  | succ n => exact (dif_pos h0).trans rfl

theorem outsAt0_B (c : Dev nD) (t : Fin cfg0.N) (h0 : ¬t.val % 15 = 0) :
    outsAt0 m c t.val t.isLt = outB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body at point `t` each input's buffer at its block and the outputs'
    at the accumulation; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨17, _⟩ => (outsAt0 m c t.val t.isLt).2.2.2.2
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]
theorem after0_16 (c : Dev nD) (t : Fin cfg0.N) : (dats m 0 c).after 16 t = (outsAt0 m c t.val t.isLt).2.2.2.1 := by dsimp only [dats]
theorem after0_17 (c : Dev nD) (t : Fin cfg0.N) : (dats m 0 c).after 17 t = (outsAt0 m c t.val t.isLt).2.2.2.2 := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d

/-- At a point whose inner coordinate is not zero an accumulator's buffer holds what the body left at the point before:
    the point is not the first, and the buffer was not written back in between. -/
theorem before0_14_B (c : Dev nD) (t : Fin cfg0.N) (h0 : ¬t.val % 15 = 0) (d) :
    (dats m 0 c).before 14 t d = (outsAt0 m c (t.val - 1) (Nat.lt_of_le_of_lt (Nat.sub_le _ _) t.isLt)).2.1 := by
  have hN : t.val < 30 := lt_of_lt_of_eq t.isLt (show cfg0.N = 30 from N_0)
  rw [Dat.before_out_kept _ 14 rfl t (by omega) (Bool.eq_false_iff.mpr fun h => by have := (flush0_14 _).mp h; dsimp only at this; omega)
    (fun _ => rfl) (fun _ _ => rfl)]
  dsimp only [dats]
theorem before0_15_B (c : Dev nD) (t : Fin cfg0.N) (h0 : ¬t.val % 15 = 0) (d) :
    (dats m 0 c).before 15 t d = (outsAt0 m c (t.val - 1) (Nat.lt_of_le_of_lt (Nat.sub_le _ _) t.isLt)).2.2.1 := by
  have hN : t.val < 30 := lt_of_lt_of_eq t.isLt (show cfg0.N = 30 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_16_B (c : Dev nD) (t : Fin cfg0.N) (h0 : ¬t.val % 15 = 0) (d) :
    (dats m 0 c).before 16 t d = (outsAt0 m c (t.val - 1) (Nat.lt_of_le_of_lt (Nat.sub_le _ _) t.isLt)).2.2.2.1 := by
  have hN : t.val < 30 := lt_of_lt_of_eq t.isLt (show cfg0.N = 30 from N_0)
  rw [Dat.before_out_kept _ 16 rfl t (by omega) (Bool.eq_false_iff.mpr fun h => by have := (flush0_16 _).mp h; dsimp only at this; omega)
    (fun _ => rfl) (fun _ _ => rfl)]
  dsimp only [dats]
theorem before0_17_B (c : Dev nD) (t : Fin cfg0.N) (h0 : ¬t.val % 15 = 0) (d) :
    (dats m 0 c).before 17 t d = (outsAt0 m c (t.val - 1) (Nat.lt_of_le_of_lt (Nat.sub_le _ _) t.isLt)).2.2.2.2 := by
  have hN : t.val < 30 := lt_of_lt_of_eq t.isLt (show cfg0.N = 30 from N_0)
  rw [Dat.before_out_kept _ 17 rfl t (by omega) (Bool.eq_false_iff.mpr fun h => by have := (flush0_17 _).mp h; dsimp only at this; omega)
    (fun _ => rfl) (fun _ _ => rfl)]
  dsimp only [dats]

/-! ## The body's obligation at a point -/

/-- What the body is called with at point `t`: the invariant, nothing owed, every window's current buffer at what it
    holds before the body. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- And what it returns: every window's buffer at what the proof data says the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 4000000 in
/-- The body at any point: the inputs' buffers hold their blocks; the point's inner coordinate says which case it is
    in; in the accumulating case the accumulators' buffers hold what the point before left; so that case's run
    applies, and each output's buffer ends at its pieces read back because they cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10,
    before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12,
    after0_13, after0_14, after0_15, after0_16, after0_17]
  have hN : t.val < 30 := lt_of_lt_of_eq t.isLt (show cfg0.N = 30 from N_0)
  by_cases h0 : t.val % 15 = 0
  · rw [outsAt0_A m c t h0]
    unfold outA out0_A
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    iintro ⟨H0, H1, H2, H3, H4, H5, H6, H7, H8, H9, H10, H11, H12, ⟨%e13, H13⟩, ⟨%e14, H14⟩, ⟨%e15, H15⟩, ⟨%e16, H16⟩, ⟨%e17, H17⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _)
  · rw [outsAt0_B m c t h0]
    simp only [before0_14_B m c t h0, before0_15_B m c t h0, before0_16_B m c t h0, before0_17_B m c t h0]
    unfold outB out0_B
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    isplitl [H15]; · iexact H15
    isplitl [H16]; · iexact H16
    isplitl [H17]; · iexact H17
    iintro ⟨H0, H1, H2, H3, H4, H5, H6, H7, H8, H9, H10, H11, H12, ⟨%e13, H13⟩, ⟨%e14, H14⟩, ⟨%e15, H15⟩, ⟨%e16, H16⟩, ⟨%e17, H17⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H17
    ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, nothing faulting; every array of the region ends at what the
    proof data computes, and every other unscoped buffer at what the later stretches make of the region's exit. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- An argument no window stages ends as launched. -/
theorem arg_bypass (r : Ref sig .tc) (hs : r.isScoped = false) (ha : ∀ w, (spec0 w).arr.view.ref ≠ r) (hne : ∀ w, Pipeline.arrRef spec0 w ≠ r)
    (hr : ¬ AfterArgs r) (hr' : ¬ AfterRegion r) (res : PUnit × MemSt nD τ sig (Elt F))
    (h : Pipeline.FramePost cfgs (dats m) 0 (Pipeline.afterTail₀ cfgs (dats m) 0 (V0 m) [hostOps1, hostOps1_1, hostOps1_2]) res) (c : Dev nD) :
    res.2.mem ((c.tc : Thread nD τ).loc r) = m ((c.tc : Thread nD τ).loc r) :=
  ((h c).2 r (Pipeline.mem_restRefs_of r hs ha)).trans (W_early m (dats m) c r hr hr' hne)

/-- The frame at any float instance: every argument array ends as launched. The two biases are staged by windows 9 and
    12 and read back through their arrays; the other eleven arguments bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun res h c =>
    ⟨arg_bypass m main_arg0 (by decide) (by decide) (by decide) (by decide) (by decide) res h c,
     arg_bypass m main_arg1 (by decide) (by decide) (by decide) (by decide) (by decide) res h c,
     arg_bypass m main_arg2 (by decide) (by decide) (by decide) (by decide) (by decide) res h c,
     arg_bypass m main_arg3 (by decide) (by decide) (by decide) (by decide) (by decide) res h c,
     arg_bypass m main_arg4 (by decide) (by decide) (by decide) (by decide) (by decide) res h c,
     arg_bypass m main_arg5 (by decide) (by decide) (by decide) (by decide) (by decide) res h c,
     arg_bypass m main_arg6 (by decide) (by decide) (by decide) (by decide) (by decide) res h c,
     ((h c).1 9).trans (((dats m 0 c).arrAt_in 9 rfl _).trans ((A_eq m c 9).trans (V_early m c main_arg7 (by decide)))),
     arg_bypass m main_arg8 (by decide) (by decide) (by decide) (by decide) (by decide) res h c,
     arg_bypass m main_arg9 (by decide) (by decide) (by decide) (by decide) (by decide) res h c,
     ((h c).1 12).trans (((dats m 0 c).arrAt_in 12 rfl _).trans ((A_eq m c 12).trans (V_early m c main_arg10 (by decide)))),
     arg_bypass m main_arg11 (by decide) (by decide) (by decide) (by decide) (by decide) res h c,
     arg_bypass m main_arg12 (by decide) (by decide) (by decide) (by decide) (by decide) res h c⟩) (run_main m ρ)

end Cert.KernelIdeal.Fr

end
-- ==== Proof.RefOpsTable.lean ====
/- The reference program's @main as the list of its 174 host operations, in program order: each statement's
   operation term as printed; the statements of the one function @main calls, and of the function that one calls,
   stand in the call's place over the call's buffer records. -/
import proofs.«111044_j49203145342981_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 174 operations, in order. -/
abbrev ops : List (HloOp τ sig (Elt F)) :=
  [ StableHlo.unary main_arg2 main_v0 (sitofp .f32 : (⟨S32x30000, .i32⟩ : BufTy).Contents (Elt F) → (⟨S32x30000, .f32⟩ : BufTy).Contents (Elt F)),
    StableHlo.nullary main_c (constantI S_ 32 0#32),
    StableHlo.unary main_c main_v1 (broadcastInDim S32 ![] bcast_S_S32 : (⟨S_, .i32⟩ : BufTy).Contents (Elt F) → (⟨S32, .i32⟩ : BufTy).Contents (Elt F)),
    StableHlo.binary main_arg0 main_v1 main_v2 (cmpi .slt : (⟨S32, .i32⟩ : BufTy).Contents (Elt F) → (⟨S32, .i32⟩ : BufTy).Contents (Elt F) → (⟨S32, .i1⟩ : BufTy).Contents (Elt F)),
    StableHlo.nullary main_c_0 (constantI S_ 32 30000#32),
    StableHlo.unary main_c_0 main_v3 (broadcastInDim S32 ![] bcast_S_S32 : (⟨S_, .i32⟩ : BufTy).Contents (Elt F) → (⟨S32, .i32⟩ : BufTy).Contents (Elt F)),
    StableHlo.binary main_arg0 main_v3 main_v4 (addi : (⟨S32, .i32⟩ : BufTy).Contents (Elt F) → (⟨S32, .i32⟩ : BufTy).Contents (Elt F) → (⟨S32, .i32⟩ : BufTy).Contents (Elt F)),
    StableHlo.ternary main_v2 main_v4 main_arg0 main_v5 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v5 main_v6 (broadcastInDim S32x1 ![0] bcast_S32_S32x1_0 : (⟨S32, .i32⟩ : BufTy).Contents (Elt F) → (⟨S32x1, .i32⟩ : BufTy).Contents (Elt F)),
    StableHlo.binary main_arg3 main_v6 main_v7 ((fun x i => Host.gather gather_S30000x200_S32x1_S32x200_1_0_n_n_0_1_1200 x i) : (⟨S30000x200, .f32⟩ : BufTy).Contents (Elt F) → (⟨S32x1, .i32⟩ : BufTy).Contents (Elt F) → (⟨S32x200, .f32⟩ : BufTy).Contents (Elt F)),
    StableHlo.nullary main_c_1 (constantI S_ 32 0#32),
    StableHlo.unary main_c_1 main_v8 (broadcastInDim S32 ![] bcast_S_S32 : (⟨S_, .i32⟩ : BufTy).Contents (Elt F) → (⟨S32, .i32⟩ : BufTy).Contents (Elt F)),
    StableHlo.binary main_arg0 main_v8 main_v9 (cmpi .slt : (⟨S32, .i32⟩ : BufTy).Contents (Elt F) → (⟨S32, .i32⟩ : BufTy).Contents (Elt F) → (⟨S32, .i1⟩ : BufTy).Contents (Elt F)),
    StableHlo.nullary main_c_2 (constantI S_ 32 30000#32),
    StableHlo.unary main_c_2 main_v10 (broadcastInDim S32 ![] bcast_S_S32 : (⟨S_, .i32⟩ : BufTy).Contents (Elt F) → (⟨S32, .i32⟩ : BufTy).Contents (Elt F)),
    StableHlo.binary main_arg0 main_v10 main_v11 (addi : (⟨S32, .i32⟩ : BufTy).Contents (Elt F) → (⟨S32, .i32⟩ : BufTy).Contents (Elt F) → (⟨S32, .i32⟩ : BufTy).Contents (Elt F)),
    StableHlo.ternary main_v9 main_v11 main_arg0 main_v12 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v12 main_v13 (broadcastInDim S32x1 ![0] bcast_S32_S32x1_0 : (⟨S32, .i32⟩ : BufTy).Contents (Elt F) → (⟨S32x1, .i32⟩ : BufTy).Contents (Elt F)),
    StableHlo.binary main_arg5 main_v13 main_v14 ((fun x i => Host.gather gather_S30000x50_S32x1_S32x50_1_0_n_n_0_1_150 x i) : (⟨S30000x50, .f32⟩ : BufTy).Contents (Elt F) → (⟨S32x1, .i32⟩ : BufTy).Contents (Elt F) → (⟨S32x50, .f32⟩ : BufTy).Contents (Elt F)),
    StableHlo.binary main_v7 main_v14 main_v15 ((fun a b => concatenate S32x250 1 [⟨S32x200, a⟩, ⟨S32x50, b⟩] concatenates_S32x200_S32x50_S32x250_d1) : (⟨S32x200, .f32⟩ : BufTy).Contents (Elt F) → (⟨S32x50, .f32⟩ : BufTy).Contents (Elt F) → (⟨S32x250, .f32⟩ : BufTy).Contents (Elt F)),
    StableHlo.unary main_arg6 main_v16 ((transpose S250x200 [1, 0] · transposes_S200x250_S250x200_1_0) : (⟨S200x250, .f32⟩ : BufTy).Contents (Elt F) → (⟨S250x200, .f32⟩ : BufTy).Contents (Elt F)),
    StableHlo.binary main_v15 main_v16 main_v17 ((fun l r => Host.dotGeneral dot_S32x250_S250x200_S32x200_1_0_0_1_n_n none l r) : (⟨S32x250, .f32⟩ : BufTy).Contents (Elt F) → (⟨S250x200, .f32⟩ : BufTy).Contents (Elt F) → (⟨S32x200, .f32⟩ : BufTy).Contents (Elt F)),
    StableHlo.unary main_arg7 main_v18 (broadcastInDim S1x200 ![1] bcast_S200_S1x200_1 : (⟨S200, .f32⟩ : BufTy).Contents (Elt F) → (⟨S1x200, .f32⟩ : BufTy).Contents (Elt F)),
    StableHlo.unary main_v18 main_v19 (broadcastInDim S32x200 ![0, 1] bcast_S1x200_S32x200_0_1 : (⟨S1x200, .f32⟩ : BufTy).Contents (Elt F) → (⟨S32x200, .f32⟩ : BufTy).Contents (Elt F)),
    StableHlo.binary main_v17 main_v19 main_v20 (addf : (⟨S32x200, .f32⟩ : BufTy).Contents (Elt F) → (⟨S32x200, .f32⟩ : BufTy).Contents (Elt F) → (⟨S32x200, .f32⟩ : BufTy).Contents (Elt F)),
    StableHlo.unary main_v20 main_v21 (Host.tanh : (⟨S32x200, .f32⟩ : BufTy).Contents (Elt F) → (⟨S32x200, .f32⟩ : BufTy).Contents (Elt F)),
    StableHlo.unary main_arg8 main_v22 ((transpose S200x200 [1, 0] · transposes_S200x200_S200x200_1_0) : (⟨S200x200, .f32⟩ : BufTy).Contents (Elt F) → (⟨S200x200, .f32⟩ : BufTy).Contents (Elt F)),
    StableHlo.binary main_v7 main_v22 main_v23 ((fun l r => Host.dotGeneral dot_S32x200_S200x200_S32x200_1_0_0_1_n_n none l r) : (⟨S32x200, .f32⟩ : BufTy).Contents (Elt F) → (⟨S200x200, .f32⟩ : BufTy).Contents (Elt F) → (⟨S32x200, .f32⟩ : BufTy).Contents (Elt F)),
    StableHlo.unary main_arg9 main_v24 ((transpose S50x200 [1, 0] · transposes_S200x50_S50x200_1_0) : (⟨S200x50, .f32⟩ : BufTy).Contents (Elt F) → (⟨S50x200, .f32⟩ : BufTy).Contents (Elt F)),
    StableHlo.binary main_v14 main_v24 main_v25 ((fun l r => Host.dotGeneral dot_S32x50_S50x200_S32x200_1_0_0_1_n_n none l r) : (⟨S32x50, .f32⟩ : BufTy).Contents (Elt F) → (⟨S50x200, .f32⟩ : BufTy).Contents (Elt F) → (⟨S32x200, .f32⟩ : BufTy).Contents (Elt F)),
    StableHlo.binary main_v23 main_v25 main_v26 (addf : (⟨S32x200, .f32⟩ : BufTy).Contents (Elt F) → (⟨S32x200, .f32⟩ : BufTy).Contents (Elt F) → (⟨S32x200, .f32⟩ : BufTy).Contents (Elt F)),
    StableHlo.unary main_arg10 main_v27 (broadcastInDim S1x200 ![1] bcast_S200_S1x200_1 : (⟨S200, .f32⟩ : BufTy).Contents (Elt F) → (⟨S1x200, .f32⟩ : BufTy).Contents (Elt F)),
    StableHlo.unary main_v27 main_v28 (broadcastInDim S32x200 ![0, 1] bcast_S1x200_S32x200_0_1 : (⟨S1x200, .f32⟩ : BufTy).Contents (Elt F) → (⟨S32x200, .f32⟩ : BufTy).Contents (Elt F)),
    StableHlo.binary main_v26 main_v28 main_v29 (addf : (⟨S32x200, .f32⟩ : BufTy).Contents (Elt F) → (⟨S32x200, .f32⟩ : BufTy).Contents (Elt F) → (⟨S32x200, .f32⟩ : BufTy).Contents (Elt F)),
    StableHlo.unary main_v29 main_v30 (Host.negf : (⟨S32x200, .f32⟩ : BufTy).Contents (Elt F) → (⟨S32x200, .f32⟩ : BufTy).Contents (Elt F)),
    StableHlo.unary main_v30 main_v31 (Host.exp : (⟨S32x200, .f32⟩ : BufTy).Contents (Elt F) → (⟨S32x200, .f32⟩ : BufTy).Contents (Elt F)),
    StableHlo.nullary main_cst (constant S_ .f32 0x3F800000#32),
    StableHlo.unary main_cst main_v32 (broadcastInDim S32x200 ![] bcast_S_S32x200 : (⟨S_, .f32⟩ : BufTy).Contents (Elt F) → (⟨S32x200, .f32⟩ : BufTy).Contents (Elt F)),
    StableHlo.binary main_v32 main_v31 main_v33 (addf : (⟨S32x200, .f32⟩ : BufTy).Contents (Elt F) → (⟨S32x200, .f32⟩ : BufTy).Contents (Elt F) → (⟨S32x200, .f32⟩ : BufTy).Contents (Elt F)),
    StableHlo.nullary main_cst_3 (constant S_ .f32 0x3F800000#32),
    StableHlo.unary main_cst_3 main_v34 (broadcastInDim S32x200 ![] bcast_S_S32x200 : (⟨S_, .f32⟩ : BufTy).Contents (Elt F) → (⟨S32x200, .f32⟩ : BufTy).Contents (Elt F)),
    StableHlo.binary main_v34 main_v33 main_v35 (Host.divf : (⟨S32x200, .f32⟩ : BufTy).Contents (Elt F) → (⟨S32x200, .f32⟩ : BufTy).Contents (Elt F) → (⟨S32x200, .f32⟩ : BufTy).Contents (Elt F)),
    StableHlo.nullary main_cst_4 (constant S_ .f32 0x3F800000#32),
    StableHlo.unary main_cst_4 main_v36 (broadcastInDim S32x200 ![] bcast_S_S32x200 : (⟨S_, .f32⟩ : BufTy).Contents (Elt F) → (⟨S32x200, .f32⟩ : BufTy).Contents (Elt F)),
    StableHlo.binary main_v36 main_v35 main_v37 (subf : (⟨S32x200, .f32⟩ : BufTy).Contents (Elt F) → (⟨S32x200, .f32⟩ : BufTy).Contents (Elt F) → (⟨S32x200, .f32⟩ : BufTy).Contents (Elt F)),
    StableHlo.binary main_v37 main_v7 main_v38 (mulf : (⟨S32x200, .f32⟩ : BufTy).Contents (Elt F) → (⟨S32x200, .f32⟩ : BufTy).Contents (Elt F) → (⟨S32x200, .f32⟩ : BufTy).Contents (Elt F)),
    StableHlo.binary main_v35 main_v21 main_v39 (mulf : (⟨S32x200, .f32⟩ : BufTy).Contents (Elt F) → (⟨S32x200, .f32⟩ : BufTy).Contents (Elt F) → (⟨S32x200, .f32⟩ : BufTy).Contents (Elt F)),
    StableHlo.binary main_v38 main_v39 main_v40 (addf : (⟨S32x200, .f32⟩ : BufTy).Contents (Elt F) → (⟨S32x200, .f32⟩ : BufTy).Contents (Elt F) → (⟨S32x200, .f32⟩ : BufTy).Contents (Elt F)),
    StableHlo.binary main_arg3 main_arg5 main_v41 ((fun a b => concatenate S30000x250 1 [⟨S30000x200, a⟩, ⟨S30000x50, b⟩] concatenates_S30000x200_S30000x50_S30000x250_d1) : (⟨S30000x200, .f32⟩ : BufTy).Contents (Elt F) → (⟨S30000x50, .f32⟩ : BufTy).Contents (Elt F) → (⟨S30000x250, .f32⟩ : BufTy).Contents (Elt F)),
    StableHlo.unary main_arg6 main_v42 ((transpose S250x200 [1, 0] · transposes_S200x250_S250x200_1_0) : (⟨S200x250, .f32⟩ : BufTy).Contents (Elt F) → (⟨S250x200, .f32⟩ : BufTy).Contents (Elt F)),
    StableHlo.binary main_v41 main_v42 main_v43 ((fun l r => Host.dotGeneral dot_S30000x250_S250x200_S30000x200_1_0_0_1_n_n none l r) : (⟨S30000x250, .f32⟩ : BufTy).Contents (Elt F) → (⟨S250x200, .f32⟩ : BufTy).Contents (Elt F) → (⟨S30000x200, .f32⟩ : BufTy).Contents (Elt F)),
    StableHlo.unary main_arg7 main_v44 (broadcastInDim S1x200 ![1] bcast_S200_S1x200_1 : (⟨S200, .f32⟩ : BufTy).Contents (Elt F) → (⟨S1x200, .f32⟩ : BufTy).Contents (Elt F)),
    StableHlo.unary main_v44 main_v45 (broadcastInDim S30000x200 ![0, 1] bcast_S1x200_S30000x200_0_1 : (⟨S1x200, .f32⟩ : BufTy).Contents (Elt F) → (⟨S30000x200, .f32⟩ : BufTy).Contents (Elt F)),
    StableHlo.binary main_v43 main_v45 main_v46 (addf : (⟨S30000x200, .f32⟩ : BufTy).Contents (Elt F) → (⟨S30000x200, .f32⟩ : BufTy).Contents (Elt F) → (⟨S30000x200, .f32⟩ : BufTy).Contents (Elt F)),
    StableHlo.unary main_v46 main_v47 (Host.tanh : (⟨S30000x200, .f32⟩ : BufTy).Contents (Elt F) → (⟨S30000x200, .f32⟩ : BufTy).Contents (Elt F)),
    StableHlo.unary main_arg8 main_v48 ((transpose S200x200 [1, 0] · transposes_S200x200_S200x200_1_0) : (⟨S200x200, .f32⟩ : BufTy).Contents (Elt F) → (⟨S200x200, .f32⟩ : BufTy).Contents (Elt F)),
    StableHlo.binary main_arg3 main_v48 main_v49 ((fun l r => Host.dotGeneral dot_S30000x200_S200x200_S30000x200_1_0_0_1_n_n none l r) : (⟨S30000x200, .f32⟩ : BufTy).Contents (Elt F) → (⟨S200x200, .f32⟩ : BufTy).Contents (Elt F) → (⟨S30000x200, .f32⟩ : BufTy).Contents (Elt F)),
    StableHlo.unary main_arg9 main_v50 ((transpose S50x200 [1, 0] · transposes_S200x50_S50x200_1_0) : (⟨S200x50, .f32⟩ : BufTy).Contents (Elt F) → (⟨S50x200, .f32⟩ : BufTy).Contents (Elt F)),
    StableHlo.binary main_arg5 main_v50 main_v51 ((fun l r => Host.dotGeneral dot_S30000x50_S50x200_S30000x200_1_0_0_1_n_n none l r) : (⟨S30000x50, .f32⟩ : BufTy).Contents (Elt F) → (⟨S50x200, .f32⟩ : BufTy).Contents (Elt F) → (⟨S30000x200, .f32⟩ : BufTy).Contents (Elt F)),
    StableHlo.binary main_v49 main_v51 main_v52 (addf : (⟨S30000x200, .f32⟩ : BufTy).Contents (Elt F) → (⟨S30000x200, .f32⟩ : BufTy).Contents (Elt F) → (⟨S30000x200, .f32⟩ : BufTy).Contents (Elt F)),
    StableHlo.unary main_arg10 main_v53 (broadcastInDim S1x200 ![1] bcast_S200_S1x200_1 : (⟨S200, .f32⟩ : BufTy).Contents (Elt F) → (⟨S1x200, .f32⟩ : BufTy).Contents (Elt F)),
    StableHlo.unary main_v53 main_v54 (broadcastInDim S30000x200 ![0, 1] bcast_S1x200_S30000x200_0_1 : (⟨S1x200, .f32⟩ : BufTy).Contents (Elt F) → (⟨S30000x200, .f32⟩ : BufTy).Contents (Elt F)),
    StableHlo.binary main_v52 main_v54 main_v55 (addf : (⟨S30000x200, .f32⟩ : BufTy).Contents (Elt F) → (⟨S30000x200, .f32⟩ : BufTy).Contents (Elt F) → (⟨S30000x200, .f32⟩ : BufTy).Contents (Elt F)),
    StableHlo.unary main_v55 main_v56 (Host.negf : (⟨S30000x200, .f32⟩ : BufTy).Contents (Elt F) → (⟨S30000x200, .f32⟩ : BufTy).Contents (Elt F)),
    StableHlo.unary main_v56 main_v57 (Host.exp : (⟨S30000x200, .f32⟩ : BufTy).Contents (Elt F) → (⟨S30000x200, .f32⟩ : BufTy).Contents (Elt F)),
    StableHlo.nullary main_cst_5 (constant S_ .f32 0x3F800000#32),
    StableHlo.unary main_cst_5 main_v58 (broadcastInDim S30000x200 ![] bcast_S_S30000x200 : (⟨S_, .f32⟩ : BufTy).Contents (Elt F) → (⟨S30000x200, .f32⟩ : BufTy).Contents (Elt F)),
    StableHlo.binary main_v58 main_v57 main_v59 (addf : (⟨S30000x200, .f32⟩ : BufTy).Contents (Elt F) → (⟨S30000x200, .f32⟩ : BufTy).Contents (Elt F) → (⟨S30000x200, .f32⟩ : BufTy).Contents (Elt F)),
    StableHlo.nullary main_cst_6 (constant S_ .f32 0x3F800000#32),
    StableHlo.unary main_cst_6 main_v60 (broadcastInDim S30000x200 ![] bcast_S_S30000x200 : (⟨S_, .f32⟩ : BufTy).Contents (Elt F) → (⟨S30000x200, .f32⟩ : BufTy).Contents (Elt F)),
    StableHlo.binary main_v60 main_v59 main_v61 (Host.divf : (⟨S30000x200, .f32⟩ : BufTy).Contents (Elt F) → (⟨S30000x200, .f32⟩ : BufTy).Contents (Elt F) → (⟨S30000x200, .f32⟩ : BufTy).Contents (Elt F)),
    StableHlo.nullary main_cst_7 (constant S_ .f32 0x3F800000#32),
    StableHlo.unary main_cst_7 main_v62 (broadcastInDim S30000x200 ![] bcast_S_S30000x200 : (⟨S_, .f32⟩ : BufTy).Contents (Elt F) → (⟨S30000x200, .f32⟩ : BufTy).Contents (Elt F)),
    StableHlo.binary main_v62 main_v61 main_v63 (subf : (⟨S30000x200, .f32⟩ : BufTy).Contents (Elt F) → (⟨S30000x200, .f32⟩ : BufTy).Contents (Elt F) → (⟨S30000x200, .f32⟩ : BufTy).Contents (Elt F)),
    StableHlo.binary main_v63 main_arg3 main_v64 (mulf : (⟨S30000x200, .f32⟩ : BufTy).Contents (Elt F) → (⟨S30000x200, .f32⟩ : BufTy).Contents (Elt F) → (⟨S30000x200, .f32⟩ : BufTy).Contents (Elt F)),
    StableHlo.binary main_v61 main_v47 main_v65 (mulf : (⟨S30000x200, .f32⟩ : BufTy).Contents (Elt F) → (⟨S30000x200, .f32⟩ : BufTy).Contents (Elt F) → (⟨S30000x200, .f32⟩ : BufTy).Contents (Elt F)),
    StableHlo.binary main_v64 main_v65 main_v66 (addf : (⟨S30000x200, .f32⟩ : BufTy).Contents (Elt F) → (⟨S30000x200, .f32⟩ : BufTy).Contents (Elt F) → (⟨S30000x200, .f32⟩ : BufTy).Contents (Elt F)),
    StableHlo.nullary main_c_8 (constantI S_ 32 0#32),
    StableHlo.unary main_c_8 main_v67 (broadcastInDim S32 ![] bcast_S_S32 : (⟨S_, .i32⟩ : BufTy).Contents (Elt F) → (⟨S32, .i32⟩ : BufTy).Contents (Elt F)),
    StableHlo.binary main_arg1 main_v67 main_v68 (cmpi .slt : (⟨S32, .i32⟩ : BufTy).Contents (Elt F) → (⟨S32, .i32⟩ : BufTy).Contents (Elt F) → (⟨S32, .i1⟩ : BufTy).Contents (Elt F)),
    StableHlo.nullary main_c_9 (constantI S_ 32 474#32),
    StableHlo.unary main_c_9 main_v69 (broadcastInDim S32 ![] bcast_S_S32 : (⟨S_, .i32⟩ : BufTy).Contents (Elt F) → (⟨S32, .i32⟩ : BufTy).Contents (Elt F)),
    StableHlo.binary main_arg1 main_v69 main_v70 (addi : (⟨S32, .i32⟩ : BufTy).Contents (Elt F) → (⟨S32, .i32⟩ : BufTy).Contents (Elt F) → (⟨S32, .i32⟩ : BufTy).Contents (Elt F)),
    StableHlo.ternary main_v68 main_v70 main_arg1 main_v71 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v71 main_v72 (broadcastInDim S32x1 ![0] bcast_S32_S32x1_0 : (⟨S32, .i32⟩ : BufTy).Contents (Elt F) → (⟨S32x1, .i32⟩ : BufTy).Contents (Elt F)),
    StableHlo.binary main_arg4 main_v72 main_v73 ((fun x i => Host.gather gather_S474x200_S32x1_S32x200_1_0_n_n_0_1_1200 x i) : (⟨S474x200, .f32⟩ : BufTy).Contents (Elt F) → (⟨S32x1, .i32⟩ : BufTy).Contents (Elt F) → (⟨S32x200, .f32⟩ : BufTy).Contents (Elt F)),
    StableHlo.binary main_v0 main_arg11 main_v74 (mulf : (⟨S32x30000, .f32⟩ : BufTy).Contents (Elt F) → (⟨S32x30000, .f32⟩ : BufTy).Contents (Elt F) → (⟨S32x30000, .f32⟩ : BufTy).Contents (Elt F)),
    StableHlo.binary main_v74 main_v66 main_v75 ((fun l r => Host.dotGeneral dot_S32x30000_S30000x200_S32x200_1_0_0_1_n_n none l r) : (⟨S32x30000, .f32⟩ : BufTy).Contents (Elt F) → (⟨S30000x200, .f32⟩ : BufTy).Contents (Elt F) → (⟨S32x200, .f32⟩ : BufTy).Contents (Elt F)),
    StableHlo.nullary main_cst_10 (constant S_ .f32 0x00000000#32),
    StableHlo.binary main_v74 main_cst_10 main_v76 ((fun x v => Host.reduceAdd x v reducesTo_S32x30000_S32_d1 h_S_) : (⟨S32x30000, .f32⟩ : BufTy).Contents (Elt F) → (⟨S_, .f32⟩ : BufTy).Contents (Elt F) → (⟨S32, .f32⟩ : BufTy).Contents (Elt F)),
    StableHlo.unary main_v76 main_v77 (broadcastInDim S32x1 ![0] bcast_S32_S32x1_0 : (⟨S32, .f32⟩ : BufTy).Contents (Elt F) → (⟨S32x1, .f32⟩ : BufTy).Contents (Elt F)),
    StableHlo.unary main_v77 main_v78 (broadcastInDim S32x200 ![0, 1] bcast_S32x1_S32x200_0_1 : (⟨S32x1, .f32⟩ : BufTy).Contents (Elt F) → (⟨S32x200, .f32⟩ : BufTy).Contents (Elt F)),
    StableHlo.binary main_v75 main_v78 main_v79 (Host.divf : (⟨S32x200, .f32⟩ : BufTy).Contents (Elt F) → (⟨S32x200, .f32⟩ : BufTy).Contents (Elt F) → (⟨S32x200, .f32⟩ : BufTy).Contents (Elt F)),
    StableHlo.nullary main_cst_11 (constant S_ .f32 0x3E99999A#32),
    StableHlo.unary main_cst_11 main_v80 (broadcastInDim S32x200 ![] bcast_S_S32x200 : (⟨S_, .f32⟩ : BufTy).Contents (Elt F) → (⟨S32x200, .f32⟩ : BufTy).Contents (Elt F)),
    StableHlo.binary main_v80 main_v79 main_v81 (mulf : (⟨S32x200, .f32⟩ : BufTy).Contents (Elt F) → (⟨S32x200, .f32⟩ : BufTy).Contents (Elt F) → (⟨S32x200, .f32⟩ : BufTy).Contents (Elt F)),
    StableHlo.nullary main_cst_12 (constant S_ .f32 0x3F333333#32),
    StableHlo.unary main_cst_12 main_v82 (broadcastInDim S32x200 ![] bcast_S_S32x200 : (⟨S_, .f32⟩ : BufTy).Contents (Elt F) → (⟨S32x200, .f32⟩ : BufTy).Contents (Elt F)),
    StableHlo.binary main_v82 main_v40 main_v83 (mulf : (⟨S32x200, .f32⟩ : BufTy).Contents (Elt F) → (⟨S32x200, .f32⟩ : BufTy).Contents (Elt F) → (⟨S32x200, .f32⟩ : BufTy).Contents (Elt F)),
    StableHlo.binary main_v81 main_v83 main_v84 (addf : (⟨S32x200, .f32⟩ : BufTy).Contents (Elt F) → (⟨S32x200, .f32⟩ : BufTy).Contents (Elt F) → (⟨S32x200, .f32⟩ : BufTy).Contents (Elt F)),
    StableHlo.nullary main_cst_13 (constant S_ .f32 0x3F800000#32),
    StableHlo.unary main_cst_13 main_v85 (broadcastInDim S32x30000 ![] bcast_S_S32x30000 : (⟨S_, .f32⟩ : BufTy).Contents (Elt F) → (⟨S32x30000, .f32⟩ : BufTy).Contents (Elt F)),
    StableHlo.binary main_v85 main_v0 main_v86 (subf : (⟨S32x30000, .f32⟩ : BufTy).Contents (Elt F) → (⟨S32x30000, .f32⟩ : BufTy).Contents (Elt F) → (⟨S32x30000, .f32⟩ : BufTy).Contents (Elt F)),
    StableHlo.binary main_v86 main_arg12 main_v87 (mulf : (⟨S32x30000, .f32⟩ : BufTy).Contents (Elt F) → (⟨S32x30000, .f32⟩ : BufTy).Contents (Elt F) → (⟨S32x30000, .f32⟩ : BufTy).Contents (Elt F)),
    StableHlo.nullary main_cst_14 (constant S_ .f32 0x40000000#32),
    StableHlo.unary main_cst_14 main_v88 (broadcastInDim S32x30000 ![] bcast_S_S32x30000 : (⟨S_, .f32⟩ : BufTy).Contents (Elt F) → (⟨S32x30000, .f32⟩ : BufTy).Contents (Elt F)),
    StableHlo.binary main_v87 main_v88 main_v89 (mulf : (⟨S32x30000, .f32⟩ : BufTy).Contents (Elt F) → (⟨S32x30000, .f32⟩ : BufTy).Contents (Elt F) → (⟨S32x30000, .f32⟩ : BufTy).Contents (Elt F)),
    StableHlo.binary main_v89 main_v66 main_v90 ((fun l r => Host.dotGeneral dot_S32x30000_S30000x200_S32x200_1_0_0_1_n_n none l r) : (⟨S32x30000, .f32⟩ : BufTy).Contents (Elt F) → (⟨S30000x200, .f32⟩ : BufTy).Contents (Elt F) → (⟨S32x200, .f32⟩ : BufTy).Contents (Elt F)),
    StableHlo.nullary main_cst_15 (constant S_ .f32 0x00000000#32),
    StableHlo.binary main_v86 main_cst_15 main_v91 ((fun x v => Host.reduceAdd x v reducesTo_S32x30000_S32_d1 h_S_) : (⟨S32x30000, .f32⟩ : BufTy).Contents (Elt F) → (⟨S_, .f32⟩ : BufTy).Contents (Elt F) → (⟨S32, .f32⟩ : BufTy).Contents (Elt F)),
    StableHlo.unary main_v91 main_v92 (broadcastInDim S32x1 ![0] bcast_S32_S32x1_0 : (⟨S32, .f32⟩ : BufTy).Contents (Elt F) → (⟨S32x1, .f32⟩ : BufTy).Contents (Elt F)),
    StableHlo.unary main_v92 main_v93 (broadcastInDim S32x200 ![0, 1] bcast_S32x1_S32x200_0_1 : (⟨S32x1, .f32⟩ : BufTy).Contents (Elt F) → (⟨S32x200, .f32⟩ : BufTy).Contents (Elt F)),
    StableHlo.binary main_v90 main_v93 main_v94 (Host.divf : (⟨S32x200, .f32⟩ : BufTy).Contents (Elt F) → (⟨S32x200, .f32⟩ : BufTy).Contents (Elt F) → (⟨S32x200, .f32⟩ : BufTy).Contents (Elt F)),
    StableHlo.nullary main_cst_16 (constant S_ .f32 0x3F333333#32),
    StableHlo.unary main_cst_16 main_v95 (broadcastInDim S32x200 ![] bcast_S_S32x200 : (⟨S_, .f32⟩ : BufTy).Contents (Elt F) → (⟨S32x200, .f32⟩ : BufTy).Contents (Elt F)),
    StableHlo.binary main_v95 main_v94 main_v96 (mulf : (⟨S32x200, .f32⟩ : BufTy).Contents (Elt F) → (⟨S32x200, .f32⟩ : BufTy).Contents (Elt F) → (⟨S32x200, .f32⟩ : BufTy).Contents (Elt F)),
    StableHlo.nullary main_cst_17 (constant S_ .f32 0x3E99999A#32),
    StableHlo.unary main_cst_17 main_v97 (broadcastInDim S32x200 ![] bcast_S_S32x200 : (⟨S_, .f32⟩ : BufTy).Contents (Elt F) → (⟨S32x200, .f32⟩ : BufTy).Contents (Elt F)),
    StableHlo.binary main_v97 main_v40 main_v98 (mulf : (⟨S32x200, .f32⟩ : BufTy).Contents (Elt F) → (⟨S32x200, .f32⟩ : BufTy).Contents (Elt F) → (⟨S32x200, .f32⟩ : BufTy).Contents (Elt F)),
    StableHlo.binary main_v96 main_v98 main_v99 (addf : (⟨S32x200, .f32⟩ : BufTy).Contents (Elt F) → (⟨S32x200, .f32⟩ : BufTy).Contents (Elt F) → (⟨S32x200, .f32⟩ : BufTy).Contents (Elt F)),
    StableHlo.binary main_v40 main_v73 main_v100 (addf : (⟨S32x200, .f32⟩ : BufTy).Contents (Elt F) → (⟨S32x200, .f32⟩ : BufTy).Contents (Elt F) → (⟨S32x200, .f32⟩ : BufTy).Contents (Elt F)),
    StableHlo.binary main_v100 main_v84 main_v101 (subf : (⟨S32x200, .f32⟩ : BufTy).Contents (Elt F) → (⟨S32x200, .f32⟩ : BufTy).Contents (Elt F) → (⟨S32x200, .f32⟩ : BufTy).Contents (Elt F)),
    StableHlo.unary main_v101 main_v102 (Host.absf : (⟨S32x200, .f32⟩ : BufTy).Contents (Elt F) → (⟨S32x200, .f32⟩ : BufTy).Contents (Elt F)),
    StableHlo.nullary main_cst_18 (constant S_ .f32 0x00000000#32),
    StableHlo.binary main_v102 main_cst_18 main_v103 ((fun x v => Host.reduceAdd x v reducesTo_S32x200_S32_d1 h_S_) : (⟨S32x200, .f32⟩ : BufTy).Contents (Elt F) → (⟨S_, .f32⟩ : BufTy).Contents (Elt F) → (⟨S32, .f32⟩ : BufTy).Contents (Elt F)),
    StableHlo.unary main_v103 main_v104 (broadcastInDim S32x1 ![0] bcast_S32_S32x1_0 : (⟨S32, .f32⟩ : BufTy).Contents (Elt F) → (⟨S32x1, .f32⟩ : BufTy).Contents (Elt F)),
    StableHlo.binary main_v100 main_v99 main_v105 (subf : (⟨S32x200, .f32⟩ : BufTy).Contents (Elt F) → (⟨S32x200, .f32⟩ : BufTy).Contents (Elt F) → (⟨S32x200, .f32⟩ : BufTy).Contents (Elt F)),
    StableHlo.unary main_v105 main_v106 (Host.absf : (⟨S32x200, .f32⟩ : BufTy).Contents (Elt F) → (⟨S32x200, .f32⟩ : BufTy).Contents (Elt F)),
    StableHlo.nullary main_cst_19 (constant S_ .f32 0x00000000#32),
    StableHlo.binary main_v106 main_cst_19 main_v107 ((fun x v => Host.reduceAdd x v reducesTo_S32x200_S32_d1 h_S_) : (⟨S32x200, .f32⟩ : BufTy).Contents (Elt F) → (⟨S_, .f32⟩ : BufTy).Contents (Elt F) → (⟨S32, .f32⟩ : BufTy).Contents (Elt F)),
    StableHlo.unary main_v107 main_v108 (broadcastInDim S1x32 ![1] bcast_S32_S1x32_1 : (⟨S32, .f32⟩ : BufTy).Contents (Elt F) → (⟨S1x32, .f32⟩ : BufTy).Contents (Elt F)),
    StableHlo.unary main_v108 main_v109 (broadcastInDim S32x32 ![0, 1] bcast_S1x32_S32x32_0_1 : (⟨S1x32, .f32⟩ : BufTy).Contents (Elt F) → (⟨S32x32, .f32⟩ : BufTy).Contents (Elt F)),
    StableHlo.unary main_v104 main_v110 (broadcastInDim S32x32 ![0, 1] bcast_S32x1_S32x32_0_1 : (⟨S32x1, .f32⟩ : BufTy).Contents (Elt F) → (⟨S32x32, .f32⟩ : BufTy).Contents (Elt F)),
    StableHlo.binary main_v109 main_v110 main_v111 (subf : (⟨S32x32, .f32⟩ : BufTy).Contents (Elt F) → (⟨S32x32, .f32⟩ : BufTy).Contents (Elt F) → (⟨S32x32, .f32⟩ : BufTy).Contents (Elt F)),
    StableHlo.TRef.unary (.of main_v111 : StableHlo.TRef sig ⟨S32x32, .f32⟩) main_call0.v0 Host.negf,
    StableHlo.TRef.nullary main_call0.call0.cst (constant S_ .f32 0x00000000#32),
    StableHlo.TRef.unary main_call0.call0.cst main_call0.call0.v0 (broadcastInDim S32x32 ![] bcast_S_S32x32),
    StableHlo.TRef.binary (main_call0.v0 : StableHlo.TRef sig ⟨S32x32, .f32⟩) main_call0.call0.v0 main_call0.call0.v1 maximumf,
    StableHlo.TRef.unary main_call0.call0.cst main_call0.call0.v2 (broadcastInDim S32x32 ![] bcast_S_S32x32),
    StableHlo.TRef.binary (main_call0.v0 : StableHlo.TRef sig ⟨S32x32, .f32⟩) main_call0.call0.v2 main_call0.call0.v3 subf,
    StableHlo.TRef.binary main_call0.call0.v3 main_call0.call0.v3 main_call0.call0.v4 (cmpf .une),
    StableHlo.TRef.unary main_call0.call0.cst main_call0.call0.v5 (broadcastInDim S32x32 ![] bcast_S_S32x32),
    StableHlo.TRef.binary (main_call0.v0 : StableHlo.TRef sig ⟨S32x32, .f32⟩) main_call0.call0.v5 main_call0.call0.v6 addf,
    StableHlo.TRef.unary main_call0.call0.v3 main_call0.call0.v7 Host.absf,
    StableHlo.TRef.unary main_call0.call0.v7 main_call0.call0.v8 Host.negf,
    StableHlo.TRef.unary main_call0.call0.v8 main_call0.call0.v9 Host.exp,
    StableHlo.TRef.unary main_call0.call0.v9 main_call0.call0.v10 Host.log1p,
    StableHlo.TRef.binary main_call0.call0.v1 main_call0.call0.v10 main_call0.call0.v11 addf,
    StableHlo.TRef.ternary main_call0.call0.v4 main_call0.call0.v6 main_call0.call0.v11 main_call0.call0.v12 select,
    StableHlo.TRef.unary main_call0.call0.v12 main_call0.v2 Host.negf,
    StableHlo.nullary main_cst_20 (constant S_ .f32 0x00000000#32),
    StableHlo.binary main_v112 main_cst_20 main_v113 ((fun x v => Host.reduceAdd x v reducesTo_S32x32_S_d0_1 h_S_) : (⟨S32x32, .f32⟩ : BufTy).Contents (Elt F) → (⟨S_, .f32⟩ : BufTy).Contents (Elt F) → (⟨S_, .f32⟩ : BufTy).Contents (Elt F)),
    StableHlo.nullary main_cst_21 (constant S_ .f32 0x44800000#32),
    StableHlo.binary main_v113 main_cst_21 main_v114 (Host.divf : (⟨S_, .f32⟩ : BufTy).Contents (Elt F) → (⟨S_, .f32⟩ : BufTy).Contents (Elt F) → (⟨S_, .f32⟩ : BufTy).Contents (Elt F)),
    StableHlo.unary main_v114 main_v115 (Host.negf : (⟨S_, .f32⟩ : BufTy).Contents (Elt F) → (⟨S_, .f32⟩ : BufTy).Contents (Elt F)),
    StableHlo.unary main_v100 main_v116 (broadcastInDim S32x1x200 ![0, 2] bcast_S32x200_S32x1x200_0_2 : (⟨S32x200, .f32⟩ : BufTy).Contents (Elt F) → (⟨S32x1x200, .f32⟩ : BufTy).Contents (Elt F)),
    StableHlo.unary main_v66 main_v117 (broadcastInDim S1x30000x200 ![1, 2] bcast_S30000x200_S1x30000x200_1_2 : (⟨S30000x200, .f32⟩ : BufTy).Contents (Elt F) → (⟨S1x30000x200, .f32⟩ : BufTy).Contents (Elt F)),
    StableHlo.unary main_v116 main_v118 (broadcastInDim S32x30000x200 ![0, 1, 2] bcast_S32x1x200_S32x30000x200_0_1_2 : (⟨S32x1x200, .f32⟩ : BufTy).Contents (Elt F) → (⟨S32x30000x200, .f32⟩ : BufTy).Contents (Elt F)),
    StableHlo.unary main_v117 main_v119 (broadcastInDim S32x30000x200 ![0, 1, 2] bcast_S1x30000x200_S32x30000x200_0_1_2 : (⟨S1x30000x200, .f32⟩ : BufTy).Contents (Elt F) → (⟨S32x30000x200, .f32⟩ : BufTy).Contents (Elt F)),
    StableHlo.binary main_v118 main_v119 main_v120 (subf : (⟨S32x30000x200, .f32⟩ : BufTy).Contents (Elt F) → (⟨S32x30000x200, .f32⟩ : BufTy).Contents (Elt F) → (⟨S32x30000x200, .f32⟩ : BufTy).Contents (Elt F)),
    StableHlo.unary main_v120 main_v121 (Host.absf : (⟨S32x30000x200, .f32⟩ : BufTy).Contents (Elt F) → (⟨S32x30000x200, .f32⟩ : BufTy).Contents (Elt F)),
    StableHlo.nullary main_cst_22 (constant S_ .f32 0x00000000#32),
    StableHlo.binary main_v121 main_cst_22 main_v122 ((fun x v => Host.reduceAdd x v reducesTo_S32x30000x200_S32x30000_d2 h_S_) : (⟨S32x30000x200, .f32⟩ : BufTy).Contents (Elt F) → (⟨S_, .f32⟩ : BufTy).Contents (Elt F) → (⟨S32x30000, .f32⟩ : BufTy).Contents (Elt F)),
    StableHlo.nullary main_cst_23 (constant S_ .f32 0x41100000#32),
    StableHlo.unary main_cst_23 main_v123 (broadcastInDim S32x30000 ![] bcast_S_S32x30000 : (⟨S_, .f32⟩ : BufTy).Contents (Elt F) → (⟨S32x30000, .f32⟩ : BufTy).Contents (Elt F)),
    StableHlo.binary main_v123 main_v122 main_v124 (subf : (⟨S32x30000, .f32⟩ : BufTy).Contents (Elt F) → (⟨S32x30000, .f32⟩ : BufTy).Contents (Elt F) → (⟨S32x30000, .f32⟩ : BufTy).Contents (Elt F)),
    StableHlo.unary main_v124 main_v125 (Host.negf : (⟨S32x30000, .f32⟩ : BufTy).Contents (Elt F) → (⟨S32x30000, .f32⟩ : BufTy).Contents (Elt F)),
    StableHlo.unary main_v125 main_v126 (Host.exp : (⟨S32x30000, .f32⟩ : BufTy).Contents (Elt F) → (⟨S32x30000, .f32⟩ : BufTy).Contents (Elt F)),
    StableHlo.nullary main_cst_24 (constant S_ .f32 0x3F800000#32),
    StableHlo.unary main_cst_24 main_v127 (broadcastInDim S32x30000 ![] bcast_S_S32x30000 : (⟨S_, .f32⟩ : BufTy).Contents (Elt F) → (⟨S32x30000, .f32⟩ : BufTy).Contents (Elt F)),
    StableHlo.binary main_v127 main_v126 main_v128 (addf : (⟨S32x30000, .f32⟩ : BufTy).Contents (Elt F) → (⟨S32x30000, .f32⟩ : BufTy).Contents (Elt F) → (⟨S32x30000, .f32⟩ : BufTy).Contents (Elt F)),
    StableHlo.nullary main_cst_25 (constant S_ .f32 0x3F800000#32),
    StableHlo.unary main_cst_25 main_v129 (broadcastInDim S32x30000 ![] bcast_S_S32x30000 : (⟨S_, .f32⟩ : BufTy).Contents (Elt F) → (⟨S32x30000, .f32⟩ : BufTy).Contents (Elt F)),
    StableHlo.binary main_v129 main_v128 main_v130 (Host.divf : (⟨S32x30000, .f32⟩ : BufTy).Contents (Elt F) → (⟨S32x30000, .f32⟩ : BufTy).Contents (Elt F) → (⟨S32x30000, .f32⟩ : BufTy).Contents (Elt F)) ]

end Cert.ReferenceIdeal.RefRun

end
-- ==== Proof.RefOps.lean ====
/- The reference program's run. @main is the straight line of its host operations (the list `ops`), nothing is scoped
   in its signature, and every operation names device buffers only; so every weakly fair execution of @main terminates
   with each buffer at the fold of the operations' results over the buffer contents at launch. -/
import proofs.«111044_j49203145342981_2_alg».proof.Proof.RefOpsTable

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- @main is that straight line. Its three windows run in order and each is a chain of single operations; the called
    function's body, and the body of the function that one calls, unfold at the call to their own operations over the
    call's buffers, each ending in a return that the sequencing absorbs. Sequencing in this monad computes (a step
    followed by a continuation is the step with the continuation pushed inside), so both sides reduce to the same
    chain of steps. -/
theorem main_eq (c : Dev nD) : main (F := F) c = seq ops := rfl

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

set_option maxHeartbeats 4000000 in
/-- Every operation's buffers are TensorCore buffers: the statement over the list is the conjunction of one inclusion
    per operation, and each is the inclusion lemma of the operation's arity (an operation of the called functions is
    the same builder at a typed reference's buffer), chosen by the operation's builder. -/
theorem ops_sub : (ops : List (HloOp τ sig (Elt F))).Forall fun op => op.bufs ⊆ tcRefs τ sig := by
  simp only [List.Forall, nullary_bufs_sub, unary_bufs_sub, binary_bufs_sub, ternary_bufs_sub, and_self]

/-- On every device, for any float values, from any memory with zero counters: every weakly fair execution of @main
    terminates, and every final state has each TensorCore buffer at the fold of the operations' results over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefFrame.lean ====
/- The reference program leaves its argument arrays as they were. No operation of @main writes an argument's buffer:
   each writes its own result buffer, a different one. So the fold of the operations' results, read at an argument's
   buffer, passes every operation by (the buffer read is not the one written) and ends at the contents at launch. With
   the run, every weakly fair execution terminates with the thirteen arguments unchanged: the frame. -/
import proofs.«111044_j49203145342981_2_alg».proof.Proof.RefOps
import proofs.«111044_j49203145342981_2_alg».proof.Defs
import proofs.«111044_j49203145342981_2_alg».proof.Proof.Gen.Pre_finite_inputs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Each argument's buffer after the operations

One pass over the fold: at every operation the buffer read differs from the operation's result buffer (two literal
references, compared by computation), so the operation's result there is what was there before. -/

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

set_option maxRecDepth 8192 in
set_option maxHeartbeats 4000000 in
theorem arg3_eq (V : Valuation τ sig (Elt F)) :
    after ops V (main_arg3 : DevRef τ sig) = V (main_arg3 : DevRef τ sig) := by
  after_results_simp

set_option maxRecDepth 8192 in
set_option maxHeartbeats 4000000 in
theorem arg4_eq (V : Valuation τ sig (Elt F)) :
    after ops V (main_arg4 : DevRef τ sig) = V (main_arg4 : DevRef τ sig) := by
  after_results_simp

set_option maxRecDepth 8192 in
set_option maxHeartbeats 4000000 in
theorem arg5_eq (V : Valuation τ sig (Elt F)) :
    after ops V (main_arg5 : DevRef τ sig) = V (main_arg5 : DevRef τ sig) := by
  after_results_simp

set_option maxRecDepth 8192 in
set_option maxHeartbeats 4000000 in
theorem arg6_eq (V : Valuation τ sig (Elt F)) :
    after ops V (main_arg6 : DevRef τ sig) = V (main_arg6 : DevRef τ sig) := by
  after_results_simp

set_option maxRecDepth 8192 in
set_option maxHeartbeats 4000000 in
theorem arg7_eq (V : Valuation τ sig (Elt F)) :
    after ops V (main_arg7 : DevRef τ sig) = V (main_arg7 : DevRef τ sig) := by
  after_results_simp

set_option maxRecDepth 8192 in
set_option maxHeartbeats 4000000 in
theorem arg8_eq (V : Valuation τ sig (Elt F)) :
    after ops V (main_arg8 : DevRef τ sig) = V (main_arg8 : DevRef τ sig) := by
  after_results_simp

set_option maxRecDepth 8192 in
set_option maxHeartbeats 4000000 in
theorem arg9_eq (V : Valuation τ sig (Elt F)) :
    after ops V (main_arg9 : DevRef τ sig) = V (main_arg9 : DevRef τ sig) := by
  after_results_simp

set_option maxRecDepth 8192 in
set_option maxHeartbeats 4000000 in
theorem arg10_eq (V : Valuation τ sig (Elt F)) :
    after ops V (main_arg10 : DevRef τ sig) = V (main_arg10 : DevRef τ sig) := by
  after_results_simp

set_option maxRecDepth 8192 in
set_option maxHeartbeats 4000000 in
theorem arg11_eq (V : Valuation τ sig (Elt F)) :
    after ops V (main_arg11 : DevRef τ sig) = V (main_arg11 : DevRef τ sig) := by
  after_results_simp

set_option maxRecDepth 8192 in
set_option maxHeartbeats 4000000 in
theorem arg12_eq (V : Valuation τ sig (Elt F)) :
    after ops V (main_arg12 : DevRef τ sig) = V (main_arg12 : DevRef τ sig) := by
  after_results_simp

/-! ## The frame -/

/-- The reference's frame at the exact extended reals: the run ends with every buffer at the fold of the operations,
    and at each of the thirteen arguments that fold is the launch contents. The precondition is not used. -/
theorem frame_ri :
    Cert.frame_ReferenceIdeal (hReferenceIdeal := Cert.ReferenceIdeal.Gen.facts)
      (hPre_finite_inputs := Cert.Pre_finite_inputs.Gen.facts) :=
  fun m g _ => (θ_run (defs (F := Idealize.ShloMosaic.Ideal)) _ _).mono
    (fun _ h c =>
      ⟨(h c main_arg0).trans (arg0_eq (launchContents m c)),
       (h c main_arg1).trans (arg1_eq (launchContents m c)),
       (h c main_arg2).trans (arg2_eq (launchContents m c)),
       (h c main_arg3).trans (arg3_eq (launchContents m c)),
       (h c main_arg4).trans (arg4_eq (launchContents m c)),
       (h c main_arg5).trans (arg5_eq (launchContents m c)),
       (h c main_arg6).trans (arg6_eq (launchContents m c)),
       (h c main_arg7).trans (arg7_eq (launchContents m c)),
       (h c main_arg8).trans (arg8_eq (launchContents m c)),
       (h c main_arg9).trans (arg9_eq (launchContents m c)),
       (h c main_arg10).trans (arg10_eq (launchContents m c)),
       (h c main_arg11).trans (arg11_eq (launchContents m c)),
       (h c main_arg12).trans (arg12_eq (launchContents m c))⟩)
    (run_all (F := Idealize.ShloMosaic.Ideal) m g)

end Cert.ReferenceIdeal.RefRun

end
-- ==== Proof.RefStages.lean ====
/- The reference program's two results as named stages. Each definition below is a pure function of argument arrays that
   applies the program's host operations in the program's order, with the program's dimension records; the two theorems
   at the end say that the fold of @main's operations, read at a result buffer, is the composition of these stages at the
   contents of the argument buffers.

   The program. Entities have an embedding row (200 wide) and a context row (50 wide). An embedding is blended with a
   candidate through a gate: with x the embedding rows and c the context rows,
       candidate = tanh([x, c] · W₆ᵀ + b₇),   gate = 1 / (1 + exp(-(x · W₈ᵀ + c · W₉ᵀ + b₁₀))),
       blended   = (1 - gate) * x + gate * candidate.
   This is done for the 32 query entities (rows gathered by index, a negative index counting from the end) and for all
   30000 entities. The query vector is the blended query embedding plus the relation's row. The prediction is, per query
   and entity, 1 / (1 + exp(-(9 - ‖q - e‖₁))). The loss compares two masked averages of the blended entity table (mask
   m and its complement, weighted) mixed with the query embedding, by L1 distance to the query vector, through
   log-sigmoid of the differences over all pairs of queries, averaged over the 1024 pairs and negated. -/
import proofs.«111044_j49203145342981_2_alg».proof.Proof.RefFrame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Gathering rows by index -/

/-- A vector of 32 row indices into a table of `n` rows as the gather takes it: a negative index has `n` added, and the
    vector becomes a column (main_v6, main_v13 with `n = 30000`; main_v72 with `n = 474`). -/
def rowIdx (n : BitVec 32) (a : (⟨S32, .i32⟩ : BufTy).Contents (Elt F)) : (⟨S32x1, .i32⟩ : BufTy).Contents (Elt F) :=
  broadcastInDim S32x1 ![0] bcast_S32_S32x1_0
    (select (cmpi .slt a (broadcastInDim S32 ![] bcast_S_S32 (constantI S_ 32 0#32)))
      (addi a (broadcastInDim S32 ![] bcast_S_S32 (constantI S_ 32 n)))
      a)

/-- The query entities' embedding rows (main_v7). -/
def e1rows (a0 : (⟨S32, .i32⟩ : BufTy).Contents (Elt F)) (a3 : (⟨S30000x200, .f32⟩ : BufTy).Contents (Elt F)) :
    (⟨S32x200, .f32⟩ : BufTy).Contents (Elt F) :=
  Host.gather gather_S30000x200_S32x1_S32x200_1_0_n_n_0_1_1200 a3 (rowIdx (F := F) 30000#32 a0)

/-- The query entities' context rows (main_v14). -/
def e1ctx (a0 : (⟨S32, .i32⟩ : BufTy).Contents (Elt F)) (a5 : (⟨S30000x50, .f32⟩ : BufTy).Contents (Elt F)) :
    (⟨S32x50, .f32⟩ : BufTy).Contents (Elt F) :=
  Host.gather gather_S30000x50_S32x1_S32x50_1_0_n_n_0_1_150 a5 (rowIdx (F := F) 30000#32 a0)

/-! ## The gated embedding, for the 32 queries -/

/-- The constant one over a 32 × 200 array (main_v32, main_v34, main_v36). -/
def one32 : (⟨S32x200, .f32⟩ : BufTy).Contents (Elt F) :=
  broadcastInDim S32x200 ![] bcast_S_S32x200 (constant (F := F) S_ .f32 0x3F800000#32)

/-- The candidate: tanh of the rows and context, side by side, times the transposed weights, plus the bias (main_v21). -/
def e1cand (x : (⟨S32x200, .f32⟩ : BufTy).Contents (Elt F)) (c : (⟨S32x50, .f32⟩ : BufTy).Contents (Elt F))
    (a6 : (⟨S200x250, .f32⟩ : BufTy).Contents (Elt F)) (a7 : (⟨S200, .f32⟩ : BufTy).Contents (Elt F)) :
    (⟨S32x200, .f32⟩ : BufTy).Contents (Elt F) :=
  Host.tanh (F := F)
    (addf
      (Host.dotGeneral (F := F) dot_S32x250_S250x200_S32x200_1_0_0_1_n_n none
        (concatenate S32x250 1 [⟨S32x200, x⟩, ⟨S32x50, c⟩] concatenates_S32x200_S32x50_S32x250_d1)
        (transpose S250x200 [1, 0] a6 transposes_S200x250_S250x200_1_0))
      (broadcastInDim S32x200 ![0, 1] bcast_S1x200_S32x200_0_1 (broadcastInDim S1x200 ![1] bcast_S200_S1x200_1 a7)))

/-- The gate: the logistic function of rows times weights plus context times weights plus bias (main_v35). -/
def e1gate (x : (⟨S32x200, .f32⟩ : BufTy).Contents (Elt F)) (c : (⟨S32x50, .f32⟩ : BufTy).Contents (Elt F))
    (a8 : (⟨S200x200, .f32⟩ : BufTy).Contents (Elt F)) (a9 : (⟨S200x50, .f32⟩ : BufTy).Contents (Elt F))
    (a10 : (⟨S200, .f32⟩ : BufTy).Contents (Elt F)) : (⟨S32x200, .f32⟩ : BufTy).Contents (Elt F) :=
  Host.divf (F := F) (one32 (F := F))
    (addf (one32 (F := F))
      (Host.exp (F := F)
        (Host.negf (F := F)
          (addf
            (addf
              (Host.dotGeneral (F := F) dot_S32x200_S200x200_S32x200_1_0_0_1_n_n none x
                (transpose S200x200 [1, 0] a8 transposes_S200x200_S200x200_1_0))
              (Host.dotGeneral (F := F) dot_S32x50_S50x200_S32x200_1_0_0_1_n_n none c
                (transpose S50x200 [1, 0] a9 transposes_S200x50_S50x200_1_0)))
            (broadcastInDim S32x200 ![0, 1] bcast_S1x200_S32x200_0_1
              (broadcastInDim S1x200 ![1] bcast_S200_S1x200_1 a10))))))

/-- The blended query embedding: (1 - gate) * rows + gate * candidate (main_v40). -/
def e1emb (a0 : (⟨S32, .i32⟩ : BufTy).Contents (Elt F)) (a3 : (⟨S30000x200, .f32⟩ : BufTy).Contents (Elt F))
    (a5 : (⟨S30000x50, .f32⟩ : BufTy).Contents (Elt F)) (a6 : (⟨S200x250, .f32⟩ : BufTy).Contents (Elt F))
    (a7 : (⟨S200, .f32⟩ : BufTy).Contents (Elt F)) (a8 : (⟨S200x200, .f32⟩ : BufTy).Contents (Elt F))
    (a9 : (⟨S200x50, .f32⟩ : BufTy).Contents (Elt F)) (a10 : (⟨S200, .f32⟩ : BufTy).Contents (Elt F)) :
    (⟨S32x200, .f32⟩ : BufTy).Contents (Elt F) :=
  addf
    (mulf (subf (one32 (F := F)) (e1gate (e1rows a0 a3) (e1ctx a0 a5) a8 a9 a10)) (e1rows a0 a3))
    (mulf (e1gate (e1rows a0 a3) (e1ctx a0 a5) a8 a9 a10) (e1cand (e1rows a0 a3) (e1ctx a0 a5) a6 a7))

/-! ## The gated embedding, for all 30000 entities -/

/-- The constant one over a 30000 × 200 array (main_v58, main_v60, main_v62). -/
def one30000 : (⟨S30000x200, .f32⟩ : BufTy).Contents (Elt F) :=
  broadcastInDim S30000x200 ![] bcast_S_S30000x200 (constant (F := F) S_ .f32 0x3F800000#32)

/-- The candidate over the whole tables (main_v47). -/
def e2cand (a3 : (⟨S30000x200, .f32⟩ : BufTy).Contents (Elt F)) (a5 : (⟨S30000x50, .f32⟩ : BufTy).Contents (Elt F))
    (a6 : (⟨S200x250, .f32⟩ : BufTy).Contents (Elt F)) (a7 : (⟨S200, .f32⟩ : BufTy).Contents (Elt F)) :
    (⟨S30000x200, .f32⟩ : BufTy).Contents (Elt F) :=
  Host.tanh (F := F)
    (addf
      (Host.dotGeneral (F := F) dot_S30000x250_S250x200_S30000x200_1_0_0_1_n_n none
        (concatenate S30000x250 1 [⟨S30000x200, a3⟩, ⟨S30000x50, a5⟩] concatenates_S30000x200_S30000x50_S30000x250_d1)
        (transpose S250x200 [1, 0] a6 transposes_S200x250_S250x200_1_0))
      (broadcastInDim S30000x200 ![0, 1] bcast_S1x200_S30000x200_0_1 (broadcastInDim S1x200 ![1] bcast_S200_S1x200_1 a7)))

/-- The gate over the whole tables (main_v61). -/
def e2gate (a3 : (⟨S30000x200, .f32⟩ : BufTy).Contents (Elt F)) (a5 : (⟨S30000x50, .f32⟩ : BufTy).Contents (Elt F))
    (a8 : (⟨S200x200, .f32⟩ : BufTy).Contents (Elt F)) (a9 : (⟨S200x50, .f32⟩ : BufTy).Contents (Elt F))
    (a10 : (⟨S200, .f32⟩ : BufTy).Contents (Elt F)) : (⟨S30000x200, .f32⟩ : BufTy).Contents (Elt F) :=
  Host.divf (F := F) (one30000 (F := F))
    (addf (one30000 (F := F))
      (Host.exp (F := F)
        (Host.negf (F := F)
          (addf
            (addf
              (Host.dotGeneral (F := F) dot_S30000x200_S200x200_S30000x200_1_0_0_1_n_n none a3
                (transpose S200x200 [1, 0] a8 transposes_S200x200_S200x200_1_0))
              (Host.dotGeneral (F := F) dot_S30000x50_S50x200_S30000x200_1_0_0_1_n_n none a5
                (transpose S50x200 [1, 0] a9 transposes_S200x50_S50x200_1_0)))
            (broadcastInDim S30000x200 ![0, 1] bcast_S1x200_S30000x200_0_1
              (broadcastInDim S1x200 ![1] bcast_S200_S1x200_1 a10))))))

/-- The blended entity table (main_v66). -/
def e2emb (a3 : (⟨S30000x200, .f32⟩ : BufTy).Contents (Elt F)) (a5 : (⟨S30000x50, .f32⟩ : BufTy).Contents (Elt F))
    (a6 : (⟨S200x250, .f32⟩ : BufTy).Contents (Elt F)) (a7 : (⟨S200, .f32⟩ : BufTy).Contents (Elt F))
    (a8 : (⟨S200x200, .f32⟩ : BufTy).Contents (Elt F)) (a9 : (⟨S200x50, .f32⟩ : BufTy).Contents (Elt F))
    (a10 : (⟨S200, .f32⟩ : BufTy).Contents (Elt F)) : (⟨S30000x200, .f32⟩ : BufTy).Contents (Elt F) :=
  addf
    (mulf (subf (one30000 (F := F)) (e2gate a3 a5 a8 a9 a10)) a3)
    (mulf (e2gate a3 a5 a8 a9 a10) (e2cand a3 a5 a6 a7))

/-! ## The relation's row and the query vector -/

/-- The relations' rows (main_v73). -/
def relemb (a1 : (⟨S32, .i32⟩ : BufTy).Contents (Elt F)) (a4 : (⟨S474x200, .f32⟩ : BufTy).Contents (Elt F)) :
    (⟨S32x200, .f32⟩ : BufTy).Contents (Elt F) :=
  Host.gather gather_S474x200_S32x1_S32x200_1_0_n_n_0_1_1200 a4 (rowIdx (F := F) 474#32 a1)

/-- The query vector: blended query embedding plus relation row (main_v100). -/
def qvec (e1 r : (⟨S32x200, .f32⟩ : BufTy).Contents (Elt F)) : (⟨S32x200, .f32⟩ : BufTy).Contents (Elt F) :=
  addf e1 r

/-! ## The two masked averages of the entity table -/

/-- The mask as floats times the first weights (main_v74; the mask as floats is main_v0). -/
def e2p (a2 : (⟨S32x30000, .i32⟩ : BufTy).Contents (Elt F)) (a11 : (⟨S32x30000, .f32⟩ : BufTy).Contents (Elt F)) :
    (⟨S32x30000, .f32⟩ : BufTy).Contents (Elt F) :=
  mulf (sitofp (F := F) .f32 a2) a11

/-- Numerator of the first average: weighted mask times entity table (main_v75). -/
def posNum (p : (⟨S32x30000, .f32⟩ : BufTy).Contents (Elt F)) (e2 : (⟨S30000x200, .f32⟩ : BufTy).Contents (Elt F)) :
    (⟨S32x200, .f32⟩ : BufTy).Contents (Elt F) :=
  Host.dotGeneral (F := F) dot_S32x30000_S30000x200_S32x200_1_0_0_1_n_n none p e2

/-- Denominator of the first average: the row sums of the weighted mask, spread over the 200 columns (main_v78). -/
def posDen (p : (⟨S32x30000, .f32⟩ : BufTy).Contents (Elt F)) : (⟨S32x200, .f32⟩ : BufTy).Contents (Elt F) :=
  broadcastInDim S32x200 ![0, 1] bcast_S32x1_S32x200_0_1
    (broadcastInDim S32x1 ![0] bcast_S32_S32x1_0
      (Host.reduceAdd (F := F) p (constant (F := F) S_ .f32 0x00000000#32) reducesTo_S32x30000_S32_d1 h_S_))

/-- The complement of the mask: one minus the mask as floats (main_v86). -/
def invm (a2 : (⟨S32x30000, .i32⟩ : BufTy).Contents (Elt F)) : (⟨S32x30000, .f32⟩ : BufTy).Contents (Elt F) :=
  subf (broadcastInDim S32x30000 ![] bcast_S_S32x30000 (constant (F := F) S_ .f32 0x3F800000#32)) (sitofp (F := F) .f32 a2)

/-- The complement times the second weights, doubled (main_v89). -/
def invDrop (n : (⟨S32x30000, .f32⟩ : BufTy).Contents (Elt F)) (a12 : (⟨S32x30000, .f32⟩ : BufTy).Contents (Elt F)) :
    (⟨S32x30000, .f32⟩ : BufTy).Contents (Elt F) :=
  mulf (mulf n a12) (broadcastInDim S32x30000 ![] bcast_S_S32x30000 (constant (F := F) S_ .f32 0x40000000#32))

/-- Numerator of the second average (main_v90). -/
def negNum (d : (⟨S32x30000, .f32⟩ : BufTy).Contents (Elt F)) (e2 : (⟨S30000x200, .f32⟩ : BufTy).Contents (Elt F)) :
    (⟨S32x200, .f32⟩ : BufTy).Contents (Elt F) :=
  Host.dotGeneral (F := F) dot_S32x30000_S30000x200_S32x200_1_0_0_1_n_n none d e2

/-- Denominator of the second average: the row sums of the complement, spread over the 200 columns (main_v93). -/
def negDen (n : (⟨S32x30000, .f32⟩ : BufTy).Contents (Elt F)) : (⟨S32x200, .f32⟩ : BufTy).Contents (Elt F) :=
  broadcastInDim S32x200 ![0, 1] bcast_S32x1_S32x200_0_1
    (broadcastInDim S32x1 ![0] bcast_S32_S32x1_0
      (Host.reduceAdd (F := F) n (constant (F := F) S_ .f32 0x00000000#32) reducesTo_S32x30000_S32_d1 h_S_))

/-! ## The loss -/

/-- A constant spread over a 32 × 200 array. -/
def splat32 (b : BitVec 32) : (⟨S32x200, .f32⟩ : BufTy).Contents (Elt F) :=
  broadcastInDim S32x200 ![] bcast_S_S32x200 (constant (F := F) S_ .f32 b)

/-- The L1 distance of each query vector to a target: the row sums of |q - t| (main_v103, main_v107). -/
def l1row (q t : (⟨S32x200, .f32⟩ : BufTy).Contents (Elt F)) : (⟨S32, .f32⟩ : BufTy).Contents (Elt F) :=
  Host.reduceAdd (F := F) (Host.absf (F := F) (subf q t)) (constant (F := F) S_ .f32 0x00000000#32) reducesTo_S32x200_S32_d1 h_S_

/-- The first target: 0.3 of the first average plus 0.7 of the query embedding (main_v84). -/
def posTarget (posRaw e1 : (⟨S32x200, .f32⟩ : BufTy).Contents (Elt F)) : (⟨S32x200, .f32⟩ : BufTy).Contents (Elt F) :=
  addf (mulf (splat32 (F := F) 0x3E99999A#32) posRaw) (mulf (splat32 (F := F) 0x3F333333#32) e1)

/-- The second target: 0.7 of the second average plus 0.3 of the query embedding (main_v99). -/
def negTarget (negRaw e1 : (⟨S32x200, .f32⟩ : BufTy).Contents (Elt F)) : (⟨S32x200, .f32⟩ : BufTy).Contents (Elt F) :=
  addf (mulf (splat32 (F := F) 0x3F333333#32) negRaw) (mulf (splat32 (F := F) 0x3E99999A#32) e1)

/-- All pairs of queries (i, j): the distance of query j to its second target minus the distance of query i to its
    first target (main_v111). -/
def margins (posRaw negRaw e1 q : (⟨S32x200, .f32⟩ : BufTy).Contents (Elt F)) : (⟨S32x32, .f32⟩ : BufTy).Contents (Elt F) :=
  subf
    (broadcastInDim S32x32 ![0, 1] bcast_S1x32_S32x32_0_1
      (broadcastInDim S1x32 ![1] bcast_S32_S1x32_1 (l1row q (negTarget negRaw e1))))
    (broadcastInDim S32x32 ![0, 1] bcast_S32x1_S32x32_0_1
      (broadcastInDim S32x1 ![0] bcast_S32_S32x1_0 (l1row q (posTarget posRaw e1))))

/-- The constant zero over a 32 × 32 array (the called function's %0, %2, %5). -/
def zero32x32 : (⟨S32x32, .f32⟩ : BufTy).Contents (Elt F) :=
  broadcastInDim S32x32 ![] bcast_S_S32x32 (constant (F := F) S_ .f32 0x00000000#32)

/-- The program's function softplus: max(x, 0) + log(1 + exp(-|x - 0|)), and x + 0 where x - 0 is not a number. -/
def softplusOf (x : (⟨S32x32, .f32⟩ : BufTy).Contents (Elt F)) : (⟨S32x32, .f32⟩ : BufTy).Contents (Elt F) :=
  select (cmpf .une (subf x (zero32x32 (F := F))) (subf x (zero32x32 (F := F))))
    (addf x (zero32x32 (F := F)))
    (addf (maximumf x (zero32x32 (F := F)))
      (Host.log1p (F := F) (Host.exp (F := F) (Host.negf (F := F) (Host.absf (F := F) (subf x (zero32x32 (F := F))))))))

/-- The program's function log-sigmoid: minus softplus of minus x. -/
def logSigmoidOf (x : (⟨S32x32, .f32⟩ : BufTy).Contents (Elt F)) : (⟨S32x32, .f32⟩ : BufTy).Contents (Elt F) :=
  Host.negf (F := F) (softplusOf (Host.negf (F := F) x))

/-- The loss from the two averages, the query embedding and the query vector: minus the mean over the 1024 pairs of
    the log-sigmoid of the margins (main_v115). -/
def lossTail (posRaw negRaw e1 q : (⟨S32x200, .f32⟩ : BufTy).Contents (Elt F)) : (⟨S_, .f32⟩ : BufTy).Contents (Elt F) :=
  Host.negf (F := F)
    (Host.divf (F := F)
      (Host.reduceAdd (F := F) (logSigmoidOf (margins posRaw negRaw e1 q)) (constant (F := F) S_ .f32 0x00000000#32)
        reducesTo_S32x32_S_d0_1 h_S_)
      (constant (F := F) S_ .f32 0x44800000#32))

/-! ## The prediction -/

/-- Per query and entity: 1 / (1 + exp(-(9 - ‖q - e‖₁))) (main_v130). -/
def predOf (q : (⟨S32x200, .f32⟩ : BufTy).Contents (Elt F)) (e2 : (⟨S30000x200, .f32⟩ : BufTy).Contents (Elt F)) :
    (⟨S32x30000, .f32⟩ : BufTy).Contents (Elt F) :=
  Host.divf (F := F)
    (broadcastInDim S32x30000 ![] bcast_S_S32x30000 (constant (F := F) S_ .f32 0x3F800000#32))
    (addf
      (broadcastInDim S32x30000 ![] bcast_S_S32x30000 (constant (F := F) S_ .f32 0x3F800000#32))
      (Host.exp (F := F)
        (Host.negf (F := F)
          (subf
            (broadcastInDim S32x30000 ![] bcast_S_S32x30000 (constant (F := F) S_ .f32 0x41100000#32))
            (Host.reduceAdd (F := F)
              (Host.absf (F := F)
                (subf
                  (broadcastInDim S32x30000x200 ![0, 1, 2] bcast_S32x1x200_S32x30000x200_0_1_2
                    (broadcastInDim S32x1x200 ![0, 2] bcast_S32x200_S32x1x200_0_2 q))
                  (broadcastInDim S32x30000x200 ![0, 1, 2] bcast_S1x30000x200_S32x30000x200_0_1_2
                    (broadcastInDim S1x30000x200 ![1, 2] bcast_S30000x200_S1x30000x200_1_2 e2))))
              (constant (F := F) S_ .f32 0x00000000#32) reducesTo_S32x30000x200_S32x30000_d2 h_S_)))))

/-! ## The two results are these stages

Reading the fold of @main's operations at a result buffer unfolds, operation by operation from the last, to the
operations' functions applied to one another down to the argument buffers' contents (at each operation: its function's
value at its own result buffer, what was there before at any other); that composition is the stages' by unfolding the
definitions above, the called functions' operations being their builders at the call's buffers. -/

set_option maxRecDepth 16384 in
set_option maxHeartbeats 16000000 in
/-- The prediction (the first result, main_v130) is `predOf` of the query vector and the blended entity table. -/
theorem v130_eq (V : Valuation τ sig (Elt F)) :
    after ops V (main_v130 : DevRef τ sig)
      = predOf
          (qvec
            (e1emb (V (main_arg0 : DevRef τ sig)) (V (main_arg3 : DevRef τ sig)) (V (main_arg5 : DevRef τ sig))
              (V (main_arg6 : DevRef τ sig)) (V (main_arg7 : DevRef τ sig)) (V (main_arg8 : DevRef τ sig))
              (V (main_arg9 : DevRef τ sig)) (V (main_arg10 : DevRef τ sig)))
            (relemb (V (main_arg1 : DevRef τ sig)) (V (main_arg4 : DevRef τ sig))))
          (e2emb (V (main_arg3 : DevRef τ sig)) (V (main_arg5 : DevRef τ sig)) (V (main_arg6 : DevRef τ sig))
            (V (main_arg7 : DevRef τ sig)) (V (main_arg8 : DevRef τ sig)) (V (main_arg9 : DevRef τ sig))
            (V (main_arg10 : DevRef τ sig))) := by
  after_results_simp
  rfl

set_option maxRecDepth 16384 in
set_option maxHeartbeats 16000000 in
/-- The loss (the second result, main_v115) is `lossTail` of the two masked averages (numerator over denominator), the
    blended query embedding and the query vector. -/
theorem v115_eq (V : Valuation τ sig (Elt F)) :
    after ops V (main_v115 : DevRef τ sig)
      = lossTail
          (Host.divf (F := F)
            (posNum (e2p (V (main_arg2 : DevRef τ sig)) (V (main_arg11 : DevRef τ sig)))
              (e2emb (V (main_arg3 : DevRef τ sig)) (V (main_arg5 : DevRef τ sig)) (V (main_arg6 : DevRef τ sig))
                (V (main_arg7 : DevRef τ sig)) (V (main_arg8 : DevRef τ sig)) (V (main_arg9 : DevRef τ sig))
                (V (main_arg10 : DevRef τ sig))))
            (posDen (e2p (V (main_arg2 : DevRef τ sig)) (V (main_arg11 : DevRef τ sig)))))
          (Host.divf (F := F)
            (negNum (invDrop (invm (V (main_arg2 : DevRef τ sig))) (V (main_arg12 : DevRef τ sig)))
              (e2emb (V (main_arg3 : DevRef τ sig)) (V (main_arg5 : DevRef τ sig)) (V (main_arg6 : DevRef τ sig))
                (V (main_arg7 : DevRef τ sig)) (V (main_arg8 : DevRef τ sig)) (V (main_arg9 : DevRef τ sig))
                (V (main_arg10 : DevRef τ sig))))
            (negDen (invm (V (main_arg2 : DevRef τ sig)))))
          (e1emb (V (main_arg0 : DevRef τ sig)) (V (main_arg3 : DevRef τ sig)) (V (main_arg5 : DevRef τ sig))
            (V (main_arg6 : DevRef τ sig)) (V (main_arg7 : DevRef τ sig)) (V (main_arg8 : DevRef τ sig))
            (V (main_arg9 : DevRef τ sig)) (V (main_arg10 : DevRef τ sig)))
          (qvec
            (e1emb (V (main_arg0 : DevRef τ sig)) (V (main_arg3 : DevRef τ sig)) (V (main_arg5 : DevRef τ sig))
              (V (main_arg6 : DevRef τ sig)) (V (main_arg7 : DevRef τ sig)) (V (main_arg8 : DevRef τ sig))
              (V (main_arg9 : DevRef τ sig)) (V (main_arg10 : DevRef τ sig)))
            (relemb (V (main_arg1 : DevRef τ sig)) (V (main_arg4 : DevRef τ sig)))) := by
  after_results_simp
  rfl

end Cert.ReferenceIdeal.RefRun

end
-- ==== Proof.KV.Prefix.lean ====
/-
  What the region finds in each array that host operations build before it, as a pure function of the argument
  arrays. The query embedding and the query vector are named stages (the gather of the query rows, the candidate, the
  gate, the blend, the relation rows); the padded tables and the cut and transposed weights are the printed operation
  applied to an argument.
-/
import proofs.«111044_j49203145342981_2_alg».proof.Proof.KI.Kit
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.StableHlo

variable {F : FTy → Type} [FloatOps F]

/-! ## The query rows -/

/-- A vector of 32 row indices into a table of `n` rows as the gather takes it: a negative index has `n` added, and the
    vector becomes a column. -/
def rowIdxK (n : BitVec 32) (a : (⟨S32, .i32⟩ : BufTy).Contents (Elt F)) : (⟨S32x1, .i32⟩ : BufTy).Contents (Elt F) :=
  broadcastInDim S32x1 ![0] bcast_S32_S32x1_0
    (select (cmpi .slt a (broadcastInDim S32 ![] bcast_S_S32 (constantI S_ 32 0#32)))
      (addi a (broadcastInDim S32 ![] bcast_S_S32 (constantI S_ 32 n)))
      a)

/-- The query entities' embedding rows. -/
def e1rowsK (a0 : (⟨S32, .i32⟩ : BufTy).Contents (Elt F)) (a3 : (⟨S30000x200, .f32⟩ : BufTy).Contents (Elt F)) :
    (⟨S32x200, .f32⟩ : BufTy).Contents (Elt F) :=
  Host.gather gather_S30000x200_S32x1_S32x200_1_0_n_n_0_1_1200 a3 (rowIdxK (F := F) 30000#32 a0)

/-- The query entities' context rows. -/
def e1ctxK (a0 : (⟨S32, .i32⟩ : BufTy).Contents (Elt F)) (a5 : (⟨S30000x50, .f32⟩ : BufTy).Contents (Elt F)) :
    (⟨S32x50, .f32⟩ : BufTy).Contents (Elt F) :=
  Host.gather gather_S30000x50_S32x1_S32x50_1_0_n_n_0_1_150 a5 (rowIdxK (F := F) 30000#32 a0)

/-! ## The gated embedding of the 32 queries -/

/-- The constant one over a 32 × 200 array. -/
def one32K : (⟨S32x200, .f32⟩ : BufTy).Contents (Elt F) :=
  broadcastInDim S32x200 ![] bcast_S_S32x200 (constant (F := F) S_ .f32 0x3F800000#32)

/-- The candidate: tanh of the rows and context, side by side, times the transposed weights, plus the bias. -/
def e1candK (x : (⟨S32x200, .f32⟩ : BufTy).Contents (Elt F)) (c : (⟨S32x50, .f32⟩ : BufTy).Contents (Elt F))
    (a6 : (⟨S200x250, .f32⟩ : BufTy).Contents (Elt F)) (a7 : (⟨S200, .f32⟩ : BufTy).Contents (Elt F)) :
    (⟨S32x200, .f32⟩ : BufTy).Contents (Elt F) :=
  Host.tanh (F := F)
    (addf
      (Host.dotGeneral (F := F) dot_S32x250_S250x200_S32x200_1_0_0_1_n_n none
        (concatenate S32x250 1 [⟨S32x200, x⟩, ⟨S32x50, c⟩] concatenates_S32x200_S32x50_S32x250_d1)
        (transpose S250x200 [1, 0] a6 transposes_S200x250_S250x200_1_0))
      (broadcastInDim S32x200 ![0, 1] bcast_S1x200_S32x200_0_1 (broadcastInDim S1x200 ![1] bcast_S200_S1x200_1 a7)))

/-- The gate: the logistic function of rows times weights plus context times weights plus bias. -/
def e1gateK (x : (⟨S32x200, .f32⟩ : BufTy).Contents (Elt F)) (c : (⟨S32x50, .f32⟩ : BufTy).Contents (Elt F))
    (a8 : (⟨S200x200, .f32⟩ : BufTy).Contents (Elt F)) (a9 : (⟨S200x50, .f32⟩ : BufTy).Contents (Elt F))
    (a10 : (⟨S200, .f32⟩ : BufTy).Contents (Elt F)) : (⟨S32x200, .f32⟩ : BufTy).Contents (Elt F) :=
  Host.divf (F := F) (one32K (F := F))
    (addf (one32K (F := F))
      (Host.exp (F := F)
        (Host.negf (F := F)
          (addf
            (addf
              (Host.dotGeneral (F := F) dot_S32x200_S200x200_S32x200_1_0_0_1_n_n none x
                (transpose S200x200 [1, 0] a8 transposes_S200x200_S200x200_1_0))
              (Host.dotGeneral (F := F) dot_S32x50_S50x200_S32x200_1_0_0_1_n_n none c
                (transpose S50x200 [1, 0] a9 transposes_S200x50_S50x200_1_0)))
            (broadcastInDim S32x200 ![0, 1] bcast_S1x200_S32x200_0_1
              (broadcastInDim S1x200 ![1] bcast_S200_S1x200_1 a10))))))

/-- The blended query embedding: (1 - gate) * rows + gate * candidate. -/
def e1embK (a0 : (⟨S32, .i32⟩ : BufTy).Contents (Elt F)) (a3 : (⟨S30000x200, .f32⟩ : BufTy).Contents (Elt F))
    (a5 : (⟨S30000x50, .f32⟩ : BufTy).Contents (Elt F)) (a6 : (⟨S200x250, .f32⟩ : BufTy).Contents (Elt F))
    (a7 : (⟨S200, .f32⟩ : BufTy).Contents (Elt F)) (a8 : (⟨S200x200, .f32⟩ : BufTy).Contents (Elt F))
    (a9 : (⟨S200x50, .f32⟩ : BufTy).Contents (Elt F)) (a10 : (⟨S200, .f32⟩ : BufTy).Contents (Elt F)) :
    (⟨S32x200, .f32⟩ : BufTy).Contents (Elt F) :=
  addf
    (mulf (subf (one32K (F := F)) (e1gateK (e1rowsK a0 a3) (e1ctxK a0 a5) a8 a9 a10)) (e1rowsK a0 a3))
    (mulf (e1gateK (e1rowsK a0 a3) (e1ctxK a0 a5) a8 a9 a10) (e1candK (e1rowsK a0 a3) (e1ctxK a0 a5) a6 a7))

/-! ## The relation rows and the query vector -/

/-- The relations' rows. -/
def relembK (a1 : (⟨S32, .i32⟩ : BufTy).Contents (Elt F)) (a4 : (⟨S474x200, .f32⟩ : BufTy).Contents (Elt F)) :
    (⟨S32x200, .f32⟩ : BufTy).Contents (Elt F) :=
  Host.gather gather_S474x200_S32x1_S32x200_1_0_n_n_0_1_1200 a4 (rowIdxK (F := F) 474#32 a1)

/-- The query vector: blended query embedding plus relation row. -/
def qK (a0 a1 : (⟨S32, .i32⟩ : BufTy).Contents (Elt F)) (a3 : (⟨S30000x200, .f32⟩ : BufTy).Contents (Elt F))
    (a4 : (⟨S474x200, .f32⟩ : BufTy).Contents (Elt F)) (a5 : (⟨S30000x50, .f32⟩ : BufTy).Contents (Elt F))
    (a6 : (⟨S200x250, .f32⟩ : BufTy).Contents (Elt F)) (a7 : (⟨S200, .f32⟩ : BufTy).Contents (Elt F))
    (a8 : (⟨S200x200, .f32⟩ : BufTy).Contents (Elt F)) (a9 : (⟨S200x50, .f32⟩ : BufTy).Contents (Elt F))
    (a10 : (⟨S200, .f32⟩ : BufTy).Contents (Elt F)) : (⟨S32x200, .f32⟩ : BufTy).Contents (Elt F) :=
  addf (e1embK a0 a3 a5 a6 a7 a8 a9 a10) (relembK a1 a4)

variable (m : (ℓ : Loc nD τ sig) → Buf (Elt F) ℓ)

/-! ## The two arrays of the queries -/

/-- The region's second array is the blended query embedding of the arguments. -/
theorem v39_eq (c : Dev nD) :
    (Fr.V m c main_v39 : S32x200.Idx → Elt F .f32)
      = e1embK (m ((c : Thread nD τ).loc main_arg0)) (m ((c : Thread nD τ).loc main_arg3)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  dsimp only [Fr.V, Fr.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10,
    List.flatten_cons, List.flatten_nil, List.append_nil, List.cons_append, List.nil_append]
  after_results_simp
  rfl

/-- The region's first array is the query vector of the arguments. -/
theorem v47_eq (c : Dev nD) :
    (Fr.V m c main_v47 : S32x200.Idx → Elt F .f32)
      = qK (m ((c : Thread nD τ).loc main_arg0)) (m ((c : Thread nD τ).loc main_arg1)) (m ((c : Thread nD τ).loc main_arg3))
          (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  dsimp only [Fr.V, Fr.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10,
    List.flatten_cons, List.flatten_nil, List.append_nil, List.cons_append, List.nil_append]
  after_results_simp
  rfl

/-! ## The padded tables -/

/-- The scalar the four float pads fill with: the integer word zero converted to f32. -/
def padZero : Elt F .f32 := FloatOps.sitofp .f32 (0#32 : BitVec 32)

/-- The entity embedding table (`emb_e`) with 720 rows of padding below it. -/
theorem v48_eq (c : Dev nD) :
    (Fr.V m c main_v48 : S30720x200.Idx → Elt F .f32)
      = pad S30720x200 ![0, 0] ![720, 0] ![0, 0] (m ((c : Thread nD τ).loc main_arg3))
          (sitofp (F := F) .f32 (constantI S_ 32 0#32)) pads_S30000x200_S30720x200_07200_000 h_S_ := by
  dsimp only [Fr.V, Fr.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10,
    List.flatten_cons, List.flatten_nil, List.append_nil, List.cons_append, List.nil_append]
  after_results
  try rfl

/-- The entity context table (`num_lit`) with 720 rows of padding below it. -/
theorem v49_eq (c : Dev nD) :
    (Fr.V m c main_v49 : S30720x50.Idx → Elt F .f32)
      = pad S30720x50 ![0, 0] ![720, 0] ![0, 0] (m ((c : Thread nD τ).loc main_arg5))
          (sitofp (F := F) .f32 (constantI S_ 32 0#32)) pads_S30000x50_S30720x50_07200_000 h_S_ := by
  dsimp only [Fr.V, Fr.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10,
    List.flatten_cons, List.flatten_nil, List.append_nil, List.cons_append, List.nil_append]
  after_results
  try rfl

/-- The label mask (`e2_multi`) with 720 columns of the word one after it. -/
theorem v50_eq (c : Dev nD) :
    (Fr.V m c main_v50 : S32x30720.Idx → Elt F .i32)
      = pad S32x30720 ![0, 0] ![0, 720] ![0, 0] (m ((c : Thread nD τ).loc main_arg2))
          (constantI S_ 32 1#32) pads_S32x30000_S32x30720_000_07200 h_S_ := by
  dsimp only [Fr.V, Fr.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10,
    List.flatten_cons, List.flatten_nil, List.append_nil, List.cons_append, List.nil_append]
  after_results
  try rfl

/-- The positive weights (`prob`) with 720 columns of padding after them. -/
theorem v51_eq (c : Dev nD) :
    (Fr.V m c main_v51 : S32x30720.Idx → Elt F .f32)
      = pad S32x30720 ![0, 0] ![0, 720] ![0, 0] (m ((c : Thread nD τ).loc main_arg11))
          (sitofp (F := F) .f32 (constantI S_ 32 0#32)) pads_S32x30000_S32x30720_000_07200 h_S_ := by
  dsimp only [Fr.V, Fr.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10,
    List.flatten_cons, List.flatten_nil, List.append_nil, List.cons_append, List.nil_append]
  after_results
  try rfl

/-- The negative keep mask (`drop_mask`) with 720 columns of padding after them. -/
theorem v52_eq (c : Dev nD) :
    (Fr.V m c main_v52 : S32x30720.Idx → Elt F .f32)
      = pad S32x30720 ![0, 0] ![0, 720] ![0, 0] (m ((c : Thread nD τ).loc main_arg12))
          (sitofp (F := F) .f32 (constantI S_ 32 0#32)) pads_S32x30000_S32x30720_000_07200 h_S_ := by
  dsimp only [Fr.V, Fr.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10,
    List.flatten_cons, List.flatten_nil, List.append_nil, List.cons_append, List.nil_append]
  after_results
  try rfl

/-! ## The weights, cut and transposed -/

/-- The candidate's weights on the embedding: the first 200 columns, transposed. -/
theorem v54_eq (c : Dev nD) :
    (Fr.V m c main_v54 : S200x200.Idx → Elt F .f32)
      = transpose S200x200 [1, 0]
          (extractStridedSlice S200x200 ![0, 0] (m ((c : Thread nD τ).loc main_arg6)) slices_S200x250_S200x200_0_0)
          transposes_S200x200_S200x200_1_0 := by
  dsimp only [Fr.V, Fr.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10,
    List.flatten_cons, List.flatten_nil, List.append_nil, List.cons_append, List.nil_append]
  after_results
  try rfl

/-- The candidate's weights on the context: the last 50 columns, transposed. -/
theorem v56_eq (c : Dev nD) :
    (Fr.V m c main_v56 : S50x200.Idx → Elt F .f32)
      = transpose S50x200 [1, 0]
          (extractStridedSlice S200x50 ![0, 200] (m ((c : Thread nD τ).loc main_arg6)) slices_S200x250_S200x50_0_200)
          transposes_S200x50_S50x200_1_0 := by
  dsimp only [Fr.V, Fr.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10,
    List.flatten_cons, List.flatten_nil, List.append_nil, List.cons_append, List.nil_append]
  after_results
  try rfl

/-- The gate's weights on the embedding, transposed. -/
theorem v57_eq (c : Dev nD) :
    (Fr.V m c main_v57 : S200x200.Idx → Elt F .f32)
      = transpose S200x200 [1, 0] (m ((c : Thread nD τ).loc main_arg8)) transposes_S200x200_S200x200_1_0 := by
  dsimp only [Fr.V, Fr.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10,
    List.flatten_cons, List.flatten_nil, List.append_nil, List.cons_append, List.nil_append]
  after_results
  try rfl

/-- The gate's weights on the context, transposed. -/
theorem v58_eq (c : Dev nD) :
    (Fr.V m c main_v58 : S50x200.Idx → Elt F .f32)
      = transpose S50x200 [1, 0] (m ((c : Thread nD τ).loc main_arg9)) transposes_S200x50_S50x200_1_0 := by
  dsimp only [Fr.V, Fr.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10,
    List.flatten_cons, List.flatten_nil, List.append_nil, List.cons_append, List.nil_append]
  after_results
  try rfl

end Cert.KernelIdeal.Val
end
-- ==== Proof.KV.Tail.lean ====
/-
  The program's two results in terms of the region's arrays at its exit. The prediction is the first 30000 columns of
  the region's first result. The loss is a function of four arrays: the two masked sums (each the sum of the two cores'
  partial sums) divided by their counts, the query embedding and the query vector; that function is the same chain of
  operations from the two quotients down to the final negation, named here as stages.
-/
import proofs.«111044_j49203145342981_2_alg».proof.Proof.KI.Kit
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.StableHlo
open Idealize.ShloMosaic.ValueIdx
open Idealize.ShloMosaic.Pipeline (Dat)

variable {F : FTy → Type} [FloatOps F]

/-! ## The two cores' partial sums, added and divided -/

/-- A masked average from the two cores' partial results: the two 32 × 200 slabs of the sums added, divided by the two
    32 × 1 slabs of the counts added and spread over the 200 columns. -/
def quotK (S : (⟨S2x32x200, .f32⟩ : BufTy).Contents (Elt F)) (C : (⟨S2x32x1, .f32⟩ : BufTy).Contents (Elt F)) : (⟨S32x200, .f32⟩ : BufTy).Contents (Elt F) :=
  Host.divf (F := F)
    (addf
      (shapeCast S32x200 (extractStridedSlice S1x32x200 ![0, 0, 0] S slices_S2x32x200_S1x32x200_0_0_0) shapeCasts_S1x32x200_S32x200)
      (shapeCast S32x200 (extractStridedSlice S1x32x200 ![1, 0, 0] S slices_S2x32x200_S1x32x200_1_0_0) shapeCasts_S1x32x200_S32x200))
    (broadcastInDim S32x200 ![0, 1] bcast_S32x1_S32x200_0_1
      (addf
        (shapeCast S32x1 (extractStridedSlice S1x32x1 ![0, 0, 0] C slices_S2x32x1_S1x32x1_0_0_0) shapeCasts_S1x32x1_S32x1)
        (shapeCast S32x1 (extractStridedSlice S1x32x1 ![1, 0, 0] C slices_S2x32x1_S1x32x1_1_0_0) shapeCasts_S1x32x1_S32x1)))

/-! ## The loss from the two averages -/

/-- A constant spread over a 32 × 200 array. -/
def splat32K (b : BitVec 32) : (⟨S32x200, .f32⟩ : BufTy).Contents (Elt F) :=
  broadcastInDim S32x200 ![] bcast_S_S32x200 (constant (F := F) S_ .f32 b)

/-- The L1 distance of each query vector to a target: the row sums of |q - t|. -/
def l1rowK (q t : (⟨S32x200, .f32⟩ : BufTy).Contents (Elt F)) : (⟨S32, .f32⟩ : BufTy).Contents (Elt F) :=
  Host.reduceAdd (F := F) (Host.absf (F := F) (subf q t)) (constant (F := F) S_ .f32 0x00000000#32) reducesTo_S32x200_S32_d1 h_S_

/-- The first target: 0.3 of the first average plus 0.7 of the query embedding. -/
def posTargetK (posRaw e1 : (⟨S32x200, .f32⟩ : BufTy).Contents (Elt F)) : (⟨S32x200, .f32⟩ : BufTy).Contents (Elt F) :=
  addf (mulf (splat32K (F := F) 0x3E99999A#32) posRaw) (mulf (splat32K (F := F) 0x3F333333#32) e1)

/-- The second target: 0.7 of the second average plus 0.3 of the query embedding. -/
def negTargetK (negRaw e1 : (⟨S32x200, .f32⟩ : BufTy).Contents (Elt F)) : (⟨S32x200, .f32⟩ : BufTy).Contents (Elt F) :=
  addf (mulf (splat32K (F := F) 0x3F333333#32) negRaw) (mulf (splat32K (F := F) 0x3E99999A#32) e1)

/-- All pairs of queries (i, j): the distance of query j to its second target minus the distance of query i to its
    first target. -/
def marginsK (posRaw negRaw e1 q : (⟨S32x200, .f32⟩ : BufTy).Contents (Elt F)) : (⟨S32x32, .f32⟩ : BufTy).Contents (Elt F) :=
  subf
    (broadcastInDim S32x32 ![0, 1] bcast_S1x32_S32x32_0_1
      (broadcastInDim S1x32 ![1] bcast_S32_S1x32_1 (l1rowK q (negTargetK negRaw e1))))
    (broadcastInDim S32x32 ![0, 1] bcast_S32x1_S32x32_0_1
      (broadcastInDim S32x1 ![0] bcast_S32_S32x1_0 (l1rowK q (posTargetK posRaw e1))))

/-- The constant zero over a 32 × 32 array. -/
def zero32x32K : (⟨S32x32, .f32⟩ : BufTy).Contents (Elt F) :=
  broadcastInDim S32x32 ![] bcast_S_S32x32 (constant (F := F) S_ .f32 0x00000000#32)

/-- The program's softplus: max(x, 0) + log(1 + exp(-|x - 0|)), and x + 0 where x - 0 is not a number. -/
def softplusOfK (x : (⟨S32x32, .f32⟩ : BufTy).Contents (Elt F)) : (⟨S32x32, .f32⟩ : BufTy).Contents (Elt F) :=
  select (cmpf .une (subf x (zero32x32K (F := F))) (subf x (zero32x32K (F := F))))
    (addf x (zero32x32K (F := F)))
    (addf (maximumf x (zero32x32K (F := F)))
      (Host.log1p (F := F) (Host.exp (F := F) (Host.negf (F := F) (Host.absf (F := F) (subf x (zero32x32K (F := F))))))))

/-- The program's log-sigmoid: minus softplus of minus x. -/
def logSigmoidOfK (x : (⟨S32x32, .f32⟩ : BufTy).Contents (Elt F)) : (⟨S32x32, .f32⟩ : BufTy).Contents (Elt F) :=
  Host.negf (F := F) (softplusOfK (Host.negf (F := F) x))

/-- The loss from the two averages, the query embedding and the query vector: minus the mean over the 1024 pairs of
    the log-sigmoid of the margins. -/
def lossTailK (posRaw negRaw e1 q : (⟨S32x200, .f32⟩ : BufTy).Contents (Elt F)) : (⟨S_, .f32⟩ : BufTy).Contents (Elt F) :=
  Host.negf (F := F)
    (Host.divf (F := F)
      (Host.reduceAdd (F := F) (logSigmoidOfK (marginsK posRaw negRaw e1 q)) (constant (F := F) S_ .f32 0x00000000#32)
        reducesTo_S32x32_S_d0_1 h_S_)
      (constant (F := F) S_ .f32 0x44800000#32))

/-! ## A quotient at an index -/

section SliceRead
variable {α : Type}

/-- A rank-3 array cut along its first axis from `o` reads, at `(j, a, e)`, the source at `(k, a, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

end SliceRead

/-- A masked average at query `b` and column `d`: the two cores' partial sums there added, over the two cores' partial
    counts of the query added. -/
theorem quotK_apply (S : (⟨S2x32x200, .f32⟩ : BufTy).Contents (Elt F)) (C : (⟨S2x32x1, .f32⟩ : BufTy).Contents (Elt F)) (b : Fin 32) (d : Fin 200) :
    quotK S C (ix2 b d)
      = FloatOps.hostDivf (FloatOps.addf (S (ix3 (0 : Fin 2) b d)) (S (ix3 (1 : Fin 2) b d)))
          (FloatOps.addf (C (ix3 (0 : Fin 2) b (0 : Fin 1))) (C (ix3 (1 : Fin 2) b (0 : Fin 1)))) := by
  have s0 : shapeCast S32x200 (extractStridedSlice S1x32x200 ![0, 0, 0] S slices_S2x32x200_S1x32x200_0_0_0)
      shapeCasts_S1x32x200_S32x200 (ix2 b d) = S (ix3 (0 : Fin 2) b d) :=
    (shapeCast_1ab_ab_apply _ _ b d).trans (slice3_axis0_apply 0 S _ 0 b d 0 rfl)
  have s1 : shapeCast S32x200 (extractStridedSlice S1x32x200 ![1, 0, 0] S slices_S2x32x200_S1x32x200_1_0_0)
      shapeCasts_S1x32x200_S32x200 (ix2 b d) = S (ix3 (1 : Fin 2) b d) :=
    (shapeCast_1ab_ab_apply _ _ b d).trans (slice3_axis0_apply 1 S _ 0 b d 1 rfl)
  have c0 : shapeCast S32x1 (extractStridedSlice S1x32x1 ![0, 0, 0] C slices_S2x32x1_S1x32x1_0_0_0)
      shapeCasts_S1x32x1_S32x1 (ix2 b (0 : Fin 1)) = C (ix3 (0 : Fin 2) b (0 : Fin 1)) :=
    (shapeCast_1ab_ab_apply _ _ b 0).trans (slice3_axis0_apply 0 C _ 0 b 0 0 rfl)
  have c1 : shapeCast S32x1 (extractStridedSlice S1x32x1 ![1, 0, 0] C slices_S2x32x1_S1x32x1_1_0_0)
      shapeCasts_S1x32x1_S32x1 (ix2 b (0 : Fin 1)) = C (ix3 (1 : Fin 2) b (0 : Fin 1)) :=
    (shapeCast_1ab_ab_apply _ _ b 0).trans (slice3_axis0_apply 1 C _ 0 b 0 1 rfl)
  have hb : ∀ y : (⟨S32x1, .f32⟩ : BufTy).Contents (Elt F),
      broadcastInDim S32x200 ![0, 1] bcast_S32x1_S32x200_0_1 y (ix2 b d) = y (ix2 b (0 : Fin 1)) := fun y =>
    broadcastInDim_apply _ _ y _ _ (fun a => match a with | ⟨0, _⟩ => rfl | ⟨1, _⟩ => rfl)
  unfold quotK
  show FloatOps.hostDivf (FloatOps.addf _ _)
      (broadcastInDim S32x200 ![0, 1] bcast_S32x1_S32x200_0_1 (_ : (⟨S32x1, .f32⟩ : BufTy).Contents (Elt F)) (ix2 b d)) = _
  rw [hb, s0, s1]
  show FloatOps.hostDivf _ (FloatOps.addf _ _) = _
  rw [c0, c1]

/-- The same at the ideal reading: sums and a quotient of extended reals. -/
theorem quotK_apply_ideal (S : (⟨S2x32x200, .f32⟩ : BufTy).Contents (Elt Ideal)) (C : (⟨S2x32x1, .f32⟩ : BufTy).Contents (Elt Ideal))
    (b : Fin 32) (d : Fin 200) :
    quotK S C (ix2 b d)
      = Ideal.div (S (ix3 (0 : Fin 2) b d) + S (ix3 (1 : Fin 2) b d))
          (C (ix3 (0 : Fin 2) b (0 : Fin 1)) + C (ix3 (1 : Fin 2) b (0 : Fin 1))) :=
  quotK_apply S C b d

/-! ## The later operations from any contents at their start -/

/-- The prediction: the first 30000 columns of the region's first result. -/
theorem tail_v60 (W : Valuation τ sig (Elt F)) :
    (StableHlo.after (List.flatten [hostOps1, hostOps1_1, hostOps1_2]) W (Proc.devRef .tc main_v60) : S32x30000.Idx → Elt F .f32)
      = extractStridedSlice S32x30000 ![0, 0] (W (Proc.devRef .tc main_v59_0) : S32x30720.Idx → Elt F .f32)
          slices_S32x30720_S32x30000_0_0 := by
  simp only [Gen.hostOps1, Gen.hostOps1_1, Gen.hostOps1_2, List.flatten_cons, List.flatten_nil, List.append_nil, List.cons_append, List.nil_append]
  after_results
  try rfl

/-- The loss: the chain of stages at the two quotients, the query embedding and the query vector. -/
theorem tail_v109 (W : Valuation τ sig (Elt F)) :
    (StableHlo.after (List.flatten [hostOps1, hostOps1_1, hostOps1_2]) W (Proc.devRef .tc main_v109) : S_.Idx → Elt F .f32)
      = lossTailK
          (quotK (W (Proc.devRef .tc main_v59_1)) (W (Proc.devRef .tc main_v59_2)))
          (quotK (W (Proc.devRef .tc main_v59_3)) (W (Proc.devRef .tc main_v59_4)))
          (W (Proc.devRef .tc main_v39)) (W (Proc.devRef .tc main_v47)) := by
  simp only [Gen.hostOps1, Gen.hostOps1_1, Gen.hostOps1_2, List.flatten_cons, List.flatten_nil, List.append_nil, List.cons_append, List.nil_append]
  after_results_simp
  rfl

variable (m : (ℓ : Loc nD τ sig) → Buf (Elt F) ℓ)
variable (dats : (p : Fin 1) → (c : Dev nD) → Dat τ (Elt F) Unit ℕ (UR sig nD τ) ℕ (cfgs p) c)

/-! ## The two results at the region's exit arrays -/

/-- The program's first result is the first 30000 columns of the region's first result array at exit. -/
theorem v60_eq (c : Dev nD) :
    (Pipeline.afterTail₀ cfgs dats 0 (Fr.V0 m) [hostOps1, hostOps1_1, hostOps1_2] c main_v60 : S32x30000.Idx → Elt F .f32)
      = extractStridedSlice S32x30000 ![0, 0] ((dats 0 c).arrAt 13 cfg0.N : S32x30720.Idx → Elt F .f32)
          slices_S32x30720_S32x30000_0_0 := by
  unfold Pipeline.afterTail₀
  refine (tail_v60 _).trans ?_
  rw [Pipeline.withArrays_arr spec0 launch0.win.arr_inj c _ _ 13]

/-- At a query and an entity it is the array's entry there. -/
theorem v60_at (c : Dev nD) (b : Fin 32) (e : Fin 30000) :
    (Pipeline.afterTail₀ cfgs dats 0 (Fr.V0 m) [hostOps1, hostOps1_1, hostOps1_2] c main_v60 : S32x30000.Idx → Elt F .f32) (ix2 b e)
      = ((dats 0 c).arrAt 13 cfg0.N : S32x30720.Idx → Elt F .f32) (ix2 b ⟨e.val, Nat.lt_trans e.isLt (by decide)⟩) := by
  rw [v60_eq]
  exact slice2_axis1_apply 0 _ _ b e _ (Nat.zero_add _).symm

/-- The program's second result is the loss chain at the quotients of the region's four partial-sum arrays, its second
    array (the query embedding) and its first (the query vector), all at exit. -/
theorem v109_eq (c : Dev nD) :
    (Pipeline.afterTail₀ cfgs dats 0 (Fr.V0 m) [hostOps1, hostOps1_1, hostOps1_2] c main_v109 : S_.Idx → Elt F .f32)
      = lossTailK
          (quotK ((dats 0 c).arrAt 14 cfg0.N) ((dats 0 c).arrAt 15 cfg0.N))
          (quotK ((dats 0 c).arrAt 16 cfg0.N) ((dats 0 c).arrAt 17 cfg0.N))
          ((dats 0 c).arrAt 1 cfg0.N) ((dats 0 c).arrAt 0 cfg0.N) := by
  unfold Pipeline.afterTail₀
  refine (tail_v109 _).trans ?_
  have e := fun w => Pipeline.withArrays_arr spec0 launch0.win.arr_inj c (Fr.V0 m c) (fun w => (dats 0 c).arrAt w cfg0.N) w
  exact congr (congr (congr (congrArg lossTailK (congr (congrArg quotK (e 14)) (e 15))) (congr (congrArg quotK (e 16)) (e 17))) (e 1)) (e 0)

end Cert.KernelIdeal.Val
end
-- ==== Proof.StagesEq.lean ====
/- The two programs build the query embedding, the query vector and the loss from the same host operations, applied in
   the same order to the same operands: the stages named on the kernel program's side and those named on the reference
   program's side are the same functions. The two programs' shapes are the same literals and their dimension records
   have the same fields (they differ in the proofs they carry, which do not matter), so each smallest stage is equal to
   its counterpart by unfolding; each larger stage is equal to its counterpart because its parts are. -/
import proofs.«111044_j49203145342981_2_alg».proof.Proof.RefStages
import proofs.«111044_j49203145342981_2_alg».proof.Proof.KV.Prefix
import proofs.«111044_j49203145342981_2_alg».proof.Proof.KV.Tail

noncomputable section

namespace Cert.Bridge

open Idealize.ShloMosaic
open Cert.ReferenceIdeal (S_ S32 S32x1 S32x50 S32x200 S32x32 S200 S200x250 S200x200 S200x50 S30000x200 S30000x50 S474x200)
open Cert.ReferenceIdeal.RefRun
open Cert.KernelIdeal.Val

variable {F : FTy → Type} [FloatOps F]

/-! ## The query rows -/

theorem rowIdx_eq (n : BitVec 32) (a : (⟨S32, .i32⟩ : BufTy).Contents (Elt F)) :
    rowIdxK (F := F) n a = rowIdx (F := F) n a := rfl

theorem e1rows_eq (a0 : (⟨S32, .i32⟩ : BufTy).Contents (Elt F)) (a3 : (⟨S30000x200, .f32⟩ : BufTy).Contents (Elt F)) :
    e1rowsK a0 a3 = e1rows a0 a3 := by
  unfold e1rowsK e1rows
  rw [rowIdx_eq]
  first | done | rfl

theorem e1ctx_eq (a0 : (⟨S32, .i32⟩ : BufTy).Contents (Elt F)) (a5 : (⟨S30000x50, .f32⟩ : BufTy).Contents (Elt F)) :
    e1ctxK a0 a5 = e1ctx a0 a5 := by
  unfold e1ctxK e1ctx
  rw [rowIdx_eq]
  first | done | rfl

/-! ## The gated embedding of the 32 queries -/

theorem one32_eq : one32K (F := F) = one32 (F := F) := rfl

theorem e1cand_eq (x : (⟨S32x200, .f32⟩ : BufTy).Contents (Elt F)) (c : (⟨S32x50, .f32⟩ : BufTy).Contents (Elt F))
    (a6 : (⟨S200x250, .f32⟩ : BufTy).Contents (Elt F)) (a7 : (⟨S200, .f32⟩ : BufTy).Contents (Elt F)) :
    e1candK x c a6 a7 = e1cand x c a6 a7 := rfl

theorem e1gate_eq (x : (⟨S32x200, .f32⟩ : BufTy).Contents (Elt F)) (c : (⟨S32x50, .f32⟩ : BufTy).Contents (Elt F))
    (a8 : (⟨S200x200, .f32⟩ : BufTy).Contents (Elt F)) (a9 : (⟨S200x50, .f32⟩ : BufTy).Contents (Elt F))
    (a10 : (⟨S200, .f32⟩ : BufTy).Contents (Elt F)) :
    e1gateK x c a8 a9 a10 = e1gate x c a8 a9 a10 := by
  unfold e1gateK e1gate
  rw [one32_eq]
  first | done | rfl

/-- The blended query embedding is the same function on both sides. -/
theorem e1emb_eq (a0 : (⟨S32, .i32⟩ : BufTy).Contents (Elt F)) (a3 : (⟨S30000x200, .f32⟩ : BufTy).Contents (Elt F))
    (a5 : (⟨S30000x50, .f32⟩ : BufTy).Contents (Elt F)) (a6 : (⟨S200x250, .f32⟩ : BufTy).Contents (Elt F))
    (a7 : (⟨S200, .f32⟩ : BufTy).Contents (Elt F)) (a8 : (⟨S200x200, .f32⟩ : BufTy).Contents (Elt F))
    (a9 : (⟨S200x50, .f32⟩ : BufTy).Contents (Elt F)) (a10 : (⟨S200, .f32⟩ : BufTy).Contents (Elt F)) :
    e1embK a0 a3 a5 a6 a7 a8 a9 a10 = e1emb a0 a3 a5 a6 a7 a8 a9 a10 := by
  unfold e1embK e1emb
  rw [e1rows_eq, e1ctx_eq, e1gate_eq, e1cand_eq, one32_eq]
  first | done | rfl

/-! ## The relation rows and the query vector -/

theorem relemb_eq (a1 : (⟨S32, .i32⟩ : BufTy).Contents (Elt F)) (a4 : (⟨S474x200, .f32⟩ : BufTy).Contents (Elt F)) :
    relembK a1 a4 = relemb a1 a4 := by
  unfold relembK relemb
  rw [rowIdx_eq]
  first | done | rfl

/-- The query vector is the same function on both sides. -/
theorem q_eq (a0 a1 : (⟨S32, .i32⟩ : BufTy).Contents (Elt F)) (a3 : (⟨S30000x200, .f32⟩ : BufTy).Contents (Elt F))
    (a4 : (⟨S474x200, .f32⟩ : BufTy).Contents (Elt F)) (a5 : (⟨S30000x50, .f32⟩ : BufTy).Contents (Elt F))
    (a6 : (⟨S200x250, .f32⟩ : BufTy).Contents (Elt F)) (a7 : (⟨S200, .f32⟩ : BufTy).Contents (Elt F))
    (a8 : (⟨S200x200, .f32⟩ : BufTy).Contents (Elt F)) (a9 : (⟨S200x50, .f32⟩ : BufTy).Contents (Elt F))
    (a10 : (⟨S200, .f32⟩ : BufTy).Contents (Elt F)) :
    qK a0 a1 a3 a4 a5 a6 a7 a8 a9 a10 = qvec (e1emb a0 a3 a5 a6 a7 a8 a9 a10) (relemb a1 a4) := by
  unfold qK qvec
  rw [e1emb_eq, relemb_eq]
  first | done | rfl

/-! ## The loss -/

theorem splat32_eq (b : BitVec 32) : splat32K (F := F) b = splat32 (F := F) b := rfl

theorem l1row_eq (q t : (⟨S32x200, .f32⟩ : BufTy).Contents (Elt F)) : l1rowK q t = l1row q t := rfl

theorem posTarget_eq (posRaw e1 : (⟨S32x200, .f32⟩ : BufTy).Contents (Elt F)) :
    posTargetK posRaw e1 = posTarget posRaw e1 := by
  unfold posTargetK posTarget
  rw [splat32_eq, splat32_eq]
  first | done | rfl

theorem negTarget_eq (negRaw e1 : (⟨S32x200, .f32⟩ : BufTy).Contents (Elt F)) :
    negTargetK negRaw e1 = negTarget negRaw e1 := by
  unfold negTargetK negTarget
  rw [splat32_eq, splat32_eq]
  first | done | rfl

theorem margins_eq (posRaw negRaw e1 q : (⟨S32x200, .f32⟩ : BufTy).Contents (Elt F)) :
    marginsK posRaw negRaw e1 q = margins posRaw negRaw e1 q := by
  unfold marginsK margins
  rw [negTarget_eq, posTarget_eq, l1row_eq, l1row_eq]
  first | done | rfl

theorem zero32x32_eq : zero32x32K (F := F) = zero32x32 (F := F) := rfl

theorem softplusOf_eq (x : (⟨S32x32, .f32⟩ : BufTy).Contents (Elt F)) : softplusOfK x = softplusOf x := by
  unfold softplusOfK softplusOf
  rw [zero32x32_eq]
  first | done | rfl

theorem logSigmoidOf_eq (x : (⟨S32x32, .f32⟩ : BufTy).Contents (Elt F)) : logSigmoidOfK x = logSigmoidOf x := by
  unfold logSigmoidOfK logSigmoidOf
  rw [softplusOf_eq]
  first | done | rfl

/-- The loss from the two averages, the query embedding and the query vector is the same function on both sides. -/
theorem lossTail_eq (posRaw negRaw e1 q : (⟨S32x200, .f32⟩ : BufTy).Contents (Elt F)) :
    lossTailK posRaw negRaw e1 q = lossTail posRaw negRaw e1 q := by
  unfold lossTailK lossTail
  rw [margins_eq, logSigmoidOf_eq]
  first | done | rfl

end Cert.Bridge

end
-- ==== Proof.KV.OutVals.lean ====
/-
  What each case of the body leaves in the four accumulators' staging buffers, as values. An accumulator is stored
  through its whole block, so its buffer ends at the last store's value. In the accumulating case that is the running
  contents plus the tile's contribution; in the reset case the body first stores zero, reads it back, and adds the
  tile's contribution to that zero. The inputs are read through their whole blocks, so the loads are the blocks.
-/
import proofs.«111044_j49203145342981_2_alg».proof.Proof.KI.Frame
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.Sem
open Idealize.ShloMosaic.Pipeline (Dat)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The accumulating case -/

theorem outB_14 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) :
    (out0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.1 = k0_pay17 (k0_pay8 x2) (k0_pay11 x2 x3 x7 x8 x9) (k0_pay12 x2 x3 x10 x11 x12) x4 x5 xo14 := by
  unfold out0_B
  dsimp only
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17)]
  unfold kernelRun0_B
  dsimp only
  sl_unfold_words
  rw [View.canon_unit_zero hz3]
  simp only [View.readAt_eq_ld, harg4.read_unread, harg5.read_unread, harg6.read_unread, harg7.read_unread, harg8.read_unread, harg9.read_unread, harg10.read_unread, harg11.read_unread, harg12.read_unread, harg13.read_unread, harg14.read_unread, harg16.read_unread, harg17.read_unread, harg18.read_unread, harg19.read_unread, View.ld_unit_zero (S := S1024x200) hz2, View.ld_unit_zero (S := S1024x50) hz2, View.ld_unit_zero (S := S32x1024) hz2, View.ld_unit_zero (S := S200x200) hz2, View.ld_unit_zero (S := S50x200) hz2, View.ld_unit_zero (S := S200) hz1, View.ld_unit_zero (S := S1x32x200) hz3, View.ld_unit_zero (S := S1x32x1) hz3]

theorem outB_15 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) :
    (out0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.1 = k0_pay18 x4 x5 xo15 := by
  unfold out0_B
  dsimp only
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17)]
  unfold kernelRun0_B
  dsimp only
  sl_unfold_words
  rw [View.canon_unit_zero hz3]
  simp only [View.readAt_eq_ld, harg4.read_unread, harg5.read_unread, harg6.read_unread, harg7.read_unread, harg8.read_unread, harg9.read_unread, harg10.read_unread, harg11.read_unread, harg12.read_unread, harg13.read_unread, harg14.read_unread, harg16.read_unread, harg17.read_unread, harg18.read_unread, harg19.read_unread, View.ld_unit_zero (S := S1024x200) hz2, View.ld_unit_zero (S := S1024x50) hz2, View.ld_unit_zero (S := S32x1024) hz2, View.ld_unit_zero (S := S200x200) hz2, View.ld_unit_zero (S := S50x200) hz2, View.ld_unit_zero (S := S200) hz1, View.ld_unit_zero (S := S1x32x200) hz3, View.ld_unit_zero (S := S1x32x1) hz3]

theorem outB_16 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) :
    (out0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.2.1 = k0_pay1 (k0_pay15 (k0_pay8 x2) (k0_pay11 x2 x3 x7 x8 x9) (k0_pay12 x2 x3 x10 x11 x12)) (k0_pay20 x4 x6) xo16 := by
  unfold out0_B
  dsimp only
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17)]
  unfold kernelRun0_B
  dsimp only
  sl_unfold_words
  rw [View.canon_unit_zero hz3]
  simp only [View.readAt_eq_ld, harg4.read_unread, harg5.read_unread, harg6.read_unread, harg7.read_unread, harg8.read_unread, harg9.read_unread, harg10.read_unread, harg11.read_unread, harg12.read_unread, harg13.read_unread, harg14.read_unread, harg16.read_unread, harg17.read_unread, harg18.read_unread, harg19.read_unread, View.ld_unit_zero (S := S1024x200) hz2, View.ld_unit_zero (S := S1024x50) hz2, View.ld_unit_zero (S := S32x1024) hz2, View.ld_unit_zero (S := S200x200) hz2, View.ld_unit_zero (S := S50x200) hz2, View.ld_unit_zero (S := S200) hz1, View.ld_unit_zero (S := S1x32x200) hz3, View.ld_unit_zero (S := S1x32x1) hz3]

theorem outB_17 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) :
    (out0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).2.2.2.2 = k0_pay2 (k0_pay19 x4) xo17 := by
  unfold out0_B
  dsimp only
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17)]
  unfold kernelRun0_B
  dsimp only
  sl_unfold_words
  rw [View.canon_unit_zero hz3]
  simp only [View.readAt_eq_ld, harg4.read_unread, harg5.read_unread, harg6.read_unread, harg7.read_unread, harg8.read_unread, harg9.read_unread, harg10.read_unread, harg11.read_unread, harg12.read_unread, harg13.read_unread, harg14.read_unread, harg16.read_unread, harg17.read_unread, harg18.read_unread, harg19.read_unread, View.ld_unit_zero (S := S1024x200) hz2, View.ld_unit_zero (S := S1024x50) hz2, View.ld_unit_zero (S := S32x1024) hz2, View.ld_unit_zero (S := S200x200) hz2, View.ld_unit_zero (S := S50x200) hz2, View.ld_unit_zero (S := S200) hz1, View.ld_unit_zero (S := S1x32x200) hz3, View.ld_unit_zero (S := S1x32x1) hz3]

/-! ## The reset case -/

theorem outA_14 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) :
    (out0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.1 = k0_pay17 (k0_pay8 x2) (k0_pay11 x2 x3 x7 x8 x9) (k0_pay12 x2 x3 x10 x11 x12) x4 x5 (k0_pay4 (F := F)) := by
  unfold out0_A
  dsimp only
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12)]
  unfold kernelRun0_A
  dsimp only
  sl_unfold_words
  rw [View.canon_cons_unit_zero (S := S1x32x200) hz3, View.readCov_unit_zero (S := S1x32x200) _ hz3]
  simp only [View.readAt_eq_ld, harg4.read_unread, harg5.read_unread, harg6.read_unread, harg7.read_unread, harg8.read_unread, harg9.read_unread, harg10.read_unread, harg11.read_unread, harg12.read_unread, harg13.read_unread, harg14.read_unread, harg16.read_unread, harg17.read_unread, harg18.read_unread, harg19.read_unread, View.ld_unit_zero (S := S1024x200) hz2, View.ld_unit_zero (S := S1024x50) hz2, View.ld_unit_zero (S := S32x1024) hz2, View.ld_unit_zero (S := S200x200) hz2, View.ld_unit_zero (S := S50x200) hz2, View.ld_unit_zero (S := S200) hz1, View.ld_unit_zero (S := S1x32x200) hz3, View.ld_unit_zero (S := S1x32x1) hz3]

theorem outA_15 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) :
    (out0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.1 = k0_pay18 x4 x5 (k0_pay5 (F := F)) := by
  unfold out0_A
  dsimp only
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12)]
  unfold kernelRun0_A
  dsimp only
  sl_unfold_words
  rw [View.canon_cons_unit_zero (S := S1x32x1) hz3, View.readCov_unit_zero (S := S1x32x1) _ hz3]
  simp only [View.readAt_eq_ld, harg4.read_unread, harg5.read_unread, harg6.read_unread, harg7.read_unread, harg8.read_unread, harg9.read_unread, harg10.read_unread, harg11.read_unread, harg12.read_unread, harg13.read_unread, harg14.read_unread, harg16.read_unread, harg17.read_unread, harg18.read_unread, harg19.read_unread, View.ld_unit_zero (S := S1024x200) hz2, View.ld_unit_zero (S := S1024x50) hz2, View.ld_unit_zero (S := S32x1024) hz2, View.ld_unit_zero (S := S200x200) hz2, View.ld_unit_zero (S := S50x200) hz2, View.ld_unit_zero (S := S200) hz1, View.ld_unit_zero (S := S1x32x200) hz3, View.ld_unit_zero (S := S1x32x1) hz3]

theorem outA_16 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) :
    (out0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.1 = k0_pay1 (k0_pay15 (k0_pay8 x2) (k0_pay11 x2 x3 x7 x8 x9) (k0_pay12 x2 x3 x10 x11 x12)) (k0_pay20 x4 x6) (k0_pay6 (F := F)) := by
  unfold out0_A
  dsimp only
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12)]
  unfold kernelRun0_A
  dsimp only
  sl_unfold_words
  rw [View.canon_cons_unit_zero (S := S1x32x200) hz3, View.readCov_unit_zero (S := S1x32x200) _ hz3]
  simp only [View.readAt_eq_ld, harg4.read_unread, harg5.read_unread, harg6.read_unread, harg7.read_unread, harg8.read_unread, harg9.read_unread, harg10.read_unread, harg11.read_unread, harg12.read_unread, harg13.read_unread, harg14.read_unread, harg16.read_unread, harg17.read_unread, harg18.read_unread, harg19.read_unread, View.ld_unit_zero (S := S1024x200) hz2, View.ld_unit_zero (S := S1024x50) hz2, View.ld_unit_zero (S := S32x1024) hz2, View.ld_unit_zero (S := S200x200) hz2, View.ld_unit_zero (S := S50x200) hz2, View.ld_unit_zero (S := S200) hz1, View.ld_unit_zero (S := S1x32x200) hz3, View.ld_unit_zero (S := S1x32x1) hz3]

theorem outA_17 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) :
    (out0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2 = k0_pay2 (k0_pay19 x4) (k0_pay7 (F := F)) := by
  unfold out0_A
  dsimp only
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12)]
  unfold kernelRun0_A
  dsimp only
  sl_unfold_words
  rw [View.canon_cons_unit_zero (S := S1x32x1) hz3, View.readCov_unit_zero (S := S1x32x1) _ hz3]
  simp only [View.readAt_eq_ld, harg4.read_unread, harg5.read_unread, harg6.read_unread, harg7.read_unread, harg8.read_unread, harg9.read_unread, harg10.read_unread, harg11.read_unread, harg12.read_unread, harg13.read_unread, harg14.read_unread, harg16.read_unread, harg17.read_unread, harg18.read_unread, harg19.read_unread, View.ld_unit_zero (S := S1024x200) hz2, View.ld_unit_zero (S := S1024x50) hz2, View.ld_unit_zero (S := S32x1024) hz2, View.ld_unit_zero (S := S200x200) hz2, View.ld_unit_zero (S := S50x200) hz2, View.ld_unit_zero (S := S200) hz1, View.ld_unit_zero (S := S1x32x200) hz3, View.ld_unit_zero (S := S1x32x1) hz3]

end Cert.KernelIdeal.Val

end
-- ==== Proof.KV.Spec.lean ====
/-
  The mathematics of the scorer, as pure functions of extended reals over literal index types.

  One entity row is an embedding x (200 reals) and a literal vector l (50 reals).  Its gated embedding is
      E(n) = (1 - g(n)) * x(n) + g(n) * tanh(pre(x, l; WgE, WgL, bg)(n)),
      g(n) = logistic(pre(x, l; W1, W2, gb)(n)),
      pre(x, l; A, C, b)(n) = (sum_k x(k) * A(k, n) + sum_k l(k) * C(k, n)) + b(n).
  A query row q scores an entity row e by  logistic(9 - sum_d |q(d) - e(d)|).
  The masked means weigh entity e of batch row b by
      posW = label * prob,   negW = ((1 - label) * drop) * 2,   negC = 1 - label,
  the label an integer word read as a signed integer.  The literals 1, 2 and 9 are kept as their f32 words.
-/
import Idealize.ShloMosaic.PureOps.Ideal
import Idealize.ShloMosaic.Lib.ValueIdx

noncomputable section

open scoped BigOperators

namespace Cert.Spec

open Idealize.ShloMosaic Idealize.ShloMosaic.ValueIdx

/-! ## Rows, matrices and vectors of a tile as families over literal index types -/

/-- Row `r` of a matrix. -/
abbrev row {a b : Nat} (v : (⟨2, ![a, b]⟩ : Shape).Idx → EReal) (r : Fin a) : Fin b → EReal := fun k => v (ix2 r k)
/-- Column `c` of a matrix. -/
abbrev col {a b : Nat} (v : (⟨2, ![a, b]⟩ : Shape).Idx → EReal) (c : Fin b) : Fin a → EReal := fun k => v (ix2 k c)
/-- A matrix by its two coordinates. -/
abbrev mat {a b : Nat} (v : (⟨2, ![a, b]⟩ : Shape).Idx → EReal) : Fin a → Fin b → EReal := fun k n => v (ix2 k n)
/-- A vector by its coordinate. -/
abbrev vec {a : Nat} (v : (⟨1, ![a]⟩ : Shape).Idx → EReal) : Fin a → EReal := fun n => v (ix1 n)

/-! ## The three literals -/

/-- 1.0 as its f32 word. -/
def one : EReal := Ideal.ofBits .f32 0x3F800000#32
/-- 2.0 as its f32 word. -/
def two : EReal := Ideal.ofBits .f32 0x40000000#32
/-- 9.0 as its f32 word. -/
def nine : EReal := Ideal.ofBits .f32 0x41100000#32

/-! ## The gate -/

/-- The affine map under both nonlinearities: two contractions, added, plus the bias. -/
def pre (x : Fin 200 → EReal) (l : Fin 50 → EReal) (wE : Fin 200 → Fin 200 → EReal) (wL : Fin 50 → Fin 200 → EReal)
    (b : Fin 200 → EReal) (n : Fin 200) : EReal :=
  (∑ k : Fin 200, x k * wE k n + ∑ k : Fin 50, l k * wL k n) + b n

/-- The gate's weight g(n). -/
def gateW (x : Fin 200 → EReal) (l : Fin 50 → EReal) (w1 : Fin 200 → Fin 200 → EReal) (w2 : Fin 50 → Fin 200 → EReal)
    (gb : Fin 200 → EReal) (n : Fin 200) : EReal :=
  Ideal.logistic (pre x l w1 w2 gb n)

/-- The candidate embedding tanh(pre(x, l; WgE, WgL, bg)(n)). -/
def gateT (x : Fin 200 → EReal) (l : Fin 50 → EReal) (wE : Fin 200 → Fin 200 → EReal) (wL : Fin 50 → Fin 200 → EReal)
    (bg : Fin 200 → EReal) (n : Fin 200) : EReal :=
  Ideal.tanh (pre x l wE wL bg n)

/-- Mixing an embedding entry `x` and a candidate `t` by a weight `g`: (1 - g) * x + g * t. -/
def mix (g x t : EReal) : EReal := (one - g) * x + g * t

/-- The gated embedding of one entity row at coordinate `n`. -/
def gate (x : Fin 200 → EReal) (l : Fin 50 → EReal) (wE : Fin 200 → Fin 200 → EReal) (wL : Fin 50 → Fin 200 → EReal)
    (bg : Fin 200 → EReal) (w1 : Fin 200 → Fin 200 → EReal) (w2 : Fin 50 → Fin 200 → EReal) (gb : Fin 200 → EReal)
    (n : Fin 200) : EReal :=
  mix (gateW x l w1 w2 gb n) (x n) (gateT x l wE wL bg n)

theorem gate_def (x : Fin 200 → EReal) (l : Fin 50 → EReal) (wE : Fin 200 → Fin 200 → EReal) (wL : Fin 50 → Fin 200 → EReal)
    (bg : Fin 200 → EReal) (w1 : Fin 200 → Fin 200 → EReal) (w2 : Fin 50 → Fin 200 → EReal) (gb : Fin 200 → EReal)
    (n : Fin 200) :
    gate x l wE wL bg w1 w2 gb n
      = (one - Ideal.logistic (pre x l w1 w2 gb n)) * x n
        + Ideal.logistic (pre x l w1 w2 gb n) * Ideal.tanh (pre x l wE wL bg n) := rfl

/-! ## The score -/

/-- The L1 distance of two rows; the absolute value of an extended real `a` is `max a (-a)`. -/
def l1 (q e : Fin 200 → EReal) : EReal := ∑ d : Fin 200, max (q d - e d) (-(q d - e d))

/-- The prediction of a query row against an entity row. -/
def score (q e : Fin 200 → EReal) : EReal := Ideal.logistic (nine - l1 q e)

/-! ## The weights of the masked means -/

/-- A label word read as a signed integer. -/
def lab (e2m : BitVec 32) : EReal := ((e2m.toInt : ℝ) : EReal)

/-- The ideal conversion of a signed 32-bit word to f32 is `lab`. -/
theorem sitofp_eq_lab (e2m : BitVec 32) : FloatOps.sitofp (F := Ideal) .f32 e2m = lab e2m := rfl

/-- The positive weight: label * prob. -/
def posW (e2m : BitVec 32) (p : EReal) : EReal := lab e2m * p
/-- The negative count's summand: 1 - label. -/
def negC (e2m : BitVec 32) : EReal := one - lab e2m
/-- The negative weight: ((1 - label) * drop) * 2. -/
def negW (e2m : BitVec 32) (d : EReal) : EReal := (negC e2m * d) * two

end Cert.Spec

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibTileOps.lean ====
/-
  Vector operations of a tile read at an index, at the ideal instance, generic in the extents.

  * a shape cast between two shapes of one element, and a broadcast from a shape whose axes all have extent one,
    read the operand's only element;
  * a vector of length `a` cast to the column `[a, 1]` reads the vector at the row;
  * the sum of a `[a, b]` tile taken in two steps — along the lanes, then, after the cast to a column, along the
    rows — is the double sum over the rows and the lanes.
-/
import Idealize.ShloMosaic.Lib.Pipeline.Value
import Idealize.ShloMosaic.Lib.ValueIdx
import Idealize.ShloMosaic.PureOps.Ideal.Laws

noncomputable section

namespace Cert.LibTileOps

open Idealize.ShloMosaic Idealize.ShloMosaic.ValueIdx

variable {α : Type}

/-- A cast out of a shape with one element reads that element, whatever the two indices are called. -/
theorem shapeCast_one {s t : Shape} (x : s.Idx → α) (h : s.ShapeCasts t) (hs : s.numel = 1) (j : t.Idx) (k : s.Idx) :
    shapeCast t x h j = x k :=
  shapeCast_apply x h j k (by
    have h1 := (s.rowMajor k).isLt
    have h2 := (t.rowMajor j).isLt
    have h3 : t.numel = s.numel := h
    omega)

/-- A broadcast out of a shape whose axes all have extent one reads its one element everywhere. -/
theorem broadcastTo_one {s t : Shape} (x : s.Idx → α) (h : s.Broadcasts t) (hs : ∀ a, s.size a = 1) (j : t.Idx) (k : s.Idx) :
    broadcastTo t x h j = x k :=
  broadcastTo_apply x h j k (fun a => by
    rw [if_pos (hs a)]
    have h1 := (k a).isLt
    have h2 := hs a
    omega)

/-- A length-`a` vector cast to the column `[a, 1]`, read at row `i`. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

/-- The two-step sum of a tile: lanes first, then rows. -/
theorem tile_sum_apply {a b : ℕ} (x : FVec Ideal ⟨2, ![a, b]⟩ .f32)
    (h1 : (⟨2, ![a, b]⟩ : Shape).Reduces [1] ⟨1, ![a]⟩) (hφ1 : FKind.Formats .f32)
    (hacc1 : (0x00000000#32 : BitVec 32) = FKind.add.neutral .f32 hφ1)
    (hc : (⟨1, ![a]⟩ : Shape).ShapeCasts ⟨2, ![a, 1]⟩)
    (h0 : (⟨2, ![a, 1]⟩ : Shape).Reduces [0] ⟨1, ![1]⟩) (hφ0 : FKind.Formats .f32)
    (hacc0 : (0x00000000#32 : BitVec 32) = FKind.add.neutral .f32 hφ0)
    (j : (⟨1, ![1]⟩ : Shape).Idx) :
    multiReduction .add [0] ⟨1, ![1]⟩
        (shapeCast ⟨2, ![a, 1]⟩ (multiReduction .add [1] ⟨1, ![a]⟩ x 0x00000000#32 h1 hφ1 hacc1) hc)
        0x00000000#32 h0 hφ0 hacc0 j
      = ∑ r : Fin a, ∑ k : Fin b, x (ix2 r k) := by
  refine (Ideal.multiReduction_add_single _ _ h0 hφ0 hacc0 j).trans ?_
  show ∑ r : Fin a, _ = _
  refine Finset.sum_congr rfl fun r _ => ?_
  have e0 : h0.lift j r = ix2 r (0 : Fin 1) := funext fun c => Fin.ext (by
    match c with
    | ⟨0, _⟩ => rfl
    | ⟨1, _⟩ => show (j ⟨0, _⟩).val = 0; have hj : (j ⟨0, Nat.one_pos⟩).val < 1 := (j ⟨0, Nat.one_pos⟩).isLt; omega)
  rw [e0, shapeCast_col_apply]
  refine (Ideal.multiReduction_add_single x _ h1 hφ1 hacc1 (ix1 r)).trans ?_
  show ∑ k : Fin b, _ = _
  refine Finset.sum_congr rfl fun k _ => ?_
  exact congrArg x (funext fun c => Fin.ext (by
    match c with
    | ⟨0, _⟩ => rfl
    | ⟨1, _⟩ => rfl))

end Cert.LibTileOps

end
-- ==== Proof.KV.Layout.lean ====
/-
  Layout and contraction operations of a tile read at an index given by coordinates, at the ideal values:
  the few forms the scorer's body uses that are not already in the library.

  * a plain matrix product into the zero splat, read at (r, n), is the sum over the shared axis;
  * a column `[a, b, 1]` broadcast along a new last axis, and one slab `[1, b, c]` broadcast over a leading axis;
  * a matrix cast to `[a, b, 1]`;
  * the sum of a rank-3 tile over its middle axis, and of a matrix over its lanes;
  * an accumulator `[1, a, b]` plus a matrix product, and an accumulator `[1, a, 1]` plus a lane sum, cast back.
-/
import Idealize.ShloMosaic.Lib.Pipeline.Value
import Idealize.ShloMosaic.Lib.ValueIdx
import Idealize.ShloMosaic.Lib.ValueLayout
import Idealize.ShloMosaic.PureOps.Ideal.Laws
import proofs.«111044_j49203145342981_2_alg».proof.Proof.LibDense
import proofs.«111044_j49203145342981_2_alg».proof.Proof.LibTileOps

noncomputable section

open scoped BigOperators

namespace Cert.KV

open Idealize.ShloMosaic Idealize.ShloMosaic.ValueIdx

variable {α : Type}

/-! ## A matrix product -/

/-- A plain matrix product into the zero splat, read at (r, n): the sum over the shared axis. -/
theorem mm_apply {A K N : Nat} (D : DotDims ⟨2, ![A, K]⟩ ⟨2, ![K, N]⟩ ⟨2, ![A, N]⟩) (hD : D = DotDims.plain A K N)
    {φ₁ φ₂ : FTy} (x : FVec Ideal ⟨2, ![A, K]⟩ φ₁) (w : FVec Ideal ⟨2, ![K, N]⟩ φ₂) (r : Fin A) (n : Fin N) :
    matmul D none x w (constant ⟨2, ![A, N]⟩ .f32 0x00000000#32) (ix2 r n) = ∑ k : Fin K, x (ix2 r k) * w (ix2 k n) := by
  subst hD
  refine (Ideal.matmul_constant_zero_apply (DotDims.plain A K N) none x w (ix2 r n)).trans ?_
  exact LibDense.plain_sum A K N x w (ix2 r n)

/-! ## Broadcasts and casts of rank-3 tiles -/

/-- A column `[a, b, 1]` broadcast to `[a, b, c]` reads, at (p, q, t), the column at (p, q). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (t : Fin c) :
    broadcastTo ⟨3, ![a, b, c]⟩ v h (ix3 p q t) = v (ix3 p q (0 : Fin 1)) := by
  refine broadcastTo_apply v h (ix3 p q t) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- One slab `[1, b, c]` broadcast to `[a, b, c]` reads, at (p, q, t), the slab at (q, t). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (t : Fin c) :
    broadcastTo ⟨3, ![a, b, c]⟩ v h (ix3 p q t) = v (ix3 (0 : Fin 1) q t) := by
  refine broadcastTo_apply v h (ix3 p q t) (ix3 (0 : Fin 1) q t) fun ax => ?_
  match ax with
  | ⟨0, _⟩ => rfl
  | ⟨1, _⟩ =>
    show q.val = if b = 1 then 0 else q.val
    split
    · have := q.isLt; omega
    · rfl
  | ⟨2, _⟩ =>
    show t.val = if c = 1 then 0 else t.val
    split
    · have := t.isLt; omega
    · rfl

/-- A matrix `[a, b]` cast to `[a, b, 1]` reads, at (p, q, u), the matrix at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-! ## Sums along one axis -/

/-- The sum of a rank-3 tile over its middle axis, read at (p, t). -/
theorem sum_mid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (t : Fin c) :
    multiReduction .add [1] ⟨2, ![a, c]⟩ src acc h hφ hacc (ix2 p t) = ∑ k : Fin b, src (ix3 p k t) := by
  refine (Ideal.multiReduction_add_single src acc h hφ hacc (ix2 p t)).trans ?_
  show ∑ k : Fin b, _ = _
  refine Finset.sum_congr rfl fun k _ => ?_
  exact congrArg src (funext fun d => Fin.ext (by
    match d with
    | ⟨0, _⟩ => rfl
    | ⟨1, _⟩ => rfl
    | ⟨2, _⟩ => rfl))

/-- The sum of a matrix over its lanes, read at row p. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, _ = _
  refine Finset.sum_congr rfl fun k _ => ?_
  exact congrArg src (funext fun d => Fin.ext (by
    match d with
    | ⟨0, _⟩ => rfl
    | ⟨1, _⟩ => rfl))

/-! ## An accumulator block updated by a matrix product or by a lane sum -/

/-- An accumulator `[1, a, b]`, cast to a matrix, plus a plain matrix product into the zero splat, cast back:
    at (u, p, q) the accumulator's entry plus the sum over the shared axis. -/
theorem acc_mm_apply {A K N : Nat} (D : DotDims ⟨2, ![A, K]⟩ ⟨2, ![K, N]⟩ ⟨2, ![A, N]⟩) (hD : D = DotDims.plain A K N)
    {φ₁ φ₂ : FTy} (x : FVec Ideal ⟨2, ![A, K]⟩ φ₁) (w : FVec Ideal ⟨2, ![K, N]⟩ φ₂) (acc : FVec Ideal ⟨3, ![1, A, N]⟩ .f32)
    (h1 : (⟨3, ![1, A, N]⟩ : Shape).ShapeCasts ⟨2, ![A, N]⟩) (h2 : (⟨2, ![A, N]⟩ : Shape).ShapeCasts ⟨3, ![1, A, N]⟩)
    (u : Fin 1) (p : Fin A) (q : Fin N) :
    shapeCast ⟨3, ![1, A, N]⟩
        (addf (shapeCast ⟨2, ![A, N]⟩ acc h1) (matmul D none x w (constant ⟨2, ![A, N]⟩ .f32 0x00000000#32))) h2 (ix3 u p q)
      = acc (ix3 (0 : Fin 1) p q) + ∑ k : Fin K, x (ix2 p k) * w (ix2 k q) := by
  refine (shapeCast_ab_1ab_apply _ h2 u p q).trans ?_
  exact congrArg₂ (· + ·) (shapeCast_1ab_ab_apply acc h1 p q) (mm_apply D hD x w p q)

/-- An accumulator `[1, a, 1]`, cast to a column, plus the lane sums of a matrix cast to a column, cast back:
    at (u, p, c) the accumulator's entry plus the sum of row p. -/
theorem acc_lanes_apply {a b : ℕ} (src : FVec Ideal ⟨2, ![a, b]⟩ .f32) (acc : FVec Ideal ⟨3, ![1, a, 1]⟩ .f32)
    (h : (⟨2, ![a, b]⟩ : Shape).Reduces [1] ⟨1, ![a]⟩) (hφ : FKind.Formats .f32)
    (hacc : (0x00000000#32 : BitVec 32) = FKind.add.neutral .f32 hφ)
    (h1 : (⟨3, ![1, a, 1]⟩ : Shape).ShapeCasts ⟨2, ![a, 1]⟩) (hc : (⟨1, ![a]⟩ : Shape).ShapeCasts ⟨2, ![a, 1]⟩)
    (h2 : (⟨2, ![a, 1]⟩ : Shape).ShapeCasts ⟨3, ![1, a, 1]⟩) (u : Fin 1) (p : Fin a) (c : Fin 1) :
    shapeCast ⟨3, ![1, a, 1]⟩
        (addf (shapeCast ⟨2, ![a, 1]⟩ acc h1)
          (shapeCast ⟨2, ![a, 1]⟩ (multiReduction .add [1] ⟨1, ![a]⟩ src 0x00000000#32 h hφ hacc) hc)) h2 (ix3 u p c)
      = acc (ix3 (0 : Fin 1) p c) + ∑ k : Fin b, src (ix2 p k) := by
  refine (shapeCast_ab_1ab_apply _ h2 u p c).trans ?_
  refine congrArg₂ (· + ·) (shapeCast_1ab_ab_apply acc h1 p c) ?_
  refine (LibTileOps.shapeCast_col_apply _ hc p c).trans ?_
  exact sum_lanes_apply src _ h hφ hacc p

end Cert.KV

end
-- ==== Proof.KV.PayGate.lean ====
/-
  The gated tile of the scorer's body, read at an index, at the ideal values.

  Narrowing to bf16 is the identity on extended reals and a matrix product into a zero accumulator is the plain
  sum, so entry (r, n) of the tile is the gate of row r of the embedding tile and row r of the literal tile.
-/
import proofs.«111044_j49203145342981_2_alg».proof.Proof.Gen.KernelIdeal.Skeleton
import proofs.«111044_j49203145342981_2_alg».proof.Proof.KV.Spec
import proofs.«111044_j49203145342981_2_alg».proof.Proof.KV.Layout

noncomputable section

open scoped BigOperators

namespace Cert.KV

open Idealize.ShloMosaic Idealize.ShloMosaic.ValueIdx Cert.KernelIdeal Cert.Spec

/-- The embedding tile passes through its cast unchanged. -/
theorem pay8_eq (v3 : Vec Ideal S1024x200 .f32) : Gen.k0_pay8 v3 = v3 := by
  unfold Gen.k0_pay8
  exact shapeCast_self v3 _

/-- The candidate embedding at (r, n): tanh of the affine map of row r. -/
theorem pay11_apply (v3 : Vec Ideal S1024x200 .f32) (v5 : Vec Ideal S1024x50 .f32) (v9 : Vec Ideal S200x200 .f32)
    (v12 : Vec Ideal S50x200 .f32) (v18 : Vec Ideal S200 .f32) (r : Fin 1024) (n : Fin 200) :
    Gen.k0_pay11 v3 v5 v9 v12 v18 (ix2 r n) = gateT (row v3 r) (row v5 r) (mat v9) (mat v12) (vec v18) n := by
  unfold Gen.k0_pay11 Gen.k0_pay9 Gen.k0_pay10 Gen.k0_pay8
  simp only [shapeCast_self]
  refine congrArg Ideal.tanh (congrArg₂ (· + ·) (congrArg₂ (· + ·) ?_ ?_) ?_)
  · exact mm_apply dot_S1024x200_S200x200_S1024x200_1_0_0_1_n_n rfl _ _ r n
  · exact mm_apply dot_S1024x50_S50x200_S1024x200_1_0_0_1_n_n rfl _ _ r n
  · exact LibDense.bias_rows_kernel v18 _ _ (ix2 r n)

/-- The gate's weight at (r, n): the logistic of the affine map of row r. -/
theorem pay12_apply (v3 : Vec Ideal S1024x200 .f32) (v5 : Vec Ideal S1024x50 .f32) (v23 : Vec Ideal S200x200 .f32)
    (v26 : Vec Ideal S50x200 .f32) (v32 : Vec Ideal S200 .f32) (r : Fin 1024) (n : Fin 200) :
    Gen.k0_pay12 v3 v5 v23 v26 v32 (ix2 r n) = gateW (row v3 r) (row v5 r) (mat v23) (mat v26) (vec v32) n := by
  unfold Gen.k0_pay12 Gen.k0_pay9 Gen.k0_pay10 Gen.k0_pay8
  simp only [shapeCast_self]
  refine congrArg Ideal.logistic (congrArg₂ (· + ·) (congrArg₂ (· + ·) ?_ ?_) ?_)
  · exact mm_apply dot_S1024x200_S200x200_S1024x200_1_0_0_1_n_n rfl _ _ r n
  · exact mm_apply dot_S1024x50_S50x200_S1024x200_1_0_0_1_n_n rfl _ _ r n
  · exact LibDense.bias_rows_kernel v32 _ _ (ix2 r n)

/-- The mix of three tiles, entry by entry. -/
theorem pay13_apply (v4 v22 v36 : FVec Ideal S1024x200 .f32) (j : S1024x200.Idx) :
    Gen.k0_pay13 v4 v22 v36 j = mix (v36 j) (v4 j) (v22 j) := rfl

/-- Narrowing the mixed tile to bf16 changes nothing. -/
theorem pay15_apply (v4 v22 v36 : FVec Ideal S1024x200 .f32) (j : S1024x200.Idx) :
    Gen.k0_pay15 v4 v22 v36 j = Gen.k0_pay13 v4 v22 v36 j := rfl

/-- THE GATED TILE at (r, n): the gate of row r of the embedding tile and row r of the literal tile. -/
theorem gated_apply (v3 : Vec Ideal S1024x200 .f32) (v5 : Vec Ideal S1024x50 .f32) (v9 : Vec Ideal S200x200 .f32)
    (v12 : Vec Ideal S50x200 .f32) (v18 : Vec Ideal S200 .f32) (v23 : Vec Ideal S200x200 .f32)
    (v26 : Vec Ideal S50x200 .f32) (v32 : Vec Ideal S200 .f32) (r : Fin 1024) (n : Fin 200) :
    Gen.k0_pay13 (Gen.k0_pay8 v3) (Gen.k0_pay11 v3 v5 v9 v12 v18) (Gen.k0_pay12 v3 v5 v23 v26 v32) (ix2 r n)
      = gate (row v3 r) (row v5 r) (mat v9) (mat v12) (vec v18) (mat v23) (mat v26) (vec v32) n := by
  rw [pay13_apply, pay11_apply, pay12_apply, pay8_eq]
  rfl

end Cert.KV

end
-- ==== Proof.KV.PaySums.lean ====
/-
  The four accumulator blocks of the scorer's body, read at an index, at the ideal values.

  Each block is its old value plus a sum over the 1024 entity rows of the tile: the two weighted sums are matrix
  products of a weight tile with the gated tile, the two counts are lane sums of a weight tile.  The weights are
  the label read as a signed integer times the probability, and one minus the label (times the drop mask, times 2).
-/
import proofs.«111044_j49203145342981_2_alg».proof.Proof.Gen.KernelIdeal.Skeleton
import proofs.«111044_j49203145342981_2_alg».proof.Proof.KV.Spec
import proofs.«111044_j49203145342981_2_alg».proof.Proof.KV.Layout
import proofs.«111044_j49203145342981_2_alg».proof.Proof.KV.PayGate

noncomputable section

open scoped BigOperators

namespace Cert.KV

open Idealize.ShloMosaic Idealize.ShloMosaic.ValueIdx Cert.KernelIdeal Cert.Spec

/-! ## The weight tiles -/

/-- The labels converted to floats. -/
theorem pay14_apply (v42 : Vec Ideal S32x1024 .i32) (j : S32x1024.Idx) : Gen.k0_pay14 v42 j = lab (v42 j) := by
  unfold Gen.k0_pay14
  simp only [shapeCast_self]
  rfl

/-- The positive weights: label times probability. -/
theorem pay16_apply (v42 : Vec Ideal S32x1024 .i32) (v45 : Vec Ideal S32x1024 .f32) (j : S32x1024.Idx) :
    Gen.k0_pay16 v42 v45 j = posW (v42 j) (v45 j) := by
  unfold Gen.k0_pay16
  simp only [shapeCast_self]
  show Gen.k0_pay14 v42 j * v45 j = _
  rw [pay14_apply]
  rfl

/-- The negative count's summands: one minus the label. -/
theorem pay19_apply (v42 : Vec Ideal S32x1024 .i32) (j : S32x1024.Idx) : Gen.k0_pay19 v42 j = negC (v42 j) := by
  unfold Gen.k0_pay19
  show Ideal.ofBits .f32 0x3F800000#32 - Gen.k0_pay14 v42 j = _
  rw [pay14_apply]
  rfl

/-- The negative weights: (one minus the label) times the drop mask, times 2. -/
theorem pay20_apply (v42 : Vec Ideal S32x1024 .i32) (v47 : Vec Ideal S32x1024 .f32) (j : S32x1024.Idx) :
    Gen.k0_pay20 v42 v47 j = negW (v42 j) (v47 j) := by
  unfold Gen.k0_pay20
  simp only [shapeCast_self]
  show (Gen.k0_pay19 v42 j * v47 j) * Ideal.ofBits .f32 0x40000000#32 = _
  rw [pay19_apply]
  rfl

/-! ## The two weighted sums -/

/-- A weighted-sum block, generic in its two operands: the old block plus weights times rows. -/
theorem pay1_apply (v49 : FVec Ideal S1024x200 .bf16) (v71 : FVec Ideal S32x1024 .f32) (v73 : Vec Ideal S1x32x200 .f32)
    (u : Fin 1) (b : Fin 32) (d : Fin 200) :
    Gen.k0_pay1 v49 v71 v73 (ix3 u b d)
      = v73 (ix3 (0 : Fin 1) b d) + ∑ e : Fin 1024, v71 (ix2 b e) * v49 (ix2 e d) := by
  unfold Gen.k0_pay1
  exact acc_mm_apply dot_S32x1024_S1024x200_S32x200_1_0_0_1_n_n rfl _ v49 v73 _ _ u b d

/-- THE POSITIVE SUM at (u, b, d): the old block plus the sum over the tile's rows of
    (label * prob) times the gated tile. -/
theorem pos_sum_apply (v4 v22 v36 : FVec Ideal S1024x200 .f32) (v42 : Vec Ideal S32x1024 .i32)
    (v45 : Vec Ideal S32x1024 .f32) (v52 : Vec Ideal S1x32x200 .f32) (u : Fin 1) (b : Fin 32) (d : Fin 200) :
    Gen.k0_pay17 v4 v22 v36 v42 v45 v52 (ix3 u b d)
      = v52 (ix3 (0 : Fin 1) b d)
        + ∑ e : Fin 1024, posW (v42 (ix2 b e)) (v45 (ix2 b e)) * Gen.k0_pay13 v4 v22 v36 (ix2 e d) := by
  unfold Gen.k0_pay17
  refine (acc_mm_apply dot_S32x1024_S1024x200_S32x200_1_0_0_1_n_n rfl _ (Gen.k0_pay15 v4 v22 v36) v52 _ _ u b d).trans ?_
  refine congrArg (v52 (ix3 (0 : Fin 1) b d) + ·) (Finset.sum_congr rfl fun e _ => ?_)
  show Gen.k0_pay16 v42 v45 (ix2 b e) * Gen.k0_pay13 v4 v22 v36 (ix2 e d) = _
  rw [pay16_apply]

/-- THE NEGATIVE SUM at (u, b, d): the old block plus the sum over the tile's rows of
    ((1 - label) * drop * 2) times the gated tile. -/
theorem neg_sum_apply (v4 v22 v36 : FVec Ideal S1024x200 .f32) (v42 : Vec Ideal S32x1024 .i32)
    (v47 : Vec Ideal S32x1024 .f32) (v73 : Vec Ideal S1x32x200 .f32) (u : Fin 1) (b : Fin 32) (d : Fin 200) :
    Gen.k0_pay1 (Gen.k0_pay15 v4 v22 v36) (Gen.k0_pay20 v42 v47) v73 (ix3 u b d)
      = v73 (ix3 (0 : Fin 1) b d)
        + ∑ e : Fin 1024, negW (v42 (ix2 b e)) (v47 (ix2 b e)) * Gen.k0_pay13 v4 v22 v36 (ix2 e d) := by
  rw [pay1_apply]
  refine congrArg (v73 (ix3 (0 : Fin 1) b d) + ·) (Finset.sum_congr rfl fun e _ => ?_)
  rw [pay20_apply, pay15_apply]

/-! ## The two counts -/

/-- A count block, generic in its operand: the old block plus the lane sums. -/
theorem pay2_apply (v68 : FVec Ideal S32x1024 .f32) (v80 : Vec Ideal S1x32x1 .f32) (u : Fin 1) (b : Fin 32) (c : Fin 1) :
    Gen.k0_pay2 v68 v80 (ix3 u b c) = v80 (ix3 (0 : Fin 1) b c) + ∑ e : Fin 1024, v68 (ix2 b e) := by
  unfold Gen.k0_pay2
  exact acc_lanes_apply v68 v80 _ _ _ _ _ _ u b c

/-- THE POSITIVE COUNT at (u, b, c): the old block plus the sum over the tile's rows of label * prob. -/
theorem pos_cnt_apply (v42 : Vec Ideal S32x1024 .i32) (v45 : Vec Ideal S32x1024 .f32) (v59 : Vec Ideal S1x32x1 .f32)
    (u : Fin 1) (b : Fin 32) (c : Fin 1) :
    Gen.k0_pay18 v42 v45 v59 (ix3 u b c)
      = v59 (ix3 (0 : Fin 1) b c) + ∑ e : Fin 1024, posW (v42 (ix2 b e)) (v45 (ix2 b e)) := by
  unfold Gen.k0_pay18
  refine (acc_lanes_apply (Gen.k0_pay16 v42 v45) v59 _ _ _ _ _ _ u b c).trans ?_
  exact congrArg (v59 (ix3 (0 : Fin 1) b c) + ·) (Finset.sum_congr rfl fun e _ => pay16_apply v42 v45 (ix2 b e))

/-- THE NEGATIVE COUNT at (u, b, c): the old block plus the sum over the tile's rows of 1 - label. -/
theorem neg_cnt_apply (v42 : Vec Ideal S32x1024 .i32) (v80 : Vec Ideal S1x32x1 .f32) (u : Fin 1) (b : Fin 32) (c : Fin 1) :
    Gen.k0_pay2 (Gen.k0_pay19 v42) v80 (ix3 u b c)
      = v80 (ix3 (0 : Fin 1) b c) + ∑ e : Fin 1024, negC (v42 (ix2 b e)) := by
  rw [pay2_apply]
  exact congrArg (v80 (ix3 (0 : Fin 1) b c) + ·) (Finset.sum_congr rfl fun e _ => pay19_apply v42 (ix2 b e))

/-! ## The four resets -/

/-- The reset of a sum block is the zero block. -/
theorem pay4_apply (j : S1x32x200.Idx) : Gen.k0_pay4 (F := Ideal) j = 0 := Ideal.ofBits_zero_f32
theorem pay5_apply (j : S1x32x1.Idx) : Gen.k0_pay5 (F := Ideal) j = 0 := Ideal.ofBits_zero_f32
theorem pay6_apply (j : S1x32x200.Idx) : Gen.k0_pay6 (F := Ideal) j = 0 := Ideal.ofBits_zero_f32
theorem pay7_apply (j : S1x32x1.Idx) : Gen.k0_pay7 (F := Ideal) j = 0 := Ideal.ofBits_zero_f32

end Cert.KV

end
-- ==== Proof.KV.AccLemma.lean ====
/-
  A running quantity over the points of a grid walked in stretches of fifteen: it restarts at `0 + g n` whenever `n` is a
  multiple of fifteen and otherwise grows by `g n`. At every point it is the sum of `g` over its stretch so far. Addition
  only has to be commutative and associative with a zero, so this holds on the extended reals with no finiteness.
-/
import Idealize.ShloMosaic.PureOps.Ideal

namespace Cert.Spec

theorem acc_range {M : Type*} [AddCommMonoid M] (N : ℕ) (Z g : ℕ → M)
    (hA : ∀ n, n < N → n % 15 = 0 → Z n = 0 + g n)
    (hB : ∀ n, n < N → n % 15 ≠ 0 → Z n = Z (n - 1) + g n) :
    ∀ n, n < N → Z n = ∑ s ∈ Finset.range (n % 15 + 1), g (n - n % 15 + s) := by
  intro n
  induction n with
  | zero =>
    intro h
    rw [hA 0 h rfl]
    simp
  | succ n ih =>
    intro h
    by_cases h0 : (n + 1) % 15 = 0
    · rw [hA _ h h0, h0]
      simp
    · rw [hB _ h h0, Nat.add_sub_cancel, ih (Nat.lt_of_succ_lt h)]
      have e1 : (n + 1) % 15 = n % 15 + 1 := by omega
      have e2 : n + 1 - (n % 15 + 1) = n - n % 15 := by omega
      have e3 : n - n % 15 + (n % 15 + 1) = n + 1 := by omega
      rw [e1, e2, Finset.sum_range_succ _ (n % 15 + 1), e3]

/-- At the last point of the first stretch: the whole stretch. -/
theorem acc_range_14 {M : Type*} [AddCommMonoid M] (N : ℕ) (hN : 14 < N) (Z g : ℕ → M)
    (hA : ∀ n, n < N → n % 15 = 0 → Z n = 0 + g n)
    (hB : ∀ n, n < N → n % 15 ≠ 0 → Z n = Z (n - 1) + g n) :
    Z 14 = ∑ s ∈ Finset.range 15, g s := by
  rw [acc_range N Z g hA hB 14 hN]
  simp

/-- At the last point of the second stretch: the whole second stretch. -/
theorem acc_range_29 {M : Type*} [AddCommMonoid M] (N : ℕ) (hN : 29 < N) (Z g : ℕ → M)
    (hA : ∀ n, n < N → n % 15 = 0 → Z n = 0 + g n)
    (hB : ∀ n, n < N → n % 15 ≠ 0 → Z n = Z (n - 1) + g n) :
    Z 29 = ∑ s ∈ Finset.range 15, g (15 + s) := by
  rw [acc_range N Z g hA hB 29 hN]

end Cert.Spec
-- ==== Proof.KV.Accum.lean ====
/-
  The four accumulators along the grid, at the ideal instance. At a point the body adds to each accumulator one
  contribution computed from the point's blocks: for the two sums, over the tile's 1024 rows, a per-row weight times
  the gated row; for the two counts, the weights alone. The reset case starts from the stored zero, the accumulating
  case from what the point before left. So after point `n` an accumulator holds the sum of the contributions of the
  points of its core up to `n`, and at the last point of a core all fifteen.
-/
import proofs.«111044_j49203145342981_2_alg».proof.Proof.KV.OutVals
import proofs.«111044_j49203145342981_2_alg».proof.Proof.KV.PaySums
import proofs.«111044_j49203145342981_2_alg».proof.Proof.KV.AccLemma

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-! ## The point's blocks, typed -/

abbrev bk0 (c : Dev nD) (t : Fin cfg0.N) : Vec Ideal S32x200 .f32 := iblk m c 0 t
abbrev bk2 (c : Dev nD) (t : Fin cfg0.N) : Vec Ideal S1024x200 .f32 := iblk m c 2 t
abbrev bk3 (c : Dev nD) (t : Fin cfg0.N) : Vec Ideal S1024x50 .f32 := iblk m c 3 t
abbrev bk4 (c : Dev nD) (t : Fin cfg0.N) : Vec Ideal S32x1024 .i32 := iblk m c 4 t
abbrev bk5 (c : Dev nD) (t : Fin cfg0.N) : Vec Ideal S32x1024 .f32 := iblk m c 5 t
abbrev bk6 (c : Dev nD) (t : Fin cfg0.N) : Vec Ideal S32x1024 .f32 := iblk m c 6 t
abbrev bk7 (c : Dev nD) (t : Fin cfg0.N) : Vec Ideal S200x200 .f32 := iblk m c 7 t
abbrev bk8 (c : Dev nD) (t : Fin cfg0.N) : Vec Ideal S50x200 .f32 := iblk m c 8 t
abbrev bk9 (c : Dev nD) (t : Fin cfg0.N) : Vec Ideal S200 .f32 := iblk m c 9 t
abbrev bk10 (c : Dev nD) (t : Fin cfg0.N) : Vec Ideal S200x200 .f32 := iblk m c 10 t
abbrev bk11 (c : Dev nD) (t : Fin cfg0.N) : Vec Ideal S50x200 .f32 := iblk m c 11 t
abbrev bk12 (c : Dev nD) (t : Fin cfg0.N) : Vec Ideal S200 .f32 := iblk m c 12 t

/-- Row `e` of the point's gated entity tile, at feature `d`. -/
def erow (c : Dev nD) (t : Fin cfg0.N) (e : Fin 1024) (d : Fin 200) : EReal :=
  gate (row (bk2 m c t) e) (row (bk3 m c t) e) (mat (bk7 m c t)) (mat (bk8 m c t)) (vec (bk9 m c t)) (mat (bk10 m c t))
    (mat (bk11 m c t)) (vec (bk12 m c t)) d

/-- The point's contributions. -/
def cPos (c : Dev nD) (t : Fin cfg0.N) (b : Fin 32) (d : Fin 200) : EReal :=
  ∑ e : Fin 1024, posW (bk4 m c t (ix2 b e)) (bk5 m c t (ix2 b e)) * erow m c t e d
def cNeg (c : Dev nD) (t : Fin cfg0.N) (b : Fin 32) (d : Fin 200) : EReal :=
  ∑ e : Fin 1024, negW (bk4 m c t (ix2 b e)) (bk6 m c t (ix2 b e)) * erow m c t e d
def cPosC (c : Dev nD) (t : Fin cfg0.N) (b : Fin 32) : EReal :=
  ∑ e : Fin 1024, posW (bk4 m c t (ix2 b e)) (bk5 m c t (ix2 b e))
def cNegC (c : Dev nD) (t : Fin cfg0.N) (b : Fin 32) : EReal :=
  ∑ e : Fin 1024, negC (bk4 m c t (ix2 b e))

/-! ## One step, over plain variables -/

theorem pos_step (x2 : Vec Ideal S1024x200 .f32) (x3 : Vec Ideal S1024x50 .f32) (x4 : Vec Ideal S32x1024 .i32) (x5 : Vec Ideal S32x1024 .f32)
    (x7 : Vec Ideal S200x200 .f32) (x8 : Vec Ideal S50x200 .f32) (x9 : Vec Ideal S200 .f32) (x10 : Vec Ideal S200x200 .f32) (x11 : Vec Ideal S50x200 .f32)
    (x12 : Vec Ideal S200 .f32) (v : Vec Ideal S1x32x200 .f32) (b : Fin 32) (d : Fin 200) :
    k0_pay17 (k0_pay8 x2) (k0_pay11 x2 x3 x7 x8 x9) (k0_pay12 x2 x3 x10 x11 x12) x4 x5 v (ix3 (0 : Fin 1) b d) = v (ix3 (0 : Fin 1) b d) + ∑ e : Fin 1024, posW (x4 (ix2 b e)) (x5 (ix2 b e))
      * gate (row x2 e) (row x3 e) (mat x7) (mat x8) (vec x9) (mat x10) (mat x11) (vec x12) d := by
  rw [Cert.KV.pos_sum_apply]
  simp only [Cert.KV.gated_apply]

theorem neg_step (x2 : Vec Ideal S1024x200 .f32) (x3 : Vec Ideal S1024x50 .f32) (x4 : Vec Ideal S32x1024 .i32) (x6 : Vec Ideal S32x1024 .f32)
    (x7 : Vec Ideal S200x200 .f32) (x8 : Vec Ideal S50x200 .f32) (x9 : Vec Ideal S200 .f32) (x10 : Vec Ideal S200x200 .f32) (x11 : Vec Ideal S50x200 .f32)
    (x12 : Vec Ideal S200 .f32) (v : Vec Ideal S1x32x200 .f32) (b : Fin 32) (d : Fin 200) :
    k0_pay1 (k0_pay15 (k0_pay8 x2) (k0_pay11 x2 x3 x7 x8 x9) (k0_pay12 x2 x3 x10 x11 x12)) (k0_pay20 x4 x6) v (ix3 (0 : Fin 1) b d) = v (ix3 (0 : Fin 1) b d) + ∑ e : Fin 1024, negW (x4 (ix2 b e)) (x6 (ix2 b e))
      * gate (row x2 e) (row x3 e) (mat x7) (mat x8) (vec x9) (mat x10) (mat x11) (vec x12) d := by
  rw [Cert.KV.neg_sum_apply]
  simp only [Cert.KV.gated_apply]

/-! ## The two cases at a point -/

theorem pos_A (c : Dev nD) (t : Fin cfg0.N) (h0 : t.val % 15 = 0) (b : Fin 32) (d : Fin 200) :
    (outsAt0 m c t.val t.isLt).2.1 (ix3 (0 : Fin 1) b d) = 0 + cPos m c t b d := by
  have e := outA_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  rw [outsAt0_A m c t h0]
  unfold outA
  rw [e]
  exact (pos_step (bk2 m c t) (bk3 m c t) (bk4 m c t) (bk5 m c t) (bk7 m c t) (bk8 m c t) (bk9 m c t) (bk10 m c t) (bk11 m c t) (bk12 m c t)
    (k0_pay4 (F := Ideal)) b d).trans (by rw [Cert.KV.pay4_apply]; rfl)

theorem pos_B (c : Dev nD) (t : Fin cfg0.N) (h0 : ¬t.val % 15 = 0) (b : Fin 32) (d : Fin 200) :
    (outsAt0 m c t.val t.isLt).2.1 (ix3 (0 : Fin 1) b d)
      = (outsAt0 m c (t.val - 1) (Nat.lt_of_le_of_lt (Nat.sub_le _ _) t.isLt)).2.1 (ix3 (0 : Fin 1) b d) + cPos m c t b d := by
  have e := outB_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun hc => h0 ((hcond0_0 t).mp hc)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2.1
    (outsAt0 m c (t.val - 1) (Nat.lt_of_le_of_lt (Nat.sub_le _ _) t.isLt)).2.2.2.2
  rw [outsAt0_B m c t h0]
  unfold outB
  rw [e]
  exact pos_step (bk2 m c t) (bk3 m c t) (bk4 m c t) (bk5 m c t) (bk7 m c t) (bk8 m c t) (bk9 m c t) (bk10 m c t) (bk11 m c t) (bk12 m c t) _ b d

theorem neg_A (c : Dev nD) (t : Fin cfg0.N) (h0 : t.val % 15 = 0) (b : Fin 32) (d : Fin 200) :
    (outsAt0 m c t.val t.isLt).2.2.2.1 (ix3 (0 : Fin 1) b d) = 0 + cNeg m c t b d := by
  have e := outA_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  rw [outsAt0_A m c t h0]
  unfold outA
  rw [e]
  exact (neg_step (bk2 m c t) (bk3 m c t) (bk4 m c t) (bk6 m c t) (bk7 m c t) (bk8 m c t) (bk9 m c t) (bk10 m c t) (bk11 m c t) (bk12 m c t)
    (k0_pay6 (F := Ideal)) b d).trans (by rw [Cert.KV.pay6_apply]; rfl)

theorem neg_B (c : Dev nD) (t : Fin cfg0.N) (h0 : ¬t.val % 15 = 0) (b : Fin 32) (d : Fin 200) :
    (outsAt0 m c t.val t.isLt).2.2.2.1 (ix3 (0 : Fin 1) b d)
      = (outsAt0 m c (t.val - 1) (Nat.lt_of_le_of_lt (Nat.sub_le _ _) t.isLt)).2.2.2.1 (ix3 (0 : Fin 1) b d) + cNeg m c t b d := by
  have e := outB_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun hc => h0 ((hcond0_0 t).mp hc)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2.1
    (outsAt0 m c (t.val - 1) (Nat.lt_of_le_of_lt (Nat.sub_le _ _) t.isLt)).2.2.2.2
  rw [outsAt0_B m c t h0]
  unfold outB
  rw [e]
  exact neg_step (bk2 m c t) (bk3 m c t) (bk4 m c t) (bk6 m c t) (bk7 m c t) (bk8 m c t) (bk9 m c t) (bk10 m c t) (bk11 m c t) (bk12 m c t) _ b d

theorem posC_A (c : Dev nD) (t : Fin cfg0.N) (h0 : t.val % 15 = 0) (b : Fin 32) :
    (outsAt0 m c t.val t.isLt).2.2.1 (ix3 (0 : Fin 1) b (0 : Fin 1)) = 0 + cPosC m c t b := by
  have e := outA_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  rw [outsAt0_A m c t h0]
  unfold outA
  rw [e]
  exact (Cert.KV.pos_cnt_apply (bk4 m c t) (bk5 m c t) (k0_pay5 (F := Ideal)) 0 b 0).trans (by rw [Cert.KV.pay5_apply]; rfl)

theorem posC_B (c : Dev nD) (t : Fin cfg0.N) (h0 : ¬t.val % 15 = 0) (b : Fin 32) :
    (outsAt0 m c t.val t.isLt).2.2.1 (ix3 (0 : Fin 1) b (0 : Fin 1))
      = (outsAt0 m c (t.val - 1) (Nat.lt_of_le_of_lt (Nat.sub_le _ _) t.isLt)).2.2.1 (ix3 (0 : Fin 1) b (0 : Fin 1)) + cPosC m c t b := by
  have e := outB_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun hc => h0 ((hcond0_0 t).mp hc)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2.1
    (outsAt0 m c (t.val - 1) (Nat.lt_of_le_of_lt (Nat.sub_le _ _) t.isLt)).2.2.2.2
  rw [outsAt0_B m c t h0]
  unfold outB
  rw [e]
  exact Cert.KV.pos_cnt_apply (bk4 m c t) (bk5 m c t) _ 0 b 0

theorem negC_A (c : Dev nD) (t : Fin cfg0.N) (h0 : t.val % 15 = 0) (b : Fin 32) :
    (outsAt0 m c t.val t.isLt).2.2.2.2 (ix3 (0 : Fin 1) b (0 : Fin 1)) = 0 + cNegC m c t b := by
  have e := outA_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  rw [outsAt0_A m c t h0]
  unfold outA
  rw [e]
  exact (Cert.KV.neg_cnt_apply (bk4 m c t) (k0_pay7 (F := Ideal)) 0 b 0).trans (by rw [Cert.KV.pay7_apply]; rfl)

theorem negC_B (c : Dev nD) (t : Fin cfg0.N) (h0 : ¬t.val % 15 = 0) (b : Fin 32) :
    (outsAt0 m c t.val t.isLt).2.2.2.2 (ix3 (0 : Fin 1) b (0 : Fin 1))
      = (outsAt0 m c (t.val - 1) (Nat.lt_of_le_of_lt (Nat.sub_le _ _) t.isLt)).2.2.2.2 (ix3 (0 : Fin 1) b (0 : Fin 1)) + cNegC m c t b := by
  have e := outB_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun hc => h0 ((hcond0_0 t).mp hc)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2.1
    (outsAt0 m c (t.val - 1) (Nat.lt_of_le_of_lt (Nat.sub_le _ _) t.isLt)).2.2.2.2
  rw [outsAt0_B m c t h0]
  unfold outB
  rw [e]
  exact Cert.KV.neg_cnt_apply (bk4 m c t) _ 0 b 0

end Cert.KernelIdeal.Val

end
-- ==== Proof.KV.AccSums.lean ====
/-
  The four accumulators at the end of each core's stretch of fifteen points, at the ideal instance: each holds the sum
  of its fifteen per-point contributions. Each accumulator, read as a sequence over the points, restarts at zero plus
  its contribution at the first point of a core and otherwise adds its contribution to what the point before left.
-/
import proofs.«111044_j49203145342981_2_alg».proof.Proof.KV.Accum

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.SL Idealize.SL.Sem

variable (m : (ℓ : Loc nD τ sig) → Buf (Elt Ideal) ℓ)

/-! ### Pos -/

def zPos (c : Dev nD) (b : Fin 32) (d : Fin 200) (n : ℕ) : EReal := if h : n < cfg0.N then (outsAt0 m c n h).2.1 (ix3 (0 : Fin 1) b d) else 0
def gPos (c : Dev nD) (b : Fin 32) (d : Fin 200) (n : ℕ) : EReal := if h : n < cfg0.N then cPos m c ⟨n, h⟩ b d else 0

theorem zPos_A (c : Dev nD) (b : Fin 32) (d : Fin 200) (n : ℕ) (h : n < cfg0.N) (h0 : n % 15 = 0) : zPos m c b d n = 0 + gPos m c b d n := by
  unfold zPos gPos
  rw [dif_pos h, dif_pos h]
  exact pos_A m c ⟨n, h⟩ h0 b d

theorem zPos_B (c : Dev nD) (b : Fin 32) (d : Fin 200) (n : ℕ) (h : n < cfg0.N) (h0 : n % 15 ≠ 0) :
    zPos m c b d n = zPos m c b d (n - 1) + gPos m c b d n := by
  unfold zPos gPos
  rw [dif_pos h, dif_pos h, dif_pos (Nat.lt_of_le_of_lt (Nat.sub_le _ _) h)]
  exact pos_B m c ⟨n, h⟩ h0 b d

/-- After the last point of core `k` the accumulator holds the core's fifteen contributions. -/
theorem pos_end (c : Dev nD) (b : Fin 32) (d : Fin 200) (k : Fin 2) (h : k.val * 15 + 14 < cfg0.N) :
    (outsAt0 m c (k.val * 15 + 14) h).2.1 (ix3 (0 : Fin 1) b d) = ∑ s : Fin 15, cPos m c ⟨k.val * 15 + s.val, by have := N_0; have := s.isLt; have := k.isLt; omega⟩ b d := by
  have hN : cfg0.N = 30 := N_0
  have hz : (outsAt0 m c (k.val * 15 + 14) h).2.1 (ix3 (0 : Fin 1) b d) = zPos m c b d (k.val * 15 + 14) := by
    unfold zPos; rw [dif_pos h]
  rw [hz, acc_range cfg0.N (zPos m c b d) (gPos m c b d) (zPos_A m c b d) (zPos_B m c b d) _ h]
  have e1 : (k.val * 15 + 14) % 15 + 1 = 15 := by have := k.isLt; omega
  have e2 : k.val * 15 + 14 - (k.val * 15 + 14) % 15 = k.val * 15 := by have := k.isLt; omega
  rw [e1, e2, Finset.sum_range]
  refine Finset.sum_congr rfl fun s _ => ?_
  unfold gPos
  rw [dif_pos (by have := s.isLt; have := k.isLt; omega)]

/-! ### Neg -/

def zNeg (c : Dev nD) (b : Fin 32) (d : Fin 200) (n : ℕ) : EReal := if h : n < cfg0.N then (outsAt0 m c n h).2.2.2.1 (ix3 (0 : Fin 1) b d) else 0
def gNeg (c : Dev nD) (b : Fin 32) (d : Fin 200) (n : ℕ) : EReal := if h : n < cfg0.N then cNeg m c ⟨n, h⟩ b d else 0

theorem zNeg_A (c : Dev nD) (b : Fin 32) (d : Fin 200) (n : ℕ) (h : n < cfg0.N) (h0 : n % 15 = 0) : zNeg m c b d n = 0 + gNeg m c b d n := by
  unfold zNeg gNeg
  rw [dif_pos h, dif_pos h]
  exact neg_A m c ⟨n, h⟩ h0 b d

theorem zNeg_B (c : Dev nD) (b : Fin 32) (d : Fin 200) (n : ℕ) (h : n < cfg0.N) (h0 : n % 15 ≠ 0) :
    zNeg m c b d n = zNeg m c b d (n - 1) + gNeg m c b d n := by
  unfold zNeg gNeg
  rw [dif_pos h, dif_pos h, dif_pos (Nat.lt_of_le_of_lt (Nat.sub_le _ _) h)]
  exact neg_B m c ⟨n, h⟩ h0 b d

/-- After the last point of core `k` the accumulator holds the core's fifteen contributions. -/
theorem neg_end (c : Dev nD) (b : Fin 32) (d : Fin 200) (k : Fin 2) (h : k.val * 15 + 14 < cfg0.N) :
    (outsAt0 m c (k.val * 15 + 14) h).2.2.2.1 (ix3 (0 : Fin 1) b d) = ∑ s : Fin 15, cNeg m c ⟨k.val * 15 + s.val, by have := N_0; have := s.isLt; have := k.isLt; omega⟩ b d := by
  have hN : cfg0.N = 30 := N_0
  have hz : (outsAt0 m c (k.val * 15 + 14) h).2.2.2.1 (ix3 (0 : Fin 1) b d) = zNeg m c b d (k.val * 15 + 14) := by
    unfold zNeg; rw [dif_pos h]
  rw [hz, acc_range cfg0.N (zNeg m c b d) (gNeg m c b d) (zNeg_A m c b d) (zNeg_B m c b d) _ h]
  have e1 : (k.val * 15 + 14) % 15 + 1 = 15 := by have := k.isLt; omega
  have e2 : k.val * 15 + 14 - (k.val * 15 + 14) % 15 = k.val * 15 := by have := k.isLt; omega
  rw [e1, e2, Finset.sum_range]
  refine Finset.sum_congr rfl fun s _ => ?_
  unfold gNeg
  rw [dif_pos (by have := s.isLt; have := k.isLt; omega)]

/-! ### PosC -/

def zPosC (c : Dev nD) (b : Fin 32) (n : ℕ) : EReal := if h : n < cfg0.N then (outsAt0 m c n h).2.2.1 (ix3 (0 : Fin 1) b (0 : Fin 1)) else 0
def gPosC (c : Dev nD) (b : Fin 32) (n : ℕ) : EReal := if h : n < cfg0.N then cPosC m c ⟨n, h⟩ b else 0

theorem zPosC_A (c : Dev nD) (b : Fin 32) (n : ℕ) (h : n < cfg0.N) (h0 : n % 15 = 0) : zPosC m c b n = 0 + gPosC m c b n := by
  unfold zPosC gPosC
  rw [dif_pos h, dif_pos h]
  exact posC_A m c ⟨n, h⟩ h0 b

theorem zPosC_B (c : Dev nD) (b : Fin 32) (n : ℕ) (h : n < cfg0.N) (h0 : n % 15 ≠ 0) :
    zPosC m c b n = zPosC m c b (n - 1) + gPosC m c b n := by
  unfold zPosC gPosC
  rw [dif_pos h, dif_pos h, dif_pos (Nat.lt_of_le_of_lt (Nat.sub_le _ _) h)]
  exact posC_B m c ⟨n, h⟩ h0 b

/-- After the last point of core `k` the accumulator holds the core's fifteen contributions. -/
theorem posc_end (c : Dev nD) (b : Fin 32) (k : Fin 2) (h : k.val * 15 + 14 < cfg0.N) :
    (outsAt0 m c (k.val * 15 + 14) h).2.2.1 (ix3 (0 : Fin 1) b (0 : Fin 1)) = ∑ s : Fin 15, cPosC m c ⟨k.val * 15 + s.val, by have := N_0; have := s.isLt; have := k.isLt; omega⟩ b := by
  have hN : cfg0.N = 30 := N_0
  have hz : (outsAt0 m c (k.val * 15 + 14) h).2.2.1 (ix3 (0 : Fin 1) b (0 : Fin 1)) = zPosC m c b (k.val * 15 + 14) := by
    unfold zPosC; rw [dif_pos h]
  rw [hz, acc_range cfg0.N (zPosC m c b) (gPosC m c b) (zPosC_A m c b) (zPosC_B m c b) _ h]
  have e1 : (k.val * 15 + 14) % 15 + 1 = 15 := by have := k.isLt; omega
  have e2 : k.val * 15 + 14 - (k.val * 15 + 14) % 15 = k.val * 15 := by have := k.isLt; omega
  rw [e1, e2, Finset.sum_range]
  refine Finset.sum_congr rfl fun s _ => ?_
  unfold gPosC
  rw [dif_pos (by have := s.isLt; have := k.isLt; omega)]

/-! ### NegC -/

def zNegC (c : Dev nD) (b : Fin 32) (n : ℕ) : EReal := if h : n < cfg0.N then (outsAt0 m c n h).2.2.2.2 (ix3 (0 : Fin 1) b (0 : Fin 1)) else 0
def gNegC (c : Dev nD) (b : Fin 32) (n : ℕ) : EReal := if h : n < cfg0.N then cNegC m c ⟨n, h⟩ b else 0

theorem zNegC_A (c : Dev nD) (b : Fin 32) (n : ℕ) (h : n < cfg0.N) (h0 : n % 15 = 0) : zNegC m c b n = 0 + gNegC m c b n := by
  unfold zNegC gNegC
  rw [dif_pos h, dif_pos h]
  exact negC_A m c ⟨n, h⟩ h0 b

theorem zNegC_B (c : Dev nD) (b : Fin 32) (n : ℕ) (h : n < cfg0.N) (h0 : n % 15 ≠ 0) :
    zNegC m c b n = zNegC m c b (n - 1) + gNegC m c b n := by
  unfold zNegC gNegC
  rw [dif_pos h, dif_pos h, dif_pos (Nat.lt_of_le_of_lt (Nat.sub_le _ _) h)]
  exact negC_B m c ⟨n, h⟩ h0 b

/-- After the last point of core `k` the accumulator holds the core's fifteen contributions. -/
theorem negc_end (c : Dev nD) (b : Fin 32) (k : Fin 2) (h : k.val * 15 + 14 < cfg0.N) :
    (outsAt0 m c (k.val * 15 + 14) h).2.2.2.2 (ix3 (0 : Fin 1) b (0 : Fin 1)) = ∑ s : Fin 15, cNegC m c ⟨k.val * 15 + s.val, by have := N_0; have := s.isLt; have := k.isLt; omega⟩ b := by
  have hN : cfg0.N = 30 := N_0
  have hz : (outsAt0 m c (k.val * 15 + 14) h).2.2.2.2 (ix3 (0 : Fin 1) b (0 : Fin 1)) = zNegC m c b (k.val * 15 + 14) := by
    unfold zNegC; rw [dif_pos h]
  rw [hz, acc_range cfg0.N (zNegC m c b) (gNegC m c b) (zNegC_A m c b) (zNegC_B m c b) _ h]
  have e1 : (k.val * 15 + 14) % 15 + 1 = 15 := by have := k.isLt; omega
  have e2 : k.val * 15 + 14 - (k.val * 15 + 14) % 15 = k.val * 15 := by have := k.isLt; omega
  rw [e1, e2, Finset.sum_range]
  refine Finset.sum_congr rfl fun s _ => ?_
  unfold gNegC
  rw [dif_pos (by have := s.isLt; have := k.isLt; omega)]

end Cert.KernelIdeal.Val

end
-- ==== Proof.KV.PredPieces.lean ====
/-
  What each case of the body leaves in the prediction tile's staging buffer: the loop's four trips store four strips of
  eight rows each, strip `k` computed from the gated entity tile and rows `8k … 8k+7` of the query block, and the
  strips tile the buffer, so the buffer ends at the strips read back as one function of the index.
-/
import proofs.«111044_j49203145342981_2_alg».proof.Proof.KV.OutVals

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.Sem
open Idealize.ShloMosaic.Pipeline (Dat)

variable {F : FTy → Type} [FloatOps F]

theorem trips4 : k0_t1_loop.trips = 4 := by decide

/-- The four strips the loop stores, last first: strip `k` is rows `8k … 8k+7` of the tile, computed from rows
    `8k … 8k+7` of the query block. -/
def strips (arg2 : Memref sig .tc .vmem S32x200 .f32) (v41 : FVec F S1024x200 .f32) (X : BufTy.Contents (Elt F) arg2.view.ty) :
    List (View.Piece (Elt F) S32x1024 .f32) :=
  [(⟨Rect.unit (s := S32x1024) (k0_off2 ⟨3, by decide⟩) S8x1024.size (k0_off2_inb ⟨3, by decide⟩), k0_pay3 v41 (View.readAt (Elt F) arg2.view (Rect.unit (s := S32x200) (k0_off1 ⟨3, by decide⟩) S8x200.size (k0_off1_inb ⟨3, by decide⟩)).toLoadRect X)⟩ : View.Piece (Elt F) S32x1024 .f32),
   (⟨Rect.unit (s := S32x1024) (k0_off2 ⟨2, by decide⟩) S8x1024.size (k0_off2_inb ⟨2, by decide⟩), k0_pay3 v41 (View.readAt (Elt F) arg2.view (Rect.unit (s := S32x200) (k0_off1 ⟨2, by decide⟩) S8x200.size (k0_off1_inb ⟨2, by decide⟩)).toLoadRect X)⟩ : View.Piece (Elt F) S32x1024 .f32),
   (⟨Rect.unit (s := S32x1024) (k0_off2 ⟨1, by decide⟩) S8x1024.size (k0_off2_inb ⟨1, by decide⟩), k0_pay3 v41 (View.readAt (Elt F) arg2.view (Rect.unit (s := S32x200) (k0_off1 ⟨1, by decide⟩) S8x200.size (k0_off1_inb ⟨1, by decide⟩)).toLoadRect X)⟩ : View.Piece (Elt F) S32x1024 .f32),
   (⟨Rect.unit (s := S32x1024) (k0_off2 ⟨0, by decide⟩) S8x1024.size (k0_off2_inb ⟨0, by decide⟩), k0_pay3 v41 (View.readAt (Elt F) arg2.view (Rect.unit (s := S32x200) (k0_off1 ⟨0, by decide⟩) S8x200.size (k0_off1_inb ⟨0, by decide⟩)).toLoadRect X)⟩ : View.Piece (Elt F) S32x1024 .f32)]

/-- After its four trips the loop has stored exactly these strips. -/
theorem pb_four (𝒱 : Variants) (c : Dev nD) (bd : Option 𝒱.V) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (v41 : FVec F S1024x200 .f32) (X : BufTy.Contents (Elt F) arg2.view.ty) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v41 X 4 = strips arg2 v41 X := by
  unfold strips
  with_unfolding_all rfl

/-- The reset case leaves the four strips. -/
theorem outA_13 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) :
    (out0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).1 = View.canon (strips arg2 (k0_pay13 (k0_pay8 x2) (k0_pay11 x2 x3 x7 x8 x9) (k0_pay12 x2 x3 x10 x11 x12)) (harg2.unread x0)) := by
  unfold out0_A
  dsimp only
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12)]
  unfold kernelRun0_A
  dsimp only
  sl_unfold_words
  simp only [View.readAt_eq_ld, harg4.read_unread, harg5.read_unread, harg6.read_unread, harg7.read_unread, harg8.read_unread, harg9.read_unread, harg10.read_unread, harg11.read_unread, harg12.read_unread, harg13.read_unread, harg14.read_unread, harg16.read_unread, harg17.read_unread, harg18.read_unread, harg19.read_unread, View.ld_unit_zero (S := S1024x200) hz2, View.ld_unit_zero (S := S1024x50) hz2, View.ld_unit_zero (S := S32x1024) hz2, View.ld_unit_zero (S := S200x200) hz2, View.ld_unit_zero (S := S50x200) hz2, View.ld_unit_zero (S := S200) hz1, View.ld_unit_zero (S := S1x32x200) hz3, View.ld_unit_zero (S := S1x32x1) hz3]
  rw [show Scf.trips (0#32) (Scalar.addi 0#32 4#32) 1#32 = 4 from by decide, pb_four]

/-- The accumulating case leaves the same four strips: the tile does not depend on the accumulators. -/
theorem outB_13 (c : Dev nD) (i : grid0.Coords) (arg2 : Memref sig .tc .vmem S32x200 .f32) (harg2 : arg2.IsWhole) (arg3 : Memref sig .tc .vmem S32x200 .f32) (harg3 : arg3.IsWhole) (arg4 : Memref sig .tc .vmem S1024x200 .f32) (harg4 : arg4.IsWhole) (arg5 : Memref sig .tc .vmem S1024x50 .f32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S200x200 .f32) (harg9 : arg9.IsWhole) (arg10 : Memref sig .tc .vmem S50x200 .f32) (harg10 : arg10.IsWhole) (arg11 : Memref sig .tc .vmem S200 .f32) (harg11 : arg11.IsWhole) (arg12 : Memref sig .tc .vmem S200x200 .f32) (harg12 : arg12.IsWhole) (arg13 : Memref sig .tc .vmem S50x200 .f32) (harg13 : arg13.IsWhole) (arg14 : Memref sig .tc .vmem S200 .f32) (harg14 : arg14.IsWhole) (arg15 : Memref sig .tc .vmem S32x1024 .f32) (harg15 : arg15.IsWhole) (arg16 : Memref sig .tc .vmem S1x32x200 .f32) (harg16 : arg16.IsWhole) (arg17 : Memref sig .tc .vmem S1x32x1 .f32) (harg17 : arg17.IsWhole) (arg18 : Memref sig .tc .vmem S1x32x200 .f32) (harg18 : arg18.IsWhole) (arg19 : Memref sig .tc .vmem S1x32x1 .f32) (harg19 : arg19.IsWhole) (hc0 : ¬cond0_0 i) (x0 : Vec F S32x200 .f32) (x1 : Vec F S32x200 .f32) (x2 : Vec F S1024x200 .f32) (x3 : Vec F S1024x50 .f32) (x4 : Vec F S32x1024 .i32) (x5 : Vec F S32x1024 .f32) (x6 : Vec F S32x1024 .f32) (x7 : Vec F S200x200 .f32) (x8 : Vec F S50x200 .f32) (x9 : Vec F S200 .f32) (x10 : Vec F S200x200 .f32) (x11 : Vec F S50x200 .f32) (x12 : Vec F S200 .f32) (xo14 : Vec F S1x32x200 .f32) (xo15 : Vec F S1x32x1 .f32) (xo16 : Vec F S1x32x200 .f32) (xo17 : Vec F S1x32x1 .f32) :
    (out0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17).1 = View.canon (strips arg2 (k0_pay13 (k0_pay8 x2) (k0_pay11 x2 x3 x7 x8 x9) (k0_pay12 x2 x3 x10 x11 x12)) (harg2.unread x0)) := by
  unfold out0_B
  dsimp only
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo14 xo15 xo16 xo17)]
  unfold kernelRun0_B
  dsimp only
  sl_unfold_words
  simp only [View.readAt_eq_ld, harg4.read_unread, harg5.read_unread, harg6.read_unread, harg7.read_unread, harg8.read_unread, harg9.read_unread, harg10.read_unread, harg11.read_unread, harg12.read_unread, harg13.read_unread, harg14.read_unread, harg16.read_unread, harg17.read_unread, harg18.read_unread, harg19.read_unread, View.ld_unit_zero (S := S1024x200) hz2, View.ld_unit_zero (S := S1024x50) hz2, View.ld_unit_zero (S := S32x1024) hz2, View.ld_unit_zero (S := S200x200) hz2, View.ld_unit_zero (S := S50x200) hz2, View.ld_unit_zero (S := S200) hz1, View.ld_unit_zero (S := S1x32x200) hz3, View.ld_unit_zero (S := S1x32x1) hz3]
  rw [show Scf.trips (0#32) (Scalar.addi 0#32 4#32) 1#32 = 4 from by decide, pb_four]

end Cert.KernelIdeal.Val

end
-- ==== Proof.KV.PayPred.lean ====
/-
  The prediction strip of the scorer's body, read at an index, at the ideal values.

  Eight query rows against the tile's 1024 gated rows: the gated tile is transposed and laid along the last axis,
  the query rows along a new last axis, and the absolute differences are summed over the 200 coordinates; the
  prediction is the logistic of 9 minus that L1 distance.
-/
import proofs.«111044_j49203145342981_2_alg».proof.Proof.Gen.KernelIdeal.Skeleton
import proofs.«111044_j49203145342981_2_alg».proof.Proof.KV.Spec
import proofs.«111044_j49203145342981_2_alg».proof.Proof.KV.Layout

noncomputable section

open scoped BigOperators

namespace Cert.KV

open Idealize.ShloMosaic Idealize.ShloMosaic.ValueIdx Cert.KernelIdeal Cert.Spec

/-- THE PREDICTION STRIP at (r, e): the score of query row r against row e of the tile. -/
theorem pred_apply (v41 : FVec Ideal S1024x200 .f32) (v93 : Vec Ideal S8x200 .f32) (r : Fin 8) (e : Fin 1024) :
    Gen.k0_pay3 v41 v93 (ix2 r e) = score (row v93 r) (row v41 e) := by
  unfold Gen.k0_pay3
  simp only [shapeCast_self]
  refine congrArg Ideal.logistic (congrArg (nine - ·) ?_)
  refine (sum_mid_apply _ _ _ _ _ r e).trans ?_
  refine Finset.sum_congr rfl fun k _ => ?_
  have ea := (broadcastTo_ab1_abc_apply (shapeCast S8x200x1 v93 Gen.shapeCasts_S8x200_S8x200x1)
    Gen.broadcasts_S8x200x1_S8x200x1024 r k e).trans (shapeCast_ab_ab1_apply v93 _ r k 0)
  have eb := ((broadcastTo_1bc_abc_apply
    (shapeCast S1x200x1024 (transpose S200x1024 [1, 0] v41 Gen.transposes_S1024x200_p1_0_S200x1024)
      Gen.shapeCasts_S200x1024_S1x200x1024) Gen.broadcasts_S1x200x1024_S8x200x1024 r k e).trans
    (shapeCast_ab_1ab_apply _ _ 0 k e)).trans (transpose_ix2_apply v41 _ k e)
  show max (_ - _) (-(_ - _)) = _
  rw [ea, eb]

end Cert.KV

end
-- ==== Proof.KV.PredTile.lean ====
/-
  The prediction tile read at an index, at the ideal values.

  The loop stores the tile as four strips of eight rows: strip k holds rows 8k … 8k+7, computed from the gated
  tile and rows 8k … 8k+7 of the query block.  The strips tile the 32 rows, and each strip's entry (r, j) is the
  score of query row 8k + r against row j of the gated tile; so the strips read back as ONE function of the
  index: entry (b, j) is the score of query row b against row j of the gated tile.
-/
import proofs.«111044_j49203145342981_2_alg».proof.Proof.KV.PredPieces
import proofs.«111044_j49203145342981_2_alg».proof.Proof.KV.PayPred
import proofs.«111044_j49203145342981_2_alg».proof.Proof.KV.PayGate

noncomputable section

open scoped BigOperators

namespace Cert.KV

open Idealize.ShloMosaic Idealize.ShloMosaic.ValueIdx Cert.KernelIdeal Cert.KernelIdeal.Gen Cert.Spec

/-- Strip k of the query block starts at row 8k, column 0. -/
theorem off1_eq : ∀ k : Fin k0_t1_loop.trips, k0_off1 k = ![8 * k.val, 0] := by decide
/-- Strip k of the tile starts at row 8k, column 0. -/
theorem off2_eq : ∀ k : Fin k0_t1_loop.trips, k0_off2 k = ![8 * k.val, 0] := by decide

/-- The whole tile as one function of the index: the score of query row b against row j of the entity tile. -/
def tileG (x0 : Vec Ideal S32x200 .f32) (v41 : FVec Ideal S1024x200 .f32) : S32x1024.Idx → EReal :=
  fun y => score (row x0 (y 0 : Fin 32)) (row v41 (y 1 : Fin 1024))

/-- Strip k's payload at its own index is the whole-tile function at the index the strip's rectangle places it. -/
theorem piece_apply (arg2 : Memref sig .tc .vmem S32x200 .f32) (harg2 : arg2.IsWhole) (v41 : FVec Ideal S1024x200 .f32)
    (x0 : Vec Ideal S32x200 .f32) (k : Fin k0_t1_loop.trips) (x : S8x1024.Idx) :
    Gen.k0_pay3 v41 (View.readAt (Elt Ideal) arg2.view
        (Rect.unit (s := S32x200) (k0_off1 k) S8x200.size (k0_off1_inb k)).toLoadRect (harg2.unread x0)) x
      = tileG x0 v41 ((Rect.unit (s := S32x1024) (k0_off2 k) S8x1024.size (k0_off2_inb k)).emb x) := by
  obtain ⟨r, e, rfl⟩ : ∃ (r : Fin 8) (e : Fin 1024), x = ix2 r e := ⟨x 0, x 1, eq_ix2 x⟩
  rw [pred_apply, View.readAt_eq_ld, harg2.read_unread]
  refine congrArg₂ score (funext fun d => congrArg x0 (funext fun a => Fin.ext ?_))
    (funext fun d => congrArg v41 (funext fun a => Fin.ext ?_))
  · match a with
    | ⟨0, _⟩ =>
      show k0_off1 k 0 + 1 * r.val = k0_off2 k 0 + 1 * r.val
      rw [off1_eq, off2_eq]
    | ⟨1, _⟩ =>
      show k0_off1 k 1 + 1 * d.val = d.val
      rw [off1_eq]
      show 0 + 1 * d.val = d.val
      omega
  · match a with
    | ⟨0, _⟩ =>
      show e.val = k0_off2 k 1 + 1 * e.val
      rw [off2_eq]
      show e.val = 0 + 1 * e.val
      omega
    | ⟨1, _⟩ => rfl

/-- Row b of the tile lies in strip k when 8k ≤ b < 8k + 8. -/
theorem mem_strip (k : Fin k0_t1_loop.trips) (b : Fin 32) (j : Fin 1024) (h : 8 * k.val ≤ b.val ∧ b.val < 8 * k.val + 8) :
    ix2 b j ∈ (Rect.unit (s := S32x1024) (k0_off2 k) S8x1024.size (k0_off2_inb k)).set := by
  rw [Rect.mem_set_unit]
  intro a
  match a with
  | ⟨0, _⟩ =>
    show k0_off2 k 0 ≤ b.val ∧ b.val < k0_off2 k 0 + 8
    rw [off2_eq]
    exact h
  | ⟨1, _⟩ =>
    show k0_off2 k 1 ≤ j.val ∧ j.val < k0_off2 k 1 + 1024
    rw [off2_eq]
    show 0 ≤ j.val ∧ j.val < 0 + 1024
    have := j.isLt
    omega

/-- THE PREDICTION TILE at (b, j): the score of query row b against row j of the entity tile. -/
theorem strips_apply (arg2 : Memref sig .tc .vmem S32x200 .f32) (harg2 : arg2.IsWhole) (v41 : FVec Ideal S1024x200 .f32)
    (x0 : Vec Ideal S32x200 .f32) (b : Fin 32) (j : Fin 1024) :
    View.canon (Cert.KernelIdeal.Val.strips arg2 v41 (harg2.unread x0)) (ix2 b j) = score (row x0 b) (row v41 j) := by
  refine View.canon_apply_of_pieces (tileG x0 v41) (Cert.KernelIdeal.Val.strips arg2 v41 (harg2.unread x0)) ?_ (ix2 b j) ?_
  · intro p hp x
    simp only [Cert.KernelIdeal.Val.strips, List.mem_cons, List.not_mem_nil, or_false] at hp
    rcases hp with rfl | rfl | rfl | rfl
    · exact piece_apply arg2 harg2 v41 x0 ⟨3, by decide⟩ x
    · exact piece_apply arg2 harg2 v41 x0 ⟨2, by decide⟩ x
    · exact piece_apply arg2 harg2 v41 x0 ⟨1, by decide⟩ x
    · exact piece_apply arg2 harg2 v41 x0 ⟨0, by decide⟩ x
  · have hb := b.isLt
    unfold Cert.KernelIdeal.Val.strips
    rcases (by omega : b.val < 8 ∨ (8 ≤ b.val ∧ b.val < 16) ∨ (16 ≤ b.val ∧ b.val < 24) ∨ (24 ≤ b.val ∧ b.val < 32))
      with h | h | h | h
    · exact ⟨_, List.mem_cons_of_mem _ (List.mem_cons_of_mem _ (List.mem_cons_of_mem _ List.mem_cons_self)),
        mem_strip ⟨0, by decide⟩ b j (by show 8 * 0 ≤ b.val ∧ b.val < 8 * 0 + 8; omega)⟩
    · exact ⟨_, List.mem_cons_of_mem _ (List.mem_cons_of_mem _ List.mem_cons_self),
        mem_strip ⟨1, by decide⟩ b j (by show 8 * 1 ≤ b.val ∧ b.val < 8 * 1 + 8; omega)⟩
    · exact ⟨_, List.mem_cons_of_mem _ List.mem_cons_self,
        mem_strip ⟨2, by decide⟩ b j (by show 8 * 2 ≤ b.val ∧ b.val < 8 * 2 + 8; omega)⟩
    · exact ⟨_, List.mem_cons_self,
        mem_strip ⟨3, by decide⟩ b j (by show 8 * 3 ≤ b.val ∧ b.val < 8 * 3 + 8; omega)⟩

/-- The same with the entity tile the gated tile: entry (b, j) is the score of query row b against the gate of
    row j of the embedding tile and row j of the literal tile. -/
theorem strips_gated_apply (arg2 : Memref sig .tc .vmem S32x200 .f32) (harg2 : arg2.IsWhole)
    (x0 : Vec Ideal S32x200 .f32) (x2 : Vec Ideal S1024x200 .f32) (x3 : Vec Ideal S1024x50 .f32)
    (x7 : Vec Ideal S200x200 .f32) (x8 : Vec Ideal S50x200 .f32) (x9 : Vec Ideal S200 .f32)
    (x10 : Vec Ideal S200x200 .f32) (x11 : Vec Ideal S50x200 .f32) (x12 : Vec Ideal S200 .f32)
    (b : Fin 32) (j : Fin 1024) :
    View.canon (Cert.KernelIdeal.Val.strips arg2
        (Gen.k0_pay13 (Gen.k0_pay8 x2) (Gen.k0_pay11 x2 x3 x7 x8 x9) (Gen.k0_pay12 x2 x3 x10 x11 x12))
        (harg2.unread x0)) (ix2 b j)
      = score (row x0 b)
          (fun n => gate (row x2 j) (row x3 j) (mat x7) (mat x8) (vec x9) (mat x10) (mat x11) (vec x12) n) := by
  rw [strips_apply]
  exact congrArg (score (row x0 b)) (funext fun n => gated_apply x2 x3 x7 x8 x9 x10 x11 x12 j n)

end Cert.KV

end
-- ==== Proof.KV.Arrays.lean ====
/-
  From the grid's write-backs to the five result arrays, at the ideal instance. An accumulator's array [2, 32, ·] is
  written back twice, after the last point of each core, block `k` by core `k`; the two blocks fill it, so entry
  `(k, b, d)` is core `k`'s sum of fifteen contributions. The prediction array [32, 30720] is written back at every
  point, columns `1024 t … 1024 t + 1023` by point `t`; the thirty blocks fill it, so entry `(b, e)` is the score of query
  row `b` against row `e mod 1024` of the gated tile of point `e / 1024`.
-/
import proofs.«111044_j49203145342981_2_alg».proof.Proof.KV.AccSums
import proofs.«111044_j49203145342981_2_alg».proof.Proof.KV.PredTile
import Idealize.ShloMosaic.Lib.Pipeline.Value

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- What the outputs hold after a point depends on the point's number only. -/
theorem outsAt0_congr (c : Dev nD) {n n' : ℕ} (e : n = n') (h : n < cfg0.N) (h' : n' < cfg0.N) :
    outsAt0 m c n h = outsAt0 m c n' h' := by
  subst e; rfl

/-- The accumulators' block index is the core; the prediction tile's is the point. -/
theorem arr_idx14 : ∀ t : Fin cfg0.N, win0_14.index t (0 : Fin 3) = t.val / 15 ∧ win0_14.index t (1 : Fin 3) = 0 ∧ win0_14.index t (2 : Fin 3) = 0 :=
  (by decide +kernel : ∀ t : Fin grid0.N, _)
theorem arr_idx15 : ∀ t : Fin cfg0.N, win0_15.index t (0 : Fin 3) = t.val / 15 ∧ win0_15.index t (1 : Fin 3) = 0 ∧ win0_15.index t (2 : Fin 3) = 0 :=
  (by decide +kernel : ∀ t : Fin grid0.N, _)
theorem arr_idx16 : ∀ t : Fin cfg0.N, win0_16.index t (0 : Fin 3) = t.val / 15 ∧ win0_16.index t (1 : Fin 3) = 0 ∧ win0_16.index t (2 : Fin 3) = 0 :=
  (by decide +kernel : ∀ t : Fin grid0.N, _)
theorem arr_idx17 : ∀ t : Fin cfg0.N, win0_17.index t (0 : Fin 3) = t.val / 15 ∧ win0_17.index t (1 : Fin 3) = 0 ∧ win0_17.index t (2 : Fin 3) = 0 :=
  (by decide +kernel : ∀ t : Fin grid0.N, _)
theorem arr_idx13 : ∀ t : Fin cfg0.N, win0_13.index t (0 : Fin 2) = 0 ∧ win0_13.index t (1 : Fin 2) = t.val :=
  (by decide +kernel : ∀ t : Fin grid0.N, _)

/-! ## The positive sum -/

/-- Core `k`'s fifteen contributions. -/
def sumPos (c : Dev nD) (k : Fin 2) (b : Fin 32) (d : Fin 200) : EReal :=
  ∑ s : Fin 15, cPos m c ⟨k.val * 15 + s.val, by have hN : cfg0.N = 30 := N_0; have := s.isLt; have := k.isLt; omega⟩ b d

theorem flushed14_eq (c : Dev nD) (t : Fin cfg0.N) (hf : (cfg0.win 14).flush t = true) :
    (dats m 0 c).flushed 14 t = ((cfg0.win 14).blk t).view.read (Elt Ideal) (fun y : S2x32x200.Idx => sumPos m c (y 0) (y 1) (y 2)) := by
  have hN : cfg0.N = 30 := N_0
  have h14 : t.val % 15 = 14 := (flush0_14 t).mp hf
  have htl : t.val < 30 := lt_of_lt_of_eq t.isLt hN
  obtain ⟨i0, i1, i2⟩ := arr_idx14 t
  show (cfg0.win 14).cut (grid0.coords t) ((dats m 0 c).after 14 t) = _
  rw [after0_14]
  funext y
  obtain ⟨u, b, d, rfl⟩ : ∃ (u : Fin 1) (b : Fin 32) (d : Fin 200), y = ix3 u b d := ⟨y 0, y 1, y 2, eq_ix3 y⟩
  rw [View.read_apply]
  have hemb : ((cfg0.win 14).blk t).view.emb (ix3 u b d) = ix3 (⟨t.val / 15, by omega⟩ : Fin 2) b d := by
    funext a; apply Fin.ext
    match a with
    | ⟨0, _⟩ => show win0_14.index t (0 : Fin 3) * 1 + 1 * u.val = t.val / 15; rw [i0]; have := u.isLt; omega
    | ⟨1, _⟩ => show win0_14.index t (1 : Fin 3) * 32 + 1 * b.val = b.val; rw [i1]; omega
    | ⟨2, _⟩ => show win0_14.index t (2 : Fin 3) * 200 + 1 * d.val = d.val; rw [i2]; omega
  rw [hemb]
  obtain rfl : u = 0 := Subsingleton.elim _ _
  show (outsAt0 m c t.val t.isLt).2.1 (ix3 (0 : Fin 1) b d) = sumPos m c ⟨t.val / 15, _⟩ b d
  have e : t.val = (⟨t.val / 15, by omega⟩ : Fin 2).val * 15 + 14 := by show t.val = t.val / 15 * 15 + 14; omega
  rw [outsAt0_congr m c e t.isLt (by show t.val / 15 * 15 + 14 < cfg0.N; omega)]
  exact pos_end m c b d ⟨t.val / 15, by omega⟩ _

theorem arr_mem14 (t : Fin cfg0.N) (i : S2x32x200.Idx) :
    i ∈ ((cfg0.win 14).blk t).view.set ↔ ∀ a : Fin 3, win0_14.index t a * S1x32x200.size a ≤ (i a).val ∧ (i a).val < win0_14.index t a * S1x32x200.size a + S1x32x200.size a := by
  show i ∈ ((View.whole main_v59_1).slice (win0_14.rect t)).set ↔ _
  rw [View.set_slice_whole, Rect.mem_set_unit]
  exact Iff.rfl

theorem final14 (c : Dev nD) : (dats m 0 c).arrAt 14 cfg0.N = (fun y : S2x32x200.Idx => sumPos m c (y 0) (y 1) (y 2)) :=
  (dats m 0 c).arrAt_eq_of_cover 14 _ (flushed14_eq m c) fun i => by
    have hN : cfg0.N = 30 := N_0
    have h0 : (i 0).val < 2 := (i 0).isLt
    have h1 : (i 1).val < 32 := (i 1).isLt
    have h2 : (i 2).val < 200 := (i 2).isLt
    refine ⟨⟨(i 0).val * 15 + 14, by omega⟩, (flush0_14 _).mpr (by show ((i 0).val * 15 + 14) % 15 = 14; omega), ?_⟩
    rw [arr_mem14]
    obtain ⟨i0, i1, i2⟩ := arr_idx14 ⟨(i 0).val * 15 + 14, by omega⟩
    intro a
    match a with
    | ⟨0, _⟩ => show win0_14.index _ (0 : Fin 3) * 1 ≤ (i 0).val ∧ (i 0).val < win0_14.index _ (0 : Fin 3) * 1 + 1; rw [i0]; show ((i 0).val * 15 + 14) / 15 * 1 ≤ (i 0).val ∧ (i 0).val < ((i 0).val * 15 + 14) / 15 * 1 + 1; omega
    | ⟨1, _⟩ => show win0_14.index _ (1 : Fin 3) * 32 ≤ (i 1).val ∧ (i 1).val < win0_14.index _ (1 : Fin 3) * 32 + 32; rw [i1]; omega
    | ⟨2, _⟩ => show win0_14.index _ (2 : Fin 3) * 200 ≤ (i 2).val ∧ (i 2).val < win0_14.index _ (2 : Fin 3) * 200 + 200; rw [i2]; omega

/-! ## The positive count -/

def sumPosC (c : Dev nD) (k : Fin 2) (b : Fin 32) : EReal :=
  ∑ s : Fin 15, cPosC m c ⟨k.val * 15 + s.val, by have hN : cfg0.N = 30 := N_0; have := s.isLt; have := k.isLt; omega⟩ b

theorem flushed15_eq (c : Dev nD) (t : Fin cfg0.N) (hf : (cfg0.win 15).flush t = true) :
    (dats m 0 c).flushed 15 t = ((cfg0.win 15).blk t).view.read (Elt Ideal) (fun y : S2x32x1.Idx => sumPosC m c (y 0) (y 1)) := by
  have hN : cfg0.N = 30 := N_0
  have h14 : t.val % 15 = 14 := (flush0_15 t).mp hf
  have htl : t.val < 30 := lt_of_lt_of_eq t.isLt hN
  obtain ⟨i0, i1, i2⟩ := arr_idx15 t
  show (cfg0.win 15).cut (grid0.coords t) ((dats m 0 c).after 15 t) = _
  rw [after0_15]
  funext y
  obtain ⟨u, b, z, rfl⟩ : ∃ (u : Fin 1) (b : Fin 32) (z : Fin 1), y = ix3 u b z := ⟨y 0, y 1, y 2, eq_ix3 y⟩
  rw [View.read_apply]
  have hemb : ((cfg0.win 15).blk t).view.emb (ix3 u b z) = ix3 (⟨t.val / 15, by omega⟩ : Fin 2) b z := by
    funext a; apply Fin.ext
    match a with
    | ⟨0, _⟩ => show win0_15.index t (0 : Fin 3) * 1 + 1 * u.val = t.val / 15; rw [i0]; have := u.isLt; omega
    | ⟨1, _⟩ => show win0_15.index t (1 : Fin 3) * 32 + 1 * b.val = b.val; rw [i1]; omega
    | ⟨2, _⟩ => show win0_15.index t (2 : Fin 3) * 1 + 1 * z.val = z.val; rw [i2]; omega
  rw [hemb]
  obtain rfl : u = 0 := Subsingleton.elim _ _
  obtain rfl : z = 0 := Subsingleton.elim _ _
  show (outsAt0 m c t.val t.isLt).2.2.1 (ix3 (0 : Fin 1) b (0 : Fin 1)) = sumPosC m c ⟨t.val / 15, _⟩ b
  have e : t.val = (⟨t.val / 15, by omega⟩ : Fin 2).val * 15 + 14 := by show t.val = t.val / 15 * 15 + 14; omega
  rw [outsAt0_congr m c e t.isLt (by show t.val / 15 * 15 + 14 < cfg0.N; omega)]
  exact posc_end m c b ⟨t.val / 15, by omega⟩ _

theorem arr_mem15 (t : Fin cfg0.N) (i : S2x32x1.Idx) :
    i ∈ ((cfg0.win 15).blk t).view.set ↔ ∀ a : Fin 3, win0_15.index t a * S1x32x1.size a ≤ (i a).val ∧ (i a).val < win0_15.index t a * S1x32x1.size a + S1x32x1.size a := by
  show i ∈ ((View.whole main_v59_2).slice (win0_15.rect t)).set ↔ _
  rw [View.set_slice_whole, Rect.mem_set_unit]
  exact Iff.rfl

theorem final15 (c : Dev nD) : (dats m 0 c).arrAt 15 cfg0.N = (fun y : S2x32x1.Idx => sumPosC m c (y 0) (y 1)) :=
  (dats m 0 c).arrAt_eq_of_cover 15 _ (flushed15_eq m c) fun i => by
    have hN : cfg0.N = 30 := N_0
    have h0 : (i 0).val < 2 := (i 0).isLt
    have h1 : (i 1).val < 32 := (i 1).isLt
    have h2 : (i 2).val < 1 := (i 2).isLt
    refine ⟨⟨(i 0).val * 15 + 14, by omega⟩, (flush0_15 _).mpr (by show ((i 0).val * 15 + 14) % 15 = 14; omega), ?_⟩
    rw [arr_mem15]
    obtain ⟨i0, i1, i2⟩ := arr_idx15 ⟨(i 0).val * 15 + 14, by omega⟩
    intro a
    match a with
    | ⟨0, _⟩ => show win0_15.index _ (0 : Fin 3) * 1 ≤ (i 0).val ∧ (i 0).val < win0_15.index _ (0 : Fin 3) * 1 + 1; rw [i0]; show ((i 0).val * 15 + 14) / 15 * 1 ≤ (i 0).val ∧ (i 0).val < ((i 0).val * 15 + 14) / 15 * 1 + 1; omega
    | ⟨1, _⟩ => show win0_15.index _ (1 : Fin 3) * 32 ≤ (i 1).val ∧ (i 1).val < win0_15.index _ (1 : Fin 3) * 32 + 32; rw [i1]; omega
    | ⟨2, _⟩ => show win0_15.index _ (2 : Fin 3) * 1 ≤ (i 2).val ∧ (i 2).val < win0_15.index _ (2 : Fin 3) * 1 + 1; rw [i2]; omega

/-! ## The negative sum -/

def sumNeg (c : Dev nD) (k : Fin 2) (b : Fin 32) (d : Fin 200) : EReal :=
  ∑ s : Fin 15, cNeg m c ⟨k.val * 15 + s.val, by have hN : cfg0.N = 30 := N_0; have := s.isLt; have := k.isLt; omega⟩ b d

theorem flushed16_eq (c : Dev nD) (t : Fin cfg0.N) (hf : (cfg0.win 16).flush t = true) :
    (dats m 0 c).flushed 16 t = ((cfg0.win 16).blk t).view.read (Elt Ideal) (fun y : S2x32x200.Idx => sumNeg m c (y 0) (y 1) (y 2)) := by
  have hN : cfg0.N = 30 := N_0
  have h14 : t.val % 15 = 14 := (flush0_16 t).mp hf
  have htl : t.val < 30 := lt_of_lt_of_eq t.isLt hN
  obtain ⟨i0, i1, i2⟩ := arr_idx16 t
  show (cfg0.win 16).cut (grid0.coords t) ((dats m 0 c).after 16 t) = _
  rw [after0_16]
  funext y
  obtain ⟨u, b, d, rfl⟩ : ∃ (u : Fin 1) (b : Fin 32) (d : Fin 200), y = ix3 u b d := ⟨y 0, y 1, y 2, eq_ix3 y⟩
  rw [View.read_apply]
  have hemb : ((cfg0.win 16).blk t).view.emb (ix3 u b d) = ix3 (⟨t.val / 15, by omega⟩ : Fin 2) b d := by
    funext a; apply Fin.ext
    match a with
    | ⟨0, _⟩ => show win0_16.index t (0 : Fin 3) * 1 + 1 * u.val = t.val / 15; rw [i0]; have := u.isLt; omega
    | ⟨1, _⟩ => show win0_16.index t (1 : Fin 3) * 32 + 1 * b.val = b.val; rw [i1]; omega
    | ⟨2, _⟩ => show win0_16.index t (2 : Fin 3) * 200 + 1 * d.val = d.val; rw [i2]; omega
  rw [hemb]
  obtain rfl : u = 0 := Subsingleton.elim _ _
  show (outsAt0 m c t.val t.isLt).2.2.2.1 (ix3 (0 : Fin 1) b d) = sumNeg m c ⟨t.val / 15, _⟩ b d
  have e : t.val = (⟨t.val / 15, by omega⟩ : Fin 2).val * 15 + 14 := by show t.val = t.val / 15 * 15 + 14; omega
  rw [outsAt0_congr m c e t.isLt (by show t.val / 15 * 15 + 14 < cfg0.N; omega)]
  exact neg_end m c b d ⟨t.val / 15, by omega⟩ _

theorem arr_mem16 (t : Fin cfg0.N) (i : S2x32x200.Idx) :
    i ∈ ((cfg0.win 16).blk t).view.set ↔ ∀ a : Fin 3, win0_16.index t a * S1x32x200.size a ≤ (i a).val ∧ (i a).val < win0_16.index t a * S1x32x200.size a + S1x32x200.size a := by
  show i ∈ ((View.whole main_v59_3).slice (win0_16.rect t)).set ↔ _
  rw [View.set_slice_whole, Rect.mem_set_unit]
  exact Iff.rfl

theorem final16 (c : Dev nD) : (dats m 0 c).arrAt 16 cfg0.N = (fun y : S2x32x200.Idx => sumNeg m c (y 0) (y 1) (y 2)) :=
  (dats m 0 c).arrAt_eq_of_cover 16 _ (flushed16_eq m c) fun i => by
    have hN : cfg0.N = 30 := N_0
    have h0 : (i 0).val < 2 := (i 0).isLt
    have h1 : (i 1).val < 32 := (i 1).isLt
    have h2 : (i 2).val < 200 := (i 2).isLt
    refine ⟨⟨(i 0).val * 15 + 14, by omega⟩, (flush0_16 _).mpr (by show ((i 0).val * 15 + 14) % 15 = 14; omega), ?_⟩
    rw [arr_mem16]
    obtain ⟨i0, i1, i2⟩ := arr_idx16 ⟨(i 0).val * 15 + 14, by omega⟩
    intro a
    match a with
    | ⟨0, _⟩ => show win0_16.index _ (0 : Fin 3) * 1 ≤ (i 0).val ∧ (i 0).val < win0_16.index _ (0 : Fin 3) * 1 + 1; rw [i0]; show ((i 0).val * 15 + 14) / 15 * 1 ≤ (i 0).val ∧ (i 0).val < ((i 0).val * 15 + 14) / 15 * 1 + 1; omega
    | ⟨1, _⟩ => show win0_16.index _ (1 : Fin 3) * 32 ≤ (i 1).val ∧ (i 1).val < win0_16.index _ (1 : Fin 3) * 32 + 32; rw [i1]; omega
    | ⟨2, _⟩ => show win0_16.index _ (2 : Fin 3) * 200 ≤ (i 2).val ∧ (i 2).val < win0_16.index _ (2 : Fin 3) * 200 + 200; rw [i2]; omega

/-! ## The negative count -/

def sumNegC (c : Dev nD) (k : Fin 2) (b : Fin 32) : EReal :=
  ∑ s : Fin 15, cNegC m c ⟨k.val * 15 + s.val, by have hN : cfg0.N = 30 := N_0; have := s.isLt; have := k.isLt; omega⟩ b

theorem flushed17_eq (c : Dev nD) (t : Fin cfg0.N) (hf : (cfg0.win 17).flush t = true) :
    (dats m 0 c).flushed 17 t = ((cfg0.win 17).blk t).view.read (Elt Ideal) (fun y : S2x32x1.Idx => sumNegC m c (y 0) (y 1)) := by
  have hN : cfg0.N = 30 := N_0
  have h14 : t.val % 15 = 14 := (flush0_17 t).mp hf
  have htl : t.val < 30 := lt_of_lt_of_eq t.isLt hN
  obtain ⟨i0, i1, i2⟩ := arr_idx17 t
  show (cfg0.win 17).cut (grid0.coords t) ((dats m 0 c).after 17 t) = _
  rw [after0_17]
  funext y
  obtain ⟨u, b, z, rfl⟩ : ∃ (u : Fin 1) (b : Fin 32) (z : Fin 1), y = ix3 u b z := ⟨y 0, y 1, y 2, eq_ix3 y⟩
  rw [View.read_apply]
  have hemb : ((cfg0.win 17).blk t).view.emb (ix3 u b z) = ix3 (⟨t.val / 15, by omega⟩ : Fin 2) b z := by
    funext a; apply Fin.ext
    match a with
    | ⟨0, _⟩ => show win0_17.index t (0 : Fin 3) * 1 + 1 * u.val = t.val / 15; rw [i0]; have := u.isLt; omega
    | ⟨1, _⟩ => show win0_17.index t (1 : Fin 3) * 32 + 1 * b.val = b.val; rw [i1]; omega
    | ⟨2, _⟩ => show win0_17.index t (2 : Fin 3) * 1 + 1 * z.val = z.val; rw [i2]; omega
  rw [hemb]
  obtain rfl : u = 0 := Subsingleton.elim _ _
  obtain rfl : z = 0 := Subsingleton.elim _ _
  show (outsAt0 m c t.val t.isLt).2.2.2.2 (ix3 (0 : Fin 1) b (0 : Fin 1)) = sumNegC m c ⟨t.val / 15, _⟩ b
  have e : t.val = (⟨t.val / 15, by omega⟩ : Fin 2).val * 15 + 14 := by show t.val = t.val / 15 * 15 + 14; omega
  rw [outsAt0_congr m c e t.isLt (by show t.val / 15 * 15 + 14 < cfg0.N; omega)]
  exact negc_end m c b ⟨t.val / 15, by omega⟩ _

theorem arr_mem17 (t : Fin cfg0.N) (i : S2x32x1.Idx) :
    i ∈ ((cfg0.win 17).blk t).view.set ↔ ∀ a : Fin 3, win0_17.index t a * S1x32x1.size a ≤ (i a).val ∧ (i a).val < win0_17.index t a * S1x32x1.size a + S1x32x1.size a := by
  show i ∈ ((View.whole main_v59_4).slice (win0_17.rect t)).set ↔ _
  rw [View.set_slice_whole, Rect.mem_set_unit]
  exact Iff.rfl

theorem final17 (c : Dev nD) : (dats m 0 c).arrAt 17 cfg0.N = (fun y : S2x32x1.Idx => sumNegC m c (y 0) (y 1)) :=
  (dats m 0 c).arrAt_eq_of_cover 17 _ (flushed17_eq m c) fun i => by
    have hN : cfg0.N = 30 := N_0
    have h0 : (i 0).val < 2 := (i 0).isLt
    have h1 : (i 1).val < 32 := (i 1).isLt
    have h2 : (i 2).val < 1 := (i 2).isLt
    refine ⟨⟨(i 0).val * 15 + 14, by omega⟩, (flush0_17 _).mpr (by show ((i 0).val * 15 + 14) % 15 = 14; omega), ?_⟩
    rw [arr_mem17]
    obtain ⟨i0, i1, i2⟩ := arr_idx17 ⟨(i 0).val * 15 + 14, by omega⟩
    intro a
    match a with
    | ⟨0, _⟩ => show win0_17.index _ (0 : Fin 3) * 1 ≤ (i 0).val ∧ (i 0).val < win0_17.index _ (0 : Fin 3) * 1 + 1; rw [i0]; show ((i 0).val * 15 + 14) / 15 * 1 ≤ (i 0).val ∧ (i 0).val < ((i 0).val * 15 + 14) / 15 * 1 + 1; omega
    | ⟨1, _⟩ => show win0_17.index _ (1 : Fin 3) * 32 ≤ (i 1).val ∧ (i 1).val < win0_17.index _ (1 : Fin 3) * 32 + 32; rw [i1]; omega
    | ⟨2, _⟩ => show win0_17.index _ (2 : Fin 3) * 1 ≤ (i 2).val ∧ (i 2).val < win0_17.index _ (2 : Fin 3) * 1 + 1; rw [i2]; omega

/-! ## The prediction array -/

/-- Point `t`'s score of query row `b` against row `j` of its gated tile. -/
def predPt (c : Dev nD) (t : Fin cfg0.N) (j : Fin 1024) (b : Fin 32) : EReal :=
  score (row (bk0 m c t) b) (fun n => erow m c t j n)

/-- The same addressed by the padded entity number `e = 1024 t + j`. -/
def predArr (c : Dev nD) (b : Fin 32) (e : Fin 30720) : EReal :=
  predPt m c ⟨e.val / 1024, by have hN : cfg0.N = 30 := N_0; have := e.isLt; omega⟩ ⟨e.val % 1024, Nat.mod_lt _ (by decide)⟩ b

theorem predArr_at (c : Dev nD) (t : Fin cfg0.N) (j : Fin 1024) (b : Fin 32) (h : t.val * 1024 + j.val < 30720) :
    predArr m c b ⟨t.val * 1024 + j.val, h⟩ = predPt m c t j b := by
  unfold predArr
  have e1 : (t.val * 1024 + j.val) / 1024 = t.val := by have := j.isLt; omega
  have e2 : (t.val * 1024 + j.val) % 1024 = j.val := by have := j.isLt; omega
  congr 1
  · exact Fin.ext e1
  · exact Fin.ext e2

/-- After any point the tile's buffer holds that point's scores. -/
theorem tile_at (c : Dev nD) (t : Fin cfg0.N) (b : Fin 32) (j : Fin 1024) :
    (outsAt0 m c t.val t.isLt).1 (ix2 b j) = predPt m c t j b := by
  unfold predPt erow
  by_cases h0 : t.val % 15 = 0
  · have e := outA_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    rw [outsAt0_A m c t h0]
    unfold outA
    rw [e]
    exact Cert.KV.strips_gated_apply (ms0_0 t) (hs0_0 t) (bk0 m c t) (bk2 m c t) (bk3 m c t) (bk7 m c t) (bk8 m c t) (bk9 m c t) (bk10 m c t) (bk11 m c t) (bk12 m c t) b j
  · have e := outB_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun hc => h0 ((hcond0_0 t).mp hc)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2
    rw [outsAt0_B m c t h0]
    unfold outB
    rw [e]
    exact Cert.KV.strips_gated_apply (ms0_0 t) (hs0_0 t) (bk0 m c t) (bk2 m c t) (bk3 m c t) (bk7 m c t) (bk8 m c t) (bk9 m c t) (bk10 m c t) (bk11 m c t) (bk12 m c t) b j

theorem flushed13_eq (c : Dev nD) (t : Fin cfg0.N) (hf : (cfg0.win 13).flush t = true) :
    (dats m 0 c).flushed 13 t = ((cfg0.win 13).blk t).view.read (Elt Ideal) (fun y : S32x30720.Idx => predArr m c (y 0) (y 1)) := by
  have hN : cfg0.N = 30 := N_0
  have htl : t.val < 30 := lt_of_lt_of_eq t.isLt hN
  obtain ⟨i0, i1⟩ := arr_idx13 t
  show (cfg0.win 13).cut (grid0.coords t) ((dats m 0 c).after 13 t) = _
  rw [after0_13]
  funext y
  obtain ⟨b, j, rfl⟩ : ∃ (b : Fin 32) (j : Fin 1024), y = ix2 b j := ⟨y 0, y 1, eq_ix2 y⟩
  rw [View.read_apply]
  have hj : j.val < 1024 := j.isLt
  have hemb : ((cfg0.win 13).blk t).view.emb (ix2 b j) = ix2 b (⟨t.val * 1024 + j.val, by omega⟩ : Fin 30720) := by
    funext a; apply Fin.ext
    match a with
    | ⟨0, _⟩ => show win0_13.index t (0 : Fin 2) * 32 + 1 * b.val = b.val; rw [i0]; omega
    | ⟨1, _⟩ => show win0_13.index t (1 : Fin 2) * 1024 + 1 * j.val = t.val * 1024 + j.val; rw [i1]; omega
  rw [hemb]
  show (outsAt0 m c t.val t.isLt).1 (ix2 b j) = predArr m c b ⟨t.val * 1024 + j.val, _⟩
  rw [predArr_at m c t j b, tile_at]

theorem arr_mem13 (t : Fin cfg0.N) (i : S32x30720.Idx) :
    i ∈ ((cfg0.win 13).blk t).view.set ↔ ∀ a : Fin 2, win0_13.index t a * S32x1024.size a ≤ (i a).val ∧ (i a).val < win0_13.index t a * S32x1024.size a + S32x1024.size a := by
  show i ∈ ((View.whole main_v59_0).slice (win0_13.rect t)).set ↔ _
  rw [View.set_slice_whole, Rect.mem_set_unit]
  exact Iff.rfl

theorem final13 (c : Dev nD) : (dats m 0 c).arrAt 13 cfg0.N = (fun y : S32x30720.Idx => predArr m c (y 0) (y 1)) :=
  (dats m 0 c).arrAt_eq_of_cover 13 _ (flushed13_eq m c) fun i => by
    have hN : cfg0.N = 30 := N_0
    have h0 : (i 0).val < 32 := (i 0).isLt
    have h1 : (i 1).val < 30720 := (i 1).isLt
    refine ⟨⟨(i 1).val / 1024, by omega⟩, flush0_13 _, ?_⟩
    rw [arr_mem13]
    obtain ⟨i0, i1⟩ := arr_idx13 ⟨(i 1).val / 1024, by omega⟩
    intro a
    match a with
    | ⟨0, _⟩ => show win0_13.index _ (0 : Fin 2) * 32 ≤ (i 0).val ∧ (i 0).val < win0_13.index _ (0 : Fin 2) * 32 + 32; rw [i0]; omega
    | ⟨1, _⟩ => show win0_13.index _ (1 : Fin 2) * 1024 ≤ (i 1).val ∧ (i 1).val < win0_13.index _ (1 : Fin 2) * 1024 + 1024; rw [i1]; show (i 1).val / 1024 * 1024 ≤ (i 1).val ∧ (i 1).val < (i 1).val / 1024 * 1024 + 1024; omega

end Cert.KernelIdeal.Val

end
-- ==== Proof.RefIdx.lean ====
/- The reference program's stages read at an index, at the exact extended reals: a matrix product entry as the sum over
   the shared axis of the operands' products; a row sum as the host reduction's initial value plus the sum over the row;
   the broadcasts, transposes and the side-by-side join at the coordinates they read; the elementwise operations entry
   by entry. With these the blended entity table, the prediction and the two masked averages are the scorer's
   specification (rows, contractions, the logistic function, the L1 distance) entry by entry. -/
import proofs.«111044_j49203145342981_2_alg».proof.Proof.RefStages
import proofs.«111044_j49203145342981_2_alg».proof.Proof.LibDense
import proofs.«111044_j49203145342981_2_alg».proof.Proof.KV.Spec
import Idealize.ShloMosaic.Lib.IdealHost
import Idealize.ShloMosaic.Lib.ValueLayout
import Idealize.ShloMosaic.Lib.Pipeline.Value

noncomputable section

open scoped BigOperators

namespace Cert.ReferenceIdeal.RefRun

open Cert.ReferenceIdeal Cert.ReferenceIdeal.Gen Idealize.ShloMosaic Idealize.ShloMosaic.ValueIdx

/-! ## The host's elementwise operations, entry by entry -/

theorem hostExp_apply {s : Shape} {φ : FTy} (x : FVec Ideal s φ) (i : s.Idx) : Host.exp x i = Ideal.exp (x i) := rfl
theorem hostNegf_apply {s : Shape} {φ : FTy} (x : FVec Ideal s φ) (i : s.Idx) : Host.negf x i = -(x i) := rfl
theorem hostTanh_apply {s : Shape} {φ : FTy} (x : FVec Ideal s φ) (i : s.Idx) : Host.tanh x i = Ideal.tanh (x i) := rfl

/-! ## The two weighted masks, entry by entry -/

/-- The mask as floats times the first weights, at (b, e): the label word read as a signed integer, times the weight. -/
theorem e2p_apply (a2 : (⟨S32x30000, .i32⟩ : BufTy).Contents (Elt Ideal)) (a11 : (⟨S32x30000, .f32⟩ : BufTy).Contents (Elt Ideal))
    (b : Fin 32) (e : Fin 30000) :
    e2p (F := Ideal) a2 a11 (ix2 b e) = Cert.Spec.posW (a2 (ix2 b e)) (a11 (ix2 b e)) := rfl

/-- The complement of the mask at (b, e): one minus the label. -/
theorem invm_apply (a2 : (⟨S32x30000, .i32⟩ : BufTy).Contents (Elt Ideal)) (b : Fin 32) (e : Fin 30000) :
    invm (F := Ideal) a2 (ix2 b e) = Cert.Spec.negC (a2 (ix2 b e)) := rfl

/-- The doubled product with the second weights at (b, e), in the program's association (n * w) * 2. -/
theorem invDrop_apply (n a12 : (⟨S32x30000, .f32⟩ : BufTy).Contents (Elt Ideal)) (b : Fin 32) (e : Fin 30000) :
    invDrop (F := Ideal) n a12 (ix2 b e) = (n (ix2 b e) * a12 (ix2 b e)) * Cert.Spec.two := rfl

/-- So the second weighted mask at (b, e) is ((1 - label) * weight) * 2. -/
theorem invDrop_invm_apply (a2 : (⟨S32x30000, .i32⟩ : BufTy).Contents (Elt Ideal))
    (a12 : (⟨S32x30000, .f32⟩ : BufTy).Contents (Elt Ideal)) (b : Fin 32) (e : Fin 30000) :
    invDrop (F := Ideal) (invm (F := Ideal) a2) a12 (ix2 b e) = Cert.Spec.negW (a2 (ix2 b e)) (a12 (ix2 b e)) := rfl

/-! ## The two numerators: a 32 × 30000 by 30000 × 200 product -/

/-- The first numerator at (b, d): the sum over the entities of the weighted mask times the entity table. -/
theorem posNum_apply (p : (⟨S32x30000, .f32⟩ : BufTy).Contents (Elt Ideal)) (e2 : (⟨S30000x200, .f32⟩ : BufTy).Contents (Elt Ideal))
    (b : Fin 32) (d : Fin 200) :
    posNum (F := Ideal) p e2 (ix2 b d) = ∑ e : Fin 30000, p (ix2 b e) * e2 (ix2 e d) :=
  (Ideal.dotGeneral_apply (DotDims.plain 32 30000 200) none .single p e2 (ix2 b d)).trans
    (Cert.LibDense.plain_sum 32 30000 200 p e2 (ix2 b d))

/-- The second numerator at (b, d): the same product. -/
theorem negNum_apply (w : (⟨S32x30000, .f32⟩ : BufTy).Contents (Elt Ideal)) (e2 : (⟨S30000x200, .f32⟩ : BufTy).Contents (Elt Ideal))
    (b : Fin 32) (d : Fin 200) :
    negNum (F := Ideal) w e2 (ix2 b d) = ∑ e : Fin 30000, w (ix2 b e) * e2 (ix2 e d) :=
  (Ideal.dotGeneral_apply (DotDims.plain 32 30000 200) none .single w e2 (ix2 b d)).trans
    (Cert.LibDense.plain_sum 32 30000 200 w e2 (ix2 b d))

/-! ## The two denominators: a row sum spread over the 200 columns -/

/-- A 32 × 30000 array summed along its rows by the host, spread to a column and then over 200 columns, reads at (b, d)
    the reduction's initial value (the zero word) plus the sum of row b. -/
theorem rowSum_apply (x : (⟨S32x30000, .f32⟩ : BufTy).Contents (Elt Ideal)) (b : Fin 32) (d : Fin 200) :
    broadcastInDim S32x200 ![0, 1] bcast_S32x1_S32x200_0_1
        (broadcastInDim S32x1 ![0] bcast_S32_S32x1_0
          (Host.reduceAdd (F := Ideal) x (constant (F := Ideal) S_ .f32 0x00000000#32) reducesTo_S32x30000_S32_d1 h_S_))
        (ix2 b d)
      = Ideal.ofBits .f32 0x00000000#32 + ∑ e : Fin 30000, x (ix2 b e) := by
  rw [broadcastInDim_apply ![0, 1] bcast_S32x1_S32x200_0_1 _ (ix2 b d) (ix2 b (0 : Fin 1))
        (by intro a; match a with | ⟨0, _⟩ => rfl | ⟨1, _⟩ => rfl),
      broadcastInDim_apply ![0] bcast_S32_S32x1_0 _ (ix2 b (0 : Fin 1)) (ix1 b)
        (by intro a; match a with | ⟨0, _⟩ => rfl),
      hostReduceAdd_apply, Ideal.hostReduceAdd_single reducesTo_S32x30000_S32_d1 (by decide)]
  refine congrArg (_ + ·) (Finset.sum_congr rfl fun k _ => ?_)
  exact congrArg x (funext fun a => Fin.ext (by match a with | ⟨0, _⟩ => rfl | ⟨1, _⟩ => rfl))

/-- The first denominator at (b, d): the zero word plus the sum of the weighted mask's row b. -/
theorem posDen_apply (p : (⟨S32x30000, .f32⟩ : BufTy).Contents (Elt Ideal)) (b : Fin 32) (d : Fin 200) :
    posDen (F := Ideal) p (ix2 b d) = Ideal.ofBits .f32 0x00000000#32 + ∑ e : Fin 30000, p (ix2 b e) :=
  rowSum_apply p b d

/-- The second denominator at (b, d): the zero word plus the sum of the complement's row b. -/
theorem negDen_apply (n : (⟨S32x30000, .f32⟩ : BufTy).Contents (Elt Ideal)) (b : Fin 32) (d : Fin 200) :
    negDen (F := Ideal) n (ix2 b d) = Ideal.ofBits .f32 0x00000000#32 + ∑ e : Fin 30000, n (ix2 b e) :=
  rowSum_apply n b d

/-! ## The prediction, entry by entry -/

/-- The query vectors spread over the entities (main_v116, main_v118), at (b, e, d): query b's coordinate d. -/
theorem spreadQ_apply (q : (⟨S32x200, .f32⟩ : BufTy).Contents (Elt Ideal)) (b : Fin 32) (e : Fin 30000) (d : Fin 200) :
    broadcastInDim S32x30000x200 ![0, 1, 2] bcast_S32x1x200_S32x30000x200_0_1_2
        (broadcastInDim S32x1x200 ![0, 2] bcast_S32x200_S32x1x200_0_2 q) (ix3 b e d)
      = q (ix2 b d) := by
  rw [broadcastInDim_apply ![0, 1, 2] bcast_S32x1x200_S32x30000x200_0_1_2 _ (ix3 b e d) (ix3 b (0 : Fin 1) d)
        (by intro a; match a with | ⟨0, _⟩ => rfl | ⟨1, _⟩ => rfl | ⟨2, _⟩ => rfl),
      broadcastInDim_apply ![0, 2] bcast_S32x200_S32x1x200_0_2 _ (ix3 b (0 : Fin 1) d) (ix2 b d)
        (by intro a; match a with | ⟨0, _⟩ => rfl | ⟨1, _⟩ => rfl)]

/-- The entity rows spread over the queries (main_v117, main_v119), at (b, e, d): entity e's coordinate d. -/
theorem spreadE_apply (e2 : (⟨S30000x200, .f32⟩ : BufTy).Contents (Elt Ideal)) (b : Fin 32) (e : Fin 30000) (d : Fin 200) :
    broadcastInDim S32x30000x200 ![0, 1, 2] bcast_S1x30000x200_S32x30000x200_0_1_2
        (broadcastInDim S1x30000x200 ![1, 2] bcast_S30000x200_S1x30000x200_1_2 e2) (ix3 b e d)
      = e2 (ix2 e d) := by
  rw [broadcastInDim_apply ![0, 1, 2] bcast_S1x30000x200_S32x30000x200_0_1_2 _ (ix3 b e d) (ix3 (0 : Fin 1) e d)
        (by intro a; match a with | ⟨0, _⟩ => rfl | ⟨1, _⟩ => rfl | ⟨2, _⟩ => rfl),
      broadcastInDim_apply ![1, 2] bcast_S30000x200_S1x30000x200_1_2 _ (ix3 (0 : Fin 1) e d) (ix2 e d)
        (by intro a; match a with | ⟨0, _⟩ => rfl | ⟨1, _⟩ => rfl)]

/-- A 32 × 30000 × 200 array summed along its last axis by the host reads at (b, e) the zero word plus the sum over d. -/
theorem sumLast_apply (x : (⟨S32x30000x200, .f32⟩ : BufTy).Contents (Elt Ideal)) (b : Fin 32) (e : Fin 30000) :
    Host.reduceAdd (F := Ideal) x (constant (F := Ideal) S_ .f32 0x00000000#32) reducesTo_S32x30000x200_S32x30000_d2 h_S_ (ix2 b e)
      = Ideal.ofBits .f32 0x00000000#32 + ∑ d : Fin 200, x (ix3 b e d) := by
  rw [hostReduceAdd_apply, Ideal.hostReduceAdd_single reducesTo_S32x30000x200_S32x30000_d2 (by decide)]
  refine congrArg (_ + ·) (Finset.sum_congr rfl fun k _ => ?_)
  exact congrArg x (funext fun a => Fin.ext (by match a with | ⟨0, _⟩ => rfl | ⟨1, _⟩ => rfl | ⟨2, _⟩ => rfl))

/-- The L1 distances of the program (main_v122) at (b, e): the specification's L1 distance of query row b and entity row e. -/
theorem l1_apply (q : (⟨S32x200, .f32⟩ : BufTy).Contents (Elt Ideal)) (e2 : (⟨S30000x200, .f32⟩ : BufTy).Contents (Elt Ideal))
    (b : Fin 32) (e : Fin 30000) :
    Host.reduceAdd (F := Ideal)
        (Host.absf (F := Ideal)
          (subf
            (broadcastInDim S32x30000x200 ![0, 1, 2] bcast_S32x1x200_S32x30000x200_0_1_2
              (broadcastInDim S32x1x200 ![0, 2] bcast_S32x200_S32x1x200_0_2 q))
            (broadcastInDim S32x30000x200 ![0, 1, 2] bcast_S1x30000x200_S32x30000x200_0_1_2
              (broadcastInDim S1x30000x200 ![1, 2] bcast_S30000x200_S1x30000x200_1_2 e2))))
        (constant (F := Ideal) S_ .f32 0x00000000#32) reducesTo_S32x30000x200_S32x30000_d2 h_S_ (ix2 b e)
      = Cert.Spec.l1 (Cert.Spec.row q b) (Cert.Spec.row e2 e) := by
  rw [sumLast_apply, Ideal.ofBits_zero_f32, zero_add]
  unfold Cert.Spec.l1
  refine Finset.sum_congr rfl fun d _ => ?_
  show max (_ - _) (-(_ - _)) = max (q (ix2 b d) - e2 (ix2 e d)) (-(q (ix2 b d) - e2 (ix2 e d)))
  rw [spreadQ_apply, spreadE_apply]

/-- The prediction at (b, e) is the specification's score of query row b against entity row e: the logistic function
    of nine minus their L1 distance (the program's 1 / (1 + exp(-z)) is the logistic function, its ones being the word
    of 1). -/
theorem predOf_apply (q : (⟨S32x200, .f32⟩ : BufTy).Contents (Elt Ideal)) (e2 : (⟨S30000x200, .f32⟩ : BufTy).Contents (Elt Ideal))
    (b : Fin 32) (e : Fin 30000) :
    predOf (F := Ideal) q e2 (ix2 b e) = Cert.Spec.score (Cert.Spec.row q b) (Cert.Spec.row e2 e) := by
  unfold predOf
  rw [hostDivf_apply, addf_apply, hostExp_apply, hostNegf_apply, subf_apply, l1_apply,
    broadcastInDim_scalar_apply, constant_apply, broadcastInDim_scalar_apply, constant_apply, Ideal.ofBits_one_f32]
  rfl

/-! ## The blended entity table, entry by entry -/

/-- The gate's affine map over the whole tables at (e, n): row e of the embeddings times the transposed weights, plus
    row e of the contexts times the transposed weights, plus the bias at n — the specification's affine map with the
    weights read transposed. -/
theorem e2pre_apply (a3 : (⟨S30000x200, .f32⟩ : BufTy).Contents (Elt Ideal)) (a5 : (⟨S30000x50, .f32⟩ : BufTy).Contents (Elt Ideal))
    (a8 : (⟨S200x200, .f32⟩ : BufTy).Contents (Elt Ideal)) (a9 : (⟨S200x50, .f32⟩ : BufTy).Contents (Elt Ideal))
    (a10 : (⟨S200, .f32⟩ : BufTy).Contents (Elt Ideal)) (e : Fin 30000) (n : Fin 200) :
    addf
        (addf
          (Host.dotGeneral (F := Ideal) (φ₁ := .f32) (φ₂ := .f32) dot_S30000x200_S200x200_S30000x200_1_0_0_1_n_n none a3
            (transpose S200x200 [1, 0] a8 transposes_S200x200_S200x200_1_0))
          (Host.dotGeneral (F := Ideal) (φ₁ := .f32) (φ₂ := .f32) dot_S30000x50_S50x200_S30000x200_1_0_0_1_n_n none a5
            (transpose S50x200 [1, 0] a9 transposes_S200x50_S50x200_1_0)))
        (broadcastInDim S30000x200 ![0, 1] bcast_S1x200_S30000x200_0_1
          (broadcastInDim S1x200 ![1] bcast_S200_S1x200_1 a10)) (ix2 e n)
      = Cert.Spec.pre (Cert.Spec.row a3 e) (Cert.Spec.row a5 e) (fun k n => a8 (ix2 n k)) (fun k n => a9 (ix2 n k))
          (Cert.Spec.vec a10) n := by
  show (FloatOps.dotGeneral (F := Ideal) (φ₁ := .f32) (φ₂ := .f32) (DotDims.plain 30000 200 200) none .single a3 _ (ix2 e n)
        + FloatOps.dotGeneral (F := Ideal) (φ₁ := .f32) (φ₂ := .f32) (DotDims.plain 30000 50 200) none .single a5 _ (ix2 e n)) + _ = _
  rw [Ideal.dotGeneral_apply, Ideal.dotGeneral_apply, Cert.LibDense.plain_sum, Cert.LibDense.plain_sum,
    Cert.LibDense.bias_rows_host_ix]
  unfold Cert.Spec.pre
  refine congrArg (· + _) (congrArg₂ (· + ·) (Finset.sum_congr rfl fun k _ => ?_) (Finset.sum_congr rfl fun k _ => ?_))
  · exact congrArg (a3 (ix2 e k) * ·) (transpose_ix2_apply a8 _ k n)
  · exact congrArg (a5 (ix2 e k) * ·) (transpose_ix2_apply a9 _ k n)

/-- The gate over the whole tables at (e, n) is the specification's gate weight: the program's 1 / (1 + exp(-z)) is the
    logistic function, its ones being the word of 1. -/
theorem e2gate_apply (a3 : (⟨S30000x200, .f32⟩ : BufTy).Contents (Elt Ideal)) (a5 : (⟨S30000x50, .f32⟩ : BufTy).Contents (Elt Ideal))
    (a8 : (⟨S200x200, .f32⟩ : BufTy).Contents (Elt Ideal)) (a9 : (⟨S200x50, .f32⟩ : BufTy).Contents (Elt Ideal))
    (a10 : (⟨S200, .f32⟩ : BufTy).Contents (Elt Ideal)) (e : Fin 30000) (n : Fin 200) :
    e2gate (F := Ideal) a3 a5 a8 a9 a10 (ix2 e n)
      = Cert.Spec.gateW (Cert.Spec.row a3 e) (Cert.Spec.row a5 e) (fun k n => a8 (ix2 n k)) (fun k n => a9 (ix2 n k))
          (Cert.Spec.vec a10) n := by
  unfold e2gate one30000
  rw [hostDivf_apply, addf_apply, hostExp_apply, hostNegf_apply, e2pre_apply,
    broadcastInDim_scalar_apply, constant_apply, Ideal.ofBits_one_f32]
  rfl

/-- The two tables side by side, read in the first 200 columns: the embedding row. -/
theorem catRow_left (a3 : (⟨S30000x200, .f32⟩ : BufTy).Contents (Elt Ideal)) (a5 : (⟨S30000x50, .f32⟩ : BufTy).Contents (Elt Ideal))
    (e : Fin 30000) (k : Fin 200) :
    concatenate S30000x250 1 [⟨S30000x200, a3⟩, ⟨S30000x50, a5⟩] concatenates_S30000x200_S30000x50_S30000x250_d1
        (ix2 e (Fin.castAdd 50 k : Fin 250))
      = a3 (ix2 e k) :=
  concatenate_pair_apply_left 1 a3 a5 concatenates_S30000x200_S30000x50_S30000x250_d1 (ix2 e (Fin.castAdd 50 k : Fin 250)) rfl
    (ix2 e k) (by intro b; match b with | ⟨0, _⟩ => rfl | ⟨1, _⟩ => rfl)

/-- The two tables side by side, read in the last 50 columns: the context row. -/
theorem catRow_right (a3 : (⟨S30000x200, .f32⟩ : BufTy).Contents (Elt Ideal)) (a5 : (⟨S30000x50, .f32⟩ : BufTy).Contents (Elt Ideal))
    (e : Fin 30000) (k : Fin 50) :
    concatenate S30000x250 1 [⟨S30000x200, a3⟩, ⟨S30000x50, a5⟩] concatenates_S30000x200_S30000x50_S30000x250_d1
        (ix2 e (Fin.natAdd 200 k : Fin 250))
      = a5 (ix2 e k) :=
  concatenate_pair_apply_right 1 a3 a5 concatenates_S30000x200_S30000x50_S30000x250_d1 (ix2 e (Fin.natAdd 200 k : Fin 250)) rfl rfl
    (ix2 e k)
    (by intro b; match b with
      | ⟨0, _⟩ => exact fun _ => rfl
      | ⟨1, _⟩ => exact fun hne => absurd rfl hne)
    (by show k.val + 200 = 200 + k.val; exact Nat.add_comm _ _)

/-- The candidate over the whole tables at (e, n) is the specification's: the 250-long contraction of the joined row
    with the transposed weights is the contraction of the embedding row with the first 200 weight columns plus that
    of the context row with the last 50. -/
theorem e2cand_apply (a3 : (⟨S30000x200, .f32⟩ : BufTy).Contents (Elt Ideal)) (a5 : (⟨S30000x50, .f32⟩ : BufTy).Contents (Elt Ideal))
    (a6 : (⟨S200x250, .f32⟩ : BufTy).Contents (Elt Ideal)) (a7 : (⟨S200, .f32⟩ : BufTy).Contents (Elt Ideal))
    (e : Fin 30000) (n : Fin 200) :
    e2cand (F := Ideal) a3 a5 a6 a7 (ix2 e n)
      = Cert.Spec.gateT (Cert.Spec.row a3 e) (Cert.Spec.row a5 e)
          (fun k n => a6 (ix2 n (Fin.castAdd 50 k : Fin 250))) (fun k n => a6 (ix2 n (Fin.natAdd 200 k : Fin 250)))
          (Cert.Spec.vec a7) n := by
  unfold e2cand
  rw [hostTanh_apply, addf_apply]
  show Ideal.tanh (FloatOps.dotGeneral (F := Ideal) (φ₁ := .f32) (φ₂ := .f32) (DotDims.plain 30000 250 200) none .single _ _ (ix2 e n) + _) = _
  rw [Ideal.dotGeneral_apply, Cert.LibDense.plain_sum, Cert.LibDense.bias_rows_host_ix]
  unfold Cert.Spec.gateT Cert.Spec.pre
  refine congrArg Ideal.tanh (congrArg (· + _) ?_)
  refine (Fin.sum_univ_add (a := 200) (b := 50) _).trans ?_
  refine congrArg₂ (· + ·) (Finset.sum_congr rfl fun k _ => ?_) (Finset.sum_congr rfl fun k _ => ?_)
  · exact congrArg₂ (· * ·) (catRow_left a3 a5 e k) (transpose_ix2_apply a6 _ (Fin.castAdd 50 k : Fin 250) n)
  · exact congrArg₂ (· * ·) (catRow_right a3 a5 e k) (transpose_ix2_apply a6 _ (Fin.natAdd 200 k : Fin 250) n)

/-- The blended entity table at (e, n) is the specification's gated embedding of entity e at coordinate n, the weight
    matrices read transposed and the 250 columns of the candidate's weights read as 200 then 50. -/
theorem e2emb_apply (a3 : (⟨S30000x200, .f32⟩ : BufTy).Contents (Elt Ideal)) (a5 : (⟨S30000x50, .f32⟩ : BufTy).Contents (Elt Ideal))
    (a6 : (⟨S200x250, .f32⟩ : BufTy).Contents (Elt Ideal)) (a7 : (⟨S200, .f32⟩ : BufTy).Contents (Elt Ideal))
    (a8 : (⟨S200x200, .f32⟩ : BufTy).Contents (Elt Ideal)) (a9 : (⟨S200x50, .f32⟩ : BufTy).Contents (Elt Ideal))
    (a10 : (⟨S200, .f32⟩ : BufTy).Contents (Elt Ideal)) (e : Fin 30000) (n : Fin 200) :
    e2emb (F := Ideal) a3 a5 a6 a7 a8 a9 a10 (ix2 e n)
      = Cert.Spec.gate (Cert.Spec.row a3 e) (Cert.Spec.row a5 e)
          (fun k n => a6 (ix2 n (Fin.castAdd 50 k : Fin 250))) (fun k n => a6 (ix2 n (Fin.natAdd 200 k : Fin 250)))
          (Cert.Spec.vec a7) (fun k n => a8 (ix2 n k)) (fun k n => a9 (ix2 n k)) (Cert.Spec.vec a10) n := by
  unfold e2emb one30000
  rw [addf_apply, mulf_apply, mulf_apply, subf_apply, broadcastInDim_scalar_apply, constant_apply, e2gate_apply,
    e2cand_apply]
  rfl

end Cert.ReferenceIdeal.RefRun

end
-- ==== Proof.KV.PrefixIdx.lean ====
/-
  The arrays the region stages, read at one index: a padded table is its argument inside the argument's extent and the
  padding value outside, a transposed weight matrix is its argument with the coordinates exchanged.
-/
import proofs.«111044_j49203145342981_2_alg».proof.Proof.KV.Prefix
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.ValueIdx

/-! ## A matrix padded at the high end of one axis, read at an index -/

section PadRead
variable {α : Type}

/-- A matrix padded below its last row only reads, at a row of the operand, the operand. -/
theorem pad2_rows_lt {n k N : Nat} (hi : Fin 2 → Nat) (x : (⟨2, ![n, k]⟩ : Shape).Idx → α) {u : Shape} (v : u.Idx → α)
    (h : (⟨2, ![n, k]⟩ : Shape).Pads ![0, 0] hi ![0, 0] ⟨2, ![N, k]⟩) (hu : 0 < u.numel)
    (r : Fin N) (j : Fin k) (hr : r.val < n) :
    pad ⟨2, ![N, k]⟩ ![0, 0] hi ![0, 0] x v h hu (ix2 r j) = x (ix2 ⟨r.val, hr⟩ j) :=
  pad_apply_of_inside _ _ _ x v h hu _ _ fun a => match a with
    | ⟨0, _⟩ => by show r.val = 0 + r.val * (0 + 1); omega
    | ⟨1, _⟩ => by show j.val = 0 + j.val * (0 + 1); omega

/-- … and the padding value at a row past the operand's. -/
theorem pad2_rows_ge {n k N : Nat} (hi : Fin 2 → Nat) (x : (⟨2, ![n, k]⟩ : Shape).Idx → α) {u : Shape} (v : u.Idx → α)
    (h : (⟨2, ![n, k]⟩ : Shape).Pads ![0, 0] hi ![0, 0] ⟨2, ![N, k]⟩) (hu : 0 < u.numel)
    (r : Fin N) (j : Fin k) (hr : n ≤ r.val) :
    pad ⟨2, ![N, k]⟩ ![0, 0] hi ![0, 0] x v h hu (ix2 r j) = v (Shape.Idx.first hu) :=
  pad_apply_of_not_inside _ _ _ x v h hu _ (⟨0, by decide⟩ : Fin 2) fun hh => by
    have h2 : (r.val - 0) / (0 + 1) < n := hh.2.2
    omega

/-- A matrix padded after its last column only reads, at a column of the operand, the operand. -/
theorem pad2_cols_lt {b n N : Nat} (hi : Fin 2 → Nat) (x : (⟨2, ![b, n]⟩ : Shape).Idx → α) {u : Shape} (v : u.Idx → α)
    (h : (⟨2, ![b, n]⟩ : Shape).Pads ![0, 0] hi ![0, 0] ⟨2, ![b, N]⟩) (hu : 0 < u.numel)
    (i : Fin b) (e : Fin N) (he : e.val < n) :
    pad ⟨2, ![b, N]⟩ ![0, 0] hi ![0, 0] x v h hu (ix2 i e) = x (ix2 i ⟨e.val, he⟩) :=
  pad_apply_of_inside _ _ _ x v h hu _ _ fun a => match a with
    | ⟨0, _⟩ => by show i.val = 0 + i.val * (0 + 1); omega
    | ⟨1, _⟩ => by show e.val = 0 + e.val * (0 + 1); omega

/-- … and the padding value at a column past the operand's. -/
theorem pad2_cols_ge {b n N : Nat} (hi : Fin 2 → Nat) (x : (⟨2, ![b, n]⟩ : Shape).Idx → α) {u : Shape} (v : u.Idx → α)
    (h : (⟨2, ![b, n]⟩ : Shape).Pads ![0, 0] hi ![0, 0] ⟨2, ![b, N]⟩) (hu : 0 < u.numel)
    (i : Fin b) (e : Fin N) (he : n ≤ e.val) :
    pad ⟨2, ![b, N]⟩ ![0, 0] hi ![0, 0] x v h hu (ix2 i e) = v (Shape.Idx.first hu) :=
  pad_apply_of_not_inside _ _ _ x v h hu _ (⟨1, by decide⟩ : Fin 2) fun hh => by
    have h2 : (e.val - 0) / (0 + 1) < n := hh.2.2
    omega

end PadRead

variable {F : FTy → Type} [FloatOps F]
variable (m : (ℓ : Loc nD τ sig) → Buf (Elt F) ℓ)

/-! ## The padded tables at an index -/

/-- A row of the padded embedding table inside the table is the table's row. -/
theorem v48_lt (c : Dev nD) (r : Fin 30720) (k : Fin 200) (hr : r.val < 30000) :
    (Fr.V m c main_v48 : S30720x200.Idx → Elt F .f32) (ix2 r k) = (m ((c : Thread nD τ).loc main_arg3) : S30000x200.Idx → Elt F .f32) (ix2 ⟨r.val, hr⟩ k) := by
  rw [v48_eq]; exact pad2_rows_lt _ _ _ _ _ r k hr
/-- A row past the table is the padding value. -/
theorem v48_ge (c : Dev nD) (r : Fin 30720) (k : Fin 200) (hr : 30000 ≤ r.val) :
    (Fr.V m c main_v48 : S30720x200.Idx → Elt F .f32) (ix2 r k) = padZero := by
  rw [v48_eq]; exact pad2_rows_ge _ _ _ _ _ r k hr

/-- A row of the padded context table inside the table is the table's row. -/
theorem v49_lt (c : Dev nD) (r : Fin 30720) (k : Fin 50) (hr : r.val < 30000) :
    (Fr.V m c main_v49 : S30720x50.Idx → Elt F .f32) (ix2 r k) = (m ((c : Thread nD τ).loc main_arg5) : S30000x50.Idx → Elt F .f32) (ix2 ⟨r.val, hr⟩ k) := by
  rw [v49_eq]; exact pad2_rows_lt _ _ _ _ _ r k hr
/-- A row past the table is the padding value. -/
theorem v49_ge (c : Dev nD) (r : Fin 30720) (k : Fin 50) (hr : 30000 ≤ r.val) :
    (Fr.V m c main_v49 : S30720x50.Idx → Elt F .f32) (ix2 r k) = padZero := by
  rw [v49_eq]; exact pad2_rows_ge _ _ _ _ _ r k hr

/-- A column of the padded label mask inside the mask is the mask's column. -/
theorem v50_lt (c : Dev nD) (b : Fin 32) (e : Fin 30720) (he : e.val < 30000) :
    (Fr.V m c main_v50 : S32x30720.Idx → Elt F .i32) (ix2 b e) = (m ((c : Thread nD τ).loc main_arg2) : S32x30000.Idx → Elt F .i32) (ix2 b ⟨e.val, he⟩) := by
  rw [v50_eq]; exact pad2_cols_lt _ _ _ _ _ b e he
/-- A column past the mask is the word one. -/
theorem v50_ge (c : Dev nD) (b : Fin 32) (e : Fin 30720) (he : 30000 ≤ e.val) :
    (Fr.V m c main_v50 : S32x30720.Idx → Elt F .i32) (ix2 b e) = (1#32 : BitVec 32) := by
  rw [v50_eq]; exact pad2_cols_ge _ _ _ _ _ b e he

/-- A column of the padded positive weights inside them is their column. -/
theorem v51_lt (c : Dev nD) (b : Fin 32) (e : Fin 30720) (he : e.val < 30000) :
    (Fr.V m c main_v51 : S32x30720.Idx → Elt F .f32) (ix2 b e) = (m ((c : Thread nD τ).loc main_arg11) : S32x30000.Idx → Elt F .f32) (ix2 b ⟨e.val, he⟩) := by
  rw [v51_eq]; exact pad2_cols_lt _ _ _ _ _ b e he
/-- A column past them is the padding value. -/
theorem v51_ge (c : Dev nD) (b : Fin 32) (e : Fin 30720) (he : 30000 ≤ e.val) :
    (Fr.V m c main_v51 : S32x30720.Idx → Elt F .f32) (ix2 b e) = padZero := by
  rw [v51_eq]; exact pad2_cols_ge _ _ _ _ _ b e he

/-- A column of the padded keep mask inside it is its column. -/
theorem v52_lt (c : Dev nD) (b : Fin 32) (e : Fin 30720) (he : e.val < 30000) :
    (Fr.V m c main_v52 : S32x30720.Idx → Elt F .f32) (ix2 b e) = (m ((c : Thread nD τ).loc main_arg12) : S32x30000.Idx → Elt F .f32) (ix2 b ⟨e.val, he⟩) := by
  rw [v52_eq]; exact pad2_cols_lt _ _ _ _ _ b e he
/-- A column past it is the padding value. -/
theorem v52_ge (c : Dev nD) (b : Fin 32) (e : Fin 30720) (he : 30000 ≤ e.val) :
    (Fr.V m c main_v52 : S32x30720.Idx → Elt F .f32) (ix2 b e) = padZero := by
  rw [v52_eq]; exact pad2_cols_ge _ _ _ _ _ b e he

/-! ## The transposed weights at an index -/

/-- Entry (k, n) of the candidate's embedding weights is entry (n, k) of the weight matrix. -/
theorem v54_at (c : Dev nD) (k n : Fin 200) :
    (Fr.V m c main_v54 : S200x200.Idx → Elt F .f32) (ix2 k n)
      = (m ((c : Thread nD τ).loc main_arg6) : S200x250.Idx → Elt F .f32) (ix2 n (Fin.castAdd 50 k)) := by
  rw [v54_eq, transpose_ix2_apply]
  exact slice2_axis1_apply 0 _ _ n k (Fin.castAdd 50 k) (Nat.zero_add _).symm

/-- Entry (k, n) of the candidate's context weights is entry (n, 200 + k) of the weight matrix. -/
theorem v56_at (c : Dev nD) (k : Fin 50) (n : Fin 200) :
    (Fr.V m c main_v56 : S50x200.Idx → Elt F .f32) (ix2 k n)
      = (m ((c : Thread nD τ).loc main_arg6) : S200x250.Idx → Elt F .f32) (ix2 n (Fin.natAdd 200 k)) := by
  rw [v56_eq, transpose_ix2_apply]
  exact slice2_axis1_apply 200 _ _ n k (Fin.natAdd 200 k) rfl

/-- Entry (k, n) of the gate's embedding weights is entry (n, k) of their matrix. -/
theorem v57_at (c : Dev nD) (k n : Fin 200) :
    (Fr.V m c main_v57 : S200x200.Idx → Elt F .f32) (ix2 k n) = (m ((c : Thread nD τ).loc main_arg8) : S200x200.Idx → Elt F .f32) (ix2 n k) := by
  rw [v57_eq, transpose_ix2_apply]

/-- Entry (k, n) of the gate's context weights is entry (n, k) of their matrix. -/
theorem v58_at (c : Dev nD) (k : Fin 50) (n : Fin 200) :
    (Fr.V m c main_v58 : S50x200.Idx → Elt F .f32) (ix2 k n) = (m ((c : Thread nD τ).loc main_arg9) : S200x50.Idx → Elt F .f32) (ix2 n k) := by
  rw [v58_eq, transpose_ix2_apply]

/-- At the ideal reading the float pads fill with zero. -/
theorem padZero_ideal : (padZero : Elt Ideal .f32) = 0 := by
  show (((0#32 : BitVec 32).toInt : ℝ) : EReal) = 0
  simp

end Cert.KernelIdeal.Val
end
-- ==== Proof.KV.Blocks.lean ====
/-
  The region's windows over its grid of 2 × 15 points, point t = 15 · core + step. The two entity tables are cut into
  30 blocks of 1024 rows, the three per-query arrays and the prediction into 30 blocks of 1024 columns, block t at point
  t; the query arrays, the weights and the biases are one block each, the same at every point; each of the four
  partial-sum arrays has one slab per core. This module decides the block index of every window at every point, reads
  each input window's block as entries of the array the region finds, and says which entries of a result array a
  point's block covers.
-/
import proofs.«111044_j49203145342981_2_alg».proof.Proof.KI.Kit
import Idealize.ShloMosaic.Lib.Pipeline.Value
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-! ## The block index of each window at each point -/

/-- The grid has 30 points. -/
theorem t_lt (t : Fin cfg0.N) : t.val < 30 := lt_of_lt_of_eq t.isLt N_0

/-- Block `t` of 1024 rows or columns lies inside the padded extent 30720. -/
theorem blk_bound (t : Fin cfg0.N) (j : Fin 1024) : t.val * 1024 + j.val < 30720 := by
  have := t_lt t; have := j.isLt; omega

/-- The two tables cut by rows: block `t` starts at row `1024 t`. -/
theorem idx_rows : ∀ t : Fin cfg0.N, win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The arrays cut by columns: block `t` starts at column `1024 t`. -/
theorem idx_cols : ∀ t : Fin cfg0.N, win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_13.index t (0 : Fin 2) = 0 ∧ win0_13.index t (1 : Fin 2) = t.val :=
  (by decide +kernel : ∀ t : Fin grid0.N, _)

/-- The arrays staged whole: the one block, at every point. -/
theorem idx_fixed : ∀ t : Fin cfg0.N, win0_0.index t (0 : Fin 2) = 0 ∧ win0_0.index t (1 : Fin 2) = 0
    ∧ win0_1.index t (0 : Fin 2) = 0 ∧ win0_1.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_9.index t (0 : Fin 1) = 0 ∧ win0_12.index t (0 : Fin 1) = 0 :=
  (by decide +kernel : ∀ t : Fin grid0.N, _)

/-- The partial sums and counts: slab `t / 15`, the core's. -/
theorem idx_acc : ∀ t : Fin cfg0.N, win0_14.index t (0 : Fin 3) = t.val / 15 ∧ win0_14.index t (1 : Fin 3) = 0 ∧ win0_14.index t (2 : Fin 3) = 0
    ∧ win0_15.index t (0 : Fin 3) = t.val / 15 ∧ win0_15.index t (1 : Fin 3) = 0 ∧ win0_15.index t (2 : Fin 3) = 0
    ∧ win0_16.index t (0 : Fin 3) = t.val / 15 ∧ win0_16.index t (1 : Fin 3) = 0 ∧ win0_16.index t (2 : Fin 3) = 0
    ∧ win0_17.index t (0 : Fin 3) = t.val / 15 ∧ win0_17.index t (1 : Fin 3) = 0 ∧ win0_17.index t (2 : Fin 3) = 0 :=
  (by decide +kernel : ∀ t : Fin grid0.N, _)

/-! ## The tables' blocks of rows -/

/-- Row `j` of the embedding table's block `t` is row `1024 t + j` of the padded table. -/
theorem iblk2_at (c : Dev nD) (t : Fin cfg0.N) (j : Fin 1024) (k : Fin 200) (h : t.val * 1024 + j.val < 30720) :
    (Fr.iblk m c 2 t : Vec F S1024x200 .f32) (ix2 j k)
      = (Fr.V m c main_v48 : S30720x200.Idx → Elt F .f32) (ix2 ⟨t.val * 1024 + j.val, h⟩ k) := by
  unfold Fr.iblk
  rw [View.read_apply]
  show (Fr.V m c main_v48 : S30720x200.Idx → Elt F .f32) _ = _
  refine congrArg (Fr.V m c main_v48 : S30720x200.Idx → Elt F .f32) ?_
  funext a
  apply Fin.ext
  match a with
  | ⟨0, _⟩ => show win0_2.index t 0 * 1024 + 1 * j.val = t.val * 1024 + j.val; rw [(idx_rows t).1]; omega
  | ⟨1, _⟩ => show win0_2.index t 1 * 200 + 1 * k.val = k.val; rw [(idx_rows t).2.1]; omega

/-- Row `j` of the context table's block `t` is row `1024 t + j` of the padded table. -/
theorem iblk3_at (c : Dev nD) (t : Fin cfg0.N) (j : Fin 1024) (k : Fin 50) (h : t.val * 1024 + j.val < 30720) :
    (Fr.iblk m c 3 t : Vec F S1024x50 .f32) (ix2 j k)
      = (Fr.V m c main_v49 : S30720x50.Idx → Elt F .f32) (ix2 ⟨t.val * 1024 + j.val, h⟩ k) := by
  unfold Fr.iblk
  rw [View.read_apply]
  show (Fr.V m c main_v49 : S30720x50.Idx → Elt F .f32) _ = _
  refine congrArg (Fr.V m c main_v49 : S30720x50.Idx → Elt F .f32) ?_
  funext a
  apply Fin.ext
  match a with
  | ⟨0, _⟩ => show win0_3.index t 0 * 1024 + 1 * j.val = t.val * 1024 + j.val; rw [(idx_rows t).2.2.1]; omega
  | ⟨1, _⟩ => show win0_3.index t 1 * 50 + 1 * k.val = k.val; rw [(idx_rows t).2.2.2]; omega

/-! ## The per-query arrays' blocks of columns -/

/-- Column `j` of the label mask's block `t` is column `1024 t + j` of the padded mask. -/
theorem iblk4_at (c : Dev nD) (t : Fin cfg0.N) (b : Fin 32) (j : Fin 1024) (h : t.val * 1024 + j.val < 30720) :
    (Fr.iblk m c 4 t : Vec F S32x1024 .i32) (ix2 b j)
      = (Fr.V m c main_v50 : S32x30720.Idx → Elt F .i32) (ix2 b ⟨t.val * 1024 + j.val, h⟩) := by
  unfold Fr.iblk
  rw [View.read_apply]
  show (Fr.V m c main_v50 : S32x30720.Idx → Elt F .i32) _ = _
  refine congrArg (Fr.V m c main_v50 : S32x30720.Idx → Elt F .i32) ?_
  funext a
  apply Fin.ext
  match a with
  | ⟨0, _⟩ => show win0_4.index t 0 * 32 + 1 * b.val = b.val; rw [(idx_cols t).1]; omega
  | ⟨1, _⟩ => show win0_4.index t 1 * 1024 + 1 * j.val = t.val * 1024 + j.val; rw [(idx_cols t).2.1]; omega

/-- Column `j` of the positive weights' block `t` is column `1024 t + j` of the padded weights. -/
theorem iblk5_at (c : Dev nD) (t : Fin cfg0.N) (b : Fin 32) (j : Fin 1024) (h : t.val * 1024 + j.val < 30720) :
    (Fr.iblk m c 5 t : Vec F S32x1024 .f32) (ix2 b j)
      = (Fr.V m c main_v51 : S32x30720.Idx → Elt F .f32) (ix2 b ⟨t.val * 1024 + j.val, h⟩) := by
  unfold Fr.iblk
  rw [View.read_apply]
  show (Fr.V m c main_v51 : S32x30720.Idx → Elt F .f32) _ = _
  refine congrArg (Fr.V m c main_v51 : S32x30720.Idx → Elt F .f32) ?_
  funext a
  apply Fin.ext
  match a with
  | ⟨0, _⟩ => show win0_5.index t 0 * 32 + 1 * b.val = b.val; rw [(idx_cols t).2.2.1]; omega
  | ⟨1, _⟩ => show win0_5.index t 1 * 1024 + 1 * j.val = t.val * 1024 + j.val; rw [(idx_cols t).2.2.2.1]; omega

/-- Column `j` of the keep mask's block `t` is column `1024 t + j` of the padded mask. -/
theorem iblk6_at (c : Dev nD) (t : Fin cfg0.N) (b : Fin 32) (j : Fin 1024) (h : t.val * 1024 + j.val < 30720) :
    (Fr.iblk m c 6 t : Vec F S32x1024 .f32) (ix2 b j)
      = (Fr.V m c main_v52 : S32x30720.Idx → Elt F .f32) (ix2 b ⟨t.val * 1024 + j.val, h⟩) := by
  unfold Fr.iblk
  rw [View.read_apply]
  show (Fr.V m c main_v52 : S32x30720.Idx → Elt F .f32) _ = _
  refine congrArg (Fr.V m c main_v52 : S32x30720.Idx → Elt F .f32) ?_
  funext a
  apply Fin.ext
  match a with
  | ⟨0, _⟩ => show win0_6.index t 0 * 32 + 1 * b.val = b.val; rw [(idx_cols t).2.2.2.2.1]; omega
  | ⟨1, _⟩ => show win0_6.index t 1 * 1024 + 1 * j.val = t.val * 1024 + j.val; rw [(idx_cols t).2.2.2.2.2.1]; omega

/-! ## The arrays staged whole -/

/-- The query vector's block is the array. -/
theorem iblk0_eq (c : Dev nD) (t : Fin cfg0.N) :
    (Fr.iblk m c 0 t : Vec F S32x200 .f32) = (Fr.V m c main_v47 : S32x200.Idx → Elt F .f32) := by
  funext x
  unfold Fr.iblk
  rw [View.read_apply]
  show (Fr.V m c main_v47 : S32x200.Idx → Elt F .f32) _ = _
  refine congrArg (Fr.V m c main_v47 : S32x200.Idx → Elt F .f32) ?_
  funext a
  apply Fin.ext
  match a with
  | ⟨0, _⟩ => show win0_0.index t 0 * 32 + 1 * (x 0).val = (x 0).val; rw [(idx_fixed t).1]; omega
  | ⟨1, _⟩ => show win0_0.index t 1 * 200 + 1 * (x 1).val = (x 1).val; rw [(idx_fixed t).2.1]; omega

/-- The query embedding's block is the array. -/
theorem iblk1_eq (c : Dev nD) (t : Fin cfg0.N) :
    (Fr.iblk m c 1 t : Vec F S32x200 .f32) = (Fr.V m c main_v39 : S32x200.Idx → Elt F .f32) := by
  funext x
  unfold Fr.iblk
  rw [View.read_apply]
  show (Fr.V m c main_v39 : S32x200.Idx → Elt F .f32) _ = _
  refine congrArg (Fr.V m c main_v39 : S32x200.Idx → Elt F .f32) ?_
  funext a
  apply Fin.ext
  match a with
  | ⟨0, _⟩ => show win0_1.index t 0 * 32 + 1 * (x 0).val = (x 0).val; rw [(idx_fixed t).2.2.1]; omega
  | ⟨1, _⟩ => show win0_1.index t 1 * 200 + 1 * (x 1).val = (x 1).val; rw [(idx_fixed t).2.2.2.1]; omega

/-- The candidate's embedding weights' block is the array. -/
theorem iblk7_eq (c : Dev nD) (t : Fin cfg0.N) :
    (Fr.iblk m c 7 t : Vec F S200x200 .f32) = (Fr.V m c main_v54 : S200x200.Idx → Elt F .f32) := by
  funext x
  unfold Fr.iblk
  rw [View.read_apply]
  show (Fr.V m c main_v54 : S200x200.Idx → Elt F .f32) _ = _
  refine congrArg (Fr.V m c main_v54 : S200x200.Idx → Elt F .f32) ?_
  funext a
  apply Fin.ext
  match a with
  | ⟨0, _⟩ => show win0_7.index t 0 * 200 + 1 * (x 0).val = (x 0).val; rw [(idx_fixed t).2.2.2.2.1]; omega
  | ⟨1, _⟩ => show win0_7.index t 1 * 200 + 1 * (x 1).val = (x 1).val; rw [(idx_fixed t).2.2.2.2.2.1]; omega

/-- The candidate's context weights' block is the array. -/
theorem iblk8_eq (c : Dev nD) (t : Fin cfg0.N) :
    (Fr.iblk m c 8 t : Vec F S50x200 .f32) = (Fr.V m c main_v56 : S50x200.Idx → Elt F .f32) := by
  funext x
  unfold Fr.iblk
  rw [View.read_apply]
  show (Fr.V m c main_v56 : S50x200.Idx → Elt F .f32) _ = _
  refine congrArg (Fr.V m c main_v56 : S50x200.Idx → Elt F .f32) ?_
  funext a
  apply Fin.ext
  match a with
  | ⟨0, _⟩ => show win0_8.index t 0 * 50 + 1 * (x 0).val = (x 0).val; rw [(idx_fixed t).2.2.2.2.2.2.1]; omega
  | ⟨1, _⟩ => show win0_8.index t 1 * 200 + 1 * (x 1).val = (x 1).val; rw [(idx_fixed t).2.2.2.2.2.2.2.1]; omega

/-- The gate's embedding weights' block is the array. -/
theorem iblk10_eq (c : Dev nD) (t : Fin cfg0.N) :
    (Fr.iblk m c 10 t : Vec F S200x200 .f32) = (Fr.V m c main_v57 : S200x200.Idx → Elt F .f32) := by
  funext x
  unfold Fr.iblk
  rw [View.read_apply]
  show (Fr.V m c main_v57 : S200x200.Idx → Elt F .f32) _ = _
  refine congrArg (Fr.V m c main_v57 : S200x200.Idx → Elt F .f32) ?_
  funext a
  apply Fin.ext
  match a with
  | ⟨0, _⟩ => show win0_10.index t 0 * 200 + 1 * (x 0).val = (x 0).val; rw [(idx_fixed t).2.2.2.2.2.2.2.2.1]; omega
  | ⟨1, _⟩ => show win0_10.index t 1 * 200 + 1 * (x 1).val = (x 1).val; rw [(idx_fixed t).2.2.2.2.2.2.2.2.2.1]; omega

/-- The gate's context weights' block is the array. -/
theorem iblk11_eq (c : Dev nD) (t : Fin cfg0.N) :
    (Fr.iblk m c 11 t : Vec F S50x200 .f32) = (Fr.V m c main_v58 : S50x200.Idx → Elt F .f32) := by
  funext x
  unfold Fr.iblk
  rw [View.read_apply]
  show (Fr.V m c main_v58 : S50x200.Idx → Elt F .f32) _ = _
  refine congrArg (Fr.V m c main_v58 : S50x200.Idx → Elt F .f32) ?_
  funext a
  apply Fin.ext
  match a with
  | ⟨0, _⟩ => show win0_11.index t 0 * 50 + 1 * (x 0).val = (x 0).val; rw [(idx_fixed t).2.2.2.2.2.2.2.2.2.2.1]; omega
  | ⟨1, _⟩ => show win0_11.index t 1 * 200 + 1 * (x 1).val = (x 1).val; rw [(idx_fixed t).2.2.2.2.2.2.2.2.2.2.2.1]; omega

/-- The candidate's bias' block is the array. -/
theorem iblk9_eq (c : Dev nD) (t : Fin cfg0.N) :
    (Fr.iblk m c 9 t : Vec F S200 .f32) = (Fr.V m c main_arg7 : S200.Idx → Elt F .f32) := by
  funext x
  unfold Fr.iblk
  rw [View.read_apply]
  show (Fr.V m c main_arg7 : S200.Idx → Elt F .f32) _ = _
  refine congrArg (Fr.V m c main_arg7 : S200.Idx → Elt F .f32) ?_
  funext a
  apply Fin.ext
  match a with
  | ⟨0, _⟩ => show win0_9.index t 0 * 200 + 1 * (x 0).val = (x 0).val; rw [(idx_fixed t).2.2.2.2.2.2.2.2.2.2.2.2.1]; omega

/-- The gate's bias' block is the array. -/
theorem iblk12_eq (c : Dev nD) (t : Fin cfg0.N) :
    (Fr.iblk m c 12 t : Vec F S200 .f32) = (Fr.V m c main_arg10 : S200.Idx → Elt F .f32) := by
  funext x
  unfold Fr.iblk
  rw [View.read_apply]
  show (Fr.V m c main_arg10 : S200.Idx → Elt F .f32) _ = _
  refine congrArg (Fr.V m c main_arg10 : S200.Idx → Elt F .f32) ?_
  funext a
  apply Fin.ext
  match a with
  | ⟨0, _⟩ => show win0_12.index t 0 * 200 + 1 * (x 0).val = (x 0).val; rw [(idx_fixed t).2.2.2.2.2.2.2.2.2.2.2.2.2]; omega

/-! ## The entries a point's block covers, for the five result arrays -/

/-- An index of the prediction array is in point `t`'s block iff each coordinate is in the block's range on its axis. -/
theorem mem_blk13 (t : Fin cfg0.N) (i : S32x30720.Idx) :
    i ∈ ((cfg0.win 13).blk t).view.set ↔ ∀ a : Fin 2, win0_13.index t a * S32x1024.size a ≤ (i a).val
      ∧ (i a).val < win0_13.index t a * S32x1024.size a + S32x1024.size a := by
  show i ∈ ((View.whole main_v59_0).slice (win0_13.rect t)).set ↔ _
  rw [View.set_slice_whole, Rect.mem_set_unit]
  exact Iff.rfl

/-- An index of the positive sums' array is in point `t`'s block iff each coordinate is in the block's range on its axis. -/
theorem mem_blk14 (t : Fin cfg0.N) (i : S2x32x200.Idx) :
    i ∈ ((cfg0.win 14).blk t).view.set ↔ ∀ a : Fin 3, win0_14.index t a * S1x32x200.size a ≤ (i a).val
      ∧ (i a).val < win0_14.index t a * S1x32x200.size a + S1x32x200.size a := by
  show i ∈ ((View.whole main_v59_1).slice (win0_14.rect t)).set ↔ _
  rw [View.set_slice_whole, Rect.mem_set_unit]
  exact Iff.rfl

/-- An index of the positive counts' array is in point `t`'s block iff each coordinate is in the block's range on its axis. -/
theorem mem_blk15 (t : Fin cfg0.N) (i : S2x32x1.Idx) :
    i ∈ ((cfg0.win 15).blk t).view.set ↔ ∀ a : Fin 3, win0_15.index t a * S1x32x1.size a ≤ (i a).val
      ∧ (i a).val < win0_15.index t a * S1x32x1.size a + S1x32x1.size a := by
  show i ∈ ((View.whole main_v59_2).slice (win0_15.rect t)).set ↔ _
  rw [View.set_slice_whole, Rect.mem_set_unit]
  exact Iff.rfl

/-- An index of the negative sums' array is in point `t`'s block iff each coordinate is in the block's range on its axis. -/
theorem mem_blk16 (t : Fin cfg0.N) (i : S2x32x200.Idx) :
    i ∈ ((cfg0.win 16).blk t).view.set ↔ ∀ a : Fin 3, win0_16.index t a * S1x32x200.size a ≤ (i a).val
      ∧ (i a).val < win0_16.index t a * S1x32x200.size a + S1x32x200.size a := by
  show i ∈ ((View.whole main_v59_3).slice (win0_16.rect t)).set ↔ _
  rw [View.set_slice_whole, Rect.mem_set_unit]
  exact Iff.rfl

/-- An index of the negative counts' array is in point `t`'s block iff each coordinate is in the block's range on its axis. -/
theorem mem_blk17 (t : Fin cfg0.N) (i : S2x32x1.Idx) :
    i ∈ ((cfg0.win 17).blk t).view.set ↔ ∀ a : Fin 3, win0_17.index t a * S1x32x1.size a ≤ (i a).val
      ∧ (i a).val < win0_17.index t a * S1x32x1.size a + S1x32x1.size a := by
  show i ∈ ((View.whole main_v59_4).slice (win0_17.rect t)).set ↔ _
  rw [View.set_slice_whole, Rect.mem_set_unit]
  exact Iff.rfl

end Cert.KernelIdeal.Val
end
-- ==== Proof.KV.Sums.lean ====
/-
  Finite sums regrouped: the three rearrangements that join a sum over one long axis with sums over its pieces.
  In an additive commutative monoid (the extended reals are one) reordering and splitting a finite sum needs no
  finiteness of the summands.

  * a sum over 250 = 200 + 50 indices splits into the sum over the first 200 and the sum over the last 50;
  * a sum over 30720 = 2 * 15 * 1024 indices is the triple sum over (c, s, j) at index (c * 15 + s) * 1024 + j;
  * a sum over 30720 indices of a function that vanishes from index 30000 on is the sum over the first 30000.
  Last, the first rearrangement applied to the gate: one contraction of the concatenated row [x ; l] against a
  250-long weight column, plus the bias, is the affine map `pre` of the two separate contractions.
-/
import Idealize.ShloMosaic.PureOps.Ideal
import proofs.«111044_j49203145342981_2_alg».proof.Proof.KV.Spec

open scoped BigOperators

namespace Cert.Spec

variable {M : Type*} [AddCommMonoid M]

/-! ## Splitting an axis in two -/

/-- A sum over `m + n` indices is the sum over the first `m` plus the sum over the last `n`. -/
theorem sum_fin_add (m n : ℕ) (F : Fin (m + n) → M) :
    ∑ k : Fin (m + n), F k
      = ∑ k : Fin m, F ⟨k.val, Nat.lt_of_lt_of_le k.isLt (Nat.le_add_right m n)⟩
        + ∑ k : Fin n, F ⟨m + k.val, Nat.add_lt_add_left k.isLt m⟩ :=
  Fin.sum_univ_add F

/-- A sum over 250 indices is the sum over the first 200 plus the sum over the last 50. -/
theorem sum_fin250_split (F : Fin 250 → M) :
    ∑ k : Fin 250, F k
      = ∑ k : Fin 200, F ⟨k.val, Nat.lt_of_lt_of_le k.isLt (by decide)⟩
        + ∑ k : Fin 50, F ⟨200 + k.val, Nat.add_lt_add_left k.isLt 200⟩ :=
  sum_fin_add 200 50 F

/-- A function on 250 indices that is `f` on the first 200 and `g`, shifted, on the last 50 sums to the two sums. -/
theorem sum_fin250_piecewise (F : Fin 250 → M) (f : Fin 200 → M) (g : Fin 50 → M)
    (hf : ∀ (k : Fin 200) (h : k.val < 250), F ⟨k.val, h⟩ = f k)
    (hg : ∀ (k : Fin 50) (h : 200 + k.val < 250), F ⟨200 + k.val, h⟩ = g k) :
    ∑ k : Fin 250, F k = ∑ k : Fin 200, f k + ∑ k : Fin 50, g k := by
  rw [sum_fin250_split F]
  exact congrArg₂ (· + ·) (Finset.sum_congr rfl fun k _ => hf k _) (Finset.sum_congr rfl fun k _ => hg k _)

/-! ## An axis as a product of two -/

/-- A sum over `m * n` indices is the double sum over (a, b) at index `a * n + b`. -/
theorem sum_fin_mul (m n : ℕ) (G : Fin (m * n) → M) :
    ∑ i : Fin (m * n), G i
      = ∑ a : Fin m, ∑ b : Fin n, G ⟨a.val * n + b.val, by
          have h := (finProdFinEquiv (a, b)).isLt
          have e : (finProdFinEquiv (a, b)).val = b.val + n * a.val := rfl
          rw [e] at h
          rw [Nat.mul_comm a.val n, Nat.add_comm]
          exact h⟩ := by
  rw [← Equiv.sum_comp (finProdFinEquiv (m := m) (n := n)) G, Fintype.sum_prod_type]
  refine Finset.sum_congr rfl fun a _ => Finset.sum_congr rfl fun b _ => congrArg G (Fin.ext ?_)
  show b.val + n * a.val = a.val * n + b.val
  rw [Nat.mul_comm a.val n, Nat.add_comm]

/-- A sum over 30720 indices is the triple sum over (c, s, j), c < 2, s < 15, j < 1024, at index (c * 15 + s) * 1024 + j. -/
theorem sum_fin30720_grid (F : Fin 30720 → M) :
    ∑ i : Fin 30720, F i
      = ∑ c : Fin 2, ∑ s : Fin 15, ∑ j : Fin 1024,
          F ⟨(c.val * 15 + s.val) * 1024 + j.val, by have := c.isLt; have := s.isLt; have := j.isLt; omega⟩ := by
  have h1 : ∑ i : Fin 30720, F i
      = ∑ t : Fin 30, ∑ j : Fin 1024, F ⟨t.val * 1024 + j.val, by have := t.isLt; have := j.isLt; omega⟩ :=
    sum_fin_mul 30 1024 F
  have h2 : ∀ H : Fin 30 → M, ∑ t : Fin 30, H t
      = ∑ c : Fin 2, ∑ s : Fin 15, H ⟨c.val * 15 + s.val, by have := c.isLt; have := s.isLt; omega⟩ :=
    fun H => sum_fin_mul 2 15 H
  rw [h1, h2]

/-! ## Dropping a tail of zeros -/

/-- A sum over 30720 indices of a function that vanishes from index 30000 on is the sum over the first 30000. -/
theorem sum_fin30720_trunc (F : Fin 30720 → M) (hz : ∀ i : Fin 30720, 30000 ≤ i.val → F i = 0) :
    ∑ i : Fin 30720, F i = ∑ i : Fin 30000, F ⟨i.val, Nat.lt_of_lt_of_le i.isLt (by decide)⟩ := by
  have hz' : ∑ k : Fin 720, F ⟨30000 + k.val, Nat.add_lt_add_left k.isLt 30000⟩ = 0 :=
    Finset.sum_eq_zero fun k _ =>
      hz ⟨30000 + k.val, Nat.add_lt_add_left k.isLt 30000⟩ (Nat.le_add_right 30000 k.val)
  exact (sum_fin_add 30000 720 F).trans ((congrArg (_ + ·) hz').trans (add_zero _))

/-! ## One contraction over the concatenated row is the two contractions added -/

/-- If `c` is the row `x` followed by the row `l`, and `w` is column `n` of `wE` followed by column `n` of `wL`,
    then the 250-long contraction of `c` with `w`, plus the bias, is the affine map of the gate at `n`. -/
theorem pre_of_concat (x : Fin 200 → EReal) (l : Fin 50 → EReal) (wE : Fin 200 → Fin 200 → EReal)
    (wL : Fin 50 → Fin 200 → EReal) (b : Fin 200 → EReal) (n : Fin 200) (c w : Fin 250 → EReal)
    (hcx : ∀ (k : Fin 200) (h : k.val < 250), c ⟨k.val, h⟩ = x k)
    (hcl : ∀ (k : Fin 50) (h : 200 + k.val < 250), c ⟨200 + k.val, h⟩ = l k)
    (hwx : ∀ (k : Fin 200) (h : k.val < 250), w ⟨k.val, h⟩ = wE k n)
    (hwl : ∀ (k : Fin 50) (h : 200 + k.val < 250), w ⟨200 + k.val, h⟩ = wL k n) :
    (∑ k : Fin 250, c k * w k) + b n = pre x l wE wL b n := by
  unfold pre
  rw [sum_fin250_piecewise (fun k => c k * w k) (fun k => x k * wE k n) (fun k => l k * wL k n)
    (fun k h => by rw [hcx k h, hwx k h]) (fun k h => by rw [hcl k h, hwl k h])]

end Cert.Spec
-- ==== Proof.KV.BridgeSums.lean ====
/-
  The sums of the two sides joined: the kernel's two cores each sum fifteen tiles of 1024 padded entities, the
  reference sums the 30000 entities once.

  A term indexed by (core, tile, lane) that is a function F of the padded entity index (c * 15 + s) * 1024 + j,
  where F vanishes on the padding (indices from 30000 on) and agrees with F' on the entities, sums to the sum of
  F' over the entities.  The padded weights do vanish: a padded label is the word 1 and a padded probability or
  drop mask is 0, so label * prob, 1 - label and ((1 - label) * drop) * 2 are all 0 there.
-/
import Idealize.ShloMosaic.PureOps.IdealRules
import Idealize.ShloMosaic.PureOps.Ideal.Laws
import proofs.«111044_j49203145342981_2_alg».proof.Proof.KV.Spec
import proofs.«111044_j49203145342981_2_alg».proof.Proof.KV.Sums

open scoped BigOperators

namespace Cert.Spec

open Idealize.ShloMosaic

/-! ## The fold over cores, tiles and lanes -/

/-- A triple-indexed term that is `F` at the padded index, `F` zero on the padding and `F'` on the entities:
    the triple sum is the sum of `F'`.  The bound proofs are quantified, so the hypotheses fire on whatever proof
    of the bound a term carries. -/
theorem fold_grid (T : Fin 2 → Fin 15 → Fin 1024 → EReal) (F : Fin 30720 → EReal) (F' : Fin 30000 → EReal)
    (hT : ∀ (k : Fin 2) (s : Fin 15) (j : Fin 1024) (h : (k.val * 15 + s.val) * 1024 + j.val < 30720),
      T k s j = F ⟨(k.val * 15 + s.val) * 1024 + j.val, h⟩)
    (hF : ∀ (i : Fin 30720) (h : i.val < 30000), F i = F' ⟨i.val, h⟩)
    (hz : ∀ i : Fin 30720, 30000 ≤ i.val → F i = 0) :
    ∑ k : Fin 2, ∑ s : Fin 15, ∑ j : Fin 1024, T k s j = ∑ e : Fin 30000, F' e := by
  have h1 : ∑ k : Fin 2, ∑ s : Fin 15, ∑ j : Fin 1024, T k s j = ∑ i : Fin 30720, F i := by
    rw [sum_fin30720_grid F]
    exact Finset.sum_congr rfl fun k _ => Finset.sum_congr rfl fun s _ => Finset.sum_congr rfl fun j _ => hT k s j _
  rw [h1, sum_fin30720_trunc F hz]
  exact Finset.sum_congr rfl fun i _ => hF _ i.isLt

/-- The weighted fold: weights `w` (zero on the padding) times rows `E`. -/
theorem fold_weighted (w E : Fin 30720 → EReal) (w' E' : Fin 30000 → EReal)
    (hw : ∀ (i : Fin 30720) (h : i.val < 30000), w i = w' ⟨i.val, h⟩)
    (hE : ∀ (i : Fin 30720) (h : i.val < 30000), E i = E' ⟨i.val, h⟩)
    (hz : ∀ i : Fin 30720, 30000 ≤ i.val → w i = 0) :
    (∑ k : Fin 2, ∑ s : Fin 15, ∑ j : Fin 1024,
        w ⟨(k.val * 15 + s.val) * 1024 + j.val, by have := k.isLt; have := s.isLt; have := j.isLt; omega⟩
          * E ⟨(k.val * 15 + s.val) * 1024 + j.val, by have := k.isLt; have := s.isLt; have := j.isLt; omega⟩)
      = ∑ e : Fin 30000, w' e * E' e :=
  fold_grid _ (fun i => w i * E i) (fun e => w' e * E' e) (fun _ _ _ _ => rfl)
    (fun i h => by rw [hw i h, hE i h]) (fun i h => by rw [hz i h, zero_mul])

/-- The weighted fold for a term given by name: `T k s j` is `w * E` at the padded index, under any bound proof. -/
theorem fold_weighted_of (T : Fin 2 → Fin 15 → Fin 1024 → EReal) (w E : Fin 30720 → EReal) (w' E' : Fin 30000 → EReal)
    (hT : ∀ (k : Fin 2) (s : Fin 15) (j : Fin 1024) (h : (k.val * 15 + s.val) * 1024 + j.val < 30720),
      T k s j = w ⟨(k.val * 15 + s.val) * 1024 + j.val, h⟩ * E ⟨(k.val * 15 + s.val) * 1024 + j.val, h⟩)
    (hw : ∀ (i : Fin 30720) (h : i.val < 30000), w i = w' ⟨i.val, h⟩)
    (hE : ∀ (i : Fin 30720) (h : i.val < 30000), E i = E' ⟨i.val, h⟩)
    (hz : ∀ i : Fin 30720, 30000 ≤ i.val → w i = 0) :
    ∑ k : Fin 2, ∑ s : Fin 15, ∑ j : Fin 1024, T k s j = ∑ e : Fin 30000, w' e * E' e :=
  fold_grid T (fun i => w i * E i) (fun e => w' e * E' e) hT
    (fun i h => by rw [hw i h, hE i h]) (fun i h => by rw [hz i h, zero_mul])

/-- The plain fold: weights `w` (zero on the padding) alone. -/
theorem fold_plain (w : Fin 30720 → EReal) (w' : Fin 30000 → EReal)
    (hw : ∀ (i : Fin 30720) (h : i.val < 30000), w i = w' ⟨i.val, h⟩)
    (hz : ∀ i : Fin 30720, 30000 ≤ i.val → w i = 0) :
    (∑ k : Fin 2, ∑ s : Fin 15, ∑ j : Fin 1024,
        w ⟨(k.val * 15 + s.val) * 1024 + j.val, by have := k.isLt; have := s.isLt; have := j.isLt; omega⟩)
      = ∑ e : Fin 30000, w' e :=
  fold_grid _ w w' (fun _ _ _ _ => rfl) hw hz

/-- The plain fold for a term given by name. -/
theorem fold_plain_of (T : Fin 2 → Fin 15 → Fin 1024 → EReal) (w : Fin 30720 → EReal) (w' : Fin 30000 → EReal)
    (hT : ∀ (k : Fin 2) (s : Fin 15) (j : Fin 1024) (h : (k.val * 15 + s.val) * 1024 + j.val < 30720),
      T k s j = w ⟨(k.val * 15 + s.val) * 1024 + j.val, h⟩)
    (hw : ∀ (i : Fin 30720) (h : i.val < 30000), w i = w' ⟨i.val, h⟩)
    (hz : ∀ i : Fin 30720, 30000 ≤ i.val → w i = 0) :
    ∑ k : Fin 2, ∑ s : Fin 15, ∑ j : Fin 1024, T k s j = ∑ e : Fin 30000, w' e :=
  fold_grid T w w' hT hw hz

/-- The two cores' partial results added are the sum over the cores. -/
theorem two_cores (f : Fin 2 → EReal) : f 0 + f 1 = ∑ k : Fin 2, f k := (Fin.sum_univ_two f).symm

/-! ## The literals and the padded weights -/

/-- The f32 word of 0.0 is the extended real 0. -/
theorem zeroWord : (Ideal.ofBits .f32 0x00000000#32 : EReal) = 0 := Ideal.ofBits_zero_f32

/-- The f32 word of 1.0 is the extended real 1. -/
theorem one_eq : one = 1 := IdealRules.sign_bit.ideal_onePat .f32

/-- The label word 1 reads as the extended real 1. -/
theorem lab_one : lab (1#32) = 1 := by
  have h : (1#32 : BitVec 32).toInt = 1 := by decide
  unfold lab
  rw [h, Int.cast_one, EReal.coe_one]

/-- The label word 0 reads as the extended real 0. -/
theorem lab_zero : lab (0#32) = 0 := by
  have h : (0#32 : BitVec 32).toInt = 0 := by decide
  unfold lab
  rw [h, Int.cast_zero, EReal.coe_zero]

/-- On the padding (label 1, probability 0) the positive weight is 0. -/
theorem posW_pad : posW (1#32) (0 : EReal) = 0 := mul_zero _

/-- On the padding (label 1) the negative count's summand is 0. -/
theorem negC_pad : negC (1#32) = 0 := by
  unfold negC
  rw [one_eq, lab_one, ← EReal.coe_one, ← EReal.coe_sub, sub_self, EReal.coe_zero]

/-- On the padding (label 1, drop mask 0) the negative weight is 0. -/
theorem negW_pad : negW (1#32) (0 : EReal) = 0 := by
  unfold negW
  rw [mul_zero, zero_mul]

end Cert.Spec
-- ==== Proof.KV.BridgeArgs.lean ====
/-
  From a grid point's blocks to the argument arrays, at the ideal values.

  A point's input blocks are pieces of the arrays the region is handed: the two entity tables and the three
  per-query arrays padded to 30720 entities, block t holding entities 1024 t … 1024 t + 1023; the weights cut and
  transposed; the two biases as passed.  So row j of point t's gated tile is the gate of padded entity 1024 t + j,
  and, for an entity below 30000, the gate of that entity's rows of the two tables under the weights read
  transposed from the arguments.  The masked sums over the two cores' fifteen tiles then fold to sums over the
  30000 entities: the padded weights are zero (a padded label is the word one, a padded probability or mask is 0).
-/
import proofs.«111044_j49203145342981_2_alg».proof.Proof.KV.Accum
import proofs.«111044_j49203145342981_2_alg».proof.Proof.KV.PrefixIdx
import proofs.«111044_j49203145342981_2_alg».proof.Proof.KV.Blocks
import proofs.«111044_j49203145342981_2_alg».proof.Proof.KV.BridgeSums

set_option maxRecDepth 16384

noncomputable section

open scoped BigOperators

namespace Cert.Bridge

open Cert.KernelIdeal Cert.KernelIdeal.Gen Cert.KernelIdeal.Val Cert.Spec
open Idealize.ShloMosaic Idealize.ShloMosaic.TcCoe Idealize.ShloMosaic.ValueIdx
open Idealize.SL Idealize.SL.Sem

variable (m : (ℓ : Loc nD τ sig) → Buf (Elt Ideal) ℓ)

/-! ## The gate of an entity, over the argument arrays and over the padded arrays -/

/-- The gate of entity `e` at feature `n`, over the argument arrays: rows `e` of the embedding table and of the
    literal table, the candidate's weights the two column ranges of its matrix read transposed, the gate's weights
    its two matrices read transposed, the two biases. -/
def argGate (c : Dev nD) (e : Fin 30000) (n : Fin 200) : EReal :=
  gate (row (m ((c : Thread nD τ).loc main_arg3) : S30000x200.Idx → EReal) e)
    (row (m ((c : Thread nD τ).loc main_arg5) : S30000x50.Idx → EReal) e)
    (fun k n => (m ((c : Thread nD τ).loc main_arg6) : S200x250.Idx → EReal) (ix2 n (Fin.castAdd 50 k : Fin 250)))
    (fun k n => (m ((c : Thread nD τ).loc main_arg6) : S200x250.Idx → EReal) (ix2 n (Fin.natAdd 200 k : Fin 250)))
    (vec (m ((c : Thread nD τ).loc main_arg7) : S200.Idx → EReal))
    (fun k n => (m ((c : Thread nD τ).loc main_arg8) : S200x200.Idx → EReal) (ix2 n k))
    (fun k n => (m ((c : Thread nD τ).loc main_arg9) : S200x50.Idx → EReal) (ix2 n k))
    (vec (m ((c : Thread nD τ).loc main_arg10) : S200.Idx → EReal)) n

/-- The gate of padded entity `i` at feature `n`, over the arrays the region is handed. -/
def padGate (c : Dev nD) (i : Fin 30720) (n : Fin 200) : EReal :=
  gate (row (Fr.V m c main_v48 : S30720x200.Idx → EReal) i) (row (Fr.V m c main_v49 : S30720x50.Idx → EReal) i)
    (mat (Fr.V m c main_v54 : S200x200.Idx → EReal)) (mat (Fr.V m c main_v56 : S50x200.Idx → EReal))
    (vec (Fr.V m c main_arg7 : S200.Idx → EReal))
    (mat (Fr.V m c main_v57 : S200x200.Idx → EReal)) (mat (Fr.V m c main_v58 : S50x200.Idx → EReal))
    (vec (Fr.V m c main_arg10 : S200.Idx → EReal)) n

/-- The gate depends on its eight families only. -/
theorem gate_congr {x x' : Fin 200 → EReal} {l l' : Fin 50 → EReal} {wE wE' : Fin 200 → Fin 200 → EReal}
    {wL wL' : Fin 50 → Fin 200 → EReal} {bg bg' : Fin 200 → EReal} {w1 w1' : Fin 200 → Fin 200 → EReal}
    {w2 w2' : Fin 50 → Fin 200 → EReal} {gb gb' : Fin 200 → EReal} (hx : x = x') (hl : l = l') (hE : wE = wE')
    (hL : wL = wL') (hbg : bg = bg') (h1 : w1 = w1') (h2 : w2 = w2') (hgb : gb = gb') (n : Fin 200) :
    gate x l wE wL bg w1 w2 gb n = gate x' l' wE' wL' bg' w1' w2' gb' n := by
  subst hx hl hE hL hbg h1 h2 hgb
  rfl

/-- Row `j` of point `t`'s gated tile is the gate of padded entity `1024 t + j`. -/
theorem erow_pad (c : Dev nD) (t : Fin cfg0.N) (j : Fin 1024) (h : t.val * 1024 + j.val < 30720) (n : Fin 200) :
    erow m c t j n = padGate m c ⟨t.val * 1024 + j.val, h⟩ n := by
  unfold erow padGate
  exact gate_congr (funext fun k => iblk2_at m c t j k h) (funext fun k => iblk3_at m c t j k h)
    (congrArg mat (iblk7_eq m c t)) (congrArg mat (iblk8_eq m c t)) (congrArg vec (iblk9_eq m c t))
    (congrArg mat (iblk10_eq m c t)) (congrArg mat (iblk11_eq m c t)) (congrArg vec (iblk12_eq m c t)) n

/-- The gate of a padded entity below 30000 is the gate of that entity over the argument arrays. -/
theorem padGate_arg (c : Dev nD) (i : Fin 30720) (h : i.val < 30000) (n : Fin 200) :
    padGate m c i n = argGate m c ⟨i.val, h⟩ n := by
  unfold padGate argGate
  exact gate_congr (funext fun k => v48_lt m c i k h) (funext fun k => v49_lt m c i k h)
    (funext fun k => funext fun n => v54_at m c k n) (funext fun k => funext fun n => v56_at m c k n)
    (congrArg vec (Fr.V_early m c main_arg7 (by decide)))
    (funext fun k => funext fun n => v57_at m c k n) (funext fun k => funext fun n => v58_at m c k n)
    (congrArg vec (Fr.V_early m c main_arg10 (by decide))) n

/-- Row `j` of point `t`'s gated tile, for an entity `1024 t + j` below 30000, over the argument arrays. -/
theorem erow_arg (c : Dev nD) (t : Fin cfg0.N) (j : Fin 1024) (h : t.val * 1024 + j.val < 30000) (n : Fin 200) :
    erow m c t j n = argGate m c ⟨t.val * 1024 + j.val, h⟩ n :=
  (erow_pad m c t j (Nat.lt_trans h (by decide)) n).trans (padGate_arg m c ⟨t.val * 1024 + j.val, _⟩ h n)

/-! ## The prediction of a query against an entity -/

/-- (P), at a point: query row `b` of the point's query block against row `j` of its gated tile, for an entity
    `1024 t + j` below 30000, is the score of the query vector's row `b` against the entity's gate. -/
theorem pred_core (c : Dev nD) (t : Fin cfg0.N) (j : Fin 1024) (h : t.val * 1024 + j.val < 30000) (b : Fin 32) :
    score (row (bk0 m c t) b) (fun n => erow m c t j n)
      = score (row (qK (m ((c : Thread nD τ).loc main_arg0)) (m ((c : Thread nD τ).loc main_arg1))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) : S32x200.Idx → EReal) b)
          (fun n => argGate m c ⟨t.val * 1024 + j.val, h⟩ n) := by
  have e0 : (bk0 m c t : S32x200.Idx → EReal) = _ := (iblk0_eq m c t).trans (v47_eq m c)
  exact congrArg₂ score (congrArg (fun v : S32x200.Idx → EReal => row v b) e0) (funext fun n => erow_arg m c t j h n)

/-! ## The four masked sums folded over the cores, the tiles and the lanes -/

/-- The positive sums: a term that at (core k, tile s) is point `15 k + s`'s contribution sums to the sum over
    the 30000 entities of label * prob times the entity's gate. -/
theorem pos_fold (c : Dev nD) (b : Fin 32) (d : Fin 200) (T : Fin 2 → Fin 15 → EReal)
    (hT : ∀ (k : Fin 2) (s : Fin 15) (h : k.val * 15 + s.val < cfg0.N), T k s = cPos m c ⟨k.val * 15 + s.val, h⟩ b d) :
    ∑ k : Fin 2, ∑ s : Fin 15, T k s
      = ∑ e : Fin 30000, posW ((m ((c : Thread nD τ).loc main_arg2) : S32x30000.Idx → BitVec 32) (ix2 b e))
          ((m ((c : Thread nD τ).loc main_arg11) : S32x30000.Idx → EReal) (ix2 b e)) * argGate m c e d := by
  have hN : ∀ (k : Fin 2) (s : Fin 15), k.val * 15 + s.val < cfg0.N := fun k s => by
    have := N_0; have := k.isLt; have := s.isLt; show k.val * 15 + s.val < grid0.N; omega
  rw [Finset.sum_congr rfl fun k _ => Finset.sum_congr rfl fun s _ => hT k s (hN k s)]
  unfold cPos
  exact fold_weighted_of _
    (fun i => posW ((Fr.V m c main_v50 : S32x30720.Idx → BitVec 32) (ix2 b i)) ((Fr.V m c main_v51 : S32x30720.Idx → EReal) (ix2 b i)))
    (fun i => padGate m c i d) _ _
    (fun k s j h => congrArg₂ (· * ·) (congrArg₂ posW (iblk4_at m c ⟨k.val * 15 + s.val, hN k s⟩ b j h)
      (iblk5_at m c ⟨k.val * 15 + s.val, hN k s⟩ b j h)) (erow_pad m c ⟨k.val * 15 + s.val, hN k s⟩ j h d))
    (fun i h => congrArg₂ posW (v50_lt m c b i h) (v51_lt m c b i h))
    (fun i h => padGate_arg m c i h d)
    (fun i h => by
      show posW ((Fr.V m c main_v50 : S32x30720.Idx → BitVec 32) (ix2 b i)) ((Fr.V m c main_v51 : S32x30720.Idx → EReal) (ix2 b i)) = 0
      rw [v50_ge m c b i h, v51_ge m c b i h, padZero_ideal]
      exact posW_pad)

/-- The negative sums likewise, with (1 - label) * drop * 2. -/
theorem neg_fold (c : Dev nD) (b : Fin 32) (d : Fin 200) (T : Fin 2 → Fin 15 → EReal)
    (hT : ∀ (k : Fin 2) (s : Fin 15) (h : k.val * 15 + s.val < cfg0.N), T k s = cNeg m c ⟨k.val * 15 + s.val, h⟩ b d) :
    ∑ k : Fin 2, ∑ s : Fin 15, T k s
      = ∑ e : Fin 30000, negW ((m ((c : Thread nD τ).loc main_arg2) : S32x30000.Idx → BitVec 32) (ix2 b e))
          ((m ((c : Thread nD τ).loc main_arg12) : S32x30000.Idx → EReal) (ix2 b e)) * argGate m c e d := by
  have hN : ∀ (k : Fin 2) (s : Fin 15), k.val * 15 + s.val < cfg0.N := fun k s => by
    have := N_0; have := k.isLt; have := s.isLt; show k.val * 15 + s.val < grid0.N; omega
  rw [Finset.sum_congr rfl fun k _ => Finset.sum_congr rfl fun s _ => hT k s (hN k s)]
  unfold cNeg
  exact fold_weighted_of _
    (fun i => negW ((Fr.V m c main_v50 : S32x30720.Idx → BitVec 32) (ix2 b i)) ((Fr.V m c main_v52 : S32x30720.Idx → EReal) (ix2 b i)))
    (fun i => padGate m c i d) _ _
    (fun k s j h => congrArg₂ (· * ·) (congrArg₂ negW (iblk4_at m c ⟨k.val * 15 + s.val, hN k s⟩ b j h)
      (iblk6_at m c ⟨k.val * 15 + s.val, hN k s⟩ b j h)) (erow_pad m c ⟨k.val * 15 + s.val, hN k s⟩ j h d))
    (fun i h => congrArg₂ negW (v50_lt m c b i h) (v52_lt m c b i h))
    (fun i h => padGate_arg m c i h d)
    (fun i h => by
      show negW ((Fr.V m c main_v50 : S32x30720.Idx → BitVec 32) (ix2 b i)) ((Fr.V m c main_v52 : S32x30720.Idx → EReal) (ix2 b i)) = 0
      rw [v50_ge m c b i h, v52_ge m c b i h, padZero_ideal]
      exact negW_pad)

/-- The positive counts: the sum over the 30000 entities of label * prob. -/
theorem posC_fold (c : Dev nD) (b : Fin 32) (T : Fin 2 → Fin 15 → EReal)
    (hT : ∀ (k : Fin 2) (s : Fin 15) (h : k.val * 15 + s.val < cfg0.N), T k s = cPosC m c ⟨k.val * 15 + s.val, h⟩ b) :
    ∑ k : Fin 2, ∑ s : Fin 15, T k s
      = ∑ e : Fin 30000, posW ((m ((c : Thread nD τ).loc main_arg2) : S32x30000.Idx → BitVec 32) (ix2 b e))
          ((m ((c : Thread nD τ).loc main_arg11) : S32x30000.Idx → EReal) (ix2 b e)) := by
  have hN : ∀ (k : Fin 2) (s : Fin 15), k.val * 15 + s.val < cfg0.N := fun k s => by
    have := N_0; have := k.isLt; have := s.isLt; show k.val * 15 + s.val < grid0.N; omega
  rw [Finset.sum_congr rfl fun k _ => Finset.sum_congr rfl fun s _ => hT k s (hN k s)]
  unfold cPosC
  exact fold_plain_of _
    (fun i => posW ((Fr.V m c main_v50 : S32x30720.Idx → BitVec 32) (ix2 b i)) ((Fr.V m c main_v51 : S32x30720.Idx → EReal) (ix2 b i))) _
    (fun k s j h => congrArg₂ posW (iblk4_at m c ⟨k.val * 15 + s.val, hN k s⟩ b j h)
      (iblk5_at m c ⟨k.val * 15 + s.val, hN k s⟩ b j h))
    (fun i h => congrArg₂ posW (v50_lt m c b i h) (v51_lt m c b i h))
    (fun i h => by
      show posW ((Fr.V m c main_v50 : S32x30720.Idx → BitVec 32) (ix2 b i)) ((Fr.V m c main_v51 : S32x30720.Idx → EReal) (ix2 b i)) = 0
      rw [v50_ge m c b i h, v51_ge m c b i h, padZero_ideal]
      exact posW_pad)

/-- The negative counts: the sum over the 30000 entities of 1 - label. -/
theorem negC_fold (c : Dev nD) (b : Fin 32) (T : Fin 2 → Fin 15 → EReal)
    (hT : ∀ (k : Fin 2) (s : Fin 15) (h : k.val * 15 + s.val < cfg0.N), T k s = cNegC m c ⟨k.val * 15 + s.val, h⟩ b) :
    ∑ k : Fin 2, ∑ s : Fin 15, T k s
      = ∑ e : Fin 30000, negC ((m ((c : Thread nD τ).loc main_arg2) : S32x30000.Idx → BitVec 32) (ix2 b e)) := by
  have hN : ∀ (k : Fin 2) (s : Fin 15), k.val * 15 + s.val < cfg0.N := fun k s => by
    have := N_0; have := k.isLt; have := s.isLt; show k.val * 15 + s.val < grid0.N; omega
  rw [Finset.sum_congr rfl fun k _ => Finset.sum_congr rfl fun s _ => hT k s (hN k s)]
  unfold cNegC
  exact fold_plain_of _
    (fun i => negC ((Fr.V m c main_v50 : S32x30720.Idx → BitVec 32) (ix2 b i))) _
    (fun k s j h => congrArg negC (iblk4_at m c ⟨k.val * 15 + s.val, hN k s⟩ b j h))
    (fun i h => congrArg negC (v50_lt m c b i h))
    (fun i h => by
      show negC ((Fr.V m c main_v50 : S32x30720.Idx → BitVec 32) (ix2 b i)) = 0
      rw [v50_ge m c b i h]
      exact negC_pad)

end Cert.Bridge

end
-- ==== Proof.KV.BridgeFinal.lean ====
/-
  The five result arrays of the grid over the argument arrays, at the ideal values: the two cores' partial sums
  added are sums over the 30000 entities, and the prediction array at an entity below 30000 is the score of the
  query vector against the entity's gate.
-/
import proofs.«111044_j49203145342981_2_alg».proof.Proof.KV.Arrays
import proofs.«111044_j49203145342981_2_alg».proof.Proof.KV.BridgeArgs

set_option maxRecDepth 16384

noncomputable section

open scoped BigOperators

namespace Cert.Bridge

open Cert.KernelIdeal Cert.KernelIdeal.Gen Cert.KernelIdeal.Val Cert.Spec
open Idealize.ShloMosaic Idealize.ShloMosaic.TcCoe Idealize.ShloMosaic.ValueIdx
open Idealize.SL Idealize.SL.Sem

variable (m : (ℓ : Loc nD τ sig) → Buf (Elt Ideal) ℓ)

/-- The two cores' positive sums added: the sum over the entities of label * prob times the entity's gate. -/
theorem pos_arg (c : Dev nD) (b : Fin 32) (d : Fin 200) :
    sumPos m c 0 b d + sumPos m c 1 b d
      = ∑ e : Fin 30000, posW ((m ((c : Thread nD τ).loc main_arg2) : S32x30000.Idx → BitVec 32) (ix2 b e))
          ((m ((c : Thread nD τ).loc main_arg11) : S32x30000.Idx → EReal) (ix2 b e)) * argGate m c e d :=
  (two_cores (fun k => sumPos m c k b d)).trans (pos_fold m c b d _ (fun _ _ _ => rfl))

/-- The two cores' positive counts added: the sum over the entities of label * prob. -/
theorem posC_arg (c : Dev nD) (b : Fin 32) :
    sumPosC m c 0 b + sumPosC m c 1 b
      = ∑ e : Fin 30000, posW ((m ((c : Thread nD τ).loc main_arg2) : S32x30000.Idx → BitVec 32) (ix2 b e))
          ((m ((c : Thread nD τ).loc main_arg11) : S32x30000.Idx → EReal) (ix2 b e)) :=
  (two_cores (fun k => sumPosC m c k b)).trans (posC_fold m c b _ (fun _ _ _ => rfl))

/-- The two cores' negative sums added: the sum over the entities of (1 - label) * drop * 2 times the entity's gate. -/
theorem neg_arg (c : Dev nD) (b : Fin 32) (d : Fin 200) :
    sumNeg m c 0 b d + sumNeg m c 1 b d
      = ∑ e : Fin 30000, negW ((m ((c : Thread nD τ).loc main_arg2) : S32x30000.Idx → BitVec 32) (ix2 b e))
          ((m ((c : Thread nD τ).loc main_arg12) : S32x30000.Idx → EReal) (ix2 b e)) * argGate m c e d :=
  (two_cores (fun k => sumNeg m c k b d)).trans (neg_fold m c b d _ (fun _ _ _ => rfl))

/-- The two cores' negative counts added: the sum over the entities of 1 - label. -/
theorem negC_arg (c : Dev nD) (b : Fin 32) :
    sumNegC m c 0 b + sumNegC m c 1 b
      = ∑ e : Fin 30000, negC ((m ((c : Thread nD τ).loc main_arg2) : S32x30000.Idx → BitVec 32) (ix2 b e)) :=
  (two_cores (fun k => sumNegC m c k b)).trans (negC_fold m c b _ (fun _ _ _ => rfl))

/-- The prediction array at query `b` and an entity `e` below 30000: the score of the query vector's row `b`
    against the entity's gate. -/
theorem pred_arg (c : Dev nD) (b : Fin 32) (e : Fin 30000) :
    predArr m c b ⟨e.val, Nat.lt_trans e.isLt (by decide)⟩
      = score (row (qK (m ((c : Thread nD τ).loc main_arg0)) (m ((c : Thread nD τ).loc main_arg1))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) : S32x200.Idx → EReal) b)
          (fun n => argGate m c e n) := by
  have hN : cfg0.N = 30 := N_0
  have he := e.isLt
  have h : e.val / 1024 * 1024 + e.val % 1024 < 30000 := by omega
  have ee : (⟨e.val / 1024 * 1024 + e.val % 1024, h⟩ : Fin 30000) = e :=
    Fin.ext (by show e.val / 1024 * 1024 + e.val % 1024 = e.val; omega)
  unfold predArr predPt
  refine (pred_core m c ⟨e.val / 1024, by omega⟩ ⟨e.val % 1024, Nat.mod_lt _ (by decide)⟩ h b).trans ?_
  exact congrArg (fun x : Fin 30000 => score _ (fun n => argGate m c x n)) ee

end Cert.Bridge

end
-- ==== Proof.KV.BridgePred.lean ====
/- The prediction, from the kernel program's run to the reference's stages. The kernel program's first result at query b
   and entity e is the region's prediction array there; that array holds, at (b, e), the score of the query vector's row
   b against the gated embedding of entity e over the argument arrays; the query vector is the same function of the
   arguments on both sides; and the reference's prediction at (b, e) is the score of its query vector's row b against
   row e of its blended entity table, whose entries are that gated embedding. -/
import proofs.«111044_j49203145342981_2_alg».proof.Proof.RefIdx
import proofs.«111044_j49203145342981_2_alg».proof.Proof.StagesEq
import proofs.«111044_j49203145342981_2_alg».proof.Proof.KV.BridgeFinal

set_option maxRecDepth 16384

noncomputable section

namespace Cert.Bridge

open Cert.KernelIdeal Cert.KernelIdeal.Gen Cert.KernelIdeal.Val Cert.Spec
open Idealize.ShloMosaic Idealize.ShloMosaic.TcCoe Idealize.ShloMosaic.ValueIdx
open Idealize.SL Idealize.SL.Sem

variable (m : (ℓ : Loc nD τ sig) → Buf (Elt Ideal) ℓ)

/-- The kernel program's first result is the reference's prediction stage at the argument arrays. At query b and
    entity e: the result is the region's prediction array there; the array holds the score of the query vector's row b
    against entity e's gated embedding over the arguments; the query vector is the reference's; and the reference's
    prediction there is the score of its query vector's row b against row e of its blended entity table, which is that
    gated embedding coordinate by coordinate. -/
theorem pred_eq (c : Dev nD) :
    (Pipeline.afterTail₀ cfgs (Fr.dats m) 0 (Fr.V0 m) [hostOps1, hostOps1_1, hostOps1_2] c main_v60 : S32x30000.Idx → EReal)
      = Cert.ReferenceIdeal.RefRun.predOf (F := Ideal)
          (Cert.ReferenceIdeal.RefRun.qvec
            (Cert.ReferenceIdeal.RefRun.e1emb (m ((c : Thread nD τ).loc main_arg0)) (m ((c : Thread nD τ).loc main_arg3))
              (m ((c : Thread nD τ).loc main_arg5)) (m ((c : Thread nD τ).loc main_arg6)) (m ((c : Thread nD τ).loc main_arg7))
              (m ((c : Thread nD τ).loc main_arg8)) (m ((c : Thread nD τ).loc main_arg9)) (m ((c : Thread nD τ).loc main_arg10)))
            (Cert.ReferenceIdeal.RefRun.relemb (m ((c : Thread nD τ).loc main_arg1)) (m ((c : Thread nD τ).loc main_arg4))))
          (Cert.ReferenceIdeal.RefRun.e2emb (m ((c : Thread nD τ).loc main_arg3)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10))) := by
  funext y
  obtain ⟨b, e, rfl⟩ : ∃ (b : Fin 32) (e : Fin 30000), y = ix2 b e := ⟨y 0, y 1, eq_ix2 y⟩
  refine (v60_at m (Fr.dats m) c b e).trans ?_
  refine (congrFun (final13 m c) _).trans ?_
  refine (pred_arg m c b e).trans ?_
  refine Eq.trans ?_ (Cert.ReferenceIdeal.RefRun.predOf_apply _ _ b e).symm
  refine congrArg₂ score (congrArg (fun q => row q b) (q_eq _ _ _ _ _ _ _ _ _ _)) (funext fun n => ?_)
  exact (Cert.ReferenceIdeal.RefRun.e2emb_apply _ _ _ _ _ _ _ e n).symm

end Cert.Bridge

end
-- ==== Proof.KV.BridgeQuot.lean ====
/-
  The two masked averages on both sides. On the kernel's side an average is the two cores' partial sums added, divided
  by the two cores' partial counts added; on the reference's side it is a product of the weighted mask with the gated
  entity table, divided by the mask's row sums. Entry by entry both are the same quotient of two sums over the 30000
  entities, once the cores' partial sums are known to add up to those sums.
-/
import proofs.«111044_j49203145342981_2_alg».proof.Proof.RefIdx
import proofs.«111044_j49203145342981_2_alg».proof.Proof.KV.Tail
import proofs.«111044_j49203145342981_2_alg».proof.Proof.KV.BridgeSums

set_option maxRecDepth 16384

noncomputable section

open scoped BigOperators

namespace Cert.Bridge

open Cert.Spec
open Idealize.ShloMosaic Idealize.ShloMosaic.ValueIdx
open Cert.KernelIdeal (S2x32x200 S2x32x1 S32x30000 S30000x200 S30000x50 S200x250 S200 S200x200 S200x50 S32x200)

/-- The first masked average: if the two cores' partial sums at (b, d) add up to the sum over the entities of the
    positive weight times the entity's gated embedding, and their partial counts at b to the sum of the positive
    weights, then the kernel's quotient is the reference's. -/
theorem quot_pos (S : (⟨S2x32x200, .f32⟩ : BufTy).Contents (Elt Ideal)) (C : (⟨S2x32x1, .f32⟩ : BufTy).Contents (Elt Ideal))
    (a2 : (⟨S32x30000, .i32⟩ : BufTy).Contents (Elt Ideal)) (a11 : (⟨S32x30000, .f32⟩ : BufTy).Contents (Elt Ideal))
    (a3 : (⟨S30000x200, .f32⟩ : BufTy).Contents (Elt Ideal)) (a5 : (⟨S30000x50, .f32⟩ : BufTy).Contents (Elt Ideal)) (a6 : (⟨S200x250, .f32⟩ : BufTy).Contents (Elt Ideal))
    (a7 : (⟨S200, .f32⟩ : BufTy).Contents (Elt Ideal)) (a8 : (⟨S200x200, .f32⟩ : BufTy).Contents (Elt Ideal)) (a9 : (⟨S200x50, .f32⟩ : BufTy).Contents (Elt Ideal)) (a10 : (⟨S200, .f32⟩ : BufTy).Contents (Elt Ideal))
    (hS : ∀ (b : Fin 32) (d : Fin 200), S (ix3 (0 : Fin 2) b d) + S (ix3 (1 : Fin 2) b d)
        = ∑ e : Fin 30000, posW (a2 (ix2 b e)) (a11 (ix2 b e)) * gate (row a3 e) (row a5 e)
            (fun k n => a6 (ix2 n (Fin.castAdd 50 k : Fin 250))) (fun k n => a6 (ix2 n (Fin.natAdd 200 k : Fin 250)))
            (vec a7) (fun k n => a8 (ix2 n k)) (fun k n => a9 (ix2 n k)) (vec a10) d)
    (hC : ∀ b : Fin 32, C (ix3 (0 : Fin 2) b (0 : Fin 1)) + C (ix3 (1 : Fin 2) b (0 : Fin 1))
        = ∑ e : Fin 30000, posW (a2 (ix2 b e)) (a11 (ix2 b e))) :
    Cert.KernelIdeal.Val.quotK S C
      = Host.divf (F := Ideal) (φ := .f32)
          (Cert.ReferenceIdeal.RefRun.posNum (Cert.ReferenceIdeal.RefRun.e2p a2 a11) (Cert.ReferenceIdeal.RefRun.e2emb a3 a5 a6 a7 a8 a9 a10))
          (Cert.ReferenceIdeal.RefRun.posDen (Cert.ReferenceIdeal.RefRun.e2p a2 a11)) := by
  funext y
  obtain ⟨b, d, rfl⟩ : ∃ (b : Fin 32) (d : Fin 200), y = ix2 b d := ⟨y 0, y 1, eq_ix2 y⟩
  rw [Cert.KernelIdeal.Val.quotK_apply_ideal, hS b d, hC b, hostDivf_apply, Cert.ReferenceIdeal.RefRun.posNum_apply,
    Cert.ReferenceIdeal.RefRun.posDen_apply, zeroWord, zero_add]
  refine congrArg₂ Ideal.div (Finset.sum_congr rfl fun e _ => ?_) (Finset.sum_congr rfl fun e _ => ?_)
  · rw [Cert.ReferenceIdeal.RefRun.e2p_apply, Cert.ReferenceIdeal.RefRun.e2emb_apply]
  · rw [Cert.ReferenceIdeal.RefRun.e2p_apply]

/-- The second masked average likewise, with the negative weights and the complement's counts. -/
theorem quot_neg (S : (⟨S2x32x200, .f32⟩ : BufTy).Contents (Elt Ideal)) (C : (⟨S2x32x1, .f32⟩ : BufTy).Contents (Elt Ideal))
    (a2 : (⟨S32x30000, .i32⟩ : BufTy).Contents (Elt Ideal)) (a12 : (⟨S32x30000, .f32⟩ : BufTy).Contents (Elt Ideal))
    (a3 : (⟨S30000x200, .f32⟩ : BufTy).Contents (Elt Ideal)) (a5 : (⟨S30000x50, .f32⟩ : BufTy).Contents (Elt Ideal)) (a6 : (⟨S200x250, .f32⟩ : BufTy).Contents (Elt Ideal))
    (a7 : (⟨S200, .f32⟩ : BufTy).Contents (Elt Ideal)) (a8 : (⟨S200x200, .f32⟩ : BufTy).Contents (Elt Ideal)) (a9 : (⟨S200x50, .f32⟩ : BufTy).Contents (Elt Ideal)) (a10 : (⟨S200, .f32⟩ : BufTy).Contents (Elt Ideal))
    (hS : ∀ (b : Fin 32) (d : Fin 200), S (ix3 (0 : Fin 2) b d) + S (ix3 (1 : Fin 2) b d)
        = ∑ e : Fin 30000, negW (a2 (ix2 b e)) (a12 (ix2 b e)) * gate (row a3 e) (row a5 e)
            (fun k n => a6 (ix2 n (Fin.castAdd 50 k : Fin 250))) (fun k n => a6 (ix2 n (Fin.natAdd 200 k : Fin 250)))
            (vec a7) (fun k n => a8 (ix2 n k)) (fun k n => a9 (ix2 n k)) (vec a10) d)
    (hC : ∀ b : Fin 32, C (ix3 (0 : Fin 2) b (0 : Fin 1)) + C (ix3 (1 : Fin 2) b (0 : Fin 1))
        = ∑ e : Fin 30000, negC (a2 (ix2 b e))) :
    Cert.KernelIdeal.Val.quotK S C
      = Host.divf (F := Ideal) (φ := .f32)
          (Cert.ReferenceIdeal.RefRun.negNum (Cert.ReferenceIdeal.RefRun.invDrop (Cert.ReferenceIdeal.RefRun.invm a2) a12) (Cert.ReferenceIdeal.RefRun.e2emb a3 a5 a6 a7 a8 a9 a10))
          (Cert.ReferenceIdeal.RefRun.negDen (Cert.ReferenceIdeal.RefRun.invm a2)) := by
  funext y
  obtain ⟨b, d, rfl⟩ : ∃ (b : Fin 32) (d : Fin 200), y = ix2 b d := ⟨y 0, y 1, eq_ix2 y⟩
  rw [Cert.KernelIdeal.Val.quotK_apply_ideal, hS b d, hC b, hostDivf_apply, Cert.ReferenceIdeal.RefRun.negNum_apply,
    Cert.ReferenceIdeal.RefRun.negDen_apply, zeroWord, zero_add]
  refine congrArg₂ Ideal.div (Finset.sum_congr rfl fun e _ => ?_) (Finset.sum_congr rfl fun e _ => ?_)
  · rw [Cert.ReferenceIdeal.RefRun.invDrop_invm_apply, Cert.ReferenceIdeal.RefRun.e2emb_apply]
  · rw [Cert.ReferenceIdeal.RefRun.invm_apply]

end Cert.Bridge
end
-- ==== Proof.KV.BridgeLoss.lean ====
/-
  The kernel's two masked averages, read off the region's four partial-sum arrays at exit, are the reference's two
  quotients of the argument arrays: the arrays hold the cores' partial sums, which add up to the sums over the 30000
  entities, and entry by entry the two sides are then the same quotient.
-/
import proofs.«111044_j49203145342981_2_alg».proof.Proof.KV.BridgeQuot
import proofs.«111044_j49203145342981_2_alg».proof.Proof.KV.BridgeFinal

set_option maxRecDepth 16384

noncomputable section

open scoped BigOperators

namespace Cert.Bridge

open Cert.KernelIdeal Cert.KernelIdeal.Gen Cert.KernelIdeal.Val Cert.Spec
open Idealize.ShloMosaic Idealize.ShloMosaic.TcCoe Idealize.ShloMosaic.ValueIdx
open Idealize.SL Idealize.SL.Sem

variable (m : (ℓ : Loc nD τ sig) → Buf (Elt Ideal) ℓ)

/-- The first masked average at the region's exit is the reference's first quotient of the arguments. -/
theorem posRaw_eq (c : Dev nD) :
    quotK ((Fr.dats m 0 c).arrAt 14 cfg0.N) ((Fr.dats m 0 c).arrAt 15 cfg0.N)
      = Host.divf (F := Ideal) (φ := .f32)
          (Cert.ReferenceIdeal.RefRun.posNum (Cert.ReferenceIdeal.RefRun.e2p (m ((c : Thread nD τ).loc main_arg2)) (m ((c : Thread nD τ).loc main_arg11)))
            (Cert.ReferenceIdeal.RefRun.e2emb (m ((c : Thread nD τ).loc main_arg3)) (m ((c : Thread nD τ).loc main_arg5)) (m ((c : Thread nD τ).loc main_arg6)) (m ((c : Thread nD τ).loc main_arg7))
              (m ((c : Thread nD τ).loc main_arg8)) (m ((c : Thread nD τ).loc main_arg9)) (m ((c : Thread nD τ).loc main_arg10))))
          (Cert.ReferenceIdeal.RefRun.posDen (Cert.ReferenceIdeal.RefRun.e2p (m ((c : Thread nD τ).loc main_arg2)) (m ((c : Thread nD τ).loc main_arg11)))) := by
  rw [final14, final15]
  exact quot_pos _ _ _ _ _ _ _ _ _ _ _ (fun b d => pos_arg m c b d) (fun b => posC_arg m c b)

/-- The second masked average at the region's exit is the reference's second quotient of the arguments. -/
theorem negRaw_eq (c : Dev nD) :
    quotK ((Fr.dats m 0 c).arrAt 16 cfg0.N) ((Fr.dats m 0 c).arrAt 17 cfg0.N)
      = Host.divf (F := Ideal) (φ := .f32)
          (Cert.ReferenceIdeal.RefRun.negNum
            (Cert.ReferenceIdeal.RefRun.invDrop (Cert.ReferenceIdeal.RefRun.invm (m ((c : Thread nD τ).loc main_arg2))) (m ((c : Thread nD τ).loc main_arg12)))
            (Cert.ReferenceIdeal.RefRun.e2emb (m ((c : Thread nD τ).loc main_arg3)) (m ((c : Thread nD τ).loc main_arg5)) (m ((c : Thread nD τ).loc main_arg6)) (m ((c : Thread nD τ).loc main_arg7))
              (m ((c : Thread nD τ).loc main_arg8)) (m ((c : Thread nD τ).loc main_arg9)) (m ((c : Thread nD τ).loc main_arg10))))
          (Cert.ReferenceIdeal.RefRun.negDen (Cert.ReferenceIdeal.RefRun.invm (m ((c : Thread nD τ).loc main_arg2)))) := by
  rw [final16, final17]
  exact quot_neg _ _ _ _ _ _ _ _ _ _ _ (fun b d => neg_arg m c b d) (fun b => negC_arg m c b)

end Cert.Bridge
end
-- ==== Proof.Final.lean ====
/-
  The two idealized programs end with equal results. The kernel's program ends with its two results at what the host
  lines after the region make of the region's exit arrays; the reference ends at its operations' composed term of the
  arguments. Index by index the prediction is one score of one gated row on both sides; the loss is one shared tail of
  two quotients whose numerators and denominators are the same sums over the 30000 entities, the kernel's being
  gathered core by core and tile by tile over a zero-weighted padding. From memories that agree on the arguments both
  runs therefore end at the same pair.
-/
import proofs.«111044_j49203145342981_2_alg».proof.Defs
import proofs.«111044_j49203145342981_2_alg».proof.Proof.KI.Frame
import proofs.«111044_j49203145342981_2_alg».proof.Proof.RefStages
import proofs.«111044_j49203145342981_2_alg».proof.Proof.StagesEq
import proofs.«111044_j49203145342981_2_alg».proof.Proof.KV.Tail
import proofs.«111044_j49203145342981_2_alg».proof.Proof.KV.Prefix
import proofs.«111044_j49203145342981_2_alg».proof.Proof.KV.Arrays
import proofs.«111044_j49203145342981_2_alg».proof.Proof.KV.BridgePred
import proofs.«111044_j49203145342981_2_alg».proof.Proof.KV.BridgeLoss

set_option maxRecDepth 16384

noncomputable section

namespace Cert.Bridge

open Idealize.ShloMosaic Idealize.ShloMosaic.TcCoe Idealize.ShloMosaic.ValueIdx
open Idealize.SL Idealize.SL.Sem
open Idealize.ShloMosaic.Pipeline (Dat)

variable (m : (ℓ : Loc Cert.KernelIdeal.nD Cert.KernelIdeal.τ Cert.KernelIdeal.sig) → Buf (Elt Ideal) ℓ)

/-- The loss as the kernel's program ends with it is the reference's tail of the reference's two quotients. -/
theorem loss_eq (c : Dev Cert.KernelIdeal.nD) :
    (Pipeline.afterTail₀ Cert.KernelIdeal.cfgs (Cert.KernelIdeal.Fr.dats m) 0 (Cert.KernelIdeal.Fr.V0 m) [Cert.KernelIdeal.Gen.hostOps1, Cert.KernelIdeal.Gen.hostOps1_1, Cert.KernelIdeal.Gen.hostOps1_2] c Cert.KernelIdeal.main_v109) = Cert.ReferenceIdeal.RefRun.lossTail (F := Ideal)
      (Host.divf (F := Ideal) (φ := .f32) (Cert.ReferenceIdeal.RefRun.posNum (Cert.ReferenceIdeal.RefRun.e2p (m ((c.tc : Thread Cert.KernelIdeal.nD Cert.KernelIdeal.τ).loc Cert.KernelIdeal.main_arg2)) (m ((c.tc : Thread Cert.KernelIdeal.nD Cert.KernelIdeal.τ).loc Cert.KernelIdeal.main_arg11))) (Cert.ReferenceIdeal.RefRun.e2emb (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))) (Cert.ReferenceIdeal.RefRun.posDen (Cert.ReferenceIdeal.RefRun.e2p (m ((c.tc : Thread Cert.KernelIdeal.nD Cert.KernelIdeal.τ).loc Cert.KernelIdeal.main_arg2)) (m ((c.tc : Thread Cert.KernelIdeal.nD Cert.KernelIdeal.τ).loc Cert.KernelIdeal.main_arg11)))))
      (Host.divf (F := Ideal) (φ := .f32) (Cert.ReferenceIdeal.RefRun.negNum (Cert.ReferenceIdeal.RefRun.invDrop (Cert.ReferenceIdeal.RefRun.invm (m ((c.tc : Thread Cert.KernelIdeal.nD Cert.KernelIdeal.τ).loc Cert.KernelIdeal.main_arg2))) (m ((c.tc : Thread Cert.KernelIdeal.nD Cert.KernelIdeal.τ).loc Cert.KernelIdeal.main_arg12))) (Cert.ReferenceIdeal.RefRun.e2emb (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))) (Cert.ReferenceIdeal.RefRun.negDen (Cert.ReferenceIdeal.RefRun.invm (m ((c.tc : Thread Cert.KernelIdeal.nD Cert.KernelIdeal.τ).loc Cert.KernelIdeal.main_arg2)))))
      (Cert.ReferenceIdeal.RefRun.e1emb (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (Cert.ReferenceIdeal.RefRun.qvec (Cert.ReferenceIdeal.RefRun.e1emb (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (Cert.ReferenceIdeal.RefRun.relemb (m ((c.tc : Thread Cert.KernelIdeal.nD Cert.KernelIdeal.τ).loc Cert.KernelIdeal.main_arg1)) (m ((c.tc : Thread Cert.KernelIdeal.nD Cert.KernelIdeal.τ).loc Cert.KernelIdeal.main_arg4)))) := by
  rw [Cert.KernelIdeal.Val.v109_eq m (Cert.KernelIdeal.Fr.dats m) c, posRaw_eq m c, negRaw_eq m c, lossTail_eq]
  have h1 : (Cert.KernelIdeal.Fr.dats m 0 c).arrAt 1 Cert.KernelIdeal.cfg0.N = (Cert.ReferenceIdeal.RefRun.e1emb (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) := by
    rw [(Cert.KernelIdeal.Fr.dats m 0 c).arrAt_in 1 rfl _, Cert.KernelIdeal.Fr.A_eq m c 1]
    exact (Cert.KernelIdeal.Val.v39_eq m c).trans (e1emb_eq _ _ _ _ _ _ _ _)
  have h0 : (Cert.KernelIdeal.Fr.dats m 0 c).arrAt 0 Cert.KernelIdeal.cfg0.N = (Cert.ReferenceIdeal.RefRun.qvec (Cert.ReferenceIdeal.RefRun.e1emb (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (Cert.ReferenceIdeal.RefRun.relemb (m ((c.tc : Thread Cert.KernelIdeal.nD Cert.KernelIdeal.τ).loc Cert.KernelIdeal.main_arg1)) (m ((c.tc : Thread Cert.KernelIdeal.nD Cert.KernelIdeal.τ).loc Cert.KernelIdeal.main_arg4)))) := by
    rw [(Cert.KernelIdeal.Fr.dats m 0 c).arrAt_in 0 rfl _, Cert.KernelIdeal.Fr.A_eq m c 0]
    exact (Cert.KernelIdeal.Val.v47_eq m c).trans (q_eq _ _ _ _ _ _ _ _ _ _)
  rw [h1, h0]

/-- The two idealized programs, run from memories agreeing on the arguments, both end, with equal results and unchanged
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨fun c => (Pipeline.afterTail₀ Cert.KernelIdeal.cfgs (Cert.KernelIdeal.Fr.dats m) 0 (Cert.KernelIdeal.Fr.V0 m) [Cert.KernelIdeal.Gen.hostOps1, Cert.KernelIdeal.Gen.hostOps1_1, Cert.KernelIdeal.Gen.hostOps1_2] c Cert.KernelIdeal.main_v60), fun c => (Pipeline.afterTail₀ Cert.KernelIdeal.cfgs (Cert.KernelIdeal.Fr.dats m) 0 (Cert.KernelIdeal.Fr.V0 m) [Cert.KernelIdeal.Gen.hostOps1, Cert.KernelIdeal.Gen.hostOps1_1, Cert.KernelIdeal.Gen.hostOps1_2] c Cert.KernelIdeal.main_v109), ?_, ?_⟩
  · exact (θ_run (Cert.KernelIdeal.defs (F := Ideal)) _ _).mono (fun res h c =>
      ⟨(h c).2 Cert.KernelIdeal.main_v60 (Pipeline.mem_restRefs_of _ (by decide) (by decide)),
       (h c).2 Cert.KernelIdeal.main_v109 (Pipeline.mem_restRefs_of _ (by decide) (by decide)),
       Cert.KernelIdeal.Fr.arg_bypass m Cert.KernelIdeal.main_arg0 (by decide) (by decide) (by decide) (by decide) (by decide) res h c,
       Cert.KernelIdeal.Fr.arg_bypass m Cert.KernelIdeal.main_arg1 (by decide) (by decide) (by decide) (by decide) (by decide) res h c,
       Cert.KernelIdeal.Fr.arg_bypass m Cert.KernelIdeal.main_arg2 (by decide) (by decide) (by decide) (by decide) (by decide) res h c,
       Cert.KernelIdeal.Fr.arg_bypass m Cert.KernelIdeal.main_arg3 (by decide) (by decide) (by decide) (by decide) (by decide) res h c,
       Cert.KernelIdeal.Fr.arg_bypass m Cert.KernelIdeal.main_arg4 (by decide) (by decide) (by decide) (by decide) (by decide) res h c,
       Cert.KernelIdeal.Fr.arg_bypass m Cert.KernelIdeal.main_arg5 (by decide) (by decide) (by decide) (by decide) (by decide) res h c,
       Cert.KernelIdeal.Fr.arg_bypass m Cert.KernelIdeal.main_arg6 (by decide) (by decide) (by decide) (by decide) (by decide) res h c,
       ((h c).1 9).trans (((Cert.KernelIdeal.Fr.dats m 0 c).arrAt_in 9 rfl _).trans ((Cert.KernelIdeal.Fr.A_eq m c 9).trans (Cert.KernelIdeal.Fr.V_early m c Cert.KernelIdeal.main_arg7 (by decide)))),
       Cert.KernelIdeal.Fr.arg_bypass m Cert.KernelIdeal.main_arg8 (by decide) (by decide) (by decide) (by decide) (by decide) res h c,
       Cert.KernelIdeal.Fr.arg_bypass m Cert.KernelIdeal.main_arg9 (by decide) (by decide) (by decide) (by decide) (by decide) res h c,
       ((h c).1 12).trans (((Cert.KernelIdeal.Fr.dats m 0 c).arrAt_in 12 rfl _).trans ((Cert.KernelIdeal.Fr.A_eq m c 12).trans (Cert.KernelIdeal.Fr.V_early m c Cert.KernelIdeal.main_arg10 (by decide)))),
       Cert.KernelIdeal.Fr.arg_bypass m Cert.KernelIdeal.main_arg11 (by decide) (by decide) (by decide) (by decide) (by decide) res h c,
       Cert.KernelIdeal.Fr.arg_bypass m Cert.KernelIdeal.main_arg12 (by decide) (by decide) (by decide) (by decide) (by decide) res h c⟩) (Cert.KernelIdeal.Fr.run_main (F := Ideal) m g)
  · refine (θ_run (Cert.ReferenceIdeal.defs (F := Ideal)) _ _).mono (fun res h c => ?_) (Cert.ReferenceIdeal.RefRun.run_all (F := Ideal) m' g')
    obtain ⟨e0, e1, e2, e3, e4, e5, e6, e7, e8, e9, e10, e11, e12⟩ := hagree c
    refine ⟨?_, ?_, (h c _).trans (Cert.ReferenceIdeal.RefRun.arg0_eq _), (h c _).trans (Cert.ReferenceIdeal.RefRun.arg1_eq _), (h c _).trans (Cert.ReferenceIdeal.RefRun.arg2_eq _),
      (h c _).trans (Cert.ReferenceIdeal.RefRun.arg3_eq _), (h c _).trans (Cert.ReferenceIdeal.RefRun.arg4_eq _), (h c _).trans (Cert.ReferenceIdeal.RefRun.arg5_eq _), (h c _).trans (Cert.ReferenceIdeal.RefRun.arg6_eq _),
      (h c _).trans (Cert.ReferenceIdeal.RefRun.arg7_eq _), (h c _).trans (Cert.ReferenceIdeal.RefRun.arg8_eq _), (h c _).trans (Cert.ReferenceIdeal.RefRun.arg9_eq _), (h c _).trans (Cert.ReferenceIdeal.RefRun.arg10_eq _),
      (h c _).trans (Cert.ReferenceIdeal.RefRun.arg11_eq _), (h c _).trans (Cert.ReferenceIdeal.RefRun.arg12_eq _)⟩
    · rw [h c Cert.ReferenceIdeal.main_v130, Cert.ReferenceIdeal.RefRun.v130_eq]
      rw [show Idealize.ShloMosaic.StableHlo.launchContents m' c (Cert.ReferenceIdeal.main_arg0 : DevRef Cert.ReferenceIdeal.τ Cert.ReferenceIdeal.sig) = (m ((c.tc : Thread Cert.KernelIdeal.nD Cert.KernelIdeal.τ).loc Cert.KernelIdeal.main_arg0)) from e0, show Idealize.ShloMosaic.StableHlo.launchContents m' c (Cert.ReferenceIdeal.main_arg1 : DevRef Cert.ReferenceIdeal.τ Cert.ReferenceIdeal.sig) = (m ((c.tc : Thread Cert.KernelIdeal.nD Cert.KernelIdeal.τ).loc Cert.KernelIdeal.main_arg1)) from e1, show Idealize.ShloMosaic.StableHlo.launchContents m' c (Cert.ReferenceIdeal.main_arg3 : DevRef Cert.ReferenceIdeal.τ Cert.ReferenceIdeal.sig) = (m ((c.tc : Thread Cert.KernelIdeal.nD Cert.KernelIdeal.τ).loc Cert.KernelIdeal.main_arg3)) from e3, show Idealize.ShloMosaic.StableHlo.launchContents m' c (Cert.ReferenceIdeal.main_arg4 : DevRef Cert.ReferenceIdeal.τ Cert.ReferenceIdeal.sig) = (m ((c.tc : Thread Cert.KernelIdeal.nD Cert.KernelIdeal.τ).loc Cert.KernelIdeal.main_arg4)) from e4, show Idealize.ShloMosaic.StableHlo.launchContents m' c (Cert.ReferenceIdeal.main_arg5 : DevRef Cert.ReferenceIdeal.τ Cert.ReferenceIdeal.sig) = (m ((c.tc : Thread Cert.KernelIdeal.nD Cert.KernelIdeal.τ).loc Cert.KernelIdeal.main_arg5)) from e5, show Idealize.ShloMosaic.StableHlo.launchContents m' c (Cert.ReferenceIdeal.main_arg6 : DevRef Cert.ReferenceIdeal.τ Cert.ReferenceIdeal.sig) = (m ((c.tc : Thread Cert.KernelIdeal.nD Cert.KernelIdeal.τ).loc Cert.KernelIdeal.main_arg6)) from e6, show Idealize.ShloMosaic.StableHlo.launchContents m' c (Cert.ReferenceIdeal.main_arg7 : DevRef Cert.ReferenceIdeal.τ Cert.ReferenceIdeal.sig) = (m ((c.tc : Thread Cert.KernelIdeal.nD Cert.KernelIdeal.τ).loc Cert.KernelIdeal.main_arg7)) from e7, show Idealize.ShloMosaic.StableHlo.launchContents m' c (Cert.ReferenceIdeal.main_arg8 : DevRef Cert.ReferenceIdeal.τ Cert.ReferenceIdeal.sig) = (m ((c.tc : Thread Cert.KernelIdeal.nD Cert.KernelIdeal.τ).loc Cert.KernelIdeal.main_arg8)) from e8, show Idealize.ShloMosaic.StableHlo.launchContents m' c (Cert.ReferenceIdeal.main_arg9 : DevRef Cert.ReferenceIdeal.τ Cert.ReferenceIdeal.sig) = (m ((c.tc : Thread Cert.KernelIdeal.nD Cert.KernelIdeal.τ).loc Cert.KernelIdeal.main_arg9)) from e9, show Idealize.ShloMosaic.StableHlo.launchContents m' c (Cert.ReferenceIdeal.main_arg10 : DevRef Cert.ReferenceIdeal.τ Cert.ReferenceIdeal.sig) = (m ((c.tc : Thread Cert.KernelIdeal.nD Cert.KernelIdeal.τ).loc Cert.KernelIdeal.main_arg10)) from e10]
      exact (pred_eq m c).symm
    · rw [h c Cert.ReferenceIdeal.main_v115, Cert.ReferenceIdeal.RefRun.v115_eq]
      rw [show Idealize.ShloMosaic.StableHlo.launchContents m' c (Cert.ReferenceIdeal.main_arg0 : DevRef Cert.ReferenceIdeal.τ Cert.ReferenceIdeal.sig) = (m ((c.tc : Thread Cert.KernelIdeal.nD Cert.KernelIdeal.τ).loc Cert.KernelIdeal.main_arg0)) from e0, show Idealize.ShloMosaic.StableHlo.launchContents m' c (Cert.ReferenceIdeal.main_arg1 : DevRef Cert.ReferenceIdeal.τ Cert.ReferenceIdeal.sig) = (m ((c.tc : Thread Cert.KernelIdeal.nD Cert.KernelIdeal.τ).loc Cert.KernelIdeal.main_arg1)) from e1, show Idealize.ShloMosaic.StableHlo.launchContents m' c (Cert.ReferenceIdeal.main_arg2 : DevRef Cert.ReferenceIdeal.τ Cert.ReferenceIdeal.sig) = (m ((c.tc : Thread Cert.KernelIdeal.nD Cert.KernelIdeal.τ).loc Cert.KernelIdeal.main_arg2)) from e2, show Idealize.ShloMosaic.StableHlo.launchContents m' c (Cert.ReferenceIdeal.main_arg3 : DevRef Cert.ReferenceIdeal.τ Cert.ReferenceIdeal.sig) = (m ((c.tc : Thread Cert.KernelIdeal.nD Cert.KernelIdeal.τ).loc Cert.KernelIdeal.main_arg3)) from e3, show Idealize.ShloMosaic.StableHlo.launchContents m' c (Cert.ReferenceIdeal.main_arg4 : DevRef Cert.ReferenceIdeal.τ Cert.ReferenceIdeal.sig) = (m ((c.tc : Thread Cert.KernelIdeal.nD Cert.KernelIdeal.τ).loc Cert.KernelIdeal.main_arg4)) from e4, show Idealize.ShloMosaic.StableHlo.launchContents m' c (Cert.ReferenceIdeal.main_arg5 : DevRef Cert.ReferenceIdeal.τ Cert.ReferenceIdeal.sig) = (m ((c.tc : Thread Cert.KernelIdeal.nD Cert.KernelIdeal.τ).loc Cert.KernelIdeal.main_arg5)) from e5, show Idealize.ShloMosaic.StableHlo.launchContents m' c (Cert.ReferenceIdeal.main_arg6 : DevRef Cert.ReferenceIdeal.τ Cert.ReferenceIdeal.sig) = (m ((c.tc : Thread Cert.KernelIdeal.nD Cert.KernelIdeal.τ).loc Cert.KernelIdeal.main_arg6)) from e6, show Idealize.ShloMosaic.StableHlo.launchContents m' c (Cert.ReferenceIdeal.main_arg7 : DevRef Cert.ReferenceIdeal.τ Cert.ReferenceIdeal.sig) = (m ((c.tc : Thread Cert.KernelIdeal.nD Cert.KernelIdeal.τ).loc Cert.KernelIdeal.main_arg7)) from e7, show Idealize.ShloMosaic.StableHlo.launchContents m' c (Cert.ReferenceIdeal.main_arg8 : DevRef Cert.ReferenceIdeal.τ Cert.ReferenceIdeal.sig) = (m ((c.tc : Thread Cert.KernelIdeal.nD Cert.KernelIdeal.τ).loc Cert.KernelIdeal.main_arg8)) from e8, show Idealize.ShloMosaic.StableHlo.launchContents m' c (Cert.ReferenceIdeal.main_arg9 : DevRef Cert.ReferenceIdeal.τ Cert.ReferenceIdeal.sig) = (m ((c.tc : Thread Cert.KernelIdeal.nD Cert.KernelIdeal.τ).loc Cert.KernelIdeal.main_arg9)) from e9, show Idealize.ShloMosaic.StableHlo.launchContents m' c (Cert.ReferenceIdeal.main_arg10 : DevRef Cert.ReferenceIdeal.τ Cert.ReferenceIdeal.sig) = (m ((c.tc : Thread Cert.KernelIdeal.nD Cert.KernelIdeal.τ).loc Cert.KernelIdeal.main_arg10)) from e10, show Idealize.ShloMosaic.StableHlo.launchContents m' c (Cert.ReferenceIdeal.main_arg11 : DevRef Cert.ReferenceIdeal.τ Cert.ReferenceIdeal.sig) = (m ((c.tc : Thread Cert.KernelIdeal.nD Cert.KernelIdeal.τ).loc Cert.KernelIdeal.main_arg11)) from e11, show Idealize.ShloMosaic.StableHlo.launchContents m' c (Cert.ReferenceIdeal.main_arg12 : DevRef Cert.ReferenceIdeal.τ Cert.ReferenceIdeal.sig) = (m ((c.tc : Thread Cert.KernelIdeal.nD Cert.KernelIdeal.τ).loc Cert.KernelIdeal.main_arg12)) from e12]
      exact (loss_eq m c).symm

end Cert.Bridge

end
-- ==== Proof.lean ====
/-
  A TransE-style scorer with literal-gated entity embeddings: a prediction sigmoid(9 - ‖q_b - E_e‖₁) for every query b
  and entity e, and a margin loss built from two weighted means of the gated entity rows E_e. The kernel walks the
  30000 entities in thirty tiles of 1024 (two cores, fifteen tiles each, over a padding of 720 zero-weighted
  entities), gates each tile with two split matrix products, stores the tile's scores, and adds the tile's share of
  the four weighted sums into per-core accumulators that the host lines after the region add up and divide; the
  reference gates the whole table with one concatenated product and sums once.

  The three frames: each program runs to the end, faults nowhere and leaves its thirteen argument arrays as launched.
  For the kernel (as printed and idealized) the body is run once per case of its one conditional, the accumulators are
  followed point by point along the grid, and the host lines around the region are shown to write no argument and no
  staged array; for the reference its straight line of host operations is run. The idealization rewrote nothing.
  At the ideal instance the two programs end with equal results: the score of a query row against a gated row is one
  function on both sides; the split products are the concatenated product by splitting a finite sum; the thirty tile
  sums of a core-by-core accumulation are one sum over the padded entities by reordering a finite sum, and the padded
  entities carry weight zero; the loss is the same host tail applied to equal quotients. No step uses finiteness of
  the inputs: sums on the extended reals are reordered and split, never distributed or cancelled.
-/
import proofs.«111044_j49203145342981_2_alg».proof.Defs
import proofs.«111044_j49203145342981_2_alg».proof.Proof.Gen.Kernel
import proofs.«111044_j49203145342981_2_alg».proof.Proof.Gen.KernelIdeal
import proofs.«111044_j49203145342981_2_alg».proof.Proof.Gen.ReferenceIdeal
import proofs.«111044_j49203145342981_2_alg».proof.Proof.Gen.Pre_finite_inputs
import proofs.«111044_j49203145342981_2_alg».proof.Proof.KB.Frame
import proofs.«111044_j49203145342981_2_alg».proof.Proof.KI.Frame
import proofs.«111044_j49203145342981_2_alg».proof.Proof.RefFrame
import proofs.«111044_j49203145342981_2_alg».proof.Proof.Final
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Fr.frame m ρ,
    fun m ρ _ => Cert.KernelIdeal.Fr.frame m ρ,
    Cert.ReferenceIdeal.RefRun.frame_ri,
    trivial,
    Cert.Bridge.algebraic⟩

end Cert.Proof

end
